-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x100000x32 : Shape := ⟨3, ![26, 100000, 32]⟩
abbrev S_ : Shape := ⟨0, ![]⟩

class Facts : Prop where
  bcast_S_S26x100000x32 : S_.BroadcastsInDim S26x100000x32 (![] : Fin 0 → Fin S26x100000x32.rank)
  reducesTo_S26x100000x32_S_d0_1_2 : S26x100000x32.ReducesTo [0, 1, 2] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x100000x32 .f32) : IVec S_ 1 :=
  let main_v0 : FVec F S26x100000x32 .f32 := Host.absf main_arg1
  let main_cst : FVec F S_ .f32 := constant S_ .f32 0x7F800000#32
  let main_v1 : FVec F S26x100000x32 .f32 := broadcastInDim S26x100000x32 ![] bcast_S_S26x100000x32 main_cst
  let main_v2 : IVec S26x100000x32 1 := cmpf .olt main_v0 main_v1
  let main_c : IVec S_ 1 := constantI S_ 1 1#1
  let main_v3 : IVec S_ 1 := (fun x v => Host.reduce IntOp.andi x v reducesTo_S26x100000x32_S_d0_1_2 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 99999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S26x100000x32 : Shape := ⟨3, ![26, 100000, 32]⟩
abbrev S26x32x100000 : Shape := ⟨3, ![26, 32, 100000]⟩
abbrev S26x16384 : Shape := ⟨2, ![26, 16384]⟩
abbrev S26x4x128x8x128 : Shape := ⟨5, ![26, 4, 128, 8, 128]⟩
abbrev S100000 : Shape := ⟨1, ![100000]⟩
abbrev S16384 : Shape := ⟨1, ![16384]⟩
abbrev S64x1x128 : Shape := ⟨3, ![64, 1, 128]⟩
abbrev S_ : Shape := ⟨0, ![]⟩
abbrev S1x1x100000 : Shape := ⟨3, ![1, 1, 100000]⟩
abbrev S1x16384 : Shape := ⟨2, ![1, 16384]⟩
abbrev S1x1x64x1x128 : Shape := ⟨5, ![1, 1, 64, 1, 128]⟩
abbrev S16 : Shape := ⟨1, ![16]⟩
abbrev S1x1x16 : Shape := ⟨3, ![1, 1, 16]⟩
abbrev S128x128x26x4x8 : Shape := ⟨5, ![128, 128, 26, 4, 8]⟩
abbrev S16384x26x32 : Shape := ⟨3, ![16384, 26, 32]⟩

abbrev nBuf : Table → Nat
  | .hbm => 7
  | .local .scVector .vmem => 3
  | _ => 0

abbrev bufTy : (tb : Table) → Fin (nBuf tb) → BufTy
  | .hbm, ⟨0, _⟩ => ⟨S16384x26, .i32⟩
  | .hbm, ⟨1, _⟩ => ⟨S26x100000x32, .f32⟩
  | .hbm, ⟨2, _⟩ => ⟨S26x32x100000, .f32⟩
  | .hbm, ⟨3, _⟩ => ⟨S26x16384, .i32⟩
  | .hbm, ⟨4, _⟩ => ⟨S26x4x128x8x128, .f32⟩
  | .hbm, ⟨5, _⟩ => ⟨S128x128x26x4x8, .f32⟩
  | .hbm, ⟨6, _⟩ => ⟨S16384x26x32, .f32⟩
  | .local .scVector .vmem, ⟨0, _⟩ => ⟨S100000, .f32⟩
  | .local .scVector .vmem, ⟨1, _⟩ => ⟨S16384, .i32⟩
  | .local .scVector .vmem, ⟨2, _⟩ => ⟨S64x1x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c32_i32 : BitVec 32 := 32#32
  let v3 : BitVec 32 := Scalar.divsi v2 c32_i32
  let c32_i32_0 : BitVec 32 := 32#32
  let v4 : BitVec 32 := Scalar.remsi v2 c32_i32_0
  let c0_i32 : BitVec 32 := 0#32
  ![v3.toNat, v4.toNat, 0]
@[reducible] def k0_t1_loop : Scf.Loop 32 :=
  let c0_i32_2 : BitVec 32 := 0#32
  let c26_i32_3 : BitVec 32 := 26#32
  let v9 : BitVec 32 := Scalar.addi c0_i32_2 c26_i32_3
  let c1_i32 : BitVec 32 := 1#32
  ⟨c0_i32_2, v9, c1_i32⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_2 : BitVec 32 := 0#32
  let c1_i32 : BitVec 32 := 1#32
  let arg11 : BitVec 32 := Scf.iv c0_i32_2 c1_i32 k0_t1
  let v15 : BitVec 32 := Scalar.addi v2 arg11
  let c32_i32_14 : BitVec 32 := 32#32
  let v17 : BitVec 32 := Scalar.divsi v15 c32_i32_14
  let c32_i32_15 : BitVec 32 := 32#32
  let v18 : BitVec 32 := Scalar.remsi v15 c32_i32_15
  let c0_i32_16 : BitVec 32 := 0#32
  ![v17.toNat, v18.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_2 : BitVec 32 := 0#32
  let c1_i32 : BitVec 32 := 1#32
  let arg11 : BitVec 32 := Scf.iv c0_i32_2 c1_i32 k0_t1
  let v15 : BitVec 32 := Scalar.addi v2 arg11
  let c32_i32_13 : BitVec 32 := 32#32
  let v16 : BitVec 32 := Scalar.divsi v15 c32_i32_13
  let c0_i32_53_r0 : BitVec 32 := 0#32
  ![v16.toNat, 0]
@[reducible] def k0_t2_loop : Scf.Loop 32 :=
  let c0_i32_22 : BitVec 32 := 0#32
  let c64_i32 : BitVec 32 := 64#32
  let v29 : BitVec 32 := Scalar.addi c0_i32_22 c64_i32
  let c1_i32_23 : BitVec 32 := 1#32
  ⟨c0_i32_22, v29, c1_i32_23⟩
def k0_off4 (k0_t2 : Fin k0_t2_loop.trips) : Fin 1 → Nat :=
  let c0_i32_53 : BitVec 32 := 0#32
  let c0_i32_22 : BitVec 32 := 0#32
  let c1_i32_23 : BitVec 32 := 1#32
  let arg13 : BitVec 32 := Scf.iv c0_i32_22 c1_i32_23 k0_t2
  let c128_i32 : BitVec 32 := 128#32
  let v54 : BitVec 32 := Scalar.muli arg13 c128_i32
  let v55 : BitVec 32 := Scalar.addi c0_i32_53 v54
  let c0_i32_54 : BitVec 32 := 0#32
  let v56 : BitVec 32 := Scalar.addi v55 c0_i32_54
  let v57 : Index := Scalar.indexCast v56
  ![v57.toNat]

def k0_chk1 (v58 : IVec S16 32) : Prop :=
  (∀ a x, ((![v58] : Fin 1 → IVec S16 32) a x).toNat < S100000.size a)
instance k0_chk1.dec : ∀ (v58 : IVec S16 32), Decidable (k0_chk1 v58) := fun v58 => decidable_of_iff' _ (Iff.of_eq (k0_chk1.eq_1 v58))
theorem k0_idx1_inb : ∀ (v58 : IVec S16 32) (k0_hw1 : k0_chk1 v58), ∀ a x, ((![v58] : Fin 1 → IVec S16 32) a x).toNat < S100000.size a := fun v58 k0_hw1 => k0_hw1
def k0_off5 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v60 : Index := Scalar.indexCast arg13
  let c0_i32_55 : BitVec 32 := 0#32
  let v61 : Index := Scalar.indexCast c0_i32_55
  let c0 : Index := 0#32
  ![v60.toNat, 0, 0]
def k0_off6 (k0_t2 : Fin k0_t2_loop.trips) : Fin 1 → Nat :=
  let c0_i32_57 : BitVec 32 := 0#32
  let c0_i32_22 : BitVec 32 := 0#32
  let c1_i32_23 : BitVec 32 := 1#32
  let arg13 : BitVec 32 := Scf.iv c0_i32_22 c1_i32_23 k0_t2
  let c128_i32_56 : BitVec 32 := 128#32
  let v63 : BitVec 32 := Scalar.muli arg13 c128_i32_56
  let v64 : BitVec 32 := Scalar.addi c0_i32_57 v63
  let c16_i32 : BitVec 32 := 16#32
  let v65 : BitVec 32 := Scalar.addi v64 c16_i32
  let v66 : Index := Scalar.indexCast v65
  ![v66.toNat]

def k0_chk2 (v67 : IVec S16 32) : Prop :=
  (∀ a x, ((![v67] : Fin 1 → IVec S16 32) a x).toNat < S100000.size a)
instance k0_chk2.dec : ∀ (v67 : IVec S16 32), Decidable (k0_chk2 v67) := fun v67 => decidable_of_iff' _ (Iff.of_eq (k0_chk2.eq_1 v67))
theorem k0_idx2_inb : ∀ (v67 : IVec S16 32) (k0_hw2 : k0_chk2 v67), ∀ a x, ((![v67] : Fin 1 → IVec S16 32) a x).toNat < S100000.size a := fun v67 k0_hw2 => k0_hw2
def k0_off7 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v69 : Index := Scalar.indexCast arg13
  let c0_i32_58 : BitVec 32 := 0#32
  let v70 : Index := Scalar.indexCast c0_i32_58
  let c16 : Index := 16#32
  ![v69.toNat, 0, 16]
def k0_off8 (k0_t2 : Fin k0_t2_loop.trips) : Fin 1 → Nat :=
  let c0_i32_60 : BitVec 32 := 0#32
  let c0_i32_22 : BitVec 32 := 0#32
  let c1_i32_23 : BitVec 32 := 1#32
  let arg13 : BitVec 32 := Scf.iv c0_i32_22 c1_i32_23 k0_t2
  let c128_i32_59 : BitVec 32 := 128#32
  let v72 : BitVec 32 := Scalar.muli arg13 c128_i32_59
  let v73 : BitVec 32 := Scalar.addi c0_i32_60 v72
  let c32_i32_61 : BitVec 32 := 32#32
  let v74 : BitVec 32 := Scalar.addi v73 c32_i32_61
  let v75 : Index := Scalar.indexCast v74
  ![v75.toNat]

def k0_chk3 (v76 : IVec S16 32) : Prop :=
  (∀ a x, ((![v76] : Fin 1 → IVec S16 32) a x).toNat < S100000.size a)
instance k0_chk3.dec : ∀ (v76 : IVec S16 32), Decidable (k0_chk3 v76) := fun v76 => decidable_of_iff' _ (Iff.of_eq (k0_chk3.eq_1 v76))
theorem k0_idx3_inb : ∀ (v76 : IVec S16 32) (k0_hw3 : k0_chk3 v76), ∀ a x, ((![v76] : Fin 1 → IVec S16 32) a x).toNat < S100000.size a := fun v76 k0_hw3 => k0_hw3
def k0_off9 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v78 : Index := Scalar.indexCast arg13
  let c0_i32_62 : BitVec 32 := 0#32
  let v79 : Index := Scalar.indexCast c0_i32_62
  let c32 : Index := 32#32
  ![v78.toNat, 0, 32]
def k0_off10 (k0_t2 : Fin k0_t2_loop.trips) : Fin 1 → Nat :=
  let c0_i32_64 : BitVec 32 := 0#32
  let c0_i32_22 : BitVec 32 := 0#32
  let c1_i32_23 : BitVec 32 := 1#32
  let arg13 : BitVec 32 := Scf.iv c0_i32_22 c1_i32_23 k0_t2
  let c128_i32_63 : BitVec 32 := 128#32
  let v81 : BitVec 32 := Scalar.muli arg13 c128_i32_63
  let v82 : BitVec 32 := Scalar.addi c0_i32_64 v81
  let c48_i32 : BitVec 32 := 48#32
  let v83 : BitVec 32 := Scalar.addi v82 c48_i32
  let v84 : Index := Scalar.indexCast v83
  ![v84.toNat]

def k0_chk4 (v85 : IVec S16 32) : Prop :=
  (∀ a x, ((![v85] : Fin 1 → IVec S16 32) a x).toNat < S100000.size a)
instance k0_chk4.dec : ∀ (v85 : IVec S16 32), Decidable (k0_chk4 v85) := fun v85 => decidable_of_iff' _ (Iff.of_eq (k0_chk4.eq_1 v85))
theorem k0_idx4_inb : ∀ (v85 : IVec S16 32) (k0_hw4 : k0_chk4 v85), ∀ a x, ((![v85] : Fin 1 → IVec S16 32) a x).toNat < S100000.size a := fun v85 k0_hw4 => k0_hw4
def k0_off11 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v87 : Index := Scalar.indexCast arg13
  let c0_i32_65 : BitVec 32 := 0#32
  let v88 : Index := Scalar.indexCast c0_i32_65
  let c48 : Index := 48#32
  ![v87.toNat, 0, 48]
def k0_off12 (k0_t2 : Fin k0_t2_loop.trips) : Fin 1 → Nat :=
  let c0_i32_67 : BitVec 32 := 0#32
  let c0_i32_22 : BitVec 32 := 0#32
  let c1_i32_23 : BitVec 32 := 1#32
  let arg13 : BitVec 32 := Scf.iv c0_i32_22 c1_i32_23 k0_t2
  let c128_i32_66 : BitVec 32 := 128#32
  let v90 : BitVec 32 := Scalar.muli arg13 c128_i32_66
  let v91 : BitVec 32 := Scalar.addi c0_i32_67 v90
  let c64_i32_68 : BitVec 32 := 64#32
  let v92 : BitVec 32 := Scalar.addi v91 c64_i32_68
  let v93 : Index := Scalar.indexCast v92
  ![v93.toNat]

def k0_chk5 (v94 : IVec S16 32) : Prop :=
  (∀ a x, ((![v94] : Fin 1 → IVec S16 32) a x).toNat < S100000.size a)
instance k0_chk5.dec : ∀ (v94 : IVec S16 32), Decidable (k0_chk5 v94) := fun v94 => decidable_of_iff' _ (Iff.of_eq (k0_chk5.eq_1 v94))
theorem k0_idx5_inb : ∀ (v94 : IVec S16 32) (k0_hw5 : k0_chk5 v94), ∀ a x, ((![v94] : Fin 1 → IVec S16 32) a x).toNat < S100000.size a := fun v94 k0_hw5 => k0_hw5
def k0_off13 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v96 : Index := Scalar.indexCast arg13
  let c0_i32_69 : BitVec 32 := 0#32
  let v97 : Index := Scalar.indexCast c0_i32_69
  let c64 : Index := 64#32
  ![v96.toNat, 0, 64]
def k0_off14 (k0_t2 : Fin k0_t2_loop.trips) : Fin 1 → Nat :=
  let c0_i32_71 : BitVec 32 := 0#32
  let c0_i32_22 : BitVec 32 := 0#32
  let c1_i32_23 : BitVec 32 := 1#32
  let arg13 : BitVec 32 := Scf.iv c0_i32_22 c1_i32_23 k0_t2
  let c128_i32_70 : BitVec 32 := 128#32
  let v99 : BitVec 32 := Scalar.muli arg13 c128_i32_70
  let v100 : BitVec 32 := Scalar.addi c0_i32_71 v99
  let c80_i32 : BitVec 32 := 80#32
  let v101 : BitVec 32 := Scalar.addi v100 c80_i32
  let v102 : Index := Scalar.indexCast v101
  ![v102.toNat]

def k0_chk6 (v103 : IVec S16 32) : Prop :=
  (∀ a x, ((![v103] : Fin 1 → IVec S16 32) a x).toNat < S100000.size a)
instance k0_chk6.dec : ∀ (v103 : IVec S16 32), Decidable (k0_chk6 v103) := fun v103 => decidable_of_iff' _ (Iff.of_eq (k0_chk6.eq_1 v103))
theorem k0_idx6_inb : ∀ (v103 : IVec S16 32) (k0_hw6 : k0_chk6 v103), ∀ a x, ((![v103] : Fin 1 → IVec S16 32) a x).toNat < S100000.size a := fun v103 k0_hw6 => k0_hw6
def k0_off15 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v105 : Index := Scalar.indexCast arg13
  let c0_i32_72 : BitVec 32 := 0#32
  let v106 : Index := Scalar.indexCast c0_i32_72
  let c80 : Index := 80#32
  ![v105.toNat, 0, 80]
def k0_off16 (k0_t2 : Fin k0_t2_loop.trips) : Fin 1 → Nat :=
  let c0_i32_74 : BitVec 32 := 0#32
  let c0_i32_22 : BitVec 32 := 0#32
  let c1_i32_23 : BitVec 32 := 1#32
  let arg13 : BitVec 32 := Scf.iv c0_i32_22 c1_i32_23 k0_t2
  let c128_i32_73 : BitVec 32 := 128#32
  let v108 : BitVec 32 := Scalar.muli arg13 c128_i32_73
  let v109 : BitVec 32 := Scalar.addi c0_i32_74 v108
  let c96_i32 : BitVec 32 := 96#32
  let v110 : BitVec 32 := Scalar.addi v109 c96_i32
  let v111 : Index := Scalar.indexCast v110
  ![v111.toNat]

def k0_chk7 (v112 : IVec S16 32) : Prop :=
  (∀ a x, ((![v112] : Fin 1 → IVec S16 32) a x).toNat < S100000.size a)
instance k0_chk7.dec : ∀ (v112 : IVec S16 32), Decidable (k0_chk7 v112) := fun v112 => decidable_of_iff' _ (Iff.of_eq (k0_chk7.eq_1 v112))
theorem k0_idx7_inb : ∀ (v112 : IVec S16 32) (k0_hw7 : k0_chk7 v112), ∀ a x, ((![v112] : Fin 1 → IVec S16 32) a x).toNat < S100000.size a := fun v112 k0_hw7 => k0_hw7
def k0_off17 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v114 : Index := Scalar.indexCast arg13
  let c0_i32_75 : BitVec 32 := 0#32
  let v115 : Index := Scalar.indexCast c0_i32_75
  let c96 : Index := 96#32
  ![v114.toNat, 0, 96]
def k0_off18 (k0_t2 : Fin k0_t2_loop.trips) : Fin 1 → Nat :=
  let c0_i32_77 : BitVec 32 := 0#32
  let c0_i32_22 : BitVec 32 := 0#32
  let c1_i32_23 : BitVec 32 := 1#32
  let arg13 : BitVec 32 := Scf.iv c0_i32_22 c1_i32_23 k0_t2
  let c128_i32_76 : BitVec 32 := 128#32
  let v117 : BitVec 32 := Scalar.muli arg13 c128_i32_76
  let v118 : BitVec 32 := Scalar.addi c0_i32_77 v117
  let c112_i32 : BitVec 32 := 112#32
  let v119 : BitVec 32 := Scalar.addi v118 c112_i32
  let v120 : Index := Scalar.indexCast v119
  ![v120.toNat]

def k0_chk8 (v121 : IVec S16 32) : Prop :=
  (∀ a x, ((![v121] : Fin 1 → IVec S16 32) a x).toNat < S100000.size a)
instance k0_chk8.dec : ∀ (v121 : IVec S16 32), Decidable (k0_chk8 v121) := fun v121 => decidable_of_iff' _ (Iff.of_eq (k0_chk8.eq_1 v121))
theorem k0_idx8_inb : ∀ (v121 : IVec S16 32) (k0_hw8 : k0_chk8 v121), ∀ a x, ((![v121] : Fin 1 → IVec S16 32) a x).toNat < S100000.size a := fun v121 k0_hw8 => k0_hw8
def k0_off19 (k0_t2 : Fin k0_t2_loop.trips) : Fin 3 → Nat :=
  let c0_i32_22 : BitVec 32 := 0#32
  let c1_i32_23 : BitVec 32 := 1#32
  let arg13 : BitVec 32 := Scf.iv c0_i32_22 c1_i32_23 k0_t2
  let v123 : Index := Scalar.indexCast arg13
  let c0_i32_78 : BitVec 32 := 0#32
  let v124 : Index := Scalar.indexCast c0_i32_78
  let c112 : Index := 112#32
  ![v123.toNat, 0, 112]
def k0_off20 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_2 : BitVec 32 := 0#32
  let c1_i32 : BitVec 32 := 1#32
  let arg11 : BitVec 32 := Scf.iv c0_i32_2 c1_i32 k0_t1
  let v15 : BitVec 32 := Scalar.addi v2 arg11
  let c32_i32_25 : BitVec 32 := 32#32
  let v30 : BitVec 32 := Scalar.divsi v15 c32_i32_25
  let c32_i32_26 : BitVec 32 := 32#32
  let v31 : BitVec 32 := Scalar.remsi v15 c32_i32_26
  let c3_i32 : BitVec 32 := 3#32
  let v32 : BitVec 32 := Scalar.shrui v31 c3_i32
  let c0_i32_27 : BitVec 32 := 0#32
  let c7_i32 : BitVec 32 := 7#32
  let v33 : BitVec 32 := Scalar.andi v31 c7_i32
  let c0_i32_28 : BitVec 32 := 0#32
  ![v30.toNat, v32.toNat, 0, v33.toNat, 0]
@[reducible] def k0_t3_loop : Scf.Loop 32 :=
  let c0_i32_40 : BitVec 32 := 0#32
  let c64_i32_41 : BitVec 32 := 64#32
  let v42 : BitVec 32 := Scalar.addi c0_i32_40 c64_i32_41
  let c1_i32_42 : BitVec 32 := 1#32
  ⟨c0_i32_40, v42, c1_i32_42⟩
def k0_off21 (k0_t3 : Fin k0_t3_loop.trips) : Fin 1 → Nat :=
  let c8192_i32 : BitVec 32 := 8192#32
  let c0_i32_40 : BitVec 32 := 0#32
  let c1_i32_42 : BitVec 32 := 1#32
  let arg13 : BitVec 32 := Scf.iv c0_i32_40 c1_i32_42 k0_t3
  let c128_i32 : BitVec 32 := 128#32
  let v54 : BitVec 32 := Scalar.muli arg13 c128_i32
  let v55 : BitVec 32 := Scalar.addi c8192_i32 v54
  let c0_i32_53 : BitVec 32 := 0#32
  let v56 : BitVec 32 := Scalar.addi v55 c0_i32_53
  let v57 : Index := Scalar.indexCast v56
  ![v57.toNat]

def k0_chk9 (v58 : IVec S16 32) : Prop :=
  (∀ a x, ((![v58] : Fin 1 → IVec S16 32) a x).toNat < S100000.size a)
instance k0_chk9.dec : ∀ (v58 : IVec S16 32), Decidable (k0_chk9 v58) := fun v58 => decidable_of_iff' _ (Iff.of_eq (k0_chk9.eq_1 v58))
theorem k0_idx9_inb : ∀ (v58 : IVec S16 32) (k0_hw9 : k0_chk9 v58), ∀ a x, ((![v58] : Fin 1 → IVec S16 32) a x).toNat < S100000.size a := fun v58 k0_hw9 => k0_hw9
def k0_off22 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v60 : Index := Scalar.indexCast arg13
  let c0_i32_54 : BitVec 32 := 0#32
  let v61 : Index := Scalar.indexCast c0_i32_54
  let c0 : Index := 0#32
  ![v60.toNat, 0, 0]
def k0_off23 (k0_t3 : Fin k0_t3_loop.trips) : Fin 1 → Nat :=
  let c8192_i32_56 : BitVec 32 := 8192#32
  let c0_i32_40 : BitVec 32 := 0#32
  let c1_i32_42 : BitVec 32 := 1#32
  let arg13 : BitVec 32 := Scf.iv c0_i32_40 c1_i32_42 k0_t3
  let c128_i32_55 : BitVec 32 := 128#32
  let v63 : BitVec 32 := Scalar.muli arg13 c128_i32_55
  let v64 : BitVec 32 := Scalar.addi c8192_i32_56 v63
  let c16_i32 : BitVec 32 := 16#32
  let v65 : BitVec 32 := Scalar.addi v64 c16_i32
  let v66 : Index := Scalar.indexCast v65
  ![v66.toNat]

def k0_chk10 (v67 : IVec S16 32) : Prop :=
  (∀ a x, ((![v67] : Fin 1 → IVec S16 32) a x).toNat < S100000.size a)
instance k0_chk10.dec : ∀ (v67 : IVec S16 32), Decidable (k0_chk10 v67) := fun v67 => decidable_of_iff' _ (Iff.of_eq (k0_chk10.eq_1 v67))
theorem k0_idx10_inb : ∀ (v67 : IVec S16 32) (k0_hw10 : k0_chk10 v67), ∀ a x, ((![v67] : Fin 1 → IVec S16 32) a x).toNat < S100000.size a := fun v67 k0_hw10 => k0_hw10
def k0_off24 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v69 : Index := Scalar.indexCast arg13
  let c0_i32_57 : BitVec 32 := 0#32
  let v70 : Index := Scalar.indexCast c0_i32_57
  let c16 : Index := 16#32
  ![v69.toNat, 0, 16]
def k0_off25 (k0_t3 : Fin k0_t3_loop.trips) : Fin 1 → Nat :=
  let c8192_i32_59 : BitVec 32 := 8192#32
  let c0_i32_40 : BitVec 32 := 0#32
  let c1_i32_42 : BitVec 32 := 1#32
  let arg13 : BitVec 32 := Scf.iv c0_i32_40 c1_i32_42 k0_t3
  let c128_i32_58 : BitVec 32 := 128#32
  let v72 : BitVec 32 := Scalar.muli arg13 c128_i32_58
  let v73 : BitVec 32 := Scalar.addi c8192_i32_59 v72
  let c32_i32_60 : BitVec 32 := 32#32
  let v74 : BitVec 32 := Scalar.addi v73 c32_i32_60
  let v75 : Index := Scalar.indexCast v74
  ![v75.toNat]

def k0_chk11 (v76 : IVec S16 32) : Prop :=
  (∀ a x, ((![v76] : Fin 1 → IVec S16 32) a x).toNat < S100000.size a)
instance k0_chk11.dec : ∀ (v76 : IVec S16 32), Decidable (k0_chk11 v76) := fun v76 => decidable_of_iff' _ (Iff.of_eq (k0_chk11.eq_1 v76))
theorem k0_idx11_inb : ∀ (v76 : IVec S16 32) (k0_hw11 : k0_chk11 v76), ∀ a x, ((![v76] : Fin 1 → IVec S16 32) a x).toNat < S100000.size a := fun v76 k0_hw11 => k0_hw11
def k0_off26 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v78 : Index := Scalar.indexCast arg13
  let c0_i32_61 : BitVec 32 := 0#32
  let v79 : Index := Scalar.indexCast c0_i32_61
  let c32 : Index := 32#32
  ![v78.toNat, 0, 32]
def k0_off27 (k0_t3 : Fin k0_t3_loop.trips) : Fin 1 → Nat :=
  let c8192_i32_63 : BitVec 32 := 8192#32
  let c0_i32_40 : BitVec 32 := 0#32
  let c1_i32_42 : BitVec 32 := 1#32
  let arg13 : BitVec 32 := Scf.iv c0_i32_40 c1_i32_42 k0_t3
  let c128_i32_62 : BitVec 32 := 128#32
  let v81 : BitVec 32 := Scalar.muli arg13 c128_i32_62
  let v82 : BitVec 32 := Scalar.addi c8192_i32_63 v81
  let c48_i32 : BitVec 32 := 48#32
  let v83 : BitVec 32 := Scalar.addi v82 c48_i32
  let v84 : Index := Scalar.indexCast v83
  ![v84.toNat]

def k0_chk12 (v85 : IVec S16 32) : Prop :=
  (∀ a x, ((![v85] : Fin 1 → IVec S16 32) a x).toNat < S100000.size a)
instance k0_chk12.dec : ∀ (v85 : IVec S16 32), Decidable (k0_chk12 v85) := fun v85 => decidable_of_iff' _ (Iff.of_eq (k0_chk12.eq_1 v85))
theorem k0_idx12_inb : ∀ (v85 : IVec S16 32) (k0_hw12 : k0_chk12 v85), ∀ a x, ((![v85] : Fin 1 → IVec S16 32) a x).toNat < S100000.size a := fun v85 k0_hw12 => k0_hw12
def k0_off28 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v87 : Index := Scalar.indexCast arg13
  let c0_i32_64 : BitVec 32 := 0#32
  let v88 : Index := Scalar.indexCast c0_i32_64
  let c48 : Index := 48#32
  ![v87.toNat, 0, 48]
def k0_off29 (k0_t3 : Fin k0_t3_loop.trips) : Fin 1 → Nat :=
  let c8192_i32_66 : BitVec 32 := 8192#32
  let c0_i32_40 : BitVec 32 := 0#32
  let c1_i32_42 : BitVec 32 := 1#32
  let arg13 : BitVec 32 := Scf.iv c0_i32_40 c1_i32_42 k0_t3
  let c128_i32_65 : BitVec 32 := 128#32
  let v90 : BitVec 32 := Scalar.muli arg13 c128_i32_65
  let v91 : BitVec 32 := Scalar.addi c8192_i32_66 v90
  let c64_i32_67 : BitVec 32 := 64#32
  let v92 : BitVec 32 := Scalar.addi v91 c64_i32_67
  let v93 : Index := Scalar.indexCast v92
  ![v93.toNat]

def k0_chk13 (v94 : IVec S16 32) : Prop :=
  (∀ a x, ((![v94] : Fin 1 → IVec S16 32) a x).toNat < S100000.size a)
instance k0_chk13.dec : ∀ (v94 : IVec S16 32), Decidable (k0_chk13 v94) := fun v94 => decidable_of_iff' _ (Iff.of_eq (k0_chk13.eq_1 v94))
theorem k0_idx13_inb : ∀ (v94 : IVec S16 32) (k0_hw13 : k0_chk13 v94), ∀ a x, ((![v94] : Fin 1 → IVec S16 32) a x).toNat < S100000.size a := fun v94 k0_hw13 => k0_hw13
def k0_off30 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v96 : Index := Scalar.indexCast arg13
  let c0_i32_68 : BitVec 32 := 0#32
  let v97 : Index := Scalar.indexCast c0_i32_68
  let c64 : Index := 64#32
  ![v96.toNat, 0, 64]
def k0_off31 (k0_t3 : Fin k0_t3_loop.trips) : Fin 1 → Nat :=
  let c8192_i32_70 : BitVec 32 := 8192#32
  let c0_i32_40 : BitVec 32 := 0#32
  let c1_i32_42 : BitVec 32 := 1#32
  let arg13 : BitVec 32 := Scf.iv c0_i32_40 c1_i32_42 k0_t3
  let c128_i32_69 : BitVec 32 := 128#32
  let v99 : BitVec 32 := Scalar.muli arg13 c128_i32_69
  let v100 : BitVec 32 := Scalar.addi c8192_i32_70 v99
  let c80_i32 : BitVec 32 := 80#32
  let v101 : BitVec 32 := Scalar.addi v100 c80_i32
  let v102 : Index := Scalar.indexCast v101
  ![v102.toNat]

def k0_chk14 (v103 : IVec S16 32) : Prop :=
  (∀ a x, ((![v103] : Fin 1 → IVec S16 32) a x).toNat < S100000.size a)
instance k0_chk14.dec : ∀ (v103 : IVec S16 32), Decidable (k0_chk14 v103) := fun v103 => decidable_of_iff' _ (Iff.of_eq (k0_chk14.eq_1 v103))
theorem k0_idx14_inb : ∀ (v103 : IVec S16 32) (k0_hw14 : k0_chk14 v103), ∀ a x, ((![v103] : Fin 1 → IVec S16 32) a x).toNat < S100000.size a := fun v103 k0_hw14 => k0_hw14
def k0_off32 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v105 : Index := Scalar.indexCast arg13
  let c0_i32_71 : BitVec 32 := 0#32
  let v106 : Index := Scalar.indexCast c0_i32_71
  let c80 : Index := 80#32
  ![v105.toNat, 0, 80]
def k0_off33 (k0_t3 : Fin k0_t3_loop.trips) : Fin 1 → Nat :=
  let c8192_i32_73 : BitVec 32 := 8192#32
  let c0_i32_40 : BitVec 32 := 0#32
  let c1_i32_42 : BitVec 32 := 1#32
  let arg13 : BitVec 32 := Scf.iv c0_i32_40 c1_i32_42 k0_t3
  let c128_i32_72 : BitVec 32 := 128#32
  let v108 : BitVec 32 := Scalar.muli arg13 c128_i32_72
  let v109 : BitVec 32 := Scalar.addi c8192_i32_73 v108
  let c96_i32 : BitVec 32 := 96#32
  let v110 : BitVec 32 := Scalar.addi v109 c96_i32
  let v111 : Index := Scalar.indexCast v110
  ![v111.toNat]

def k0_chk15 (v112 : IVec S16 32) : Prop :=
  (∀ a x, ((![v112] : Fin 1 → IVec S16 32) a x).toNat < S100000.size a)
instance k0_chk15.dec : ∀ (v112 : IVec S16 32), Decidable (k0_chk15 v112) := fun v112 => decidable_of_iff' _ (Iff.of_eq (k0_chk15.eq_1 v112))
theorem k0_idx15_inb : ∀ (v112 : IVec S16 32) (k0_hw15 : k0_chk15 v112), ∀ a x, ((![v112] : Fin 1 → IVec S16 32) a x).toNat < S100000.size a := fun v112 k0_hw15 => k0_hw15
def k0_off34 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v114 : Index := Scalar.indexCast arg13
  let c0_i32_74 : BitVec 32 := 0#32
  let v115 : Index := Scalar.indexCast c0_i32_74
  let c96 : Index := 96#32
  ![v114.toNat, 0, 96]
def k0_off35 (k0_t3 : Fin k0_t3_loop.trips) : Fin 1 → Nat :=
  let c8192_i32_76 : BitVec 32 := 8192#32
  let c0_i32_40 : BitVec 32 := 0#32
  let c1_i32_42 : BitVec 32 := 1#32
  let arg13 : BitVec 32 := Scf.iv c0_i32_40 c1_i32_42 k0_t3
  let c128_i32_75 : BitVec 32 := 128#32
  let v117 : BitVec 32 := Scalar.muli arg13 c128_i32_75
  let v118 : BitVec 32 := Scalar.addi c8192_i32_76 v117
  let c112_i32 : BitVec 32 := 112#32
  let v119 : BitVec 32 := Scalar.addi v118 c112_i32
  let v120 : Index := Scalar.indexCast v119
  ![v120.toNat]

def k0_chk16 (v121 : IVec S16 32) : Prop :=
  (∀ a x, ((![v121] : Fin 1 → IVec S16 32) a x).toNat < S100000.size a)
instance k0_chk16.dec : ∀ (v121 : IVec S16 32), Decidable (k0_chk16 v121) := fun v121 => decidable_of_iff' _ (Iff.of_eq (k0_chk16.eq_1 v121))
theorem k0_idx16_inb : ∀ (v121 : IVec S16 32) (k0_hw16 : k0_chk16 v121), ∀ a x, ((![v121] : Fin 1 → IVec S16 32) a x).toNat < S100000.size a := fun v121 k0_hw16 => k0_hw16
def k0_off36 (k0_t3 : Fin k0_t3_loop.trips) : Fin 3 → Nat :=
  let c0_i32_40 : BitVec 32 := 0#32
  let c1_i32_42 : BitVec 32 := 1#32
  let arg13 : BitVec 32 := Scf.iv c0_i32_40 c1_i32_42 k0_t3
  let v123 : Index := Scalar.indexCast arg13
  let c0_i32_77 : BitVec 32 := 0#32
  let v124 : Index := Scalar.indexCast c0_i32_77
  let c112 : Index := 112#32
  ![v123.toNat, 0, 112]
def k0_cond3 (k0_t1 : Fin k0_t1_loop.trips) : BitVec 1 :=
  let c0_i32_2 : BitVec 32 := 0#32
  let c1_i32 : BitVec 32 := 1#32
  let arg11 : BitVec 32 := Scf.iv c0_i32_2 c1_i32 k0_t1
  let c25_i32 : BitVec 32 := 25#32
  let v43 : BitVec 1 := Scalar.cmpi .slt arg11 c25_i32
  let v44 : BitVec 32 := Scalar.extui v43
  let c0_i32_44 : BitVec 32 := 0#32
  let v45 : BitVec 1 := Scalar.cmpi .ne v44 c0_i32_44
  v45

def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_2 : BitVec 32 := 0#32
  let c1_i32 : BitVec 32 := 1#32
  let arg11 : BitVec 32 := Scf.iv c0_i32_2 c1_i32 k0_t1
  let v15 : BitVec 32 := Scalar.addi v2 arg11
  let c1_i32_53 : BitVec 32 := 1#32
  let v54 : BitVec 32 := Scalar.addi v15 c1_i32_53
  let c32_i32_54 : BitVec 32 := 32#32
  let v55 : BitVec 32 := Scalar.divsi v54 c32_i32_54
  let c32_i32_55 : BitVec 32 := 32#32
  let v56 : BitVec 32 := Scalar.remsi v54 c32_i32_55
  let c0_i32_56 : BitVec 32 := 0#32
  ![v55.toNat, v56.toNat, 0]
def k0_off38 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_2 : BitVec 32 := 0#32
  let c1_i32 : BitVec 32 := 1#32
  let arg11 : BitVec 32 := Scf.iv c0_i32_2 c1_i32 k0_t1
  let v15 : BitVec 32 := Scalar.addi v2 arg11
  let c32_i32_45 : BitVec 32 := 32#32
  let v46 : BitVec 32 := Scalar.divsi v15 c32_i32_45
  let c32_i32_46 : BitVec 32 := 32#32
  let v47 : BitVec 32 := Scalar.remsi v15 c32_i32_46
  let c3_i32_47 : BitVec 32 := 3#32
  let v48 : BitVec 32 := Scalar.shrui v47 c3_i32_47
  let c64_i32_49 : BitVec 32 := 64#32
  let c7_i32_48 : BitVec 32 := 7#32
  let v49 : BitVec 32 := Scalar.andi v47 c7_i32_48
  let c0_i32_50 : BitVec 32 := 0#32
  ![v46.toNat, v48.toNat, 64, v49.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S26x100000x32_S26x32x100000_0_2_1 : S26x100000x32.Transposes [0, 2, 1] S26x32x100000
  transposes_S16384x26_S26x16384_1_0 : S16384x26.Transposes [1, 0] S26x16384
  squeezes_S1x1x100000_S100000 : S1x1x100000.Squeezes S100000
  squeezes_S1x16384_S16384 : S1x16384.Squeezes S16384
  inb_S26x4x128x8x128_S1x1x64x1x128_0_0_0_0_0 : ∀ a, (![0, 0, 0, 0, 0] : Fin 5 → Nat) a + S1x1x64x1x128.size a ≤ S26x4x128x8x128.size a
  squeezes_S1x1x64x1x128_S64x1x128 : S1x1x64x1x128.Squeezes S64x1x128
  h_S16 : 0 < S16.numel
  h_S100000 : 0 < S100000.numel
  h_S1x1x16 : 0 < S1x1x16.numel
  shapeCasts_S1x1x16_S16 : S1x1x16.ShapeCasts S16
  shapeCasts_S16_S1x1x16 : S16.ShapeCasts S1x1x16
  transposes_S26x4x128x8x128_S128x128x26x4x8_2_4_0_1_3 : S26x4x128x8x128.Transposes [2, 4, 0, 1, 3] S128x128x26x4x8
  shapeCasts_S128x128x26x4x8_S16384x26x32 : S128x128x26x4x8.ShapeCasts S16384x26x32
  hcc0_scratch3 : 0 + S_.numel ≤ 4
  hcc0_scratch4 : 1 + S_.numel ≤ 4
  hcc0_scratch5 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x100000.size a ≤ S26x32x100000.size a
  k0_t1_ok : k0_t1_loop.OK
  k0_off2_inb : ∀ (i : grid0.Coords) (k0_t1 : Fin k0_t1_loop.trips), ∀ a, (k0_off2 i k0_t1) a + S1x1x100000.size a ≤ S26x32x100000.size a
  k0_off3_inb : ∀ (i : grid0.Coords) (k0_t1 : Fin k0_t1_loop.trips), ∀ a, (k0_off3 i k0_t1) a + S1x16384.size a ≤ S26x16384.size a
  k0_t2_ok : k0_t2_loop.OK
  k0_off4_inb : ∀ k0_t2 : Fin k0_t2_loop.trips, ∀ a, (k0_off4 k0_t2) a + S16.size a ≤ S16384.size a
  k0_off5_inb : ∀ k0_t2 : Fin k0_t2_loop.trips, ∀ a, (k0_off5 k0_t2) a + S1x1x16.size a ≤ S64x1x128.size a
  k0_off6_inb : ∀ k0_t2 : Fin k0_t2_loop.trips, ∀ a, (k0_off6 k0_t2) a + S16.size a ≤ S16384.size a
  k0_off7_inb : ∀ k0_t2 : Fin k0_t2_loop.trips, ∀ a, (k0_off7 k0_t2) a + S1x1x16.size a ≤ S64x1x128.size a
  k0_off8_inb : ∀ k0_t2 : Fin k0_t2_loop.trips, ∀ a, (k0_off8 k0_t2) a + S16.size a ≤ S16384.size a
  k0_off9_inb : ∀ k0_t2 : Fin k0_t2_loop.trips, ∀ a, (k0_off9 k0_t2) a + S1x1x16.size a ≤ S64x1x128.size a
  k0_off10_inb : ∀ k0_t2 : Fin k0_t2_loop.trips, ∀ a, (k0_off10 k0_t2) a + S16.size a ≤ S16384.size a
  k0_off11_inb : ∀ k0_t2 : Fin k0_t2_loop.trips, ∀ a, (k0_off11 k0_t2) a + S1x1x16.size a ≤ S64x1x128.size a
  k0_off12_inb : ∀ k0_t2 : Fin k0_t2_loop.trips, ∀ a, (k0_off12 k0_t2) a + S16.size a ≤ S16384.size a
  k0_off13_inb : ∀ k0_t2 : Fin k0_t2_loop.trips, ∀ a, (k0_off13 k0_t2) a + S1x1x16.size a ≤ S64x1x128.size a
  k0_off14_inb : ∀ k0_t2 : Fin k0_t2_loop.trips, ∀ a, (k0_off14 k0_t2) a + S16.size a ≤ S16384.size a
  k0_off15_inb : ∀ k0_t2 : Fin k0_t2_loop.trips, ∀ a, (k0_off15 k0_t2) a + S1x1x16.size a ≤ S64x1x128.size a
  k0_off16_inb : ∀ k0_t2 : Fin k0_t2_loop.trips, ∀ a, (k0_off16 k0_t2) a + S16.size a ≤ S16384.size a
  k0_off17_inb : ∀ k0_t2 : Fin k0_t2_loop.trips, ∀ a, (k0_off17 k0_t2) a + S1x1x16.size a ≤ S64x1x128.size a
  k0_off18_inb : ∀ k0_t2 : Fin k0_t2_loop.trips, ∀ a, (k0_off18 k0_t2) a + S16.size a ≤ S16384.size a
  k0_off19_inb : ∀ k0_t2 : Fin k0_t2_loop.trips, ∀ a, (k0_off19 k0_t2) a + S1x1x16.size a ≤ S64x1x128.size a
  k0_off20_inb : ∀ (i : grid0.Coords) (k0_t1 : Fin k0_t1_loop.trips), ∀ a, (k0_off20 i k0_t1) a + S1x1x64x1x128.size a ≤ S26x4x128x8x128.size a
  k0_t3_ok : k0_t3_loop.OK
  k0_off21_inb : ∀ k0_t3 : Fin k0_t3_loop.trips, ∀ a, (k0_off21 k0_t3) a + S16.size a ≤ S16384.size a
  k0_off22_inb : ∀ k0_t3 : Fin k0_t3_loop.trips, ∀ a, (k0_off22 k0_t3) a + S1x1x16.size a ≤ S64x1x128.size a
  k0_off23_inb : ∀ k0_t3 : Fin k0_t3_loop.trips, ∀ a, (k0_off23 k0_t3) a + S16.size a ≤ S16384.size a
  k0_off24_inb : ∀ k0_t3 : Fin k0_t3_loop.trips, ∀ a, (k0_off24 k0_t3) a + S1x1x16.size a ≤ S64x1x128.size a
  k0_off25_inb : ∀ k0_t3 : Fin k0_t3_loop.trips, ∀ a, (k0_off25 k0_t3) a + S16.size a ≤ S16384.size a
  k0_off26_inb : ∀ k0_t3 : Fin k0_t3_loop.trips, ∀ a, (k0_off26 k0_t3) a + S1x1x16.size a ≤ S64x1x128.size a
  k0_off27_inb : ∀ k0_t3 : Fin k0_t3_loop.trips, ∀ a, (k0_off27 k0_t3) a + S16.size a ≤ S16384.size a
  k0_off28_inb : ∀ k0_t3 : Fin k0_t3_loop.trips, ∀ a, (k0_off28 k0_t3) a + S1x1x16.size a ≤ S64x1x128.size a
  k0_off29_inb : ∀ k0_t3 : Fin k0_t3_loop.trips, ∀ a, (k0_off29 k0_t3) a + S16.size a ≤ S16384.size a
  k0_off30_inb : ∀ k0_t3 : Fin k0_t3_loop.trips, ∀ a, (k0_off30 k0_t3) a + S1x1x16.size a ≤ S64x1x128.size a
  k0_off31_inb : ∀ k0_t3 : Fin k0_t3_loop.trips, ∀ a, (k0_off31 k0_t3) a + S16.size a ≤ S16384.size a
  k0_off32_inb : ∀ k0_t3 : Fin k0_t3_loop.trips, ∀ a, (k0_off32 k0_t3) a + S1x1x16.size a ≤ S64x1x128.size a
  k0_off33_inb : ∀ k0_t3 : Fin k0_t3_loop.trips, ∀ a, (k0_off33 k0_t3) a + S16.size a ≤ S16384.size a
  k0_off34_inb : ∀ k0_t3 : Fin k0_t3_loop.trips, ∀ a, (k0_off34 k0_t3) a + S1x1x16.size a ≤ S64x1x128.size a
  k0_off35_inb : ∀ k0_t3 : Fin k0_t3_loop.trips, ∀ a, (k0_off35 k0_t3) a + S16.size a ≤ S16384.size a
  k0_off36_inb : ∀ k0_t3 : Fin k0_t3_loop.trips, ∀ a, (k0_off36 k0_t3) a + S1x1x16.size a ≤ S64x1x128.size a
  k0_off37_inb : ∀ (i : grid0.Coords) (k0_t1 : Fin k0_t1_loop.trips), ∀ (k0_h3 : k0_cond3 k0_t1 = 1#1), ∀ a, (k0_off37 i k0_t1) a + S1x1x100000.size a ≤ S26x32x100000.size a
  k0_off38_inb : ∀ (i : grid0.Coords) (k0_t1 : Fin k0_t1_loop.trips), ∀ a, (k0_off38 i k0_t1) a + S1x1x64x1x128.size a ≤ S26x4x128x8x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0

class Facts : Prop extends Facts₀ where

variable [Facts]
-- ==== ReferenceIdeal.lean ====
abbrev S16384x26 : Shape := ⟨2, ![16384, 26]⟩
abbrev S26x100000x32 : Shape := ⟨3, ![26, 100000, 32]⟩
abbrev S1x100000x32 : Shape := ⟨3, ![1, 100000, 32]⟩
abbrev S100000x32 : Shape := ⟨2, ![100000, 32]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S16384x1x32 : Shape := ⟨3, ![16384, 1, 32]⟩
abbrev S16384x16x32 : Shape := ⟨3, ![16384, 16, 32]⟩
abbrev S16384x10x32 : Shape := ⟨3, ![16384, 10, 32]⟩
abbrev S16384x26x32 : Shape := ⟨3, ![16384, 26, 32]⟩

abbrev nBuf : Space → Nat
  | .hbm => 733
  | .vmem => 0
  | .smem => 0
  | _ => 0

abbrev hbmTy0_0 (i : Nat) : BufTy := match i % 128 with
  | 0 => ⟨S16384x26, .i32⟩
  | 1 => ⟨S26x100000x32, .f32⟩
  | 2 => ⟨S1x100000x32, .f32⟩
  | 3 => ⟨S100000x32, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x32, .f32⟩
  | 25 => ⟨S16384x32, .i1⟩
  | 26 => ⟨S_, .f32⟩
  | 27 => ⟨S16384x32, .f32⟩
  | 28 => ⟨S16384x32, .f32⟩
  | 29 => ⟨S1x100000x32, .f32⟩
  | 30 => ⟨S100000x32, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x32, .f32⟩
  | 52 => ⟨S16384x32, .i1⟩
  | 53 => ⟨S_, .f32⟩
  | 54 => ⟨S16384x32, .f32⟩
  | 55 => ⟨S16384x32, .f32⟩
  | 56 => ⟨S1x100000x32, .f32⟩
  | 57 => ⟨S100000x32, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S1x100000x32, .f32⟩
  | 84 => ⟨S100000x32, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x32, .f32⟩
  | 106 => ⟨S16384x32, .i1⟩
  | 107 => ⟨S_, .f32⟩
  | 108 => ⟨S16384x32, .f32⟩
  | 109 => ⟨S16384x32, .f32⟩
  | 110 => ⟨S1x100000x32, .f32⟩
  | 111 => ⟨S100000x32, .f32⟩
  | 112 => ⟨S16384x1, .i32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x26, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x32, .f32⟩
  | 5 => ⟨S16384x32, .i1⟩
  | 6 => ⟨S_, .f32⟩
  | 7 => ⟨S16384x32, .f32⟩
  | 8 => ⟨S16384x32, .f32⟩
  | 9 => ⟨S1x100000x32, .f32⟩
  | 10 => ⟨S100000x32, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S1x100000x32, .f32⟩
  | 37 => ⟨S100000x32, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x32, .f32⟩
  | 59 => ⟨S16384x32, .i1⟩
  | 60 => ⟨S_, .f32⟩
  | 61 => ⟨S16384x32, .f32⟩
  | 62 => ⟨S16384x32, .f32⟩
  | 63 => ⟨S1x100000x32, .f32⟩
  | 64 => ⟨S100000x32, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x32, .f32⟩
  | 86 => ⟨S16384x32, .i1⟩
  | 87 => ⟨S_, .f32⟩
  | 88 => ⟨S16384x32, .f32⟩
  | 89 => ⟨S16384x32, .f32⟩
  | 90 => ⟨S1x100000x32, .f32⟩
  | 91 => ⟨S100000x32, .f32⟩
  | 92 => ⟨S16384x1, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S1x100000x32, .f32⟩
  | 118 => ⟨S100000x32, .f32⟩
  | 119 => ⟨S16384x1, .i32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x26, .i32⟩

abbrev hbmTy0_2 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x32, .f32⟩
  | 12 => ⟨S16384x32, .i1⟩
  | 13 => ⟨S_, .f32⟩
  | 14 => ⟨S16384x32, .f32⟩
  | 15 => ⟨S16384x32, .f32⟩
  | 16 => ⟨S1x100000x32, .f32⟩
  | 17 => ⟨S100000x32, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x32, .f32⟩
  | 39 => ⟨S16384x32, .i1⟩
  | 40 => ⟨S_, .f32⟩
  | 41 => ⟨S16384x32, .f32⟩
  | 42 => ⟨S16384x32, .f32⟩
  | 43 => ⟨S1x100000x32, .f32⟩
  | 44 => ⟨S100000x32, .f32⟩
  | 45 => ⟨S16384x1, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x32, .f32⟩
  | 66 => ⟨S16384x32, .i1⟩
  | 67 => ⟨S_, .f32⟩
  | 68 => ⟨S16384x32, .f32⟩
  | 69 => ⟨S16384x32, .f32⟩
  | 70 => ⟨S1x100000x32, .f32⟩
  | 71 => ⟨S100000x32, .f32⟩
  | 72 => ⟨S16384x1, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x32, .f32⟩
  | 93 => ⟨S16384x32, .i1⟩
  | 94 => ⟨S_, .f32⟩
  | 95 => ⟨S16384x32, .f32⟩
  | 96 => ⟨S16384x32, .f32⟩
  | 97 => ⟨S1x100000x32, .f32⟩
  | 98 => ⟨S100000x32, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x32, .f32⟩
  | 120 => ⟨S16384x32, .i1⟩
  | 121 => ⟨S_, .f32⟩
  | 122 => ⟨S16384x32, .f32⟩
  | 123 => ⟨S16384x32, .f32⟩
  | 124 => ⟨S1x100000x32, .f32⟩
  | 125 => ⟨S100000x32, .f32⟩
  | 126 => ⟨S16384x1, .i32⟩
  | 127 => ⟨S16384, .i32⟩
  | _ => ⟨S16384x26, .i32⟩

abbrev hbmTy0_3 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x32, .f32⟩
  | 19 => ⟨S16384x32, .i1⟩
  | 20 => ⟨S_, .f32⟩
  | 21 => ⟨S16384x32, .f32⟩
  | 22 => ⟨S16384x32, .f32⟩
  | 23 => ⟨S1x100000x32, .f32⟩
  | 24 => ⟨S100000x32, .f32⟩
  | 25 => ⟨S16384x1, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x32, .f32⟩
  | 46 => ⟨S16384x32, .i1⟩
  | 47 => ⟨S_, .f32⟩
  | 48 => ⟨S16384x32, .f32⟩
  | 49 => ⟨S16384x32, .f32⟩
  | 50 => ⟨S1x100000x32, .f32⟩
  | 51 => ⟨S100000x32, .f32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x32, .f32⟩
  | 73 => ⟨S16384x32, .i1⟩
  | 74 => ⟨S_, .f32⟩
  | 75 => ⟨S16384x32, .f32⟩
  | 76 => ⟨S16384x32, .f32⟩
  | 77 => ⟨S1x100000x32, .f32⟩
  | 78 => ⟨S100000x32, .f32⟩
  | 79 => ⟨S16384x1, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S1x100000x32, .f32⟩
  | 105 => ⟨S100000x32, .f32⟩
  | 106 => ⟨S16384x1, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x32, .f32⟩
  | 127 => ⟨S16384x32, .i1⟩
  | _ => ⟨S16384x26, .i32⟩

abbrev hbmTy0_4 (i : Nat) : BufTy := match i % 128 with
  | 0 => ⟨S_, .f32⟩
  | 1 => ⟨S16384x32, .f32⟩
  | 2 => ⟨S16384x32, .f32⟩
  | 3 => ⟨S1x100000x32, .f32⟩
  | 4 => ⟨S100000x32, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x32, .f32⟩
  | 26 => ⟨S16384x32, .i1⟩
  | 27 => ⟨S_, .f32⟩
  | 28 => ⟨S16384x32, .f32⟩
  | 29 => ⟨S16384x32, .f32⟩
  | 30 => ⟨S1x100000x32, .f32⟩
  | 31 => ⟨S100000x32, .f32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S1, .i32⟩
  | 43 => ⟨S_, .i32⟩
  | 44 => ⟨S16384x1, .i32⟩
  | 45 => ⟨S16384x1, .i1⟩
  | 46 => ⟨S1x1, .i32⟩
  | 47 => ⟨S16384x1, .i32⟩
  | 48 => ⟨S16384x1, .i1⟩
  | 49 => ⟨S16384x1, .i1⟩
  | 50 => ⟨S_, .i1⟩
  | 51 => ⟨S16384, .i1⟩
  | 52 => ⟨S16384x32, .f32⟩
  | 53 => ⟨S16384x32, .i1⟩
  | 54 => ⟨S_, .f32⟩
  | 55 => ⟨S16384x32, .f32⟩
  | 56 => ⟨S16384x32, .f32⟩
  | 57 => ⟨S1x100000x32, .f32⟩
  | 58 => ⟨S100000x32, .f32⟩
  | 59 => ⟨S16384x1, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x32, .f32⟩
  | 80 => ⟨S16384x32, .i1⟩
  | 81 => ⟨S_, .f32⟩
  | 82 => ⟨S16384x32, .f32⟩
  | 83 => ⟨S16384x32, .f32⟩
  | 84 => ⟨S1x100000x32, .f32⟩
  | 85 => ⟨S100000x32, .f32⟩
  | 86 => ⟨S16384x1, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x32, .f32⟩
  | 107 => ⟨S16384x32, .i1⟩
  | 108 => ⟨S_, .f32⟩
  | 109 => ⟨S16384x32, .f32⟩
  | 110 => ⟨S16384x32, .f32⟩
  | 111 => ⟨S1x100000x32, .f32⟩
  | 112 => ⟨S100000x32, .f32⟩
  | 113 => ⟨S16384x1, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x26, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x32, .f32⟩
  | 6 => ⟨S16384x32, .i1⟩
  | 7 => ⟨S_, .f32⟩
  | 8 => ⟨S16384x32, .f32⟩
  | 9 => ⟨S16384x32, .f32⟩
  | 10 => ⟨S1x100000x32, .f32⟩
  | 11 => ⟨S100000x32, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x32, .f32⟩
  | 33 => ⟨S16384x32, .i1⟩
  | 34 => ⟨S_, .f32⟩
  | 35 => ⟨S16384x32, .f32⟩
  | 36 => ⟨S16384x32, .f32⟩
  | 37 => ⟨S1x100000x32, .f32⟩
  | 38 => ⟨S100000x32, .f32⟩
  | 39 => ⟨S16384x1, .i32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x32, .f32⟩
  | 60 => ⟨S16384x32, .i1⟩
  | 61 => ⟨S_, .f32⟩
  | 62 => ⟨S16384x32, .f32⟩
  | 63 => ⟨S16384x32, .f32⟩
  | 64 => ⟨S16384x1x32, .f32⟩
  | 65 => ⟨S16384x1x32, .f32⟩
  | 66 => ⟨S16384x1x32, .f32⟩
  | 67 => ⟨S16384x1x32, .f32⟩
  | 68 => ⟨S16384x1x32, .f32⟩
  | 69 => ⟨S16384x1x32, .f32⟩
  | 70 => ⟨S16384x1x32, .f32⟩
  | 71 => ⟨S16384x1x32, .f32⟩
  | 72 => ⟨S16384x1x32, .f32⟩
  | 73 => ⟨S16384x1x32, .f32⟩
  | 74 => ⟨S16384x1x32, .f32⟩
  | 75 => ⟨S16384x1x32, .f32⟩
  | 76 => ⟨S16384x1x32, .f32⟩
  | 77 => ⟨S16384x1x32, .f32⟩
  | 78 => ⟨S16384x1x32, .f32⟩
  | 79 => ⟨S16384x1x32, .f32⟩
  | 80 => ⟨S16384x1x32, .f32⟩
  | 81 => ⟨S16384x1x32, .f32⟩
  | 82 => ⟨S16384x1x32, .f32⟩
  | 83 => ⟨S16384x1x32, .f32⟩
  | 84 => ⟨S16384x1x32, .f32⟩
  | 85 => ⟨S16384x1x32, .f32⟩
  | 86 => ⟨S16384x1x32, .f32⟩
  | 87 => ⟨S16384x1x32, .f32⟩
  | 88 => ⟨S16384x1x32, .f32⟩
  | 89 => ⟨S16384x1x32, .f32⟩
  | 90 => ⟨S16384x16x32, .f32⟩
  | 91 => ⟨S16384x10x32, .f32⟩
  | 92 => ⟨S16384x26x32, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩
abbrev main_v133 : Ref sig .tc := ⟨.hbm, 707, rfl⟩
abbrev main_v134 : Ref sig .tc := ⟨.hbm, 708, rfl⟩
abbrev main_v135 : Ref sig .tc := ⟨.hbm, 709, rfl⟩
abbrev main_v136 : Ref sig .tc := ⟨.hbm, 710, rfl⟩
abbrev main_v137 : Ref sig .tc := ⟨.hbm, 711, rfl⟩
abbrev main_v138 : Ref sig .tc := ⟨.hbm, 712, rfl⟩
abbrev main_v139 : Ref sig .tc := ⟨.hbm, 713, rfl⟩
abbrev main_v140 : Ref sig .tc := ⟨.hbm, 714, rfl⟩
abbrev main_v141 : Ref sig .tc := ⟨.hbm, 715, rfl⟩
abbrev main_v142 : Ref sig .tc := ⟨.hbm, 716, rfl⟩
abbrev main_v143 : Ref sig .tc := ⟨.hbm, 717, rfl⟩
abbrev main_v144 : Ref sig .tc := ⟨.hbm, 718, rfl⟩
abbrev main_v145 : Ref sig .tc := ⟨.hbm, 719, rfl⟩
abbrev main_v146 : Ref sig .tc := ⟨.hbm, 720, rfl⟩
abbrev main_v147 : Ref sig .tc := ⟨.hbm, 721, rfl⟩
abbrev main_v148 : Ref sig .tc := ⟨.hbm, 722, rfl⟩
abbrev main_v149 : Ref sig .tc := ⟨.hbm, 723, rfl⟩
abbrev main_v150 : Ref sig .tc := ⟨.hbm, 724, rfl⟩
abbrev main_v151 : Ref sig .tc := ⟨.hbm, 725, rfl⟩
abbrev main_v152 : Ref sig .tc := ⟨.hbm, 726, rfl⟩
abbrev main_v153 : Ref sig .tc := ⟨.hbm, 727, rfl⟩
abbrev main_v154 : Ref sig .tc := ⟨.hbm, 728, rfl⟩
abbrev main_v155 : Ref sig .tc := ⟨.hbm, 729, rfl⟩
abbrev main_v156 : Ref sig .tc := ⟨.hbm, 730, rfl⟩
abbrev main_v157 : Ref sig .tc := ⟨.hbm, 731, rfl⟩
abbrev main_v158 : Ref sig .tc := ⟨.hbm, 732, rfl⟩

abbrev nD : Nat := 1
abbrev τ : Topo := Topo.v7x

variable {F : FTy → Type} [FloatOps F]

class Facts₀ : Prop where
  slices_S26x100000x32_S1x100000x32_0_0_0 : S26x100000x32.Slices ![0, 0, 0] S1x100000x32
  shapeCasts_S1x100000x32_S100000x32 : S1x100000x32.ShapeCasts S100000x32
  slices_S16384x26_S16384x1_0_0 : S16384x26.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  slices_S26x100000x32_S1x100000x32_1_0_0 : S26x100000x32.Slices ![1, 0, 0] S1x100000x32
  slices_S16384x26_S16384x1_0_1 : S16384x26.Slices ![0, 1] S16384x1
  slices_S26x100000x32_S1x100000x32_2_0_0 : S26x100000x32.Slices ![2, 0, 0] S1x100000x32
  slices_S16384x26_S16384x1_0_2 : S16384x26.Slices ![0, 2] S16384x1
  slices_S26x100000x32_S1x100000x32_3_0_0 : S26x100000x32.Slices ![3, 0, 0] S1x100000x32
  slices_S16384x26_S16384x1_0_3 : S16384x26.Slices ![0, 3] S16384x1
  slices_S26x100000x32_S1x100000x32_4_0_0 : S26x100000x32.Slices ![4, 0, 0] S1x100000x32
  slices_S16384x26_S16384x1_0_4 : S16384x26.Slices ![0, 4] S16384x1
  slices_S26x100000x32_S1x100000x32_5_0_0 : S26x100000x32.Slices ![5, 0, 0] S1x100000x32
  slices_S16384x26_S16384x1_0_5 : S16384x26.Slices ![0, 5] S16384x1
  slices_S26x100000x32_S1x100000x32_6_0_0 : S26x100000x32.Slices ![6, 0, 0] S1x100000x32
  slices_S16384x26_S16384x1_0_6 : S16384x26.Slices ![0, 6] S16384x1
  slices_S26x100000x32_S1x100000x32_7_0_0 : S26x100000x32.Slices ![7, 0, 0] S1x100000x32
  slices_S16384x26_S16384x1_0_7 : S16384x26.Slices ![0, 7] S16384x1
  slices_S26x100000x32_S1x100000x32_8_0_0 : S26x100000x32.Slices ![8, 0, 0] S1x100000x32
  slices_S16384x26_S16384x1_0_8 : S16384x26.Slices ![0, 8] S16384x1
  slices_S26x100000x32_S1x100000x32_9_0_0 : S26x100000x32.Slices ![9, 0, 0] S1x100000x32
  slices_S16384x26_S16384x1_0_9 : S16384x26.Slices ![0, 9] S16384x1
  slices_S26x100000x32_S1x100000x32_10_0_0 : S26x100000x32.Slices ![10, 0, 0] S1x100000x32
  slices_S16384x26_S16384x1_0_10 : S16384x26.Slices ![0, 10] S16384x1
  slices_S26x100000x32_S1x100000x32_11_0_0 : S26x100000x32.Slices ![11, 0, 0] S1x100000x32
  slices_S16384x26_S16384x1_0_11 : S16384x26.Slices ![0, 11] S16384x1
  slices_S26x100000x32_S1x100000x32_12_0_0 : S26x100000x32.Slices ![12, 0, 0] S1x100000x32
  slices_S16384x26_S16384x1_0_12 : S16384x26.Slices ![0, 12] S16384x1
  slices_S26x100000x32_S1x100000x32_13_0_0 : S26x100000x32.Slices ![13, 0, 0] S1x100000x32
  slices_S16384x26_S16384x1_0_13 : S16384x26.Slices ![0, 13] S16384x1
  slices_S26x100000x32_S1x100000x32_14_0_0 : S26x100000x32.Slices ![14, 0, 0] S1x100000x32
  slices_S16384x26_S16384x1_0_14 : S16384x26.Slices ![0, 14] S16384x1
  slices_S26x100000x32_S1x100000x32_15_0_0 : S26x100000x32.Slices ![15, 0, 0] S1x100000x32
  slices_S16384x26_S16384x1_0_15 : S16384x26.Slices ![0, 15] S16384x1
  slices_S26x100000x32_S1x100000x32_16_0_0 : S26x100000x32.Slices ![16, 0, 0] S1x100000x32
  slices_S16384x26_S16384x1_0_16 : S16384x26.Slices ![0, 16] S16384x1
  slices_S26x100000x32_S1x100000x32_17_0_0 : S26x100000x32.Slices ![17, 0, 0] S1x100000x32
  slices_S16384x26_S16384x1_0_17 : S16384x26.Slices ![0, 17] S16384x1
  slices_S26x100000x32_S1x100000x32_18_0_0 : S26x100000x32.Slices ![18, 0, 0] S1x100000x32
  slices_S16384x26_S16384x1_0_18 : S16384x26.Slices ![0, 18] S16384x1
  slices_S26x100000x32_S1x100000x32_19_0_0 : S26x100000x32.Slices ![19, 0, 0] S1x100000x32
  slices_S16384x26_S16384x1_0_19 : S16384x26.Slices ![0, 19] S16384x1
  slices_S26x100000x32_S1x100000x32_20_0_0 : S26x100000x32.Slices ![20, 0, 0] S1x100000x32
  slices_S16384x26_S16384x1_0_20 : S16384x26.Slices ![0, 20] S16384x1
  slices_S26x100000x32_S1x100000x32_21_0_0 : S26x100000x32.Slices ![21, 0, 0] S1x100000x32
  slices_S16384x26_S16384x1_0_21 : S16384x26.Slices ![0, 21] S16384x1
  slices_S26x100000x32_S1x100000x32_22_0_0 : S26x100000x32.Slices ![22, 0, 0] S1x100000x32
  slices_S16384x26_S16384x1_0_22 : S16384x26.Slices ![0, 22] S16384x1
  slices_S26x100000x32_S1x100000x32_23_0_0 : S26x100000x32.Slices ![23, 0, 0] S1x100000x32
  slices_S16384x26_S16384x1_0_23 : S16384x26.Slices ![0, 23] S16384x1
  slices_S26x100000x32_S1x100000x32_24_0_0 : S26x100000x32.Slices ![24, 0, 0] S1x100000x32
  slices_S16384x26_S16384x1_0_24 : S16384x26.Slices ![0, 24] S16384x1
  slices_S26x100000x32_S1x100000x32_25_0_0 : S26x100000x32.Slices ![25, 0, 0] S1x100000x32
  slices_S16384x26_S16384x1_0_25 : S16384x26.Slices ![0, 25] S16384x1
  bcast_S16384x32_S16384x1x32_0_2 : S16384x32.BroadcastsInDim S16384x1x32 (![0, 2] : Fin 2 → Fin S16384x1x32.rank)
  concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1 : Shape.Concatenates [S16384x1x32, S16384x1x32, S16384x1x32, S16384x1x32, S16384x1x32, S16384x1x32, S16384x1x32, S16384x1x32, S16384x1x32, S16384x1x32, S16384x1x32, S16384x1x32, S16384x1x32, S16384x1x32, S16384x1x32, S16384x1x32] S16384x16x32 1
  concatenates_S16384x1x32_S16384x1x32_S16384x1x32_S16384x1x32_S16384x1x32_S16384x1x32_S16384x1x32_S16384x1x32_S16384x1x32_S16384x1x32_S16384x10x32_d1 : Shape.Concatenates [S16384x1x32, S16384x1x32, S16384x1x32, S16384x1x32, S16384x1x32, S16384x1x32, S16384x1x32, S16384x1x32, S16384x1x32, S16384x1x32] S16384x10x32 1
  concatenates_S16384x16x32_S16384x10x32_S16384x26x32_d1 : Shape.Concatenates [S16384x16x32, S16384x10x32] S16384x26x32 1
  gather_S100000x32_S16384x1_S16384x32_1_0_n_n_0_1_132_wf : GatherDims.WF S100000x32 S16384x1 S16384x32 [1] [0] [] [0] [] 1 ![1, 32]

variable [Facts₀]

def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf

class Facts : Prop extends Facts₀ where

variable [Facts]
-- ==== Proof.Spec.lean ====
/-
  The embedding lookup as ONE function of the two argument arrays.

  There are 26 categorical features and 26 tables of 100000 rows of 32 numbers, stacked as one array
  `tab : [26, 100000, 32]`; `x : [16384, 26]` holds, for each of the 16384 examples and each feature, a row number.
  The result `[16384, 26, 32]` at `(b, i, d)` is entry `d` of row `x[b, i]` of table `i`.  It is pure data
  movement, so it is stated for any element type.  A row number is read unsigned and clamped into the table
  (`row`); for a word below 100000 the clamp is the identity (`row_val`), and `InRange` says every word of `x` is.
-/
import Idealize.ShloMosaic.PureOps
import Idealize.ShloMosaic.Lib.ValueIdx

noncomputable section

namespace Cert.Lookup

open Idealize.ShloMosaic Idealize.ShloMosaic.ValueIdx

/-- The row numbers: 16384 examples by 26 features. -/
abbrev SX : Shape := ⟨2, ![16384, 26]⟩
/-- The stacked tables: 26 tables of 100000 rows of 32 entries. -/
abbrev ST : Shape := ⟨3, ![26, 100000, 32]⟩
/-- The result: per example and feature, one row of 32 entries. -/
abbrev SO : Shape := ⟨3, ![16384, 26, 32]⟩

/-- Every row number names a row of its table. -/
def InRange (x : IVec SX 32) : Prop := ∀ j, (x j).toNat < 100000

/-- A word as a row number, clamped into the table. -/
def row (w : BitVec 32) : Fin 100000 := ⟨min w.toNat 99999, by omega⟩

theorem row_val {w : BitVec 32} (h : w.toNat < 100000) : (row w).val = w.toNat := by
  show min w.toNat 99999 = w.toNat
  omega

/-- The lookup: at `(b, i, d)`, entry `d` of row `x[b, i]` of table `i`. -/
def G {α : Type} (x : IVec SX 32) (tab : ST.Idx → α) : SO.Idx → α :=
  fun j => tab (ix3 (j 1 : Fin 26) (row (x (ix2 (j 0 : Fin 16384) (j 1 : Fin 26)))) (j 2 : Fin 32))

theorem G_apply {α : Type} (x : IVec SX 32) (tab : ST.Idx → α) (b : Fin 16384) (i : Fin 26) (d : Fin 32) :
    G x tab (ix3 b i d) = tab (ix3 i (row (x (ix2 b i))) d) := rfl

end Cert.Lookup

end
-- ==== Proof.PreRange.lean ====
/-
  Under the precondition every row number names a row of its table.

  The precondition's last conjunct is `all((x >= 0) & (x <= 99999))` with signed comparisons: an `and`-reduction,
  over both axes of `x`, of the bit `(x[j] >= 0) & (x[j] <= 99999)`.  The precondition is the `and` of this
  reduction with the finiteness one, so when it holds the reduction is 1, and an `and`-reduction that is 1 met a 1
  at every index.  Hence, at every index `j`, `0 <= x[j] <= 99999` as signed numbers.  A 32-bit word that is
  non-negative as a signed number has its top bit clear, so its signed and unsigned readings agree, and the
  unsigned reading is at most 99999.
-/
import proofs.«204046_g18683107737843_cont_8to1_103_43_alg».proof.Pre_input_domain
import proofs.«204046_g18683107737843_cont_8to1_103_43_alg».proof.Proof.Gen.Pre_input_domain
import proofs.«204046_g18683107737843_cont_8to1_103_43_alg».proof.Proof.Spec
import Idealize.ShloMosaic.Lib.ReduceAll
import Idealize.ShloMosaic.Lib.ValueIdx

namespace Cert.Lookup

open Idealize.ShloMosaic Idealize.ShloMosaic.ValueIdx

/-- The rank-0 shape has one index. -/
instance subsingleton_scalarIdx : Subsingleton Cert.Pre_input_domain.S_.Idx := ⟨fun a b => funext fun d => d.elim0⟩

/-- A word between 0 and 99999 as a signed number is below 100000 as an unsigned one. -/
theorem toNat_lt_of_signed_range (w : BitVec 32) (h0 : IntOp.cmpi .sge w 0#32 = 1#1)
    (h1 : IntOp.cmpi .sle w 99999#32 = 1#1) : w.toNat < 100000 := by
  rw [IntOp.cmpi_sge] at h0
  rw [IntOp.cmpi_sle] at h1
  have e := BitVec.toInt_eq_toNat_cond w
  have hw := w.isLt
  have e0 : (0#32 : BitVec 32).toInt = 0 := by decide
  have e1 : (99999#32 : BitVec 32).toInt = 99999 := by decide
  rw [e0] at h0
  rw [e1] at h1
  omega

/-- The precondition gives the range of every row number. -/
theorem inRange_of_pre {F : FTy → Type} [FloatOps F] [Cert.Pre_input_domain.Facts]
    (x : IVec Cert.Lookup.SX 32) (tab : FVec F Cert.Lookup.ST .f32)
    (h : Cert.Pre_input_domain.fn (F := F) x tab = fun _ => 1#1) : Cert.Lookup.InRange x := by
  intro j
  have e := congrFun h ValueIdx.ix0
  dsimp only [Cert.Pre_input_domain.fn] at e
  -- the precondition is the `and` of the finiteness reduction and the range reduction
  obtain ⟨-, e2⟩ := IntOp.andi_eq_one.1 e
  -- the range reduction is 1, so its operand is 1 at `j`
  have ej := Host.reduce_andi_all _ _ _ _ _ e2 j
  obtain ⟨h0, h1⟩ := IntOp.andi_eq_one.1 ej
  exact toNat_lt_of_signed_range (x j) h0 h1

end Cert.Lookup
-- ==== Proof.SpecK.lean ====
/-
  What the SparseCore kernel leaves in its output array, as ONE function of its two operands.

  The kernel reads the tables transposed, `T : [26, 32, 100000]` (table, entry, row), and the row numbers transposed,
  `X : [26, 16384]` (feature, example).  The 26 · 32 = 832 pairs (table `i`, entry `e`) are PLANES: plane `32 i + e` is the
  100000 numbers `T[i, e, ·]`.  The output `[26, 4, 128, 8, 128]` holds, at `(i, t, B, r, l)`, plane `32 i + 8 t + r` read at
  the row number of example `128 B + l` for feature `i`.  The planes are dealt to 32 workers in runs of 26: worker `w`
  has planes `26 w … 26 w + 25`, and worker `w` is tile `w / 2` of SparseCore `w % 2`.
-/
import proofs.«204046_g18683107737843_cont_8to1_103_43_alg».proof.Proof.Spec

noncomputable section

namespace Cert.Lookup

open Idealize.ShloMosaic Idealize.ShloMosaic.ValueIdx

/-- The tables, transposed: table, entry, row. -/
abbrev STt : Shape := ⟨3, ![26, 32, 100000]⟩
/-- The row numbers, transposed: feature, example. -/
abbrev SXt : Shape := ⟨2, ![26, 16384]⟩
/-- The kernel's output: table, entry / 8, example / 128, entry % 8, example % 128. -/
abbrev SO5 : Shape := ⟨5, ![26, 4, 128, 8, 128]⟩

/-- The plane an output element belongs to: `32 i + 8 t + r`. -/
def planeOf (j : SO5.Idx) : ℕ := (j 0).val * 32 + (j 1).val * 8 + (j 3).val

theorem planeOf_lt (j : SO5.Idx) : planeOf j < 832 := by
  have h0 : (j 0).val < 26 := (j 0).isLt
  have h1 : (j 1).val < 4 := (j 1).isLt
  have h3 : (j 3).val < 8 := (j 3).isLt
  unfold planeOf; omega

/-- The entry of its table an output element holds: `8 t + r`. -/
def entryOf (j : SO5.Idx) : Fin 32 :=
  ⟨(j 1).val * 8 + (j 3).val, by
    have h1 : (j 1).val < 4 := (j 1).isLt
    have h3 : (j 3).val < 8 := (j 3).isLt
    omega⟩

/-- The example an output element belongs to: `128 B + l`. -/
def exampleOf (j : SO5.Idx) : Fin 16384 :=
  ⟨(j 2).val * 128 + (j 4).val, by
    have h2 : (j 2).val < 128 := (j 2).isLt
    have h4 : (j 4).val < 128 := (j 4).isLt
    omega⟩

/-- The kernel's output as a function of its operands. -/
def OUT5 {α : Type} (T : STt.Idx → α) (X : IVec SXt 32) : SO5.Idx → α :=
  fun j => T (ix3 (j 0 : Fin 26) (entryOf j) (row (X (ix2 (j 0 : Fin 26) (exampleOf j)))))

/-- The output elements worker `2 s + c` writes: those of its 26 planes. -/
def tileSet (c s : ℕ) : Finset SO5.Idx := Finset.univ.filter fun j => planeOf j / 26 = 2 * s + c

/-- The output elements SparseCore `c`'s tiles write. -/
def coreSet (c : ℕ) : Finset SO5.Idx := Finset.univ.filter fun j => (planeOf j / 26) % 2 = c

end Cert.Lookup

end
-- ==== Proof.KISetup.lean ====
/-
  The kernel program as the SparseCore launch theorem sees it, and what its handshakes carry.

  @main transposes the tables to `T : [26, 32, 100000]` and the row numbers to `X : [26, 16384]`, starts the two
  SparseCores, whose 32 tiles each copy 26 planes of `T` into their own memory, look the 16384 row numbers of the plane's
  feature up in it and write the result back as two half planes of the output array `[26, 4, 128, 8, 128]`; then @main
  re-lays that array as `[16384, 26, 32]`.  A tile only makes copies it waits for itself, so the ghost state is the
  handshakes' rounds beside the transfers' counters.  The start of SparseCore `c` carries a read share of `T` and of `X`
  and the output elements of the planes `c`'s tiles own; the go of tile `i` a share of those shares and the elements of
  the tile's 26 planes; the way back carries the same with the output elements at the lookup's values.
-/
import proofs.«204046_g18683107737843_cont_8to1_103_43_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204046_g18683107737843_cont_8to1_103_43_alg».proof.Proof.Gen.KernelIdeal
import proofs.«204046_g18683107737843_cont_8to1_103_43_alg».proof.Proof.Gen.KernelIdeal.Skeleton
import proofs.«204046_g18683107737843_cont_8to1_103_43_alg».proof.Proof.SpecK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

variable [FloatOps F]

/-- The tables transposed, as @main's first operation leaves them. -/
def T0 (d : Dev nD) : Buf (Elt F) (v0Loc d) :=
  transpose S26x32x100000 [0, 2, 1] (m (a1Loc d)) transposes_S26x100000x32_S26x32x100000_0_2_1
/-- The row numbers transposed, as @main's second operation leaves them. -/
def X1 (d : Dev nD) : Buf (Elt F) (v1Loc d) :=
  transpose S26x16384 [1, 0] (m (a0Loc d)) transposes_S16384x26_S26x16384_1_0
/-- The kernel's output array after the call: the lookup through the transposed operands. -/
def O2 (d : Dev nD) : Buf (Elt F) (v2Loc d) := OUT5 (T0 m d) (X1 m d)

/-- SparseCore `c`'s read share of an operand, and tile `i`'s share of that. -/
abbrev qC (c : Fin 2) : PosShare TreeShare := Transfers.shareTok fullShare 2 c
abbrev qT (c : Fin 2) (i : Fin 16) : PosShare TreeShare := Transfers.shareTok (qC c) 16 i

/-! ## What the handshakes carry -/

def P : (K (F := F)).Pay (nD := nD) (Val := Elt F) (Name := ℕ) (U := UU) where
  st := fun q d c => match q with
    | 0 => iprop((v0Loc d ↦{qC (Fin.cast nCore_zero c)} T0 m d) ∗ (v1Loc d ↦{qC (Fin.cast nCore_zero c)} X1 m d)
        ∗ (v2Loc d ↦[coreSet c.val]{fullShare} m (v2Loc d)))
  dn := fun q d c => match q with
    | 0 => iprop((v0Loc d ↦{qC (Fin.cast nCore_zero c)} T0 m d) ∗ (v1Loc d ↦{qC (Fin.cast nCore_zero c)} X1 m d)
        ∗ (v2Loc d ↦[coreSet c.val]{fullShare} O2 m d))
  go := fun q d c i => match q with
    | 0 => iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val i.val]{fullShare} m (v2Loc d)))
  td := fun q d c i => match q with
    | 0 => iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val i.val]{fullShare} O2 m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KISets.lean ====
/-
  How the output elements are shared out.

  An output element belongs to plane `p < 832`, and plane `p` to worker `p / 26 < 32`; worker `w` is tile `w / 2` of
  SparseCore `w % 2`.  So the elements of SparseCore `c`'s sixteen tiles are pairwise disjoint (different workers) and
  together are the elements whose worker is `c` modulo 2; and the two SparseCores' elements are disjoint and together
  are all.
-/
import proofs.«204046_g18683107737843_cont_8to1_103_43_alg».proof.Proof.SpecK

namespace Cert.Lookup

open Idealize.ShloMosaic

/-- Two tiles of one SparseCore write different elements. -/
theorem tileSet_disjoint (c : ℕ) : ∀ i ∈ (Finset.univ : Finset (Fin 16)), ∀ j ∈ (Finset.univ : Finset (Fin 16)), i ≠ j →
    Disjoint (tileSet c i.val) (tileSet c j.val) := by
  intro i _ j _ hij
  refine Finset.disjoint_left.mpr fun x hi hj => hij (Fin.ext ?_)
  have h1 := (Finset.mem_filter.mp hi).2
  have h2 := (Finset.mem_filter.mp hj).2
  omega

/-- The sixteen tiles of SparseCore `c` write, together, the elements whose worker is `c` modulo 2. -/
theorem tileSet_cover (c : ℕ) (hc : c < 2) :
    (Finset.univ : Finset (Fin 16)).biUnion (fun i => tileSet c i.val) = coreSet c := by
  ext x
  simp only [Finset.mem_biUnion, Finset.mem_univ, true_and, tileSet, coreSet, Finset.mem_filter]
  have hx := planeOf_lt x
  constructor
  · rintro ⟨i, hi⟩
    omega
  · intro h
    exact ⟨⟨planeOf x / 26 / 2, by omega⟩, by show planeOf x / 26 = 2 * (planeOf x / 26 / 2) + c; omega⟩

/-- The two SparseCores write different elements. -/
theorem coreSet_disjoint : Disjoint (coreSet 0) (coreSet 1) := by
  refine Finset.disjoint_left.mpr fun x h0 h1 => ?_
  have h0' := (Finset.mem_filter.mp h0).2
  have h1' := (Finset.mem_filter.mp h1).2
  omega

/-- Together they write every element. -/
theorem coreSet_cover : coreSet 0 ∪ coreSet 1 = Finset.univ := by
  ext x
  simp only [Finset.mem_union, coreSet, Finset.mem_filter, Finset.mem_univ, true_and, iff_true]
  omega

end Cert.Lookup
-- ==== Proof.KISplit.lean ====
/-
  How the call's operands are shared out and gathered.

  The call reads the transposed tables and the transposed row numbers and writes the output array.  Nobody writes the
  two operands during the call, so they are shared for reading: the TensorCore gives each of the two SparseCores a
  read share of each (and keeps a remainder), and a SparseCore gives each of its sixteen tiles a share of its share
  (and keeps a remainder); on the way back the shares are joined again.  The output array is shared out by elements:
  the whole array is the elements of SparseCore 0's tiles and those of SparseCore 1's, and a SparseCore's elements are
  its sixteen tiles', tile by tile; going, the elements hold the launch contents, and coming back the lookup's values.
-/
import proofs.«204046_g18683107737843_cont_8to1_103_43_alg».proof.Proof.KISetup
import proofs.«204046_g18683107737843_cont_8to1_103_43_alg».proof.Proof.KISets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ)
variable [FloatOps F]

omit [FloatOps F] in
/-- A family over the sixteen tiles, indexed as the launch theorem indexes it. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The elements of SparseCore `c`'s tiles, tile by tile. -/
theorem pts_tiles (d : Dev nD) (c : ℕ) (hc : c < 2) (f : Buf (Elt F) (v2Loc d)) :
    (v2Loc d ↦[coreSet c]{fullShare} f : sProp 𝕄) = bigSep Finset.univ fun i : Fin 16 => v2Loc d ↦[tileSet c i.val]{fullShare} f := by
  rw [← pointsTo_biUnion Finset.univ (ℓ := v2Loc d) (fun i : Fin 16 => tileSet c i.val) (tileSet_disjoint c), tileSet_cover c hc]

theorem go_eq (d : Dev nD) (c : Fin ((K (F := F)).nCore 0)) (i : Fin ((K (F := F)).nSub 0)) :
    (P m).go 0 d c i = iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val (Fin.cast nSub_zero i).val]{fullShare} m (v2Loc d))) := rfl

theorem vecSplit : (K (F := F)).VecSplit' (P m) 0 := by
  intro d c
  show iprop((v0Loc d ↦{qC (Fin.cast nCore_zero c)} T0 m d) ∗ (v1Loc d ↦{qC (Fin.cast nCore_zero c)} X1 m d)
        ∗ (v2Loc d ↦[coreSet c.val]{fullShare} m (v2Loc d))) ⊢ |={Set.univ}=> iprop(
      (bigSep Finset.univ fun i : Fin ((K (F := F)).nSub 0) =>
        iprop((v0Loc d ↦{qT (Fin.cast nCore_zero c) (Fin.cast nSub_zero i)} T0 m d) ∗ (v1Loc d ↦{qT (Fin.cast nCore_zero c) (Fin.cast nSub_zero i)} X1 m d)
          ∗ (v2Loc d ↦[tileSet c.val (Fin.cast nSub_zero i).val]{fullShare} m (v2Loc d))))
      ∗ ((bigSep Finset.univ fun i : Fin ((K (F := F)).nSub 0) =>
        iprop((v0Loc d ↦{qT (Fin.cast nCore_zero c) (Fin.cast nSub_zero i)} T0 m d) ∗ (v1Loc d ↦{qT (Fin.cast nCore_zero c) (Fin.cast nSub_zero i)} X1 m d)
          ∗ (v2Loc d ↦[tileSet c.val (Fin.cast nSub_zero i).val]{fullShare} O2 m d)))
        -∗ iprop((v0Loc d ↦{qC (Fin.cast nCore_zero c)} T0 m d) ∗ (v1Loc d ↦{qC (Fin.cast nCore_zero c)} X1 m d)
        ∗ (v2Loc d ↦[coreSet c.val]{fullShare} O2 m d))))
  have hc : c.val < 2 := c.isLt
  rw [bigSep_tasks (F := F) (fun i => iprop((v0Loc d ↦{qT (Fin.cast nCore_zero c) i} T0 m d) ∗ (v1Loc d ↦{qT (Fin.cast nCore_zero c) i} X1 m d)
          ∗ (v2Loc d ↦[tileSet c.val i.val]{fullShare} m (v2Loc d)))),
    bigSep_tasks (F := F) (fun i => iprop((v0Loc d ↦{qT (Fin.cast nCore_zero c) i} T0 m d) ∗ (v1Loc d ↦{qT (Fin.cast nCore_zero c) i} X1 m d)
          ∗ (v2Loc d ↦[tileSet c.val i.val]{fullShare} O2 m d))),
    bigSep_sep', bigSep_sep', bigSep_sep', bigSep_sep', pts_tiles d c.val hc, pts_tiles d c.val hc]
  iintro ⟨H0, H1, H2⟩
  ihave H0' := (Transfers.pointsTo_toks_split (qC (Fin.cast nCore_zero c)) 16) $$ H0
  icases H0' with ⟨H0d, H0t⟩
  ihave H1' := (Transfers.pointsTo_toks_split (qC (Fin.cast nCore_zero c)) 16) $$ H1
  icases H1' with ⟨H1d, H1t⟩
  imodintro
  isplitl [H0t H1t H2]
  · isplitl [H0t]; · iexact H0t
    isplitl [H1t]; · iexact H1t
    iexact H2
  iintro ⟨G0, G1, G2⟩
  isplitl [H0d G0]
  · iapply (Transfers.pointsTo_toks_join (qC (Fin.cast nCore_zero c)) 16)
    isplitl [H0d]; · iexact H0d
    iexact G0
  isplitl [H1d G1]
  · iapply (Transfers.pointsTo_toks_join (qC (Fin.cast nCore_zero c)) 16)
    isplitl [H1d]; · iexact H1d
    iexact G1
  iexact G2

/-! ## The TensorCore's side: the operands shared between the two SparseCores -/

omit [FloatOps F] in
/-- A family over the two SparseCores, indexed as the launch theorem indexes it. -/
theorem bigSep_cores (Φ : Fin 2 → sProp 𝕄) :
    (bigSep Finset.univ fun c : Fin ((K (F := F)).nCore 0) => Φ (Fin.cast nCore_zero c)) = iprop(Φ 0 ∗ Φ 1) :=
  (bigSep_congr fun _ _ => congrArg Φ (Fin.ext rfl)).trans (bigSep_univ_two Φ)

/-- What the call takes for the two SparseCores, -/
theorem st0_eq (d : Dev nD) : (bigSep Finset.univ fun c : Fin ((K (F := F)).nCore 0) => (P m).st 0 d c) = iprop(
    ((v0Loc d ↦{qC 0} T0 m d) ∗ (v1Loc d ↦{qC 0} X1 m d) ∗ (v2Loc d ↦[coreSet 0]{fullShare} m (v2Loc d)))
    ∗ ((v0Loc d ↦{qC 1} T0 m d) ∗ (v1Loc d ↦{qC 1} X1 m d) ∗ (v2Loc d ↦[coreSet 1]{fullShare} m (v2Loc d)))) :=
  bigSep_cores (F := F) (fun c => iprop((v0Loc d ↦{qC c} T0 m d) ∗ (v1Loc d ↦{qC c} X1 m d) ∗ (v2Loc d ↦[coreSet c.val]{fullShare} m (v2Loc d))))

/-- and what it hands back. -/
theorem dn0_eq (d : Dev nD) : (bigSep Finset.univ fun c : Fin ((K (F := F)).nCore 0) => (P m).dn 0 d c) = iprop(
    ((v0Loc d ↦{qC 0} T0 m d) ∗ (v1Loc d ↦{qC 0} X1 m d) ∗ (v2Loc d ↦[coreSet 0]{fullShare} O2 m d))
    ∗ ((v0Loc d ↦{qC 1} T0 m d) ∗ (v1Loc d ↦{qC 1} X1 m d) ∗ (v2Loc d ↦[coreSet 1]{fullShare} O2 m d))) :=
  bigSep_cores (F := F) (fun c => iprop((v0Loc d ↦{qC c} T0 m d) ∗ (v1Loc d ↦{qC c} X1 m d) ∗ (v2Loc d ↦[coreSet c.val]{fullShare} O2 m d)))

omit [FloatOps F] in
/-- The whole output array is the two SparseCores' elements. -/
theorem pts_cores (d : Dev nD) (f : Buf (Elt F) (v2Loc d)) :
    (v2Loc d ↦{fullShare} f : sProp 𝕄) ⊣⊢ iprop((v2Loc d ↦[coreSet 0]{fullShare} f) ∗ (v2Loc d ↦[coreSet 1]{fullShare} f)) := by
  have h : (v2Loc d ↦[coreSet 0 ∪ coreSet 1]{fullShare} f : sProp 𝕄)
      ⊣⊢ iprop((v2Loc d ↦[coreSet 0]{fullShare} f) ∗ (v2Loc d ↦[coreSet 1]{fullShare} f)) := pointsTo_union coreSet_disjoint
  rw [coreSet_cover] at h
  exact h

omit [FloatOps F] in
/-- A whole array at the full share is a read share for each SparseCore and a remainder. -/
theorem pts_shares {ℓ : Loc nD τ sig} (f : Buf (Elt F) ℓ) :
    (ℓ ↦{fullShare} f : sProp 𝕄) ⊣⊢ iprop((ℓ ↦{Transfers.shareDrop fullShare 2} f) ∗ (ℓ ↦{qC 0} f) ∗ (ℓ ↦{qC 1} f)) := by
  have h : (ℓ ↦{fullShare} f : sProp 𝕄) ⊣⊢ iprop((ℓ ↦{Transfers.shareDrop fullShare 2} f)
      ∗ bigSep Finset.univ (fun c : Fin 2 => ℓ ↦{Transfers.shareTok fullShare 2 c} f)) := Transfers.pointsTo_toks fullShare 2
  rw [bigSep_univ_two] at h
  exact h

omit [FloatOps F] in
/-- The three arrays the call works on, whole, are what the two SparseCores take and the remainders of the two operands; -/
theorem call_split (d : Dev nD) (A : Buf (Elt F) (v0Loc d)) (B : Buf (Elt F) (v1Loc d)) (f : Buf (Elt F) (v2Loc d)) :
    (iprop((v0Loc d ↦{fullShare} A) ∗ (v1Loc d ↦{fullShare} B) ∗ (v2Loc d ↦{fullShare} f)) : sProp 𝕄)
      ⊢ iprop(((v0Loc d ↦{Transfers.shareDrop fullShare 2} A) ∗ (v1Loc d ↦{Transfers.shareDrop fullShare 2} B))
        ∗ ((v0Loc d ↦{qC 0} A) ∗ (v1Loc d ↦{qC 0} B) ∗ (v2Loc d ↦[coreSet 0]{fullShare} f))
        ∗ ((v0Loc d ↦{qC 1} A) ∗ (v1Loc d ↦{qC 1} B) ∗ (v2Loc d ↦[coreSet 1]{fullShare} f))) := by
  iintro ⟨H0, H1, H2⟩
  ihave H0' := (pts_shares A).1 $$ H0
  icases H0' with ⟨H0d, H00, H01⟩
  ihave H1' := (pts_shares B).1 $$ H1
  icases H1' with ⟨H1d, H10, H11⟩
  ihave H2' := (pts_cores d f).1 $$ H2
  icases H2' with ⟨H20, H21⟩
  isplitl [H0d H1d]
  · isplitl [H0d]; · iexact H0d
    iexact H1d
  isplitl [H00 H10 H20]
  · isplitl [H00]; · iexact H00
    isplitl [H10]; · iexact H10
    iexact H20
  isplitl [H01]; · iexact H01
  isplitl [H11]; · iexact H11
  iexact H21

omit [FloatOps F] in
/-- and back. -/
theorem call_join (d : Dev nD) (A : Buf (Elt F) (v0Loc d)) (B : Buf (Elt F) (v1Loc d)) (f : Buf (Elt F) (v2Loc d)) :
    (iprop(((v0Loc d ↦{Transfers.shareDrop fullShare 2} A) ∗ (v1Loc d ↦{Transfers.shareDrop fullShare 2} B))
        ∗ ((v0Loc d ↦{qC 0} A) ∗ (v1Loc d ↦{qC 0} B) ∗ (v2Loc d ↦[coreSet 0]{fullShare} f))
        ∗ ((v0Loc d ↦{qC 1} A) ∗ (v1Loc d ↦{qC 1} B) ∗ (v2Loc d ↦[coreSet 1]{fullShare} f))) : sProp 𝕄)
      ⊢ iprop((v0Loc d ↦{fullShare} A) ∗ (v1Loc d ↦{fullShare} B) ∗ (v2Loc d ↦{fullShare} f)) := by
  iintro ⟨⟨H0d, H1d⟩, ⟨H00, H10, H20⟩, H01, H11, H21⟩
  isplitl [H0d H00 H01]
  · iapply (pts_shares A).2
    isplitl [H0d]; · iexact H0d
    isplitl [H00]; · iexact H00
    iexact H01
  isplitl [H1d H10 H11]
  · iapply (pts_shares B).2
    isplitl [H1d]; · iexact H1d
    isplitl [H10]; · iexact H10
    iexact H11
  iapply (pts_cores d f).2
  isplitl [H20]; · iexact H20
  iexact H21

end Cert.Proof.KI

end
-- ==== Proof.HostIdx.lean ====
/-
  The four re-layouts on the host side of the lookup program, each read at an index.

  They move data and compute nothing, so they are stated for any element type.  Before the lookup proper the
  stacked tables `[26, 100000, 32]` are transposed to `[26, 32, 100000]` (the last two axes swapped) and the row
  numbers `[16384, 26]` to `[26, 16384]`.  After it the array `[26, 4, 128, 8, 128]` is transposed to
  `[128, 128, 26, 4, 8]` (result axis `a` is source axis `[2, 4, 0, 1, 3] a`) and read in row-major order as
  `[16384, 26, 32]`.

  For the last pair: the row-major position of `(B1, B2, i, td, dr)` in `[128, 128, 26, 4, 8]` is
  `(((B1 * 128 + B2) * 26 + i) * 4 + td) * 8 + dr`, and that of `(b, i, d)` in `[16384, 26, 32]` is
  `(b * 26 + i) * 32 + d`.  The two agree exactly when `b = B1 * 128 + B2` and `d = td * 8 + dr`, that is
  `B1 = b / 128`, `B2 = b % 128`, `td = d / 8`, `dr = d % 8`; the transpose then puts these five coordinates at
  source axes 2, 4, 0, 1, 3.

  Every shape is a literal and every coordinate a `Fin` of a literal bound; the shape relations are hypotheses, so
  the lemmas apply whichever proof of the relation a program carries.
-/
import Idealize.ShloMosaic.PureOps
import Idealize.ShloMosaic.Lib.ValueIdx
import Idealize.ShloMosaic.Lib.ValueLayout
import Idealize.ShloMosaic.Lib.Pipeline.Value

namespace Cert.Lookup

open Idealize.ShloMosaic Idealize.ShloMosaic.ValueIdx

/-- The tables with their last two axes swapped read, at `(i, d, v)`, the tables at `(i, v, d)`. -/
theorem transpose021_apply {α : Type} (tab : (⟨3, ![26, 100000, 32]⟩ : Shape).Idx → α)
    (h : (⟨3, ![26, 100000, 32]⟩ : Shape).Transposes [0, 2, 1] ⟨3, ![26, 32, 100000]⟩)
    (i : Fin 26) (d : Fin 32) (v : Fin 100000) :
    transpose ⟨3, ![26, 32, 100000]⟩ [0, 2, 1] tab h (ix3 i d v) = tab (ix3 i v d) :=
  transpose_ix3_021_apply tab h i d v

/-- The transposed row numbers read, at `(i, b)`, the row numbers at `(b, i)`. -/
theorem transpose10_apply {α : Type} (x : (⟨2, ![16384, 26]⟩ : Shape).Idx → α)
    (h : (⟨2, ![16384, 26]⟩ : Shape).Transposes [1, 0] ⟨2, ![26, 16384]⟩)
    (i : Fin 26) (b : Fin 16384) :
    transpose ⟨2, ![26, 16384]⟩ [1, 0] x h (ix2 i b) = x (ix2 b i) :=
  transpose_ix2_apply x h i b

/-- The transpose by `[2, 4, 0, 1, 3]` followed by the row-major reading as `[16384, 26, 32]`: entry `(b, i, d)` is
    the operand at `(i, d / 8, b / 128, d % 8, b % 128)`. -/
theorem tail_apply {α : Type} (o : (⟨5, ![26, 4, 128, 8, 128]⟩ : Shape).Idx → α)
    (h1 : (⟨5, ![26, 4, 128, 8, 128]⟩ : Shape).Transposes [2, 4, 0, 1, 3] ⟨5, ![128, 128, 26, 4, 8]⟩)
    (h2 : (⟨5, ![128, 128, 26, 4, 8]⟩ : Shape).ShapeCasts ⟨3, ![16384, 26, 32]⟩)
    (b : Fin 16384) (i : Fin 26) (d : Fin 32) :
    shapeCast ⟨3, ![16384, 26, 32]⟩ (transpose ⟨5, ![128, 128, 26, 4, 8]⟩ [2, 4, 0, 1, 3] o h1) h2 (ix3 b i d)
      = o (ix5 i ⟨d.val / 8, by omega⟩ ⟨b.val / 128, by omega⟩ ⟨d.val % 8, by omega⟩ ⟨b.val % 128, by omega⟩) := by
  have hb := b.isLt
  have hi := i.isLt
  have hd := d.isLt
  -- the reshape: the index of `[128, 128, 26, 4, 8]` at the same row-major position as `(b, i, d)`
  refine (shapeCast_apply (transpose ⟨5, ![128, 128, 26, 4, 8]⟩ [2, 4, 0, 1, 3] o h1) h2 (ix3 b i d)
    (ix5 (⟨b.val / 128, by omega⟩ : Fin 128) (⟨b.val % 128, by omega⟩ : Fin 128) i
      (⟨d.val / 8, by omega⟩ : Fin 4) (⟨d.val % 8, by omega⟩ : Fin 8)) ?_).trans ?_
  · rw [Shape.rowMajor_val_five, Shape.rowMajor_val_three]
    show ((((b.val / 128) * 128 + b.val % 128) * 26 + i.val) * 4 + d.val / 8) * 8 + d.val % 8
      = (b.val * 26 + i.val) * 32 + d.val
    omega
  -- the transpose: result axes 0, 1, 2, 3, 4 are source axes 2, 4, 0, 1, 3
  · exact transpose_apply [2, 4, 0, 1, 3] o h1 _ _ fun c =>
      match c with | ⟨0, _⟩ => rfl | ⟨1, _⟩ => rfl | ⟨2, _⟩ => rfl | ⟨3, _⟩ => rfl | ⟨4, _⟩ => rfl

end Cert.Lookup
-- ==== Proof.KIValue.lean ====
/-
  The value of the program's last array.

  After the call the output array `[26, 4, 128, 8, 128]` holds the lookup through the transposed operands (`O2`).
  @main transposes it by `[2, 4, 0, 1, 3]` and reads the result in row-major order as `[16384, 26, 32]`.  Entry
  `(b, i, e)` of that is the output array at `(i, e / 8, b / 128, e % 8, b % 128)`; there the entry number is
  `(e / 8) * 8 + e % 8 = e`, the example number is `(b / 128) * 128 + b % 128 = b`, so the value is the transposed
  tables at `(i, e, row)` with `row` the clamped row number the transposed row numbers hold at `(i, b)`: the tables at
  `(i, row, e)` with `row` read from the row numbers at `(b, i)`.  That is the lookup `G`.  Both sides clamp the row
  number the same way, so no range hypothesis is needed.
-/
import proofs.«204046_g18683107737843_cont_8to1_103_43_alg».proof.Proof.KISetup
import proofs.«204046_g18683107737843_cont_8to1_103_43_alg».proof.Proof.HostIdx
import proofs.«204046_g18683107737843_cont_8to1_103_43_alg».proof.Proof.Spec

noncomputable section

namespace Cert.Proof.KI

open Cert.KernelIdeal Cert.KernelIdeal.Gen

open Idealize.ShloMosaic Idealize.ShloMosaic.ValueIdx
open Idealize.SL.Sem
open Cert.Lookup

variable {F : FTy → Type} [FloatOps F]
variable (m : (ℓ : Loc nD τ sig) → Buf (Elt F) ℓ)

/-- What @main's last two operations make of the kernel's output array. -/
def R4 (d : Dev nD) : Buf (Elt F) (v4Loc d) :=
  shapeCast S16384x26x32 (transpose S128x128x26x4x8 [2, 4, 0, 1, 3] (O2 m d) transposes_S26x4x128x8x128_S128x128x26x4x8_2_4_0_1_3)
    shapeCasts_S128x128x26x4x8_S16384x26x32

omit [FloatOps F] in
/-- The entry number at the index the re-layout reads: `(e / 8) * 8 + e % 8 = e`. -/
theorem entryOf_tail (i : Fin 26) (b : Fin 16384) (e : Fin 32) (h1 : e.val / 8 < 4) (h2 : b.val / 128 < 128) (h3 : e.val % 8 < 8)
    (h4 : b.val % 128 < 128) : entryOf (ix5 i ⟨e.val / 8, h1⟩ ⟨b.val / 128, h2⟩ ⟨e.val % 8, h3⟩ ⟨b.val % 128, h4⟩) = e :=
  Fin.ext (by show e.val / 8 * 8 + e.val % 8 = e.val; omega)

omit [FloatOps F] in
/-- The example number there: `(b / 128) * 128 + b % 128 = b`. -/
theorem exampleOf_tail (i : Fin 26) (b : Fin 16384) (e : Fin 32) (h1 : e.val / 8 < 4) (h2 : b.val / 128 < 128) (h3 : e.val % 8 < 8)
    (h4 : b.val % 128 < 128) : exampleOf (ix5 i ⟨e.val / 8, h1⟩ ⟨b.val / 128, h2⟩ ⟨e.val % 8, h3⟩ ⟨b.val % 128, h4⟩) = b :=
  Fin.ext (by show b.val / 128 * 128 + b.val % 128 = b.val; omega)

/-- It is the lookup of the launch operands. -/
theorem R4_eq (d : Dev nD) : R4 m d = Cert.Lookup.G (m (a0Loc d)) (m (a1Loc d)) := by
  funext j
  obtain ⟨b, i, e, rfl⟩ : ∃ (b : Fin 16384) (i : Fin 26) (e : Fin 32), j = ix3 b i e := ⟨j 0, j 1, j 2, eq_ix3 j⟩
  unfold R4
  rw [Cert.Lookup.tail_apply, Cert.Lookup.G_apply]
  unfold O2 OUT5
  rw [entryOf_tail, exampleOf_tail]
  show T0 m d (ix3 i e (row (X1 m d (ix2 i b)))) = _
  unfold T0 X1
  rw [Cert.Lookup.transpose10_apply, Cert.Lookup.transpose021_apply]

end Cert.Proof.KI

end
-- ==== Proof.KILaunch.lean ====
/-
  The program's run, given the tile's run.

  @main, on the TensorCore, transposes the tables and the row numbers, calls the two SparseCores, transposes the
  array the call wrote and reads it in row-major order as the result.  Each of the four host operations is followed
  on the two arrays it touches, held whole: it leaves its operand and makes its result the operation's function of
  the operand.  For the call the TensorCore hands each SparseCore a read share of the two transposed operands and
  that SparseCore's elements of the output array (keeping a remainder of the operands' shares), and gets the same back
  with the output elements at the lookup's values; joined, the three arrays are whole again, the output array at the
  lookup through the transposed operands.  At the end the TensorCore still holds the two launch operands unchanged and
  the result, whose value is the lookup `G` of the launch operands; the final memory agrees with what is held.
  The ghost state is the handshakes' rounds beside the transfers' counters, and the kernel holds nothing of its own
  from the launch.  The tile's own run is a hypothesis here.
-/
import proofs.«204046_g18683107737843_cont_8to1_103_43_alg».proof.Proof.KISetup
import proofs.«204046_g18683107737843_cont_8to1_103_43_alg».proof.Proof.KISplit
import proofs.«204046_g18683107737843_cont_8to1_103_43_alg».proof.Proof.KIValue
import proofs.«204046_g18683107737843_cont_8to1_103_43_alg».proof.Proof.HostIdx
import proofs.«204046_g18683107737843_cont_8to1_103_43_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Lookup

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ (v3Loc d ↦{fullShare} W main_v3) ∗ (v4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- @main's four operations. -/
abbrev op1 : HloOp τ sig (Elt F) := StableHlo.unary main_arg1 main_v0 ((transpose S26x32x100000 [0, 2, 1] · transposes_S26x100000x32_S26x32x100000_0_2_1) : (⟨S26x100000x32, .f32⟩ : BufTy).Contents (Elt F) → (⟨S26x32x100000, .f32⟩ : BufTy).Contents (Elt F))
abbrev op2 : HloOp τ sig (Elt F) := StableHlo.unary main_arg0 main_v1 ((transpose S26x16384 [1, 0] · transposes_S16384x26_S26x16384_1_0) : (⟨S16384x26, .i32⟩ : BufTy).Contents (Elt F) → (⟨S26x16384, .i32⟩ : BufTy).Contents (Elt F))
abbrev op3 : HloOp τ sig (Elt F) := StableHlo.unary main_v2 main_v3 ((transpose S128x128x26x4x8 [2, 4, 0, 1, 3] · transposes_S26x4x128x8x128_S128x128x26x4x8_2_4_0_1_3) : (⟨S26x4x128x8x128, .f32⟩ : BufTy).Contents (Elt F) → (⟨S128x128x26x4x8, .f32⟩ : BufTy).Contents (Elt F))
abbrev op4 : HloOp τ sig (Elt F) := StableHlo.reshape main_v3 main_v4 rfl shapeCasts_S128x128x26x4x8_S16384x26x32

/-- The launch valuation. -/
def V0 (d : Dev nD) : Valuation τ sig (Elt F) := fun b => m (d, b)

omit [FloatOps F] in
/-- Two arrays of the TensorCore held whole. -/
theorem held_pair (d : Dev nD) (a b : DevRef τ sig) (hab : a ≠ b) (W : Valuation τ sig (Elt F)) :
    (held (T d) {a, b} W : sProp 𝕄) = iprop(((d, a) ↦{fullShare} W a) ∗ ((d, b) ↦{fullShare} W b)) := by
  unfold held
  rw [SparseCore.bigSep_insert' (by simpa using hab), bigSep_singleton]

/-- The transposed output array. -/
def R3 (d : Dev nD) : Buf (Elt F) (v3Loc d) :=
  transpose S128x128x26x4x8 [2, 4, 0, 1, 3] (O2 m d) transposes_S26x4x128x8x128_S128x128x26x4x8_2_4_0_1_3

/-- After the call: the output array at what the kernel left; then the transposed array at its value. -/
def V3 (d : Dev nD) : Valuation τ sig (Elt F) := Function.update (V0 m d) v2' (O2 m d)
def V4 (d : Dev nD) : Valuation τ sig (Elt F) := Function.update (V0 m d) v3' (R3 m d)

theorem V3_v2 (d : Dev nD) : V3 m d v2' = O2 m d := Function.update_self _ _ _
theorem V3_v3 (d : Dev nD) : V3 m d v3' = m (v3Loc d) := Function.update_of_ne (show v3' ≠ v2' by decide) _ _
theorem V4_v3 (d : Dev nD) : V4 m d v3' = R3 m d := Function.update_self _ _ _
theorem V4_v4 (d : Dev nD) : V4 m d v4' = m (v4Loc d) := Function.update_of_ne (show v4' ≠ v3' by decide) _ _

theorem hop1 : (op1 (F := F)).bufs ⊆ {a1', v0'} := show ({a1', v0'} : Finset (DevRef τ sig)) ⊆ {a1', v0'} from Finset.Subset.refl _
theorem hop2 : (op2 (F := F)).bufs ⊆ {a0', v1'} := show ({a0', v1'} : Finset (DevRef τ sig)) ⊆ {a0', v1'} from Finset.Subset.refl _
theorem hop3 : (op3 (F := F)).bufs ⊆ {v2', v3'} := show ({v2', v3'} : Finset (DevRef τ sig)) ⊆ {v2', v3'} from Finset.Subset.refl _
theorem hop4 : (op4 (F := F)).bufs ⊆ {v3', v4'} := show ({v3', v4'} : Finset (DevRef τ sig)) ⊆ {v3', v4'} from Finset.Subset.refl _

/-- The first transpose leaves the tables and makes the transposed tables; -/
theorem held1 (d : Dev nD) : (held (T d) {a1', v0'} ((op1 (F := F)).result (V0 m d)) : sProp 𝕄)
    = iprop((a1Loc d ↦{fullShare} m (a1Loc d)) ∗ (v0Loc d ↦{fullShare} T0 m d)) := by
  rw [held_pair d a1' v0' (by decide), (op1 (F := F)).result_of_not_mem (V0 m d) (b := a1') (show a1' ∉ ({v0'} : Finset (DevRef τ sig)) by decide)]
  rw [StableHlo.unary_result]
  rfl

/-- the second the same of the row numbers; -/
theorem held2 (d : Dev nD) : (held (T d) {a0', v1'} ((op2 (F := F)).result (V0 m d)) : sProp 𝕄)
    = iprop((a0Loc d ↦{fullShare} m (a0Loc d)) ∗ (v1Loc d ↦{fullShare} X1 m d)) := by
  rw [held_pair d a0' v1' (by decide), (op2 (F := F)).result_of_not_mem (V0 m d) (b := a0') (show a0' ∉ ({v1'} : Finset (DevRef τ sig)) by decide)]
  rw [StableHlo.unary_result]
  rfl

/-- the third transposes the output array; -/
theorem held3 (d : Dev nD) : (held (T d) {v2', v3'} ((op3 (F := F)).result (V3 m d)) : sProp 𝕄)
    = iprop((v2Loc d ↦{fullShare} O2 m d) ∗ (v3Loc d ↦{fullShare} R3 m d)) := by
  rw [held_pair d v2' v3' (by decide), (op3 (F := F)).result_of_not_mem (V3 m d) (b := v2') (show v2' ∉ ({v3'} : Finset (DevRef τ sig)) by decide)]
  rw [StableHlo.unary_result]
  unfold V3
  rw [Function.update_self]
  rfl

/-- and the reshape reads it as the result. -/
theorem held4 (d : Dev nD) : (held (T d) {v3', v4'} ((op4 (F := F)).result (V4 m d)) : sProp 𝕄)
    = iprop((v3Loc d ↦{fullShare} R3 m d) ∗ (v4Loc d ↦{fullShare} R4 m d)) := by
  rw [held_pair d v3' v4' (by decide), (op4 (F := F)).result_of_not_mem (V4 m d) (b := v3') (show v3' ∉ ({v4'} : Finset (DevRef τ sig)) by decide)]
  rw [StableHlo.reshape_result]
  unfold V4
  rw [Function.update_self]
  rfl

abbrev FIN (d : Dev nD) : sProp 𝕄 :=
  iprop((a0Loc d ↦{fullShare} m (a0Loc d)) ∗ (a1Loc d ↦{fullShare} m (a1Loc d)) ∗ (v4Loc d ↦{fullShare} R4 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, -⟩
  -- the tables transposed
  iapply (wp_hlo_within 𝒱 (SparseCore.T d) none Set.univ (op := op1) (S := {a1', v0'}) hop1 (V := V0 m d)) $$ [Hb Ha1 Hv0]
  · isplitl [Hb]; · iexact Hb
    rw [held_pair d a1' v0' (by decide)]
    isplitl [Ha1]; · iexact Ha1
    iexact Hv0
  iintro ⟨Hb, Hh⟩
  ihave Hh' := (Entails.of_eq (held1 (F := F) m d)) $$ Hh
  icases Hh' with ⟨Ha1, Hv0⟩
  rw [wp_ret]; imodintro
  -- the row numbers transposed
  iapply (wp_hlo_within 𝒱 (SparseCore.T d) none Set.univ (op := op2) (S := {a0', v1'}) hop2 (V := V0 m d)) $$ [Hb Ha0 Hv1]
  · isplitl [Hb]; · iexact Hb
    rw [held_pair d a0' v1' (by decide)]
    isplitl [Ha0]; · iexact Ha0
    iexact Hv1
  iintro ⟨Hb, Hh⟩
  ihave Hh' := (Entails.of_eq (held2 (F := F) m d)) $$ Hh
  icases Hh' with ⟨Ha0, Hv1⟩
  rw [wp_ret]; imodintro
  -- the call: a read share of each operand and its elements of the output array to each SparseCore, and back
  ihave Hs := (call_split d (T0 m d) (X1 m d) (m (v2Loc d))) $$ [Hv0 Hv1 Hv2]
  · isplitl [Hv0]; · iexact Hv0
    isplitl [Hv1]; · iexact Hv1
    iexact Hv2
  icases Hs with ⟨Hrem, Hs0, Hs1⟩
  iapply ((K (F := F)).wp_run (D (F := F)) 𝒱 (EH := EH) (P := P m) κ d 0) $$ [Hst Hrem Hs0 Hs1 Hb Ha0 Ha1 Hv3 Hv4]
  isplitr; · iexact Hctx
  isplitl [Hst]; · iexact Hst
  isplitl [Hs0 Hs1]
  · rw [st0_eq]
    isplitl [Hs0]; · iexact Hs0
    iexact Hs1
  iintro ⟨Hst, Hdn⟩
  ihave Hdn' := (Entails.of_eq (dn0_eq m d)) $$ Hdn
  icases Hdn' with ⟨Hd0, Hd1⟩
  ihave Hj := (call_join d (T0 m d) (X1 m d) (O2 m d)) $$ [Hrem Hd0 Hd1]
  · isplitl [Hrem]; · iexact Hrem
    isplitl [Hd0]; · iexact Hd0
    iexact Hd1
  icases Hj with ⟨Hv0, Hv1, Hv2⟩
  -- the output array transposed
  iapply (wp_hlo_within 𝒱 (SparseCore.T d) none Set.univ (op := op3) (S := {v2', v3'}) hop3 (V := V3 m d)) $$ [Hb Hv2 Hv3]
  · isplitl [Hb]; · iexact Hb
    rw [held_pair d v2' v3' (by decide), V3_v2, V3_v3]
    isplitl [Hv2]; · iexact Hv2
    iexact Hv3
  iintro ⟨Hb, Hh⟩
  ihave Hh' := (Entails.of_eq (held3 (F := F) m d)) $$ Hh
  icases Hh' with ⟨Hv2, Hv3⟩
  rw [wp_ret]; imodintro
  -- and read in row-major order as the result
  iapply (wp_hlo_within 𝒱 (SparseCore.T d) none Set.univ (op := op4) (S := {v3', v4'}) hop4 (V := V4 m d)) $$ [Hb Hv3 Hv4]
  · isplitl [Hb]; · iexact Hb
    rw [held_pair d v3' v4' (by decide), V4_v3, V4_v4]
    isplitl [Hv3]; · iexact Hv3
    iexact Hv4
  iintro ⟨Hb, Hh⟩
  ihave Hh' := (Entails.of_eq (held4 (F := F) m d)) $$ Hh
  icases Hh' with ⟨Hv3, Hv4⟩
  rw [wp_ret]; imodintro; imodintro
  isplitl [Hst]; · iexact Hst
  isplitl [Ha0]; · iexact Ha0
  isplitl [Ha1]; · iexact Ha1
  iexact Hv4

def fq (d : Dev nD) (s' : Phys nD τ sig (Elt F)) : Prop :=
  s'.mem.mem (v4Loc d) = Cert.Lookup.G (m (a0Loc d)) (m (a1Loc d)) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v4Loc d) (I := Finset.univ) (q := fullShare) (f := R4 m d)) $$ [HSI Hv4]
  · isplitl [HSI] <;> iassumption
  icases H with %h4
  ipureintro
  refine ⟨?_, funext fun i => h0 i (Finset.mem_univ i), funext fun i => h1 i (Finset.mem_univ i)⟩
  rw [← R4_eq]
  exact funext fun i => h4 i (Finset.mem_univ i)

/-! ## The program's run and the claim -/

def QC : PUnit × MemSt nD τ sig (Elt F) → Prop := fun r => ∀ c : Dev nD,
  r.2.mem (v4Loc c) = Cert.Lookup.G (m (a0Loc c)) (m (a1Loc c)) ∧ r.2.mem (a0Loc c) = m (a0Loc c) ∧ r.2.mem (a1Loc c) = m (a1Loc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KIBodySpec.lean ====
/-
  What a tile's task owes the launch, as a statement: from a read share of the transposed tables and of the transposed
  row numbers and the output elements of the tile's 26 planes, the kernel's body on the tile terminates, faults nowhere,
  and hands back the shares and those output elements at the lookup's values.
-/
import proofs.«204046_g18683107737843_cont_8to1_103_43_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ) [FloatOps F]

/-- The tile at grid coordinates `L`: SparseCore `L 0`, vector subcore `L 1`. -/
abbrev thr (d : Dev nD) (L : grid0.Coords) : Thread nD τ := V d ((L 0).castLE hcore0) ((L 1).castLE hsub0)

/-- The body's obligation at a symbolic tile, any read share `q`. -/
def TileBody : Prop :=
  ∀ (d : Dev nD) (L : grid0.Coords) (q : PosShare TreeShare) (O : CellTallies nD τ sig (HIx 1)) (W : Waits sig (HIx 1)), (∀ g, O g none = 0) →
    (iprop(levAts (K (F := F)).L (K (F := F)).lev ∗ emp
        ∗ ((v0Loc d ↦{q} T0 m d) ∗ (v1Loc d ↦{q} X1 m d) ∗ (v2Loc d ↦[tileSet (L 0).val (L 1).val]{fullShare} m (v2Loc d)))
        ∗ scopedBufs (thr d L) ∗ scopedSems0 (thr d L) ∗ owes (thr d L) O W) : sProp 𝕄)
      ⊢ wp frame (wpE (defs₀ (F := F)) 𝒱₀ (thr d L) none) Set.univ
          (cc0__body L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          fun _ => iprop(((v0Loc d ↦{q} T0 m d) ∗ (v1Loc d ↦{q} X1 m d) ∗ (v2Loc d ↦[tileSet (L 0).val (L 1).val]{fullShare} O2 m d))
            ∗ scopedBufs (thr d L) ∗ scopedSems0 (thr d L)
            ∗ ∃ W', ⌜∀ p ∈ W', p ∈ W ∨ p.2 = none⌝ ∗ owes (thr d L) O W')

end Cert.Proof.KI

end
-- ==== Proof.KITileObl.lean ====
/-
  The tile's run as the launch theorem asks for it.

  The launch theorem states a vector-subcore kernel's obligation per SparseCore `c` and vector subcore `i` of the
  call's grid, over the body table's row for that processor; the row is the kernel's function at the grid
  coordinates `(c, i)`, on the whole arrays and the tile's scratch.  The tile's run, stated at symbolic grid
  coordinates and any read share, is that obligation at tile `i`'s share of SparseCore `c`'s share and at the output
  elements of worker `2 i + c`; this kernel owes nothing for a protocol of its own.
-/
import proofs.«204046_g18683107737843_cont_8to1_103_43_alg».proof.Proof.KIBodySpec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ) [FloatOps F]

/-- The grid coordinates of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore: the kernel's function at the subcore's coordinates. -/
theorem defs₀_vector (c : Fin τ.nSC) (s : Fin τ.nSub) :
    defs₀ (F := F) (.scVector c s) 0 ()
      = SparseCore.onTile hcore0 hsub0 (fun c s => cc0__body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scratch5 cc0_scoped0) ⟨⟩ c s := rfl

omit [FloatOps F] in
/-- The waits a task may leave: the launch theorem allows those of the call besides. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) (qT (Fin.cast nCore_zero c) (Fin.cast nSub_zero i)) O W hO).trans
    (wp_mono frame _ _ fun _ => obl_post)

end Cert.Proof.KI

end
-- ==== Proof.KITileDefs.lean ====
/-
  The quantities a tile's trips are stated over.

  Tile `L` is worker `w = 2 (L 1) + (L 0)`; its 26 planes are `26 w … 26 w + 25`, and trip `k` handles plane `26 w + k`:
  table `(26 w + k) / 32`, entry `(26 w + k) % 32`.  The plane scratch holds that plane, the row-number scratch the
  row numbers of the plane's feature, the block buffer half a plane of looked-up numbers at a time.
-/
import proofs.«204046_g18683107737843_cont_8to1_103_43_alg».proof.Proof.KIBodySpec

noncomputable section

namespace Cert.Proof.KI

open Cert.KernelIdeal Cert.KernelIdeal.Gen

open Idealize.ShloMosaic
open Idealize.ShloMosaic.SparseCore (S V T)
open Cert.Lookup

variable {F : FTy → Type}

variable (m : (ℓ : Loc nD τ sig) → Buf (Elt F) ℓ) [FloatOps F] (d : Dev nD) (L : grid0.Coords)

/-- The tile's first plane. -/
def bs (L : grid0.Coords) : ℕ := 52 * (L 1).val + 26 * (L 0).val

/-- The output elements the tile owns. -/
abbrev TS (L : grid0.Coords) : Finset S26x4x128x8x128.Idx := tileSet (L 0).val (L 1).val

/-- Plane `n` of the transposed tables, as the plane scratch holds it. -/
def planeFn (n : ℕ) : S100000.Idx → Elt F .f32 :=
  fun v => T0 m d (ValueIdx.ix3 ⟨n / 32 % 26, Nat.mod_lt _ (by decide)⟩ ⟨n % 32, Nat.mod_lt _ (by decide)⟩ ⟨(v 0).val, (v 0).isLt⟩)

/-- Feature `i`'s row numbers, as the row-number scratch holds them. -/
def xrowFn (i : ℕ) : S16384.Idx → Elt F .i32 :=
  fun b => X1 m d (ValueIdx.ix2 ⟨i % 26, Nat.mod_lt _ (by decide)⟩ ⟨(b 0).val, (b 0).isLt⟩)

/-- The block buffer's target contents: row `f`, lane `l` is the plane scratch `fp` at the row number found at
    `base + 128 f + l` of the row-number scratch `fx`. -/
def blkFn (base : ℕ) (fp : S100000.Idx → Elt F .f32) (fx : S16384.Idx → BitVec 32) (hfx : ∀ j, (fx j).toNat < 100000)
    (hb : base + 8192 ≤ 16384) (y : S64x1x128.Idx) : Elt F .f32 :=
  fp (ValueIdx.ix1 ⟨(fx (ValueIdx.ix1 ⟨base + 128 * (y 0).val + (y 2).val, by
    have h0 : (y 0).val < 64 := (y 0).isLt
    have h2 : (y 2).val < 128 := (y 2).isLt
    omega⟩)).toNat, hfx _⟩)

/-- The tile's output elements are at the lookup's values on every plane below `n` and on the first `hh` halves of
    plane `n`. -/
def Done (fo : S26x4x128x8x128.Idx → Elt F .f32) (n hh : ℕ) : Prop :=
  ∀ j ∈ TS L, (planeOf j < n ∨ (planeOf j = n ∧ (j 2).val < 64 * hh)) → fo j = O2 m d j

end Cert.Proof.KI

end
-- ==== Proof.KIDma.lean ====
/-
  What the tile's three kinds of copies move.

  A tile copies a PLANE of the transposed tables, `T[i, e, ·]`, into its own memory: the source is the slice of
  `[26, 32, 100000]` at offsets `(i, e, 0)` of sizes `(1, 1, 100000)` with its two unit axes dropped, so element `v` of the
  copy is `T[i, e, v]`.  It copies a ROW of the transposed row numbers, `X[i, ·]`, the same way: element `b` is `X[i, b]`.
  And it copies its block of `64 × 1 × 128` gathered values to the slice of the output array `[26, 4, 128, 8, 128]` at
  offsets `(i, t, 64 h, r, 0)` of sizes `(1, 1, 64, 1, 128)` with the unit axes at 0, 1 dropped: the elements written are
  those with coordinates `i`, `t`, `r` on axes 0, 1, 3 and a coordinate in `[64 h, 64 h + 64)` on axis 2; element `j` of
  them receives the block's `(j 2 - 64 h, 0, j 4)`; every other element keeps what it held.  Dropping unit axes keeps the
  row-major order, which is how the reshaped indices are matched.
-/
import proofs.«204046_g18683107737843_cont_8to1_103_43_alg».proof.Proof.KISetup
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.SL.Sem

variable {F : FTy → Type}

local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

/-- A vector of 100000 matched with `[1, 1, 100000]` by row-major position: `v` with `(0, 0, v)`. -/
theorem squeeze_plane_idx (h : S100000.numel = S1x1x100000.numel) (v : S100000.Idx) :
    Shape.reshapeEquiv h v = ix3 (0 : Fin 1) (0 : Fin 1) (⟨(v 0).val, (v 0).isLt⟩ : Fin 100000) :=
  Shape.reshapeEquiv_eq_of_rowMajor h (by
    rw [Shape.rowMajor_val_three, Shape.rowMajor_val_one]
    show (0 * 1 + 0) * 100000 + (v 0).val = (v 0).val
    omega)

/-- A vector of 16384 matched with `[1, 16384]`: `b` with `(0, b)`. -/
theorem squeeze_xrow_idx (h : S16384.numel = S1x16384.numel) (b : S16384.Idx) :
    Shape.reshapeEquiv h b = ix2 (0 : Fin 1) (⟨(b 0).val, (b 0).isLt⟩ : Fin 16384) :=
  Shape.reshapeEquiv_eq_of_rowMajor h (by
    rw [Shape.rowMajor_val_two, Shape.rowMajor_val_one]
    show 0 * 16384 + (b 0).val = (b 0).val
    omega)

/-- The copy of plane `(i, e)` into the tile's memory holds `T[i, e, v]` at `v`. -/
theorem plane_payload (T : S26x32x100000.Idx → Elt F .f32) (fp : S100000.Idx → Elt F .f32) (off : Fin 3 → ℕ)
    (inb : ∀ a, off a + S1x1x100000.size a ≤ S26x32x100000.size a) (i e : ℕ) (hi : i < 26) (he : e < 32)
    (h0 : off 0 = i) (h1 : off 1 = e) (h2 : off 2 = 0) (v : S100000.Idx) :
    View.write (Elt F) (sP).view fp (ReadAs.same.apply (View.read (Elt F) (((tW).slice (Rect.unit (s := S26x32x100000) off S1x1x100000.size inb) (fun _ => rfl)).squeeze S100000 squeezes_S1x1x100000_S100000).view T)) Finset.univ v
      = T (ValueIdx.ix3 ⟨i, hi⟩ ⟨e, he⟩ ⟨(v 0).val, (v 0).isLt⟩) := by
  refine (View.write_emb_of_mem (v := (sP).view) fp _ (x := v) (Finset.mem_univ v)).trans ?_
  show T ((Rect.unit (s := S26x32x100000) off S1x1x100000.size inb).emb (Shape.reshapeEquiv squeezes_S1x1x100000_S100000.numel_eq v)) = _
  rw [squeeze_plane_idx]
  refine congrArg T (funext fun a => Fin.ext ?_)
  match a with
  | ⟨0, _⟩ => show off 0 + 1 * 0 = i; omega
  | ⟨1, _⟩ => show off 1 + 1 * 0 = e; omega
  | ⟨2, _⟩ => show off 2 + 1 * (v 0).val = (v 0).val; omega

/-- The copy of row `i` of the transposed row numbers holds `X[i, b]` at `b`. -/
theorem xrow_payload (X : S26x16384.Idx → Elt F .i32) (fx : S16384.Idx → Elt F .i32) (off : Fin 2 → ℕ)
    (inb : ∀ a, off a + S1x16384.size a ≤ S26x16384.size a) (i : ℕ) (hi : i < 26) (h0 : off 0 = i) (h1 : off 1 = 0) (b : S16384.Idx) :
    View.write (Elt F) (sX).view fx (ReadAs.same.apply (View.read (Elt F) (((xW).slice (Rect.unit (s := S26x16384) off S1x16384.size inb) (fun _ => rfl)).squeeze S16384 squeezes_S1x16384_S16384).view X)) Finset.univ b
      = X (ValueIdx.ix2 ⟨i, hi⟩ ⟨(b 0).val, (b 0).isLt⟩) := by
  refine (View.write_emb_of_mem (v := (sX).view) fx _ (x := b) (Finset.mem_univ b)).trans ?_
  show X ((Rect.unit (s := S26x16384) off S1x16384.size inb).emb (Shape.reshapeEquiv squeezes_S1x16384_S16384.numel_eq b)) = _
  rw [squeeze_xrow_idx]
  refine congrArg X (funext fun a => Fin.ext ?_)
  match a with
  | ⟨0, _⟩ => show off 0 + 1 * 0 = i; omega
  | ⟨1, _⟩ => show off 1 + 1 * (b 0).val = (b 0).val; omega

/-! ## The write-back -/

/-- The slice of the output array a half plane is written to, its unit axes 0 and 1 dropped. -/
abbrev outV (off : Fin 5 → ℕ) (inb : ∀ a, off a + S1x1x64x1x128.size a ≤ S26x4x128x8x128.size a) :
    View sig .scVector .hbm S64x1x128 .f32 :=
  (((oW).slice (Rect.unit (s := S26x4x128x8x128) off S1x1x64x1x128.size inb) (fun _ => rfl)).squeeze S64x1x128 squeezes_S1x1x64x1x128_S64x1x128).view

/-- Its elements are the rectangle's. -/
theorem out_set (off : Fin 5 → ℕ) (inb : ∀ a, off a + S1x1x64x1x128.size a ≤ S26x4x128x8x128.size a) :
    (outV off inb).set = (Rect.unit (s := S26x4x128x8x128) off S1x1x64x1x128.size inb).set := by
  show (((View.whole main_v2_scv).slice (Rect.unit (s := S26x4x128x8x128) off S1x1x64x1x128.size inb)).reshape S64x1x128 _).set = _
  rw [View.set_reshape, View.set_slice_whole]

/-- An element of the rectangle at `(i, t, 64 h, r, 0)`: coordinates `i`, `t`, `r` on axes 0, 1, 3, and on axis 2 a
    coordinate of the `h`-th run of 64. -/
theorem out_mem (off : Fin 5 → ℕ) (inb : ∀ a, off a + S1x1x64x1x128.size a ≤ S26x4x128x8x128.size a) (i t h r : ℕ)
    (h0 : off 0 = i) (h1 : off 1 = t) (h2 : off 2 = 64 * h) (h3 : off 3 = r) (h4 : off 4 = 0) (j : S26x4x128x8x128.Idx) :
    j ∈ (outV off inb).set ↔ (j 0).val = i ∧ (j 1).val = t ∧ (j 2).val / 64 = h ∧ (j 3).val = r := by
  rw [out_set, Rect.mem_set_unit]
  have hj4 : (j 4).val < 128 := (j 4).isLt
  constructor
  · intro H
    have H0 : off 0 ≤ (j 0).val ∧ (j 0).val < off 0 + 1 := H 0
    have H1 : off 1 ≤ (j 1).val ∧ (j 1).val < off 1 + 1 := H 1
    have H2 : off 2 ≤ (j 2).val ∧ (j 2).val < off 2 + 64 := H 2
    have H3 : off 3 ≤ (j 3).val ∧ (j 3).val < off 3 + 1 := H 3
    omega
  · rintro ⟨e0, e1, e2, e3⟩ a
    match a with
    | ⟨0, _⟩ => show off 0 ≤ (j 0).val ∧ (j 0).val < off 0 + 1; omega
    | ⟨1, _⟩ => show off 1 ≤ (j 1).val ∧ (j 1).val < off 1 + 1; omega
    | ⟨2, _⟩ => show off 2 ≤ (j 2).val ∧ (j 2).val < off 2 + 64; omega
    | ⟨3, _⟩ => show off 3 ≤ (j 3).val ∧ (j 3).val < off 3 + 1; omega
    | ⟨4, _⟩ => show off 4 ≤ (j 4).val ∧ (j 4).val < off 4 + 128; omega

/-- An element of the rectangle, coordinate by coordinate. -/
theorem out_coords (off : Fin 5 → ℕ) (inb : ∀ a, off a + S1x1x64x1x128.size a ≤ S26x4x128x8x128.size a)
    (j : S26x4x128x8x128.Idx) (hj : j ∈ (outV off inb).set) :
    (j 0).val = off 0 ∧ (j 1).val = off 1 ∧ (off 2 ≤ (j 2).val ∧ (j 2).val < off 2 + 64) ∧ (j 3).val = off 3 ∧ off 4 ≤ (j 4).val := by
  rw [out_set, Rect.mem_set_unit] at hj
  have H0 : off 0 ≤ (j 0).val ∧ (j 0).val < off 0 + 1 := hj 0
  have H1 : off 1 ≤ (j 1).val ∧ (j 1).val < off 1 + 1 := hj 1
  have H2 : off 2 ≤ (j 2).val ∧ (j 2).val < off 2 + 64 := hj 2
  have H3 : off 3 ≤ (j 3).val ∧ (j 3).val < off 3 + 1 := hj 3
  have H4 : off 4 ≤ (j 4).val ∧ (j 4).val < off 4 + 128 := hj 4
  omega

/-- Its row within the block. -/
theorem out_row_lt (off : Fin 5 → ℕ) (inb : ∀ a, off a + S1x1x64x1x128.size a ≤ S26x4x128x8x128.size a) (h : ℕ) (h2 : off 2 = 64 * h)
    (j : S26x4x128x8x128.Idx) (hj : j ∈ (outV off inb).set) : (j 2).val - 64 * h < 64 := by
  have H := out_coords off inb j hj
  omega

/-- A block `[64, 1, 128]` matched with `[1, 1, 64, 1, 128]` by row-major position: `(a, 0, c)` with `(0, 0, a, 0, c)`. -/
theorem squeeze_block_idx (h : S64x1x128.numel = S1x1x64x1x128.numel) (a : Fin 64) (c : Fin 128) :
    Shape.reshapeEquiv h (ix3 a (0 : Fin 1) c) = ix5 (0 : Fin 1) (0 : Fin 1) a (0 : Fin 1) c :=
  Shape.reshapeEquiv_eq_of_rowMajor h (by
    rw [Shape.rowMajor_val_five, Shape.rowMajor_val_three]
    show ((((0 * 1 + 0) * 64 + a.val) * 1 + 0) * 128 + c.val) = (a.val * 1 + 0) * 128 + c.val
    omega)

/-- An element of the rectangle receives the block's entry at its row within the run and its lane. -/
theorem out_write_mem (fo : S26x4x128x8x128.Idx → Elt F .f32) (fb : S64x1x128.Idx → Elt F .f32) (off : Fin 5 → ℕ)
    (inb : ∀ a, off a + S1x1x64x1x128.size a ≤ S26x4x128x8x128.size a) (h : ℕ) (h2 : off 2 = 64 * h) (h4 : off 4 = 0)
    (j : S26x4x128x8x128.Idx) (hj : j ∈ (outV off inb).set) :
    View.write (Elt F) (outV off inb) fo (ReadAs.same.apply (View.read (Elt F) (sB).view fb)) Finset.univ j
      = fb (ValueIdx.ix3 ⟨(j 2).val - 64 * h, out_row_lt off inb h h2 j hj⟩ ⟨0, Nat.one_pos⟩ ⟨(j 4).val, (j 4).isLt⟩) := by
  have H := out_coords off inb j hj
  have hx : (outV off inb).emb (ValueIdx.ix3 (⟨(j 2).val - 64 * h, out_row_lt off inb h h2 j hj⟩ : Fin 64) (⟨0, Nat.one_pos⟩ : Fin 1) (⟨(j 4).val, (j 4).isLt⟩ : Fin 128)) = j := by
    show (Rect.unit (s := S26x4x128x8x128) off S1x1x64x1x128.size inb).emb (Shape.reshapeEquiv squeezes_S1x1x64x1x128_S64x1x128.numel_eq _) = j
    rw [show (⟨0, Nat.one_pos⟩ : Fin 1) = (0 : Fin 1) from rfl, squeeze_block_idx]
    refine funext fun a => Fin.ext ?_
    match a with
    | ⟨0, _⟩ => show off 0 + 1 * 0 = (j 0).val; omega
    | ⟨1, _⟩ => show off 1 + 1 * 0 = (j 1).val; omega
    | ⟨2, _⟩ => show off 2 + 1 * ((j 2).val - 64 * h) = (j 2).val; omega
    | ⟨3, _⟩ => show off 3 + 1 * 0 = (j 3).val; omega
    | ⟨4, _⟩ => show off 4 + 1 * (j 4).val = (j 4).val; omega
  conv_lhs => rw [← hx]
  exact View.write_emb_of_mem (v := outV off inb) fo _ (Finset.mem_univ _)

/-- Every other element keeps what it held. -/
theorem out_write_not_mem (fo : S26x4x128x8x128.Idx → Elt F .f32) (w : S64x1x128.Idx → Elt F .f32) (off : Fin 5 → ℕ)
    (inb : ∀ a, off a + S1x1x64x1x128.size a ≤ S26x4x128x8x128.size a) (j : S26x4x128x8x128.Idx) (hj : j ∉ (outV off inb).set) :
    View.write (Elt F) (outV off inb) fo w Finset.univ j = fo j :=
  View.write_of_not_mem (v := outV off inb) fo w Finset.univ hj

end Cert.Proof.KI

end
-- ==== Proof.KITripDefs.lean ====
/-
  A tile's state between the trips of its plane loop, and the wrappers that open a tile's scoped buffers and
  semaphores.  Between trips the next plane's copy is in flight on the plane semaphore, the previous trip's second
  write-back is in flight on the write-back semaphore (none before the first trip), the row-number scratch holds the row
  numbers of the carried table, and every plane handled so far is at the lookup's values in the output.
-/
import proofs.«204046_g18683107737843_cont_8to1_103_43_alg».proof.Proof.KITileDefs
import proofs.«204046_g18683107737843_cont_8to1_103_43_alg».proof.Proof.KIDma
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The tile's three DMA semaphores in use: the plane copies', the write-backs', the row-number copy's. -/
abbrev pCell : GSem nD τ sig := (thr d L, .dma cc0_scratch3.sem)
abbrev oCell : GSem nD τ sig := (thr d L, .dma cc0_scratch5.sem)
abbrev xCell : GSem nD τ sig := (thr d L, .dma cc0_scoped0.sem)

omit m in
theorem ownSems0_V :
    (ownSems0 (thr d L) : sProp 𝕄)
      = iprop(semVal (pCell d L) 0 ∗ semVal (oCell d L) 0 ∗ semVal (xCell d L) 0
          ∗ bigSep ((((ownCells (thr d L)).erase (pCell d L)).erase (oCell d L)).erase (xCell d L)) fun g => semVal g 0) := by
  unfold SparseCore.Cfg.ownSems0
  rw [SparseCore.bigSep_erase' ((mem_ownCells (g := pCell d L)).mpr ⟨rfl, by
      show (SemLoc.dma cc0_scratch3.sem : SemLoc sig).isScoped .scVector = true; decide⟩),
    SparseCore.bigSep_erase' (Finset.mem_erase.mpr ⟨by simp [pCell, oCell]; decide, (mem_ownCells (g := oCell d L)).mpr ⟨rfl, by
      show (SemLoc.dma cc0_scratch5.sem : SemLoc sig).isScoped .scVector = true; decide⟩⟩),
    SparseCore.bigSep_erase' (Finset.mem_erase.mpr ⟨by simp [oCell, xCell]; decide, Finset.mem_erase.mpr ⟨by simp [pCell, xCell]; decide,
      (mem_ownCells (g := xCell d L)).mpr ⟨rfl, by show (SemLoc.dma cc0_scoped0.sem : SemLoc sig).isScoped .scVector = true; decide⟩⟩⟩)]

omit m in
/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_t (S : Finset S26x32x100000.Idx) (q : PosShare TreeShare) (f : Buf (Elt F) (v0Loc d)) :
    ((tW).view.loc (thr d L) ↦[S]{q} f : sProp 𝕄) = (v0Loc d ↦[S]{q} f) := rfl
omit [FloatOps F] in
theorem pts_x (S : Finset S26x16384.Idx) (q : PosShare TreeShare) (f : Buf (Elt F) (v1Loc d)) :
    ((xW).view.loc (thr d L) ↦[S]{q} f : sProp 𝕄) = (v1Loc d ↦[S]{q} f) := rfl
omit [FloatOps F] in
theorem pts_o (S : Finset S26x4x128x8x128.Idx) (q : PosShare TreeShare) (f : Buf (Elt F) (v2Loc d)) :
    ((oW).view.loc (thr d L) ↦[S]{q} f : sProp 𝕄) = (v2Loc d ↦[S]{q} f) := rfl
omit [FloatOps F] in
theorem pts_sP (f : Buf (Elt F) ((thr d L).loc cc0_scratch0)) :
    ((sP).view.loc (thr d L) ↦{fullShare} f : sProp 𝕄) = ((thr d L).loc cc0_scratch0 ↦{fullShare} f) := rfl
omit [FloatOps F] in
theorem pts_sX (f : Buf (Elt F) ((thr d L).loc cc0_scratch1)) :
    ((sX).view.loc (thr d L) ↦{fullShare} f : sProp 𝕄) = ((thr d L).loc cc0_scratch1 ↦{fullShare} f) := rfl
omit [FloatOps F] in
theorem pts_sB (f : Buf (Elt F) ((thr d L).loc cc0_scratch2)) :
    ((sB).view.loc (thr d L) ↦{fullShare} f : sProp 𝕄) = ((thr d L).loc cc0_scratch2 ↦{fullShare} f) := rfl

/-- The destination of the first and of the second half plane's write-back at trip `k`. -/
abbrev outM0 (L : grid0.Coords) (k : Fin k0_t1_loop.trips) : Memref sig .scVector .hbm S64x1x128 .f32 :=
  ((oW).slice (Rect.unit (s := S26x4x128x8x128) (k0_off20 L k) S1x1x64x1x128.size (k0_off20_inb L k)) (fun _ => rfl)).squeeze S64x1x128 squeezes_S1x1x64x1x128_S64x1x128
abbrev outM1 (L : grid0.Coords) (k : Fin k0_t1_loop.trips) : Memref sig .scVector .hbm S64x1x128 .f32 :=
  ((oW).slice (Rect.unit (s := S26x4x128x8x128) (k0_off38 L k) S1x1x64x1x128.size (k0_off38_inb L k)) (fun _ => rfl)).squeeze S64x1x128 squeezes_S1x1x64x1x128_S64x1x128

/-! ## A trip of the plane loop -/

section Trip

variable (q : PosShare TreeShare) (O : CellTallies nD τ sig (HIx 1)) (W : Waits sig (HIx 1))

/-- The worker's first plane number as the body computes it. -/
def V2 (L : grid0.Coords) : BitVec 32 :=
  Scalar.muli (Scalar.addi (Scalar.muli (BitVec.ofNat 32 (L 1).val) 2#32) (BitVec.ofNat 32 (L 0).val)) 26#32

omit [FloatOps F] in
/-- The table of trip `k`'s plane, as the body computes it. -/
theorem v16_toNat (k : Fin k0_t1_loop.trips) :
    (Scalar.divsi (Scalar.addi (V2 L) (Scf.iv 0#32 1#32 k)) 32#32).toNat = (bs L + k.val) / 32 := by
  have h : (k0_off3 L k) 0 = (52 * (L 1).val + 26 * (L 0).val + k.val) / 32 := by rw [k0_off3_eq]; rfl
  exact h

/-- What the tile holds of the plane copies between trips: the next plane's copy in flight, none after the last trip. -/
def planeSt (k : ℕ) : sProp 𝕄 :=
  if k < 26 then
    iprop(∃ (Sp : Finset S26x32x100000.Idx) (fpl : Buf (Elt F) ((thr d L).loc cc0_scratch0)),
      Transfers.Flight countersEmb (thr d L) (SemLoc.dma cc0_scratch3.sem) (default : HIx 1) 3200000
          iprop(((thr d L).loc cc0_scratch0 ↦{fullShare} fpl) ∗ (v0Loc d ↦[Sp]{q} T0 m d))
        ∗ (v0Loc d ↦[Finset.univ \ Sp]{q} T0 m d) ∗ ⌜fpl = planeFn m d (bs L + k)⌝)
  else
    iprop(semVal (pCell d L) 0 ∗ (∃ fpl : Buf (Elt F) ((thr d L).loc cc0_scratch0), (thr d L).loc cc0_scratch0 ↦{fullShare} fpl)
      ∗ (v0Loc d ↦{q} T0 m d))

/-- What the tile holds of the write-backs between trips: nothing outstanding before the first trip, the second half
    plane of the previous trip in flight afterwards. -/
def outSt (k : ℕ) : sProp 𝕄 :=
  if k = 0 then
    iprop((∃ fb : Buf (Elt F) ((thr d L).loc cc0_scratch2), (thr d L).loc cc0_scratch2 ↦{fullShare} fb) ∗ semVal (oCell d L) 0
      ∗ ∃ fo : Buf (Elt F) (v2Loc d), (v2Loc d ↦[TS L]{fullShare} fo) ∗ ⌜Done m d L fo (bs L) 0⌝)
  else
    iprop(∃ (So : Finset S26x4x128x8x128.Idx) (fo : Buf (Elt F) (v2Loc d)) (fb : Buf (Elt F) ((thr d L).loc cc0_scratch2)),
      Transfers.Flight countersEmb (thr d L) (SemLoc.dma cc0_scratch5.sem) (default : HIx 1) 262144
          iprop((v2Loc d ↦[So]{fullShare} fo) ∗ ((thr d L).loc cc0_scratch2 ↦{fullShare} fb))
        ∗ (v2Loc d ↦[TS L \ So]{fullShare} fo) ∗ ⌜So ⊆ TS L⌝ ∗ ⌜Done m d L fo (bs L + k) 0⌝)

/-- The plane loop's invariant at trip `k` with carried table `a`: plane `k`'s copy in flight, the row-number scratch
    at the carried table's row numbers, the previous write-back in flight, every earlier plane written. -/
def invO (k : ℕ) (a : BitVec 32) : sProp 𝕄 :=
  iprop(Transfers.MayWaits (thr d L) (none : HIx 1) O
    ∗ planeSt m d L q k
    ∗ (v1Loc d ↦{q} X1 m d)
    ∗ (∃ fx : Buf (Elt F) ((thr d L).loc cc0_scratch1), ((thr d L).loc cc0_scratch1 ↦{fullShare} fx)
        ∗ ⌜(k = 0 → a.toNat = 4294967295) ∧ (k ≠ 0 → a.toNat = (bs L + k - 1) / 32 ∧ fx = xrowFn m d ((bs L + k - 1) / 32))⌝)
    ∗ semVal (xCell d L) 0
    ∗ outSt m d L k
    ∗ ∃ W', ⌜∀ p ∈ W', p ∈ W ∨ p.2 = none⌝ ∗ owes (thr d L) O W')

/-- The state in the middle of trip `k`, after the first half plane's write-back is issued. -/
def midSt (k : Fin k0_t1_loop.trips) (x : Σ' (_ : BitVec 32) (_ : BitVec 32), BitVec 32) : sProp 𝕄 :=
  iprop(Transfers.MayWaits (thr d L) (none : HIx 1) O
    ∗ ⌜x.2.2.toNat = (bs L + k.val) / 32⌝
    ∗ ((thr d L).loc cc0_scratch0 ↦{fullShare} planeFn m d (bs L + k.val))
    ∗ (v0Loc d ↦{q} T0 m d) ∗ (v1Loc d ↦{q} X1 m d)
    ∗ ((thr d L).loc cc0_scratch1 ↦{fullShare} xrowFn m d ((bs L + k.val) / 32))
    ∗ semVal (pCell d L) 0 ∗ semVal (xCell d L) 0
    ∗ (∃ (fo : Buf (Elt F) (v2Loc d)) (fb : Buf (Elt F) ((thr d L).loc cc0_scratch2)),
        Transfers.Flight countersEmb (thr d L) (SemLoc.dma cc0_scratch5.sem) (default : HIx 1) 262144
            iprop((v2Loc d ↦[(outM0 L k).view.set]{fullShare} fo) ∗ ((thr d L).loc cc0_scratch2 ↦{fullShare} fb))
          ∗ (v2Loc d ↦[TS L \ (outM0 L k).view.set]{fullShare} fo) ∗ ⌜Done m d L fo (bs L + k.val) 1⌝)
    ∗ ∃ W', ⌜∀ p ∈ W', p ∈ W ∨ p.2 = none⌝ ∗ owes (thr d L) O W')

end Trip
end Tile
end Cert.Proof.KI
end
-- ==== Proof.KIDone.lean ====
/-
  The planes a tile has finished, as its trips go.

  The tile at grid coordinates `L` is worker `w = 2 (L 1) + (L 0)`; its planes are `26 w … 26 w + 25`, its output
  elements those of these planes.  Trip `k` writes plane `n = 26 w + k` in two halves: half `h` is the rectangle of the
  output array at `(n / 32, n % 32 / 8, 64 h, n % 32 % 8, 0)` of sizes `(1, 1, 64, 1, 128)`, all of whose elements are on
  plane `n` (so the tile's own), and it receives the block buffer, which holds at `(f, 0, l)` the plane's entry at the row
  number of example `8192 h + 128 f + l`: at an element `j` of the rectangle that is the plane at the row number of
  example `128 (j 2) + (j 4)`, the lookup's value there.  Elements outside the rectangle keep what they held.  So "done
  up to plane `n`, half `h`" goes to "half `h + 1`" by one write-back; two halves are a plane; before the first trip
  nothing is asked; after 26 planes every element of the tile is at the lookup's value.
-/
import proofs.«204046_g18683107737843_cont_8to1_103_43_alg».proof.Proof.KITileDefs
import proofs.«204046_g18683107737843_cont_8to1_103_43_alg».proof.Proof.KIDma
import Idealize.ShloMosaic.Lib.Writes

noncomputable section

namespace Cert.Proof.KI

open Cert.KernelIdeal Cert.KernelIdeal.Gen

open Idealize.ShloMosaic Idealize.ShloMosaic.ValueIdx
open Idealize.SL.Sem
open Cert.Lookup

variable {F : FTy → Type}

local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

/-- One piece at the whole rectangle is one write through the view. -/
theorem out_writes_eq (fo : S26x4x128x8x128.Idx → Elt F .f32) (w : S64x1x128.Idx → Elt F .f32) (off : Fin 5 → ℕ)
    (inb : ∀ a, off a + S1x1x64x1x128.size a ≤ S26x4x128x8x128.size a) :
    (outV off inb).writes (Elt F) fo [⟨Rect.whole S64x1x128, w⟩] = View.write (Elt F) (outV off inb) fo w Finset.univ := by
  rw [View.writes_singleton]
  have he : ((outV off inb).slice (Rect.whole S64x1x128)).emb = (outV off inb).emb :=
    Function.Embedding.ext fun x => by
      show (outV off inb).emb ((Rect.whole S64x1x128).emb x) = _
      rw [Rect.emb_whole_apply]
  unfold View.write
  rw [he]
  rfl

theorem trips_t1 : Scf.trips k0_t1_loop.lb k0_t1_loop.ub k0_t1_loop.st = 26 := by decide

variable (m : (ℓ : Loc nD τ sig) → Buf (Elt F) ℓ) [FloatOps F] (d : Dev nD) (L : grid0.Coords)

omit [FloatOps F] in
/-- The grid has two SparseCores of sixteen vector subcores. -/
theorem L_lt (L : grid0.Coords) : (L 0).val < 2 ∧ (L 1).val < 16 := ⟨(L 0).isLt, (L 1).isLt⟩

omit [FloatOps F] in
/-- An output element's plane, from its coordinates (for `omega`). -/
theorem planeOf_eq (j : S26x4x128x8x128.Idx) : planeOf j = (j 0).val * 32 + (j 1).val * 8 + (j 3).val ∧ (j 0).val < 26 ∧ (j 1).val < 4
    ∧ (j 2).val < 128 ∧ (j 3).val < 8 ∧ (j 4).val < 128 :=
  ⟨rfl, (j 0).isLt, (j 1).isLt, (j 2).isLt, (j 3).isLt, (j 4).isLt⟩

omit [FloatOps F] in
/-- The tile's elements are those of its 26 planes. -/
theorem mem_TS (L : grid0.Coords) (j : S26x4x128x8x128.Idx) : j ∈ TS L ↔ planeOf j / 26 = 2 * (L 1).val + (L 0).val := by
  simp only [tileSet, Finset.mem_filter, Finset.mem_univ, true_and]

omit [FloatOps F] in
/-- Half `h` of trip `k`'s plane lies among the tile's elements. -/
theorem out_sub (k : Fin k0_t1_loop.trips) (off : Fin 5 → ℕ) (inb : ∀ a, off a + S1x1x64x1x128.size a ≤ S26x4x128x8x128.size a) (h : ℕ)
    (hoff : off = ![(bs L + k.val) / 32, (bs L + k.val) % 32 / 8, 64 * h, (bs L + k.val) % 32 % 8, 0]) : (outV off inb).set ⊆ TS L := by
  intro j hj
  have hk : k.val < 26 := lt_of_lt_of_eq k.isLt trips_t1
  have hL := L_lt L
  have hp := planeOf_eq j
  have H := (out_mem off inb ((bs L + k.val) / 32) ((bs L + k.val) % 32 / 8) h ((bs L + k.val) % 32 % 8)
    (congrFun hoff 0) (congrFun hoff 1) (congrFun hoff 2) (congrFun hoff 3) (congrFun hoff 4) j).mp hj
  have hbs : bs L = 52 * (L 1).val + 26 * (L 0).val := rfl
  rw [mem_TS]
  omega

/-- The value at an output element, from the plane and the row numbers read at matching places. -/
theorem O2_eq_of (j : S26x4x128x8x128.Idx) (a a' : Fin 26) (b : Fin 32) (e' : Fin 16384) (p : (X1 m d (ix2 a' e') : BitVec 32).toNat < 100000)
    (ha : a = j 0) (ha' : a' = j 0) (hb : b = entryOf j) (he : e' = exampleOf j) :
    T0 m d (ix3 a b ⟨(X1 m d (ix2 a' e') : BitVec 32).toNat, p⟩) = O2 m d j := by
  subst ha ha' hb he
  unfold O2 OUT5
  exact congrArg (T0 m d) (congrArg (ix3 (j 0) (entryOf j)) (Fin.ext (row_val p).symm))

/-- One write-back finishes one more half of the trip's plane. -/
theorem done_step (k : Fin k0_t1_loop.trips) (h : ℕ) (hh : h < 2) (hInR : ∀ j, ((X1 m d j : BitVec 32)).toNat < 100000)
    (fo : S26x4x128x8x128.Idx → Elt F .f32) (fb : S64x1x128.Idx → Elt F .f32) (fpl : S100000.Idx → Elt F .f32) (fx : S16384.Idx → BitVec 32) (hfx : ∀ j, (fx j).toNat < 100000)
    (hfpl : fpl = planeFn m d (bs L + k.val)) (hfxv : fx = xrowFn m d ((bs L + k.val) / 32))
    (hfb : ∀ y, fb y = blkFn (8192 * h) fpl fx hfx (by omega) y) (hdone : Done m d L fo (bs L + k.val) h)
    (off : Fin 5 → ℕ) (inb : ∀ a, off a + S1x1x64x1x128.size a ≤ S26x4x128x8x128.size a)
    (hoff : off = ![(bs L + k.val) / 32, (bs L + k.val) % 32 / 8, 64 * h, (bs L + k.val) % 32 % 8, 0]) :
    Done m d L ((outV off inb).writes (Elt F) fo [⟨Rect.whole S64x1x128, ReadAs.same.apply (View.read (Elt F) (sB).view fb)⟩]) (bs L + k.val) (h + 1) := by
  intro j hjT hcov
  rw [out_writes_eq]
  have hk : k.val < 26 := lt_of_lt_of_eq k.isLt trips_t1
  have hL := L_lt L
  have hp := planeOf_eq j
  have hm := out_mem off inb ((bs L + k.val) / 32) ((bs L + k.val) % 32 / 8) h ((bs L + k.val) % 32 % 8)
    (congrFun hoff 0) (congrFun hoff 1) (congrFun hoff 2) (congrFun hoff 3) (congrFun hoff 4) j
  have h2 : off 2 = 64 * h := congrFun hoff 2
  have h4 : off 4 = 0 := congrFun hoff 4
  have hbs : bs L = 52 * (L 1).val + 26 * (L 0).val := rfl
  by_cases hmem : j ∈ (outV off inb).set
  · rw [out_write_mem fo fb off inb h h2 h4 j hmem, hfb]
    have H := hm.mp hmem
    subst hfpl hfxv
    refine O2_eq_of m d j _ _ _ _ (hInR _) (Fin.ext ?_) (Fin.ext ?_) (Fin.ext ?_) (Fin.ext ?_)
    · show (bs L + k.val) / 32 % 26 = (j 0).val; omega
    · show (bs L + k.val) / 32 % 26 = (j 0).val; omega
    · show (bs L + k.val) % 32 = (j 1).val * 8 + (j 3).val; omega
    · show 8192 * h + 128 * ((j 2).val - 64 * h) + (j 4).val = (j 2).val * 128 + (j 4).val; omega
  · rw [out_write_not_mem fo _ off inb j hmem]
    refine hdone j hjT ?_
    have hnm := mt hm.mpr hmem
    rcases hcov with hlt | ⟨heq, hlt⟩
    · exact Or.inl hlt
    · refine Or.inr ⟨heq, ?_⟩
      by_contra hge
      exact hnm ⟨by omega, by omega, by omega, by omega⟩

/-- Two halves are a plane. -/
theorem done_next (fo : S26x4x128x8x128.Idx → Elt F .f32) (n : ℕ) (h : Done m d L fo n 2) : Done m d L fo (n + 1) 0 := by
  intro j hjT hcov
  have hp := planeOf_eq j
  exact h j hjT (by omega)

/-- Before the first trip nothing is asked. -/
theorem done_init (fo : S26x4x128x8x128.Idx → Elt F .f32) : Done m d L fo (bs L) 0 := by
  intro j hjT hcov
  have hT := (mem_TS L j).mp hjT
  have hbs : bs L = 52 * (L 1).val + 26 * (L 0).val := rfl
  omega

/-- After the 26 planes every element of the tile is at the lookup's value. -/
theorem done_all (fo : S26x4x128x8x128.Idx → Elt F .f32) (h : Done m d L fo (bs L + 26) 0) : ∀ j ∈ TS L, fo j = O2 m d j := by
  intro j hjT
  have hT := (mem_TS L j).mp hjT
  have hbs : bs L = 52 * (L 1).val + 26 * (L 0).val := rfl
  exact h j hjT (by omega)

end Cert.Proof.KI

end
-- ==== Proof.KITrip5.lean ====
/-
  The first half of a trip of a tile's plane loop, and the lookups of half a plane.

  A trip handles one plane (one entry of one table over all 100000 rows): the plane's copy lands in the plane scratch;
  if the plane's table differs from the carried one, that feature's 16384 row numbers are copied into the row-number
  scratch; the previous trip's outstanding write-back is drained; then, twice, 64 rows of 128 lookups (the plane scratch
  read at the row numbers, sixteen at a time) fill the block buffer, which is written back as half a plane of the output.
-/
import proofs.«204046_g18683107737843_cont_8to1_103_43_alg».proof.Proof.KITripDefs
import proofs.«204046_g18683107737843_cont_8to1_103_43_alg».proof.Proof.KIDone
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

section Tile

variable (d : Dev nD) (L : grid0.Coords)

variable [FloatOps F]

variable [FloatOps F]

/-! ## One half plane's lookups: the block buffer row by row

Row `f` of the block buffer `[64, 1, 128]` receives, at lane `l`, the plane scratch read at the row number found at
`base + 128 f + l` of the row-number scratch (`base` is 0 for the first half of the examples, 8192 for the second). -/

omit [FloatOps F] in
/-- One store of a trip: sixteen lanes of row `k` from lane `16 j`, each the plane scratch at the row number read from
    the row-number scratch at `base + 128 k + 16 j + lane`. -/
theorem piece_val (base : ℕ) (fp : S100000.Idx → Elt F .f32) (fx : S16384.Idx → BitVec 32) (hfx : ∀ j, (fx j).toNat < 100000)
    (hb : base + 8192 ≤ 16384) (k j : ℕ) (o : Fin 3 → ℕ) (io : Fin 1 → ℕ)
    (ho0 : o 0 = k) (ho2 : o 2 = 16 * j) (hio : io 0 = base + 128 * k + 16 * j)
    (inbo : ∀ a, o a + S1x1x16.size a ≤ S64x1x128.size a) (inbi : ∀ a, io a + S16.size a ≤ S16384.size a)
    (hchk : ∀ a x, ((![View.readAt (Elt F) (Memref.whole cc0_scratch1 : Memref sig .scVector .vmem S16384 .i32).view (Rect.unit (s := S16384) io S16.size inbi).toLoadRect fx] : Fin 1 → IVec S16 32) a x).toNat < S100000.size a)
    (x : (Rect.unit (s := S64x1x128) o S1x1x16.size inbo).shape.Idx) :
    shapeCast S1x1x16 (loadIdx (F := F) (View.readAt (Elt F) (Memref.whole cc0_scratch0 : Memref sig .scVector .vmem S100000 .f32).view (LoadRect.whole S100000) fp)
        ![View.readAt (Elt F) (Memref.whole cc0_scratch1 : Memref sig .scVector .vmem S16384 .i32).view (Rect.unit (s := S16384) io S16.size inbi).toLoadRect fx] hchk)
      shapeCasts_S16_S1x1x16 x
      = blkFn base fp fx hfx hb ((Rect.unit (s := S64x1x128) o S1x1x16.size inbo).emb x) := by
  have hA : View.readAt (Elt F) (Memref.whole cc0_scratch0 : Memref sig .scVector .vmem S100000 .f32).view (LoadRect.whole S100000) fp = fp :=
    Memref.readAt_whole (Elt F) cc0_scratch0 fp
  have hx0' : (x 0).val < 1 := (x 0).isLt
  have hx1' : (x 1).val < 1 := (x 1).isLt
  have hx2 : (x 2).val < 16 := (x 2).isLt
  refine (shapeCast_apply (s := S16) (t := S1x1x16) _ shapeCasts_S16_S1x1x16 x (ValueIdx.ix1 ⟨(x 2).val, hx2⟩) ?_).trans ?_
  · rw [Shape.rowMajor_val_one, Shape.rowMajor_val_three]
    show (x 2).val = ((x 0).val * 1 + (x 1).val) * 16 + (x 2).val
    omega
  unfold loadIdx blkFn
  rw [hA]
  refine congrArg fp (funext fun a => Fin.ext ?_)
  have ha' : a.val < 1 := a.isLt
  have ha : a = ⟨0, Nat.one_pos⟩ := Fin.ext (by show a.val = 0; omega)
  subst ha
  show ((View.readAt (Elt F) (Memref.whole cc0_scratch1 : Memref sig .scVector .vmem S16384 .i32).view
      (Rect.unit (s := S16384) io S16.size inbi).toLoadRect fx) (ValueIdx.ix1 ⟨(x 2).val, hx2⟩)).toNat = (fx _).toNat
  rw [View.readAt_apply]
  simp only [Memref.view_whole, View.read_whole]
  refine congrArg (fun w => (fx w).toNat) (funext fun b => Fin.ext ?_)
  have hb' : b.val < 1 := b.isLt
  have hb0 : b = ⟨0, Nat.one_pos⟩ := Fin.ext (by show b.val = 0; omega)
  subst hb0
  show io 0 + 1 * (x 2).val = base + 128 * (o 0 + 1 * (x 0).val) + (o 2 + 1 * (x 2).val)
  omega

omit [FloatOps F] in
/-- A trip fills row `k`: writes that all lie in row `k`, cover it, and hold the target's values there extend a block
    buffer right below row `k` to one right below row `k + 1`. -/
theorem blk_step (base : ℕ) (fp : S100000.Idx → Elt F .f32) (fx : S16384.Idx → BitVec 32) (hfx : ∀ j, (fx j).toNat < 100000)
    (hb : base + 8192 ≤ 16384) (k : ℕ) (Lp : List (View.Piece (Elt F) S64x1x128 .f32))
    (hrow : ∀ p ∈ Lp, ∀ y ∈ p.1.set, (y 0).val = k)
    (hval : ∀ p ∈ Lp, ∀ x : p.1.shape.Idx, p.2 x = blkFn base fp fx hfx hb (p.1.emb x))
    (hcov : ∀ y : S64x1x128.Idx, (y 0).val = k → ∃ p ∈ Lp, y ∈ p.1.set)
    (fb : S64x1x128.Idx → Elt F .f32) (hfb : ∀ y : S64x1x128.Idx, (y 0).val < k → fb y = blkFn base fp fx hfx hb y)
    (y : S64x1x128.Idx) (hy : (y 0).val < k + 1) :
    (Memref.whole cc0_scratch2 : Memref sig .scVector .vmem S64x1x128 .f32).view.writes (Elt F) fb Lp y = blkFn base fp fx hfx hb y := by
  by_cases hk : (y 0).val = k
  · exact View.read_writes_apply_of_pieces (Memref.whole cc0_scratch2 : Memref sig .scVector .vmem S64x1x128 .f32).view fb
      (blkFn base fp fx hfx hb) Lp hval y (hcov y hk)
  · have h1 := View.read_writes_apply_of_forall_not_mem (Memref.whole cc0_scratch2 : Memref sig .scVector .vmem S64x1x128 .f32).view fb y Lp
      (fun p hp hmem => hk (hrow p hp y hmem))
    exact h1.trans (hfb y (by omega))

omit [FloatOps F] in
/-- A store's rectangle: row `k`, lanes `16 j … 16 j + 15`. -/
theorem piece_mem (o : Fin 3 → ℕ) (inbo : ∀ a, o a + S1x1x16.size a ≤ S64x1x128.size a) (k j : ℕ)
    (ho0 : o 0 = k) (ho2 : o 2 = 16 * j) (y : S64x1x128.Idx) :
    y ∈ (Rect.unit (s := S64x1x128) o S1x1x16.size inbo).set ↔ (y 0).val = k ∧ (y 2).val / 16 = j := by
  rw [Rect.mem_set_unit]
  have h1 : (y 1).val < 1 := (y 1).isLt
  have i1 := inbo 1
  have e0 : S1x1x16.size 0 = 1 := rfl
  have e1 : S1x1x16.size 1 = 1 := rfl
  have e2 : S1x1x16.size 2 = 16 := rfl
  have f1 : S64x1x128.size 1 = 1 := rfl
  constructor
  · intro h
    have a0 := h 0; have a2 := h 2
    rw [e0] at a0; rw [e2] at a2
    constructor <;> omega
  · rintro ⟨hk, hj⟩ a
    match a with
    | 0 => rw [e0]; omega
    | 1 => rw [e1]; rw [e1, f1] at i1; omega
    | 2 => rw [e2]; omega

omit [FloatOps F] in
/-- Sixteen row numbers all below 100000 pass the index check of the plane scratch. -/
theorem chk_ok (w : IVec S16 32) (hw : ∀ x, (w x).toNat < 100000) :
    ∀ (a : Fin 1) (x : S16.Idx), ((![w] : Fin 1 → IVec S16 32) a x).toNat < S100000.size a := by
  intro a x
  have ha' : a.val < 1 := a.isLt
  have ha : a = ⟨0, Nat.one_pos⟩ := Fin.ext (by show a.val = 0; omega)
  subst ha
  exact hw x

/-- The rows of the block buffer filled so far, with the plane and the row numbers they are read from. -/
def invG_t2 (fp : Buf (Elt F) ((thr d L).loc cc0_scratch0)) (fx : Buf (Elt F) ((thr d L).loc cc0_scratch1))
    (hfx : ∀ j : S16384.Idx, ((fx j : BitVec 32)).toNat < 100000) (k : ℕ) (_ : Unit) : sProp 𝕄 :=
  iprop(((sP).view.loc (thr d L) ↦{fullShare} fp) ∗ ((sX).view.loc (thr d L) ↦{fullShare} fx)
    ∗ ∃ fb : Buf (Elt F) ((thr d L).loc cc0_scratch2), ((sB).view.loc (thr d L) ↦{fullShare} fb)
        ∗ ⌜∀ y : S64x1x128.Idx, (y 0).val < k → fb y = blkFn 0 fp fx hfx (by omega) y⌝)

theorem trips_t2 : Scf.trips k0_t2_loop.lb k0_t2_loop.ub k0_t2_loop.st = 64 := by decide

/-- The lookups of one half plane: the loop over the 64 rows of the block buffer leaves it at the target contents. -/
theorem gather_t2 {α : Type} (v2 c0 c1 a12 : BitVec 32) (t1 : Fin k0_t1_loop.trips)
    (fp : Buf (Elt F) ((thr d L).loc cc0_scratch0)) (fx : Buf (Elt F) ((thr d L).loc cc0_scratch1)) (fb : Buf (Elt F) ((thr d L).loc cc0_scratch2))
    (hfx : ∀ j : S16384.Idx, ((fx j : BitVec 32)).toNat < 100000)
    (kont : Unit → Prog (TpuEff nD τ sig (Elt F) Λ₀ (thr d L).2) α) (Q : α → sProp 𝕄) :
    (iprop(((thr d L).loc cc0_scratch0 ↦{fullShare} fp) ∗ ((thr d L).loc cc0_scratch1 ↦{fullShare} fx) ∗ ((thr d L).loc cc0_scratch2 ↦{fullShare} fb)) : sProp 𝕄)
      ⊢ iprop((∀ fb' : Buf (Elt F) ((thr d L).loc cc0_scratch2), ⌜∀ y : S64x1x128.Idx, fb' y = blkFn 0 fp fx hfx (by omega) y⌝
            -∗ ((thr d L).loc cc0_scratch0 ↦{fullShare} fp) -∗ ((thr d L).loc cc0_scratch1 ↦{fullShare} fx) -∗ ((thr d L).loc cc0_scratch2 ↦{fullShare} fb')
            -∗ wp frame (wpE (defs₀ (F := F)) 𝒱₀ (thr d L) none) Set.univ (kont ()) Q)
        -∗ wp frame (wpE (defs₀ (F := F)) 𝒱₀ (thr d L) none) Set.univ
          (k0_t2_loop.for k0_t2_ok () (k0_t2_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 v2 c0 c1 t1 a12) >>= kont) Q) := by
  iintro ⟨Hp, Hx, Hb⟩ Hk
  ihave Hp' := (Entails.of_eq (show ((sP).view.loc (thr d L) ↦{fullShare} fp : sProp 𝕄) = ((thr d L).loc cc0_scratch0 ↦{fullShare} fp) from rfl).symm) $$ Hp
  ihave Hx' := (Entails.of_eq (show ((sX).view.loc (thr d L) ↦{fullShare} fx : sProp 𝕄) = ((thr d L).loc cc0_scratch1 ↦{fullShare} fx) from rfl).symm) $$ Hx
  ihave Hb' := (Entails.of_eq (show ((sB).view.loc (thr d L) ↦{fullShare} fb : sProp 𝕄) = ((thr d L).loc cc0_scratch2 ↦{fullShare} fb) from rfl).symm) $$ Hb
  sl_for (invG_t2 d L fp fx hfx) $$ [Hp' Hx' Hb']
  case region =>
    intro k _
    unfold gather_t2.sl.prog.body_1 k0_t2_body
    simp only [k0_part1_eq_skeleton, k0_part2_eq_skeleton]; unfold k0_part1_skel k0_part2_skel
    simp only [SparseCore.vectorLoadIdx_bind (thr d L)]
    unfold invG_t2
    iintro ⟨Hp, Hx, %fb', Hb, %hfb'⟩
    sl_exec (disch := exact chk_ok _ (fun x => hfx _))
    sl_step
    isplitl [Hp]; · iexact Hp
    isplitl [Hx]; · iexact Hx
    iexists _; isplitl [Hb]; · iexact Hb
    ipureintro
    intro y hy
    refine blk_step 0 fp fx hfx (by omega) k.val _ ?hrow ?hval ?hcov fb' hfb' y hy
    case hval =>
      intro p hp x
      simp only [List.mem_cons, List.not_mem_nil, _root_.or_false] at hp
      rcases hp with rfl | rfl | rfl | rfl | rfl | rfl | rfl | rfl
      · exact piece_val 0 fp fx hfx (by omega) k.val 7 (k0_off19 k) (k0_off18 k) (by rw [k0_off19_eq]; rfl) (by rw [k0_off19_eq]; rfl) (by rw [k0_off18_eq]; simp only [Matrix.cons_val_zero]; omega) (k0_off19_inb k) (k0_off18_inb k) _ x
      · exact piece_val 0 fp fx hfx (by omega) k.val 6 (k0_off17 k) (k0_off16 k) (by rw [k0_off17_eq]; rfl) (by rw [k0_off17_eq]; rfl) (by rw [k0_off16_eq]; simp only [Matrix.cons_val_zero]; omega) (k0_off17_inb k) (k0_off16_inb k) _ x
      · exact piece_val 0 fp fx hfx (by omega) k.val 5 (k0_off15 k) (k0_off14 k) (by rw [k0_off15_eq]; rfl) (by rw [k0_off15_eq]; rfl) (by rw [k0_off14_eq]; simp only [Matrix.cons_val_zero]; omega) (k0_off15_inb k) (k0_off14_inb k) _ x
      · exact piece_val 0 fp fx hfx (by omega) k.val 4 (k0_off13 k) (k0_off12 k) (by rw [k0_off13_eq]; rfl) (by rw [k0_off13_eq]; rfl) (by rw [k0_off12_eq]; simp only [Matrix.cons_val_zero]; omega) (k0_off13_inb k) (k0_off12_inb k) _ x
      · exact piece_val 0 fp fx hfx (by omega) k.val 3 (k0_off11 k) (k0_off10 k) (by rw [k0_off11_eq]; rfl) (by rw [k0_off11_eq]; rfl) (by rw [k0_off10_eq]; simp only [Matrix.cons_val_zero]; omega) (k0_off11_inb k) (k0_off10_inb k) _ x
      · exact piece_val 0 fp fx hfx (by omega) k.val 2 (k0_off9 k) (k0_off8 k) (by rw [k0_off9_eq]; rfl) (by rw [k0_off9_eq]; rfl) (by rw [k0_off8_eq]; simp only [Matrix.cons_val_zero]; omega) (k0_off9_inb k) (k0_off8_inb k) _ x
      · exact piece_val 0 fp fx hfx (by omega) k.val 1 (k0_off7 k) (k0_off6 k) (by rw [k0_off7_eq]; rfl) (by rw [k0_off7_eq]; rfl) (by rw [k0_off6_eq]; simp only [Matrix.cons_val_zero]; omega) (k0_off7_inb k) (k0_off6_inb k) _ x
      · exact piece_val 0 fp fx hfx (by omega) k.val 0 (k0_off5 k) (k0_off4 k) (by rw [k0_off5_eq]; rfl) (by rw [k0_off5_eq]; rfl) (by rw [k0_off4_eq]; simp only [Matrix.cons_val_zero]; omega) (k0_off5_inb k) (k0_off4_inb k) _ x
    case hrow =>
      intro p hp y hy
      simp only [List.mem_cons, List.not_mem_nil, _root_.or_false] at hp
      rcases hp with rfl | rfl | rfl | rfl | rfl | rfl | rfl | rfl
      · exact ((piece_mem (k0_off19 k) (k0_off19_inb k) k.val 7 (by rw [k0_off19_eq]; rfl) (by rw [k0_off19_eq]; rfl) y).mp hy).1
      · exact ((piece_mem (k0_off17 k) (k0_off17_inb k) k.val 6 (by rw [k0_off17_eq]; rfl) (by rw [k0_off17_eq]; rfl) y).mp hy).1
      · exact ((piece_mem (k0_off15 k) (k0_off15_inb k) k.val 5 (by rw [k0_off15_eq]; rfl) (by rw [k0_off15_eq]; rfl) y).mp hy).1
      · exact ((piece_mem (k0_off13 k) (k0_off13_inb k) k.val 4 (by rw [k0_off13_eq]; rfl) (by rw [k0_off13_eq]; rfl) y).mp hy).1
      · exact ((piece_mem (k0_off11 k) (k0_off11_inb k) k.val 3 (by rw [k0_off11_eq]; rfl) (by rw [k0_off11_eq]; rfl) y).mp hy).1
      · exact ((piece_mem (k0_off9 k) (k0_off9_inb k) k.val 2 (by rw [k0_off9_eq]; rfl) (by rw [k0_off9_eq]; rfl) y).mp hy).1
      · exact ((piece_mem (k0_off7 k) (k0_off7_inb k) k.val 1 (by rw [k0_off7_eq]; rfl) (by rw [k0_off7_eq]; rfl) y).mp hy).1
      · exact ((piece_mem (k0_off5 k) (k0_off5_inb k) k.val 0 (by rw [k0_off5_eq]; rfl) (by rw [k0_off5_eq]; rfl) y).mp hy).1
    case hcov =>
      intro y hyk
      have h2 : (y 2).val < 128 := (y 2).isLt
      rcases (show (y 2).val / 16 = 0 ∨ (y 2).val / 16 = 1 ∨ (y 2).val / 16 = 2 ∨ (y 2).val / 16 = 3 ∨ (y 2).val / 16 = 4
          ∨ (y 2).val / 16 = 5 ∨ (y 2).val / 16 = 6 ∨ (y 2).val / 16 = 7 by omega) with hj | hj | hj | hj | hj | hj | hj | hj
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem (k0_off5 k) (k0_off5_inb k) k.val 0 (by rw [k0_off5_eq]; rfl) (by rw [k0_off5_eq]; rfl) y).mpr ⟨hyk, hj⟩⟩
      · exact ⟨_, (List.mem_cons_of_mem _ (List.mem_cons_of_mem _ (List.mem_cons_of_mem _ (List.mem_cons_of_mem _ (List.mem_cons_of_mem _ (List.mem_cons_of_mem _ List.mem_cons_self)))))), (piece_mem (k0_off7 k) (k0_off7_inb k) k.val 1 (by rw [k0_off7_eq]; rfl) (by rw [k0_off7_eq]; rfl) y).mpr ⟨hyk, hj⟩⟩
      · exact ⟨_, (List.mem_cons_of_mem _ (List.mem_cons_of_mem _ (List.mem_cons_of_mem _ (List.mem_cons_of_mem _ (List.mem_cons_of_mem _ List.mem_cons_self))))), (piece_mem (k0_off9 k) (k0_off9_inb k) k.val 2 (by rw [k0_off9_eq]; rfl) (by rw [k0_off9_eq]; rfl) y).mpr ⟨hyk, hj⟩⟩
      · exact ⟨_, (List.mem_cons_of_mem _ (List.mem_cons_of_mem _ (List.mem_cons_of_mem _ (List.mem_cons_of_mem _ List.mem_cons_self)))), (piece_mem (k0_off11 k) (k0_off11_inb k) k.val 3 (by rw [k0_off11_eq]; rfl) (by rw [k0_off11_eq]; rfl) y).mpr ⟨hyk, hj⟩⟩
      · exact ⟨_, (List.mem_cons_of_mem _ (List.mem_cons_of_mem _ (List.mem_cons_of_mem _ List.mem_cons_self))), (piece_mem (k0_off13 k) (k0_off13_inb k) k.val 4 (by rw [k0_off13_eq]; rfl) (by rw [k0_off13_eq]; rfl) y).mpr ⟨hyk, hj⟩⟩
      · exact ⟨_, (List.mem_cons_of_mem _ (List.mem_cons_of_mem _ List.mem_cons_self)), (piece_mem (k0_off15 k) (k0_off15_inb k) k.val 5 (by rw [k0_off15_eq]; rfl) (by rw [k0_off15_eq]; rfl) y).mpr ⟨hyk, hj⟩⟩
      · exact ⟨_, (List.mem_cons_of_mem _ List.mem_cons_self), (piece_mem (k0_off17 k) (k0_off17_inb k) k.val 6 (by rw [k0_off17_eq]; rfl) (by rw [k0_off17_eq]; rfl) y).mpr ⟨hyk, hj⟩⟩
      · exact ⟨_, List.mem_cons_self, (piece_mem (k0_off19 k) (k0_off19_inb k) k.val 7 (by rw [k0_off19_eq]; rfl) (by rw [k0_off19_eq]; rfl) y).mpr ⟨hyk, hj⟩⟩
  · unfold invG_t2
    isplitl [Hp']; · iexact Hp'
    isplitl [Hx']; · iexact Hx'
    iexists fb; isplitl [Hb']; · iexact Hb'
    ipureintro; intro y hy; omega
  iintro %_ HI
  unfold gather_t2.sl.prog.cont_1 invG_t2
  icases HI with ⟨Hp, Hx, %fb', Hb, %hfb'⟩
  iapply Hk $$ [] [Hp] [Hx] [Hb]
  · ipureintro; intro y; refine hfb' y ?_; rw [trips_t2]; exact (y 0).isLt
  · iexact Hp
  · iexact Hx
  · iexact Hb

/-- The rows of the block buffer filled so far, with the plane and the row numbers they are read from. -/
def invG_t3 (fp : Buf (Elt F) ((thr d L).loc cc0_scratch0)) (fx : Buf (Elt F) ((thr d L).loc cc0_scratch1))
    (hfx : ∀ j : S16384.Idx, ((fx j : BitVec 32)).toNat < 100000) (k : ℕ) (_ : Unit) : sProp 𝕄 :=
  iprop(((sP).view.loc (thr d L) ↦{fullShare} fp) ∗ ((sX).view.loc (thr d L) ↦{fullShare} fx)
    ∗ ∃ fb : Buf (Elt F) ((thr d L).loc cc0_scratch2), ((sB).view.loc (thr d L) ↦{fullShare} fb)
        ∗ ⌜∀ y : S64x1x128.Idx, (y 0).val < k → fb y = blkFn 8192 fp fx hfx (by omega) y⌝)

theorem trips_t3 : Scf.trips k0_t3_loop.lb k0_t3_loop.ub k0_t3_loop.st = 64 := by decide

/-- The lookups of one half plane: the loop over the 64 rows of the block buffer leaves it at the target contents. -/
theorem gather_t3 {α : Type}
    (fp : Buf (Elt F) ((thr d L).loc cc0_scratch0)) (fx : Buf (Elt F) ((thr d L).loc cc0_scratch1)) (fb : Buf (Elt F) ((thr d L).loc cc0_scratch2))
    (hfx : ∀ j : S16384.Idx, ((fx j : BitVec 32)).toNat < 100000)
    (kont : Unit → Prog (TpuEff nD τ sig (Elt F) Λ₀ (thr d L).2) α) (Q : α → sProp 𝕄) :
    (iprop(((thr d L).loc cc0_scratch0 ↦{fullShare} fp) ∗ ((thr d L).loc cc0_scratch1 ↦{fullShare} fx) ∗ ((thr d L).loc cc0_scratch2 ↦{fullShare} fb)) : sProp 𝕄)
      ⊢ iprop((∀ fb' : Buf (Elt F) ((thr d L).loc cc0_scratch2), ⌜∀ y : S64x1x128.Idx, fb' y = blkFn 8192 fp fx hfx (by omega) y⌝
            -∗ ((thr d L).loc cc0_scratch0 ↦{fullShare} fp) -∗ ((thr d L).loc cc0_scratch1 ↦{fullShare} fx) -∗ ((thr d L).loc cc0_scratch2 ↦{fullShare} fb')
            -∗ wp frame (wpE (defs₀ (F := F)) 𝒱₀ (thr d L) none) Set.univ (kont ()) Q)
        -∗ wp frame (wpE (defs₀ (F := F)) 𝒱₀ (thr d L) none) Set.univ
          (k0_t3_loop.for k0_t3_ok () (k0_t3_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0) >>= kont) Q) := by
  iintro ⟨Hp, Hx, Hb⟩ Hk
  ihave Hp' := (Entails.of_eq (show ((sP).view.loc (thr d L) ↦{fullShare} fp : sProp 𝕄) = ((thr d L).loc cc0_scratch0 ↦{fullShare} fp) from rfl).symm) $$ Hp
  ihave Hx' := (Entails.of_eq (show ((sX).view.loc (thr d L) ↦{fullShare} fx : sProp 𝕄) = ((thr d L).loc cc0_scratch1 ↦{fullShare} fx) from rfl).symm) $$ Hx
  ihave Hb' := (Entails.of_eq (show ((sB).view.loc (thr d L) ↦{fullShare} fb : sProp 𝕄) = ((thr d L).loc cc0_scratch2 ↦{fullShare} fb) from rfl).symm) $$ Hb
  sl_for (invG_t3 d L fp fx hfx) $$ [Hp' Hx' Hb']
  case region =>
    intro k _
    unfold gather_t3.sl.prog.body_1 k0_t3_body
    simp only [k0_part3_eq_skeleton, k0_part4_eq_skeleton]; unfold k0_part3_skel k0_part4_skel
    simp only [SparseCore.vectorLoadIdx_bind (thr d L)]
    unfold invG_t3
    iintro ⟨Hp, Hx, %fb', Hb, %hfb'⟩
    sl_exec (disch := exact chk_ok _ (fun x => hfx _))
    sl_step
    isplitl [Hp]; · iexact Hp
    isplitl [Hx]; · iexact Hx
    iexists _; isplitl [Hb]; · iexact Hb
    ipureintro
    intro y hy
    refine blk_step 8192 fp fx hfx (by omega) k.val _ ?hrow ?hval ?hcov fb' hfb' y hy
    case hval =>
      intro p hp x
      simp only [List.mem_cons, List.not_mem_nil, _root_.or_false] at hp
      rcases hp with rfl | rfl | rfl | rfl | rfl | rfl | rfl | rfl
      · exact piece_val 8192 fp fx hfx (by omega) k.val 7 (k0_off36 k) (k0_off35 k) (by rw [k0_off36_eq]; rfl) (by rw [k0_off36_eq]; rfl) (by rw [k0_off35_eq]; simp only [Matrix.cons_val_zero]; omega) (k0_off36_inb k) (k0_off35_inb k) _ x
      · exact piece_val 8192 fp fx hfx (by omega) k.val 6 (k0_off34 k) (k0_off33 k) (by rw [k0_off34_eq]; rfl) (by rw [k0_off34_eq]; rfl) (by rw [k0_off33_eq]; simp only [Matrix.cons_val_zero]; omega) (k0_off34_inb k) (k0_off33_inb k) _ x
      · exact piece_val 8192 fp fx hfx (by omega) k.val 5 (k0_off32 k) (k0_off31 k) (by rw [k0_off32_eq]; rfl) (by rw [k0_off32_eq]; rfl) (by rw [k0_off31_eq]; simp only [Matrix.cons_val_zero]; omega) (k0_off32_inb k) (k0_off31_inb k) _ x
      · exact piece_val 8192 fp fx hfx (by omega) k.val 4 (k0_off30 k) (k0_off29 k) (by rw [k0_off30_eq]; rfl) (by rw [k0_off30_eq]; rfl) (by rw [k0_off29_eq]; simp only [Matrix.cons_val_zero]; omega) (k0_off30_inb k) (k0_off29_inb k) _ x
      · exact piece_val 8192 fp fx hfx (by omega) k.val 3 (k0_off28 k) (k0_off27 k) (by rw [k0_off28_eq]; rfl) (by rw [k0_off28_eq]; rfl) (by rw [k0_off27_eq]; simp only [Matrix.cons_val_zero]; omega) (k0_off28_inb k) (k0_off27_inb k) _ x
      · exact piece_val 8192 fp fx hfx (by omega) k.val 2 (k0_off26 k) (k0_off25 k) (by rw [k0_off26_eq]; rfl) (by rw [k0_off26_eq]; rfl) (by rw [k0_off25_eq]; simp only [Matrix.cons_val_zero]; omega) (k0_off26_inb k) (k0_off25_inb k) _ x
      · exact piece_val 8192 fp fx hfx (by omega) k.val 1 (k0_off24 k) (k0_off23 k) (by rw [k0_off24_eq]; rfl) (by rw [k0_off24_eq]; rfl) (by rw [k0_off23_eq]; simp only [Matrix.cons_val_zero]; omega) (k0_off24_inb k) (k0_off23_inb k) _ x
      · exact piece_val 8192 fp fx hfx (by omega) k.val 0 (k0_off22 k) (k0_off21 k) (by rw [k0_off22_eq]; rfl) (by rw [k0_off22_eq]; rfl) (by rw [k0_off21_eq]; simp only [Matrix.cons_val_zero]; omega) (k0_off22_inb k) (k0_off21_inb k) _ x
    case hrow =>
      intro p hp y hy
      simp only [List.mem_cons, List.not_mem_nil, _root_.or_false] at hp
      rcases hp with rfl | rfl | rfl | rfl | rfl | rfl | rfl | rfl
      · exact ((piece_mem (k0_off36 k) (k0_off36_inb k) k.val 7 (by rw [k0_off36_eq]; rfl) (by rw [k0_off36_eq]; rfl) y).mp hy).1
      · exact ((piece_mem (k0_off34 k) (k0_off34_inb k) k.val 6 (by rw [k0_off34_eq]; rfl) (by rw [k0_off34_eq]; rfl) y).mp hy).1
      · exact ((piece_mem (k0_off32 k) (k0_off32_inb k) k.val 5 (by rw [k0_off32_eq]; rfl) (by rw [k0_off32_eq]; rfl) y).mp hy).1
      · exact ((piece_mem (k0_off30 k) (k0_off30_inb k) k.val 4 (by rw [k0_off30_eq]; rfl) (by rw [k0_off30_eq]; rfl) y).mp hy).1
      · exact ((piece_mem (k0_off28 k) (k0_off28_inb k) k.val 3 (by rw [k0_off28_eq]; rfl) (by rw [k0_off28_eq]; rfl) y).mp hy).1
      · exact ((piece_mem (k0_off26 k) (k0_off26_inb k) k.val 2 (by rw [k0_off26_eq]; rfl) (by rw [k0_off26_eq]; rfl) y).mp hy).1
      · exact ((piece_mem (k0_off24 k) (k0_off24_inb k) k.val 1 (by rw [k0_off24_eq]; rfl) (by rw [k0_off24_eq]; rfl) y).mp hy).1
      · exact ((piece_mem (k0_off22 k) (k0_off22_inb k) k.val 0 (by rw [k0_off22_eq]; rfl) (by rw [k0_off22_eq]; rfl) y).mp hy).1
    case hcov =>
      intro y hyk
      have h2 : (y 2).val < 128 := (y 2).isLt
      rcases (show (y 2).val / 16 = 0 ∨ (y 2).val / 16 = 1 ∨ (y 2).val / 16 = 2 ∨ (y 2).val / 16 = 3 ∨ (y 2).val / 16 = 4
          ∨ (y 2).val / 16 = 5 ∨ (y 2).val / 16 = 6 ∨ (y 2).val / 16 = 7 by omega) with hj | hj | hj | hj | hj | hj | hj | hj
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem (k0_off22 k) (k0_off22_inb k) k.val 0 (by rw [k0_off22_eq]; rfl) (by rw [k0_off22_eq]; rfl) y).mpr ⟨hyk, hj⟩⟩
      · exact ⟨_, (List.mem_cons_of_mem _ (List.mem_cons_of_mem _ (List.mem_cons_of_mem _ (List.mem_cons_of_mem _ (List.mem_cons_of_mem _ (List.mem_cons_of_mem _ List.mem_cons_self)))))), (piece_mem (k0_off24 k) (k0_off24_inb k) k.val 1 (by rw [k0_off24_eq]; rfl) (by rw [k0_off24_eq]; rfl) y).mpr ⟨hyk, hj⟩⟩
      · exact ⟨_, (List.mem_cons_of_mem _ (List.mem_cons_of_mem _ (List.mem_cons_of_mem _ (List.mem_cons_of_mem _ (List.mem_cons_of_mem _ List.mem_cons_self))))), (piece_mem (k0_off26 k) (k0_off26_inb k) k.val 2 (by rw [k0_off26_eq]; rfl) (by rw [k0_off26_eq]; rfl) y).mpr ⟨hyk, hj⟩⟩
      · exact ⟨_, (List.mem_cons_of_mem _ (List.mem_cons_of_mem _ (List.mem_cons_of_mem _ (List.mem_cons_of_mem _ List.mem_cons_self)))), (piece_mem (k0_off28 k) (k0_off28_inb k) k.val 3 (by rw [k0_off28_eq]; rfl) (by rw [k0_off28_eq]; rfl) y).mpr ⟨hyk, hj⟩⟩
      · exact ⟨_, (List.mem_cons_of_mem _ (List.mem_cons_of_mem _ (List.mem_cons_of_mem _ List.mem_cons_self))), (piece_mem (k0_off30 k) (k0_off30_inb k) k.val 4 (by rw [k0_off30_eq]; rfl) (by rw [k0_off30_eq]; rfl) y).mpr ⟨hyk, hj⟩⟩
      · exact ⟨_, (List.mem_cons_of_mem _ (List.mem_cons_of_mem _ List.mem_cons_self)), (piece_mem (k0_off32 k) (k0_off32_inb k) k.val 5 (by rw [k0_off32_eq]; rfl) (by rw [k0_off32_eq]; rfl) y).mpr ⟨hyk, hj⟩⟩
      · exact ⟨_, (List.mem_cons_of_mem _ List.mem_cons_self), (piece_mem (k0_off34 k) (k0_off34_inb k) k.val 6 (by rw [k0_off34_eq]; rfl) (by rw [k0_off34_eq]; rfl) y).mpr ⟨hyk, hj⟩⟩
      · exact ⟨_, List.mem_cons_self, (piece_mem (k0_off36 k) (k0_off36_inb k) k.val 7 (by rw [k0_off36_eq]; rfl) (by rw [k0_off36_eq]; rfl) y).mpr ⟨hyk, hj⟩⟩
  · unfold invG_t3
    isplitl [Hp']; · iexact Hp'
    isplitl [Hx']; · iexact Hx'
    iexists fb; isplitl [Hb']; · iexact Hb'
    ipureintro; intro y hy; omega
  iintro %_ HI
  unfold gather_t3.sl.prog.cont_1 invG_t3
  icases HI with ⟨Hp, Hx, %fb', Hb, %hfb'⟩
  iapply Hk $$ [] [Hp] [Hx] [Hb]
  · ipureintro; intro y; refine hfb' y ?_; rw [trips_t3]; exact (y 0).isLt
  · iexact Hp
  · iexact Hx
  · iexact Hb

/-! ## The trip's scalar facts: which conditions hold at which trip, and where the write-backs land -/

theorem cond25 (x a : BitVec 32) :
    (Scalar.cmpi .ne (Scalar.extui (Scalar.cmpi .ne x a)) 0#32 = 1#1) ↔ x ≠ a := by
  by_cases h : x = a
  · subst h
    have e : Scalar.cmpi .ne x x = 0#1 := by simp [Scalar.cmpi, IntOp.cmpi]
    rw [e]
    exact ⟨fun h' => absurd h' (by decide), fun h' => absurd rfl h'⟩
  · have e : Scalar.cmpi .ne x a = 1#1 := by
      show BitVec.ofBool (x != a) = 1#1
      rw [bne_iff_ne.mpr h]; rfl
    rw [e]
    exact ⟨fun _ => h, fun _ => by decide⟩

theorem cond28 : ∀ k : Fin k0_t1_loop.trips,
    (Scalar.cmpi .ne (Scalar.extui (Scalar.cmpi .sge (Scf.iv 0#32 1#32 k) 1#32)) 0#32 = 1#1) ↔ 1 ≤ k.val := by decide +kernel

theorem cond3 : ∀ k : Fin k0_t1_loop.trips, (k0_cond3 k = 1#1) ↔ k.val < 25 := by decide +kernel

theorem k0_off20_eq : ∀ (i : grid0.Coords) (k : Fin k0_t1_loop.trips),
    k0_off20 i k = ![(52 * (i 1).val + 26 * (i 0).val + k.val) / 32, (52 * (i 1).val + 26 * (i 0).val + k.val) % 32 / 8, 0,
      (52 * (i 1).val + 26 * (i 0).val + k.val) % 32 % 8, 0] := by decide +kernel

theorem k0_off38_eq : ∀ (i : grid0.Coords) (k : Fin k0_t1_loop.trips),
    k0_off38 i k = ![(52 * (i 1).val + 26 * (i 0).val + k.val) / 32, (52 * (i 1).val + 26 * (i 0).val + k.val) % 32 / 8, 64,
      (52 * (i 1).val + 26 * (i 0).val + k.val) % 32 % 8, 0] := by decide +kernel

theorem trips_t1' : k0_t1_loop.trips = 26 := by decide

/-! ## Small bridges used at every trip -/

omit [FloatOps F] in
theorem sB_set (f : Buf (Elt F) ((thr d L).loc cc0_scratch2)) :
    ((sB).view.loc (thr d L) ↦[(sB).view.set]{fullShare} f : sProp 𝕄) = ((thr d L).loc cc0_scratch2 ↦{fullShare} f) := by
  simp only [Memref.view_whole, View.set_whole]

omit [FloatOps F] in
/-- Off the written rectangle a write-back leaves the output as it was. -/
theorem rest_write (fo : Buf (Elt F) (v2Loc d)) (w : S64x1x128.Idx → Elt F .f32) (off : Fin 5 → ℕ)
    (inb : ∀ a, off a + S1x1x64x1x128.size a ≤ S26x4x128x8x128.size a) (S : Finset S26x4x128x8x128.Idx) :
    (v2Loc d ↦[S \ (outV off inb).set]{fullShare} fo : sProp 𝕄)
      = (v2Loc d ↦[S \ (outV off inb).set]{fullShare} (outV off inb).writes (Elt F) fo [⟨Rect.whole S64x1x128, w⟩]) :=
  pointsTo_congr fun i hi => by
    rw [out_writes_eq]; exact (out_write_not_mem fo w off inb i (Finset.mem_sdiff.mp hi).2).symm

omit [FloatOps F] in
/-- Waits recorded at the body's own index keep the recorded set within what the launch allows. -/
theorem wins (W W1 : Waits sig (HIx 1)) (h : ∀ p ∈ W1, p ∈ W ∨ p.2 = none) (s : SemLoc sig) :
    ∀ p ∈ insert (s, (default : HIx 1)) W1, p ∈ W ∨ p.2 = none := by
  intro p hp
  rcases Finset.mem_insert.mp hp with hp | hp
  · exact .inr (hp ▸ rfl)
  · exact h p hp

section Trip
variable (q : PosShare TreeShare) (O : CellTallies nD τ sig (HIx 1)) (W : Waits sig (HIx 1))

set_option maxHeartbeats 4000000 in
theorem part5_first (hX : ∀ j, ((X1 m d j : BitVec 32)).toNat < 100000) (k : Fin k0_t1_loop.trips) (a : BitVec 32) (h0 : k.val = 0) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_pos h0]
  iintro ⟨#Hmw, ⟨%Sp, %fpl, Hfl, Ht, %hfpl⟩, Hx, ⟨%fx, Hxc, %hfx⟩, Hsx, ⟨⟨%fb, Hb⟩, Hso, %fo, Ho, %hdone⟩, %W', %hW', HO⟩
  ihave Hx' := (Entails.of_eq (pts_x (F := F) d L Finset.univ q (X1 m d)).symm) $$ Hx
  ihave Hxc' := (Entails.of_eq (pts_sX (F := F) d L fx).symm) $$ Hxc
  have h28 : ¬ (Scalar.cmpi .ne (Scalar.extui (Scalar.cmpi .sge (Scf.iv 0#32 1#32 k) 1#32)) 0#32 = 1#1) := fun h => by
    have := (cond28 k).mp h; omega
  have h25 : Scalar.cmpi .ne (Scalar.extui (Scalar.cmpi .ne (Scalar.divsi (Scalar.addi (V2 L) (Scf.iv 0#32 1#32 k)) 32#32) a)) 0#32 = 1#1 :=
    (cond25 _ _).mpr (fun e => by
      have e' := congrArg BitVec.toNat e
      rw [hv16, hfx.1 h0] at e'
      unfold bs at e'; omega)
  have hdone' : Done m d L fo (bs L + k.val) 0 := by rw [h0]; exact hdone
  subst hfpl
  sl_exec

  have hfx1 : View.write (Elt F) (sX).view fx (_root_.Cert.Proof.KI.part5_first.sl.dma0 m d L k) Finset.univ = xrowFn m d ((bs L + k.val) / 32) := funext fun b => by
    unfold _root_.Cert.Proof.KI.part5_first.sl.dma0
    rw [xrow_payload (F := F) (X1 m d) fx (k0_off3 L k) (k0_off3_inb L k) ((bs L + k.val) / 32) hi26 (by rw [k0_off3_eq]; rfl) (by rw [k0_off3_eq]; rfl) b]
    unfold xrowFn
    exact congrArg (X1 m d) (congrArg (fun i => ValueIdx.ix2 i _) (Fin.ext (Nat.mod_eq_of_lt hi26).symm))
  ihave Hxc2 := (Entails.of_eq (congrArg (fun f => ((sX).view.loc (thr d L) ↦{fullShare} f : sProp 𝕄)) hfx1)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hb]
  · isplitl [Hfl_dst]; · iexact Hfl_dst
    isplitl [Hxc2]; · iexact Hxc2
    iexact Hb
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hso Horest2]
  · iexists _, fb'
    isplitl [Hso]
    · iapply (Transfers.Flight_mono countersEmb (thr d L) ?_) $$ Hso
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

set_option maxHeartbeats 4000000 in
theorem part5_copy (hX : ∀ j, ((X1 m d j : BitVec 32)).toNat < 100000) (k : Fin k0_t1_loop.trips) (a : BitVec 32) (h0 : ¬ k.val = 0) (hc : ¬ (bs L + k.val) / 32 = (bs L + k.val - 1) / 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_neg h0]
  iintro ⟨#Hmw, ⟨%Sp, %fpl, Hfl, Ht, %hfpl⟩, Hx, ⟨%fx, Hxc, %hfx⟩, Hsx, ⟨%So, %fo, %fb, Hfo, Horest, %hSo, %hdone'⟩, %W', %hW', HO⟩
  ihave Hx' := (Entails.of_eq (pts_x (F := F) d L Finset.univ q (X1 m d)).symm) $$ Hx
  ihave Hxc' := (Entails.of_eq (pts_sX (F := F) d L fx).symm) $$ Hxc
  have h28 : Scalar.cmpi .ne (Scalar.extui (Scalar.cmpi .sge (Scf.iv 0#32 1#32 k) 1#32)) 0#32 = 1#1 := (cond28 k).mpr (by omega)
  have h25 : Scalar.cmpi .ne (Scalar.extui (Scalar.cmpi .ne (Scalar.divsi (Scalar.addi (V2 L) (Scf.iv 0#32 1#32 k)) 32#32) a)) 0#32 = 1#1 :=
    (cond25 _ _).mpr (fun e => by
      have e' := congrArg BitVec.toNat e
      rw [hv16, (hfx.2 h0).1] at e'
      exact hc e')
  subst hfpl
  sl_exec
  ihave Ho := (pointsTo_split_subset (ℓ := v2Loc d) (q := fullShare) (f := fo) hSo).2 $$ [Hfo_dst Horest]
  · isplitl [Hfo_dst] <;> iassumption
  have hfx1 : View.write (Elt F) (sX).view fx (_root_.Cert.Proof.KI.part5_copy.sl.dma0 m d L k) Finset.univ = xrowFn m d ((bs L + k.val) / 32) := funext fun b => by
    unfold _root_.Cert.Proof.KI.part5_copy.sl.dma0
    rw [xrow_payload (F := F) (X1 m d) fx (k0_off3 L k) (k0_off3_inb L k) ((bs L + k.val) / 32) hi26 (by rw [k0_off3_eq]; rfl) (by rw [k0_off3_eq]; rfl) b]
    unfold xrowFn
    exact congrArg (X1 m d) (congrArg (fun i => ValueIdx.ix2 i _) (Fin.ext (Nat.mod_eq_of_lt hi26).symm))
  ihave Hxc2 := (Entails.of_eq (congrArg (fun f => ((sX).view.loc (thr d L) ↦{fullShare} f : sProp 𝕄)) hfx1)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hfo_src]
  · isplitl [Hfl_dst]; · iexact Hfl_dst
    isplitl [Hxc2]; · iexact Hxc2
    iexact Hfo_src
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hfo Horest2]
  · iexists _, fb'
    isplitl [Hfo]
    · iapply (Transfers.Flight_mono countersEmb (thr d L) ?_) $$ Hfo
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

set_option maxHeartbeats 4000000 in
theorem part5_nocopy (hX : ∀ j, ((X1 m d j : BitVec 32)).toNat < 100000) (k : Fin k0_t1_loop.trips) (a : BitVec 32) (h0 : ¬ k.val = 0) (hc : (bs L + k.val) / 32 = (bs L + k.val - 1) / 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_neg h0]
  iintro ⟨#Hmw, ⟨%Sp, %fpl, Hfl, Ht, %hfpl⟩, Hx, ⟨%fx, Hxc, %hfx⟩, Hsx, ⟨%So, %fo, %fb, Hfo, Horest, %hSo, %hdone'⟩, %W', %hW', HO⟩
  ihave Hx' := (Entails.of_eq (pts_x (F := F) d L Finset.univ q (X1 m d)).symm) $$ Hx
  ihave Hxc' := (Entails.of_eq (pts_sX (F := F) d L fx).symm) $$ Hxc
  have h28 : Scalar.cmpi .ne (Scalar.extui (Scalar.cmpi .sge (Scf.iv 0#32 1#32 k) 1#32)) 0#32 = 1#1 := (cond28 k).mpr (by omega)
  have h25 : ¬ (Scalar.cmpi .ne (Scalar.extui (Scalar.cmpi .ne (Scalar.divsi (Scalar.addi (V2 L) (Scf.iv 0#32 1#32 k)) 32#32) a)) 0#32 = 1#1) := fun h =>
    (cond25 _ _).mp h (BitVec.eq_of_toNat_eq (by rw [hv16, (hfx.2 h0).1, hc]))
  subst hfpl
  sl_exec
  ihave Ho := (pointsTo_split_subset (ℓ := v2Loc d) (q := fullShare) (f := fo) hSo).2 $$ [Hfo_dst Horest]
  · isplitl [Hfo_dst] <;> iassumption
  have hfx1 : fx = xrowFn m d ((bs L + k.val) / 32) := by rw [(hfx.2 h0).2, hc]
  subst hfx1
  ihave Hxc2 := (Entails.of_eq (rfl : (((sX).view.loc (thr d L) ↦{fullShare} xrowFn m d ((bs L + k.val) / 32) : sProp 𝕄)) = _)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hfo_src]
  · isplitl [Hfl_dst]; · iexact Hfl_dst
    isplitl [Hxc2]; · iexact Hxc2
    iexact Hfo_src
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hfo Horest2]
  · iexists _, fb'
    isplitl [Hfo]
    · iapply (Transfers.Flight_mono countersEmb (thr d L) ?_) $$ Hfo
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

/-- The first half of trip `k`: the plane has landed, the row-number scratch holds the plane's feature, the previous
    write-back is drained, the first half plane is looked up and its write-back issued. -/
theorem part5_run (hX : ∀ j, ((X1 m d j : BitVec 32)).toNat < 100000) (k : Fin k0_t1_loop.trips) (a : BitVec 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  by_cases h0 : k.val = 0
  · exact part5_first m d L q O W hX k a h0
  · by_cases hc : (bs L + k.val) / 32 = (bs L + k.val - 1) / 32
    · exact part5_nocopy m d L q O W hX k a h0 hc
    · exact part5_copy m d L q O W hX k a h0 hc

end Trip
end Tile
end Cert.Proof.KI
end
-- ==== Proof.KITrip.lean ====
/-
  The second half of a trip of a tile's plane loop, and the trip as a whole.

  After the first half plane's write-back is issued it is waited for, the second half plane is looked up into the block
  buffer, the next plane's copy is issued (there is none after the worker's last plane), and the second write-back is
  issued; the loop carries the plane's table to the next trip.  Each trip re-establishes the loop's invariant one plane on.
-/
import proofs.«204046_g18683107737843_cont_8to1_103_43_alg».proof.Proof.KITrip5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

section Tile

variable (d : Dev nD) (L : grid0.Coords)

variable [FloatOps F]

section Trip
variable (q : PosShare TreeShare) (O : CellTallies nD τ sig (HIx 1)) (W : Waits sig (HIx 1))

set_option maxHeartbeats 4000000 in
theorem trip_mid (hX : ∀ j, ((X1 m d j : BitVec 32)).toNat < 100000) (k : Fin k0_t1_loop.trips) (a : BitVec 32)
    (hc3 : k.val < 25) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  unfold k0_t1_body
  rw [wp_bind]
  refine (part5_run m d L q O W hX k a).trans (wp_mono frame _ _ fun x => ?_)
  obtain ⟨x1, x2, x3⟩ := x
  have hk26 : k.val < 26 := Nat.lt_of_lt_of_eq k.isLt trips_t1'
  have hL0 : (L 0).val < 2 := (L 0).isLt
  have hL1 : (L 1).val < 16 := (L 1).isLt
  have hk3 : k0_cond3 k = 1#1 := (cond3 k).mpr hc3
  have hxr : ∀ j : S16384.Idx, ((xrowFn m d ((bs L + k.val) / 32) j : BitVec 32)).toNat < 100000 := fun j => hX _
  have hsub0 : (outM0 L k).view.set ⊆ TS L := out_sub L k _ _ 0 (by rw [k0_off20_eq]; rfl)
  have hsub1 : (outM1 L k).view.set ⊆ TS L := out_sub L k _ _ 1 (by rw [k0_off38_eq]; rfl)
  have e1 : bs L + (k.val + 1) - 1 = bs L + k.val := by omega
  unfold midSt invO planeSt outSt
  rw [if_pos (show k.val + 1 < 26 by omega), if_neg (Nat.succ_ne_zero k.val)]
  iintro ⟨#Hmw, %hx3, Hp, Ht, Hx, Hxc, Hsp, Hsx, ⟨%fo, %fb, Hfo, Horest, %hdone1⟩, %W', %hW', HO⟩
  sl_exec
  ihave Ho := (pointsTo_split_subset (ℓ := v2Loc d) (q := fullShare) (f := fo) hsub0).2 $$ [Hfo_dst Horest]
  · isplitl [Hfo_dst] <;> iassumption
  iapply (gather_t3 (F := F) d L (planeFn m d (bs L + k.val)) (xrowFn m d ((bs L + k.val) / 32)) _ hxr _ _) $$ [Hp Hxc Hfo_src]
  · isplitl [Hp]; · iexact Hp
    isplitl [Hxc]; · iexact Hxc
    iexact Hfo_src
  iintro %fb2 %hfb2 Hp Hxc Hbb
  ihave Ht' := (Entails.of_eq (pts_t (F := F) d L Finset.univ q (T0 m d)).symm) $$ Ht
  ihave Hp' := (Entails.of_eq (pts_sP (F := F) d L (planeFn m d (bs L + k.val))).symm) $$ Hp
  ihave Ho2 := (pointsTo_split_subset hsub1).1 $$ Ho
  icases Ho2 with ⟨Hop, Horest3⟩
  ihave Hb' := (Entails.of_eq (pts_sB (F := F) d L fb2).symm) $$ Hbb
  ihave Hop' := (Entails.of_eq (show ((outM1 L k).view.loc (thr d L) ↦[(outM1 L k).view.set]{fullShare} fo : sProp 𝕄) = (v2Loc d ↦[(outM1 L k).view.set]{fullShare} fo) from rfl).symm) $$ Hop
  sl_exec
  sl_step
  isplitr; · iexact Hmw
  isplitl [Hsp Ht']
  · iexists _, _
    isplitl [Hsp]
    · iapply (Transfers.Flight_mono countersEmb (thr d L) ?_) $$ Hsp
      iintro ⟨H1, H2⟩
      isplitl [H1]; · iapply (Entails.of_eq (pts_sP (F := F) d L _)); iexact H1
      iapply (Entails.of_eq (pts_t (F := F) d L _ q (T0 m d))); iexact H2
    isplitl [Ht']; · iapply (Entails.of_eq (pts_t (F := F) d L _ q (T0 m d))); iexact Ht'
    ipureintro
    funext v
    show View.write (Elt F) (sP).view _ (ReadAs.same.apply (View.read (Elt F)
      (((tW).slice (Rect.unit (s := S26x32x100000) (k0_off37 L k) S1x1x100000.size (k0_off37_inb L k hk3)) (fun _ => rfl)).squeeze S100000 squeezes_S1x1x100000_S100000).view (T0 m d))) Finset.univ v = _
    have hn : bs L + (k.val + 1) = 52 * (L 1).val + 26 * (L 0).val + k.val + 1 := by unfold bs; omega
    have hlt1 : (bs L + (k.val + 1)) / 32 < 26 := by unfold bs; omega
    have hlt2 : (bs L + (k.val + 1)) % 32 < 32 := Nat.mod_lt _ (by decide)
    rw [plane_payload (F := F) (T0 m d) _ (k0_off37 L k) (k0_off37_inb L k hk3) ((bs L + (k.val + 1)) / 32) ((bs L + (k.val + 1)) % 32) hlt1 hlt2
      (by rw [k0_off37_eq, hn]; rfl) (by rw [k0_off37_eq, hn]; rfl) (by rw [k0_off37_eq]; rfl) v]
    unfold planeFn
    exact congrArg (T0 m d) (congrArg (fun i => ValueIdx.ix3 i _ _) (Fin.ext (Nat.mod_eq_of_lt hlt1).symm))
  isplitl [Hx]; · iexact Hx
  isplitl [Hxc]
  · iexists _; isplitl [Hxc]; · iexact Hxc
    ipureintro
    exact ⟨fun h => absurd h (Nat.succ_ne_zero _), fun _ => by rw [e1]; exact ⟨hx3, rfl⟩⟩
  isplitl [Hsx]; · iexact Hsx
  isplitl [Hfo Horest3]
  · iexists (outM1 L k).view.set, _, fb2
    isplitl [Hfo]
    · iapply (Transfers.Flight_mono countersEmb (thr d L) ?_) $$ Hfo
      iintro ⟨H1, H2⟩
      isplitl [H1]; · iexact H1
      iapply (Entails.of_eq (sB_set (F := F) d L fb2)); iexact H2
    isplitl [Horest3]
    · iapply (Entails.of_eq (rest_write (F := F) d fo _ (k0_off38 L k) (k0_off38_inb L k) (TS L))); iexact Horest3
    isplitr; · ipureintro; exact hsub1
    ipureintro
    rw [← Nat.add_assoc]
    exact done_next m d L _ _ (done_step m d L k 1 (by omega) hX fo fb2 (planeFn m d (bs L + k.val)) (xrowFn m d ((bs L + k.val) / 32)) hxr rfl rfl hfb2 hdone1
      (k0_off38 L k) (k0_off38_inb L k) (by rw [k0_off38_eq]; rfl))
  · iexists _; isplitr
    rotate_left
    · iexact HO
    · ipureintro
      intro p hp
      repeat (rcases Finset.mem_insert.mp hp with h | hp; · exact .inr (h ▸ rfl))
      exact hW' p hp

set_option maxHeartbeats 4000000 in
theorem trip_last (hX : ∀ j, ((X1 m d j : BitVec 32)).toNat < 100000) (k : Fin k0_t1_loop.trips) (a : BitVec 32)
    (hc3 : ¬ k.val < 25) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  unfold k0_t1_body
  rw [wp_bind]
  refine (part5_run m d L q O W hX k a).trans (wp_mono frame _ _ fun x => ?_)
  obtain ⟨x1, x2, x3⟩ := x
  have hk26 : k.val < 26 := Nat.lt_of_lt_of_eq k.isLt trips_t1'
  have hL0 : (L 0).val < 2 := (L 0).isLt
  have hL1 : (L 1).val < 16 := (L 1).isLt
  have hk3 : ¬ k0_cond3 k = 1#1 := fun h => hc3 ((cond3 k).mp h)
  have hxr : ∀ j : S16384.Idx, ((xrowFn m d ((bs L + k.val) / 32) j : BitVec 32)).toNat < 100000 := fun j => hX _
  have hsub0 : (outM0 L k).view.set ⊆ TS L := out_sub L k _ _ 0 (by rw [k0_off20_eq]; rfl)
  have hsub1 : (outM1 L k).view.set ⊆ TS L := out_sub L k _ _ 1 (by rw [k0_off38_eq]; rfl)
  have e1 : bs L + (k.val + 1) - 1 = bs L + k.val := by omega
  unfold midSt invO planeSt outSt
  rw [if_neg (show ¬ k.val + 1 < 26 by omega), if_neg (Nat.succ_ne_zero k.val)]
  iintro ⟨#Hmw, %hx3, Hp, Ht, Hx, Hxc, Hsp, Hsx, ⟨%fo, %fb, Hfo, Horest, %hdone1⟩, %W', %hW', HO⟩
  sl_exec
  ihave Ho := (pointsTo_split_subset (ℓ := v2Loc d) (q := fullShare) (f := fo) hsub0).2 $$ [Hfo_dst Horest]
  · isplitl [Hfo_dst] <;> iassumption
  iapply (gather_t3 (F := F) d L (planeFn m d (bs L + k.val)) (xrowFn m d ((bs L + k.val) / 32)) _ hxr _ _) $$ [Hp Hxc Hfo_src]
  · isplitl [Hp]; · iexact Hp
    isplitl [Hxc]; · iexact Hxc
    iexact Hfo_src
  iintro %fb2 %hfb2 Hp Hxc Hbb

  ihave Ho2 := (pointsTo_split_subset hsub1).1 $$ Ho
  icases Ho2 with ⟨Hop, Horest3⟩
  ihave Hb' := (Entails.of_eq (pts_sB (F := F) d L fb2).symm) $$ Hbb
  ihave Hop' := (Entails.of_eq (show ((outM1 L k).view.loc (thr d L) ↦[(outM1 L k).view.set]{fullShare} fo : sProp 𝕄) = (v2Loc d ↦[(outM1 L k).view.set]{fullShare} fo) from rfl).symm) $$ Hop
  sl_exec
  sl_step
  isplitr; · iexact Hmw
  isplitl [Hsp Hp Ht]
  · isplitl [Hsp]; · iexact Hsp
    isplitl [Hp]; · iexists _; iexact Hp
    iexact Ht
  isplitl [Hx]; · iexact Hx
  isplitl [Hxc]
  · iexists _; isplitl [Hxc]; · iexact Hxc
    ipureintro
    exact ⟨fun h => absurd h (Nat.succ_ne_zero _), fun _ => by rw [e1]; exact ⟨hx3, rfl⟩⟩
  isplitl [Hsx]; · iexact Hsx
  isplitl [Hfo Horest3]
  · iexists (outM1 L k).view.set, _, fb2
    isplitl [Hfo]
    · iapply (Transfers.Flight_mono countersEmb (thr d L) ?_) $$ Hfo
      iintro ⟨H1, H2⟩
      isplitl [H1]; · iexact H1
      iapply (Entails.of_eq (sB_set (F := F) d L fb2)); iexact H2
    isplitl [Horest3]
    · iapply (Entails.of_eq (rest_write (F := F) d fo _ (k0_off38 L k) (k0_off38_inb L k) (TS L))); iexact Horest3
    isplitr; · ipureintro; exact hsub1
    ipureintro
    rw [← Nat.add_assoc]
    exact done_next m d L _ _ (done_step m d L k 1 (by omega) hX fo fb2 (planeFn m d (bs L + k.val)) (xrowFn m d ((bs L + k.val) / 32)) hxr rfl rfl hfb2 hdone1
      (k0_off38 L k) (k0_off38_inb L k) (by rw [k0_off38_eq]; rfl))
  · iexists _; isplitr
    rotate_left
    · iexact HO
    · ipureintro
      intro p hp
      repeat (rcases Finset.mem_insert.mp hp with h | hp; · exact .inr (h ▸ rfl))
      exact hW' p hp

/-- A trip of the plane loop keeps the invariant: plane `k` arrives, its two half planes are looked up and written back,
    the next plane's copy is issued (except after the last). -/
theorem trip (hX : ∀ j, ((X1 m d j : BitVec 32)).toNat < 100000) (k : Fin k0_t1_loop.trips) (a : BitVec 32) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  by_cases hc3 : k.val < 25
  · exact trip_mid m d L q O W hX k a hc3
  · exact trip_last m d L q O W hX k a hc3

end Trip
end Tile
end Cert.Proof.KI
end
-- ==== Proof.KITile.lean ====
/-
  The tile's run around its plane loop.

  The tile's body issues the copy of its first plane into its plane scratch, runs the loop of 26 trips, waits for the
  last write-back and returns.  Given the loop's trip rule (each trip takes the state between trips at `k` to the state
  at `k + 1`), the body's run is: the state before trip 0 holds after the first copy is issued — the copy's flight
  delivers the plane scratch at plane `26 w` of the transposed tables, nothing is asked of the output yet —; after trip
  25 no plane copy is outstanding, the last write-back is in flight, and every plane of the tile is finished, so once
  the write-back is waited for the tile's output elements are whole again and hold the lookup's values.  The row
  numbers are in range under the precondition: the transposed row numbers are the launch row numbers read at the
  swapped index.
-/
import proofs.«204046_g18683107737843_cont_8to1_103_43_alg».proof.Proof.KITripDefs
import proofs.«204046_g18683107737843_cont_8to1_103_43_alg».proof.Proof.KIDone
import proofs.«204046_g18683107737843_cont_8to1_103_43_alg».proof.Proof.KITrip
import proofs.«204046_g18683107737843_cont_8to1_103_43_alg».proof.Proof.HostIdx
import Idealize.ShloMosaic.Lib.SparseCore.Launch
import Idealize.ShloMosaic.Lib.SparseCore.Ops
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

local notation "tW" => (Memref.whole Cert.KernelIdeal.main_v0_scv : Memref Cert.KernelIdeal.sig Kind.scVector Space.hbm Cert.KernelIdeal.S26x32x100000 EltTy.f32)
local notation "xW" => (Memref.whole Cert.KernelIdeal.main_v1_scv : Memref Cert.KernelIdeal.sig Kind.scVector Space.hbm Cert.KernelIdeal.S26x16384 EltTy.i32)
local notation "oW" => (Memref.whole Cert.KernelIdeal.main_v2_scv : Memref Cert.KernelIdeal.sig Kind.scVector Space.hbm Cert.KernelIdeal.S26x4x128x8x128 EltTy.f32)
local notation "sP" => (Memref.whole Cert.KernelIdeal.cc0_scratch0 : Memref Cert.KernelIdeal.sig Kind.scVector Space.vmem Cert.KernelIdeal.S100000 EltTy.f32)
local notation "sX" => (Memref.whole Cert.KernelIdeal.cc0_scratch1 : Memref Cert.KernelIdeal.sig Kind.scVector Space.vmem Cert.KernelIdeal.S16384 EltTy.i32)
local notation "sB" => (Memref.whole Cert.KernelIdeal.cc0_scratch2 : Memref Cert.KernelIdeal.sig Kind.scVector Space.vmem Cert.KernelIdeal.S64x1x128 EltTy.f32)

variable [FloatOps F]

/-- The trip rule of the plane loop, as a statement. -/
def TripRule : Prop :=
  ∀ (d : Dev nD) (L : grid0.Coords) (q : PosShare TreeShare) (O : CellTallies nD τ sig (HIx 1)) (W : Waits sig (HIx 1)) (k : Fin k0_t1_loop.trips) (a : BitVec 32),
    invO m d L q O W k.val a ⊢ wp frame (wpE (defs₀ (F := F)) 𝒱₀ (thr d L) none) Set.univ
      (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
      (invO m d L q O W (k.val + 1))

theorem tile_body_of (htrip : TripRule m) (hF : (K (F := F)).Facts) : TileBody m := by
  intro d L q O W hO
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%fp, Hp⟩, ⟨%fx, Hxc⟩, ⟨%fb, Hb⟩, Hbufs⟩, ⟨Hsp, Hso, Hsx, Hsems⟩, HO⟩
  ihave Hmw := ((K (F := F)).mayWaits_none (thr := thr d L) hO) $$ Hlv
  ihave Ht' := (Entails.of_eq (pts_t (F := F) d L Finset.univ q (T0 m d)).symm) $$ Ht
  ihave Hp' := (Entails.of_eq (pts_sP (F := F) d L fp).symm) $$ Hp
  sl_exec
  sl_for (invO m d L q O W) $$ [Hmw Hsp Ht' Hx Hxc Hsx Hb Hso Ho HO]
  case region =>
    intro k acc
    unfold tile_body_of.sl.prog.body_1
    exact htrip d L q O W k acc
  · unfold invO planeSt outSt
    rw [if_pos (show (0 : ℕ) < 26 by decide), if_pos rfl]
    isplitl [Hmw]; · iexact Hmw
    isplitl [Hsp Ht']
    · iexists _, _
      isplitl [Hsp]; · iexact Hsp
      isplitl [Ht']; · iexact Ht'
      ipureintro
      funext v
      have hL := L_lt L
      exact plane_payload (T0 m d) fp (k0_off1 L) (k0_off1_inb L) ((bs L + 0) / 32 % 26) ((bs L + 0) % 32)
        (Nat.mod_lt _ (by decide)) (Nat.mod_lt _ (by decide))
        ((congrFun (k0_off1_eq L) 0).trans (by show (52 * (L 1).val + 26 * (L 0).val) / 32 = (52 * (L 1).val + 26 * (L 0).val) / 32 % 26; omega))
        ((congrFun (k0_off1_eq L) 1).trans (by show (52 * (L 1).val + 26 * (L 0).val) % 32 = (52 * (L 1).val + 26 * (L 0).val) % 32; rfl))
        (congrFun (k0_off1_eq L) 2) v
    isplitl [Hx]; · iexact Hx
    isplitl [Hxc]
    · iexists fx
      isplitl [Hxc]; · iexact Hxc
      ipureintro; exact ⟨fun _ => rfl, fun h => absurd rfl h⟩
    isplitl [Hsx]; · iexact Hsx
    isplitl [Hb Hso Ho]
    · isplitl [Hb]; · iexists fb; iexact Hb
      isplitl [Hso]; · iexact Hso
      iexists (m (v2Loc d))
      isplitl [Ho]; · iexact Ho
      ipureintro; exact done_init m d L _
    iexists W; isplitr
    · ipureintro; exact fun p hp => .inl hp
    · iexact HO
  rw [trips_t1]
  iintro %acc HI
  unfold invO planeSt outSt
  rw [if_neg (show ¬ (26 : ℕ) < 26 by decide), if_neg (show ¬ (26 : ℕ) = 0 by decide)]
  icases HI with ⟨-, ⟨Hsp, ⟨%fpl, Hp⟩, Ht⟩, Hx, ⟨%fx', Hxc, -⟩, Hsx, ⟨%So, %fo, %fb', Hfl, Hrest, %hSo, %hdone⟩, %W', %hW', HO⟩
  sl_exec
  sl_step
  isplitl [Ht Hx Hrest Hfl_dst]
  · isplitl [Ht]; · iexact Ht
    isplitl [Hx]; · iexact Hx
    rw [← pointsTo_congr (f := fo) (done_all m d L fo hdone)]
    iapply (pointsTo_split_subset hSo).2
    isplitl [Hfl_dst]; · iexact Hfl_dst
    iexact Hrest
  isplitl [Hp Hxc Hfl_src Hbufs]
  · isplitl [Hp]; · iexists fpl; iexact Hp
    isplitl [Hxc]; · iexists fx'; iexact Hxc
    isplitl [Hfl_src]; · iexists fb'; iexact Hfl_src
    iexact Hbufs
  isplitl [Hsp Hfl Hsx Hsems]
  · isplitl [Hsp]; · iexact Hsp
    isplitl [Hfl]; · iexact Hfl
    isplitl [Hsx]; · iexact Hsx
    iexact Hsems
  iexists (insert (SemLoc.dma cc0_scratch5.sem, (default : HIx 1)) W'); isplitr
  · ipureintro; intro p hp
    rcases Finset.mem_insert.mp hp with hp | hp
    · exact .inr (hp ▸ rfl)
    · exact hW' p hp
  · iexact HO

/-- Under the precondition the transposed row numbers are in range. -/
theorem hX_of_pre (hpre : ∀ d, Cert.Lookup.InRange (m (a0Loc d))) (d : Dev nD) : ∀ j, ((X1 m d j : BitVec 32)).toNat < 100000 := by
  intro j
  obtain ⟨i, b, rfl⟩ : ∃ (i : Fin 26) (b : Fin 16384), j = ValueIdx.ix2 i b := ⟨j 0, j 1, ValueIdx.eq_ix2 j⟩
  unfold X1
  rw [Cert.Lookup.transpose10_apply]
  exact hpre d _

/-- The tile's run: the body around the loop, over the loop's trip rule. -/
theorem tile_body (hF : (K (F := F)).Facts) (hpre : ∀ d, Cert.Lookup.InRange (m (a0Loc d))) : TileBody m :=
  tile_body_of m (fun d L q O W k a => trip m d L q O W (hX_of_pre m hpre d) k a) hF

end Cert.Proof.KI

end
-- ==== Proof.KBSetup.lean ====
/-
  The kernel program as the SparseCore launch theorem sees it, and what its handshakes carry.

  @main transposes the tables to `T : [26, 32, 100000]` and the row numbers to `X : [26, 16384]`, starts the two
  SparseCores, whose 32 tiles each copy 26 planes of `T` into their own memory, look the 16384 row numbers of the plane's
  feature up in it and write the result back as two half planes of the output array `[26, 4, 128, 8, 128]`; then @main
  re-lays that array as `[16384, 26, 32]`.  A tile only makes copies it waits for itself, so the ghost state is the
  handshakes' rounds beside the transfers' counters.  The start of SparseCore `c` carries a read share of `T` and of `X`
  and the output elements of the planes `c`'s tiles own; the go of tile `i` a share of those shares and the elements of
  the tile's 26 planes; the way back carries the same with the output elements at the lookup's values.
-/
import proofs.«204046_g18683107737843_cont_8to1_103_43_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204046_g18683107737843_cont_8to1_103_43_alg».proof.Proof.Gen.Kernel
import proofs.«204046_g18683107737843_cont_8to1_103_43_alg».proof.Proof.Gen.Kernel.Skeleton
import proofs.«204046_g18683107737843_cont_8to1_103_43_alg».proof.Proof.SpecK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

variable [FloatOps F]

/-- The tables transposed, as @main's first operation leaves them. -/
def T0 (d : Dev nD) : Buf (Elt F) (v0Loc d) :=
  transpose S26x32x100000 [0, 2, 1] (m (a1Loc d)) transposes_S26x100000x32_S26x32x100000_0_2_1
/-- The row numbers transposed, as @main's second operation leaves them. -/
def X1 (d : Dev nD) : Buf (Elt F) (v1Loc d) :=
  transpose S26x16384 [1, 0] (m (a0Loc d)) transposes_S16384x26_S26x16384_1_0
/-- The kernel's output array after the call: the lookup through the transposed operands. -/
def O2 (d : Dev nD) : Buf (Elt F) (v2Loc d) := OUT5 (T0 m d) (X1 m d)

/-- SparseCore `c`'s read share of an operand, and tile `i`'s share of that. -/
abbrev qC (c : Fin 2) : PosShare TreeShare := Transfers.shareTok fullShare 2 c
abbrev qT (c : Fin 2) (i : Fin 16) : PosShare TreeShare := Transfers.shareTok (qC c) 16 i

/-! ## What the handshakes carry -/

def P : (K (F := F)).Pay (nD := nD) (Val := Elt F) (Name := ℕ) (U := UU) where
  st := fun q d c => match q with
    | 0 => iprop((v0Loc d ↦{qC (Fin.cast nCore_zero c)} T0 m d) ∗ (v1Loc d ↦{qC (Fin.cast nCore_zero c)} X1 m d)
        ∗ (v2Loc d ↦[coreSet c.val]{fullShare} m (v2Loc d)))
  dn := fun q d c => match q with
    | 0 => iprop((v0Loc d ↦{qC (Fin.cast nCore_zero c)} T0 m d) ∗ (v1Loc d ↦{qC (Fin.cast nCore_zero c)} X1 m d)
        ∗ (v2Loc d ↦[coreSet c.val]{fullShare} O2 m d))
  go := fun q d c i => match q with
    | 0 => iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val i.val]{fullShare} m (v2Loc d)))
  td := fun q d c i => match q with
    | 0 => iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val i.val]{fullShare} O2 m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.KBSplit.lean ====
/-
  How the call's operands are shared out and gathered.

  The call reads the transposed tables and the transposed row numbers and writes the output array.  Nobody writes the
  two operands during the call, so they are shared for reading: the TensorCore gives each of the two SparseCores a
  read share of each (and keeps a remainder), and a SparseCore gives each of its sixteen tiles a share of its share
  (and keeps a remainder); on the way back the shares are joined again.  The output array is shared out by elements:
  the whole array is the elements of SparseCore 0's tiles and those of SparseCore 1's, and a SparseCore's elements are
  its sixteen tiles', tile by tile; going, the elements hold the launch contents, and coming back the lookup's values.
-/
import proofs.«204046_g18683107737843_cont_8to1_103_43_alg».proof.Proof.KBSetup
import proofs.«204046_g18683107737843_cont_8to1_103_43_alg».proof.Proof.KISets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ)
variable [FloatOps F]

omit [FloatOps F] in
/-- A family over the sixteen tiles, indexed as the launch theorem indexes it. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The elements of SparseCore `c`'s tiles, tile by tile. -/
theorem pts_tiles (d : Dev nD) (c : ℕ) (hc : c < 2) (f : Buf (Elt F) (v2Loc d)) :
    (v2Loc d ↦[coreSet c]{fullShare} f : sProp 𝕄) = bigSep Finset.univ fun i : Fin 16 => v2Loc d ↦[tileSet c i.val]{fullShare} f := by
  rw [← pointsTo_biUnion Finset.univ (ℓ := v2Loc d) (fun i : Fin 16 => tileSet c i.val) (tileSet_disjoint c), tileSet_cover c hc]

theorem go_eq (d : Dev nD) (c : Fin ((K (F := F)).nCore 0)) (i : Fin ((K (F := F)).nSub 0)) :
    (P m).go 0 d c i = iprop((v0Loc d ↦{qT (Fin.cast nCore_zero c) (Fin.cast nSub_zero i)} T0 m d) ∗ (v1Loc d ↦{qT (Fin.cast nCore_zero c) (Fin.cast nSub_zero i)} X1 m d)
        ∗ (v2Loc d ↦[tileSet c.val (Fin.cast nSub_zero i).val]{fullShare} m (v2Loc d))) := rfl

theorem vecSplit : (K (F := F)).VecSplit' (P m) 0 := by
  intro d c
  show iprop((v0Loc d ↦{qC (Fin.cast nCore_zero c)} T0 m d) ∗ (v1Loc d ↦{qC (Fin.cast nCore_zero c)} X1 m d)
        ∗ (v2Loc d ↦[coreSet c.val]{fullShare} m (v2Loc d))) ⊢ |={Set.univ}=> iprop(
      (bigSep Finset.univ fun i : Fin ((K (F := F)).nSub 0) =>
        iprop((v0Loc d ↦{qT (Fin.cast nCore_zero c) (Fin.cast nSub_zero i)} T0 m d) ∗ (v1Loc d ↦{qT (Fin.cast nCore_zero c) (Fin.cast nSub_zero i)} X1 m d)
          ∗ (v2Loc d ↦[tileSet c.val (Fin.cast nSub_zero i).val]{fullShare} m (v2Loc d))))
      ∗ ((bigSep Finset.univ fun i : Fin ((K (F := F)).nSub 0) =>
        iprop((v0Loc d ↦{qT (Fin.cast nCore_zero c) (Fin.cast nSub_zero i)} T0 m d) ∗ (v1Loc d ↦{qT (Fin.cast nCore_zero c) (Fin.cast nSub_zero i)} X1 m d)
          ∗ (v2Loc d ↦[tileSet c.val (Fin.cast nSub_zero i).val]{fullShare} O2 m d)))
        -∗ iprop((v0Loc d ↦{qC (Fin.cast nCore_zero c)} T0 m d) ∗ (v1Loc d ↦{qC (Fin.cast nCore_zero c)} X1 m d)
        ∗ (v2Loc d ↦[coreSet c.val]{fullShare} O2 m d))))
  have hc : c.val < 2 := c.isLt
  rw [bigSep_tasks (F := F) (fun i => iprop((v0Loc d ↦{qT (Fin.cast nCore_zero c) i} T0 m d) ∗ (v1Loc d ↦{qT (Fin.cast nCore_zero c) i} X1 m d)
          ∗ (v2Loc d ↦[tileSet c.val i.val]{fullShare} m (v2Loc d)))),
    bigSep_tasks (F := F) (fun i => iprop((v0Loc d ↦{qT (Fin.cast nCore_zero c) i} T0 m d) ∗ (v1Loc d ↦{qT (Fin.cast nCore_zero c) i} X1 m d)
          ∗ (v2Loc d ↦[tileSet c.val i.val]{fullShare} O2 m d))),
    bigSep_sep', bigSep_sep', bigSep_sep', bigSep_sep', pts_tiles d c.val hc, pts_tiles d c.val hc]
  iintro ⟨H0, H1, H2⟩
  ihave H0' := (Transfers.pointsTo_toks_split (qC (Fin.cast nCore_zero c)) 16) $$ H0
  icases H0' with ⟨H0d, H0t⟩
  ihave H1' := (Transfers.pointsTo_toks_split (qC (Fin.cast nCore_zero c)) 16) $$ H1
  icases H1' with ⟨H1d, H1t⟩
  imodintro
  isplitl [H0t H1t H2]
  · isplitl [H0t]; · iexact H0t
    isplitl [H1t]; · iexact H1t
    iexact H2
  iintro ⟨G0, G1, G2⟩
  isplitl [H0d G0]
  · iapply (Transfers.pointsTo_toks_join (qC (Fin.cast nCore_zero c)) 16)
    isplitl [H0d]; · iexact H0d
    iexact G0
  isplitl [H1d G1]
  · iapply (Transfers.pointsTo_toks_join (qC (Fin.cast nCore_zero c)) 16)
    isplitl [H1d]; · iexact H1d
    iexact G1
  iexact G2

/-! ## The TensorCore's side: the operands shared between the two SparseCores -/

omit [FloatOps F] in
/-- A family over the two SparseCores, indexed as the launch theorem indexes it. -/
theorem bigSep_cores (Φ : Fin 2 → sProp 𝕄) :
    (bigSep Finset.univ fun c : Fin ((K (F := F)).nCore 0) => Φ (Fin.cast nCore_zero c)) = iprop(Φ 0 ∗ Φ 1) :=
  (bigSep_congr fun _ _ => congrArg Φ (Fin.ext rfl)).trans (bigSep_univ_two Φ)

/-- What the call takes for the two SparseCores, -/
theorem st0_eq (d : Dev nD) : (bigSep Finset.univ fun c : Fin ((K (F := F)).nCore 0) => (P m).st 0 d c) = iprop(
    ((v0Loc d ↦{qC 0} T0 m d) ∗ (v1Loc d ↦{qC 0} X1 m d) ∗ (v2Loc d ↦[coreSet 0]{fullShare} m (v2Loc d)))
    ∗ ((v0Loc d ↦{qC 1} T0 m d) ∗ (v1Loc d ↦{qC 1} X1 m d) ∗ (v2Loc d ↦[coreSet 1]{fullShare} m (v2Loc d)))) :=
  bigSep_cores (F := F) (fun c => iprop((v0Loc d ↦{qC c} T0 m d) ∗ (v1Loc d ↦{qC c} X1 m d) ∗ (v2Loc d ↦[coreSet c.val]{fullShare} m (v2Loc d))))

/-- and what it hands back. -/
theorem dn0_eq (d : Dev nD) : (bigSep Finset.univ fun c : Fin ((K (F := F)).nCore 0) => (P m).dn 0 d c) = iprop(
    ((v0Loc d ↦{qC 0} T0 m d) ∗ (v1Loc d ↦{qC 0} X1 m d) ∗ (v2Loc d ↦[coreSet 0]{fullShare} O2 m d))
    ∗ ((v0Loc d ↦{qC 1} T0 m d) ∗ (v1Loc d ↦{qC 1} X1 m d) ∗ (v2Loc d ↦[coreSet 1]{fullShare} O2 m d))) :=
  bigSep_cores (F := F) (fun c => iprop((v0Loc d ↦{qC c} T0 m d) ∗ (v1Loc d ↦{qC c} X1 m d) ∗ (v2Loc d ↦[coreSet c.val]{fullShare} O2 m d)))

omit [FloatOps F] in
/-- The whole output array is the two SparseCores' elements. -/
theorem pts_cores (d : Dev nD) (f : Buf (Elt F) (v2Loc d)) :
    (v2Loc d ↦{fullShare} f : sProp 𝕄) ⊣⊢ iprop((v2Loc d ↦[coreSet 0]{fullShare} f) ∗ (v2Loc d ↦[coreSet 1]{fullShare} f)) := by
  have h : (v2Loc d ↦[coreSet 0 ∪ coreSet 1]{fullShare} f : sProp 𝕄)
      ⊣⊢ iprop((v2Loc d ↦[coreSet 0]{fullShare} f) ∗ (v2Loc d ↦[coreSet 1]{fullShare} f)) := pointsTo_union coreSet_disjoint
  rw [coreSet_cover] at h
  exact h

omit [FloatOps F] in
/-- A whole array at the full share is a read share for each SparseCore and a remainder. -/
theorem pts_shares {ℓ : Loc nD τ sig} (f : Buf (Elt F) ℓ) :
    (ℓ ↦{fullShare} f : sProp 𝕄) ⊣⊢ iprop((ℓ ↦{Transfers.shareDrop fullShare 2} f) ∗ (ℓ ↦{qC 0} f) ∗ (ℓ ↦{qC 1} f)) := by
  have h : (ℓ ↦{fullShare} f : sProp 𝕄) ⊣⊢ iprop((ℓ ↦{Transfers.shareDrop fullShare 2} f)
      ∗ bigSep Finset.univ (fun c : Fin 2 => ℓ ↦{Transfers.shareTok fullShare 2 c} f)) := Transfers.pointsTo_toks fullShare 2
  rw [bigSep_univ_two] at h
  exact h

omit [FloatOps F] in
/-- The three arrays the call works on, whole, are what the two SparseCores take and the remainders of the two operands; -/
theorem call_split (d : Dev nD) (A : Buf (Elt F) (v0Loc d)) (B : Buf (Elt F) (v1Loc d)) (f : Buf (Elt F) (v2Loc d)) :
    (iprop((v0Loc d ↦{fullShare} A) ∗ (v1Loc d ↦{fullShare} B) ∗ (v2Loc d ↦{fullShare} f)) : sProp 𝕄)
      ⊢ iprop(((v0Loc d ↦{Transfers.shareDrop fullShare 2} A) ∗ (v1Loc d ↦{Transfers.shareDrop fullShare 2} B))
        ∗ ((v0Loc d ↦{qC 0} A) ∗ (v1Loc d ↦{qC 0} B) ∗ (v2Loc d ↦[coreSet 0]{fullShare} f))
        ∗ ((v0Loc d ↦{qC 1} A) ∗ (v1Loc d ↦{qC 1} B) ∗ (v2Loc d ↦[coreSet 1]{fullShare} f))) := by
  iintro ⟨H0, H1, H2⟩
  ihave H0' := (pts_shares A).1 $$ H0
  icases H0' with ⟨H0d, H00, H01⟩
  ihave H1' := (pts_shares B).1 $$ H1
  icases H1' with ⟨H1d, H10, H11⟩
  ihave H2' := (pts_cores d f).1 $$ H2
  icases H2' with ⟨H20, H21⟩
  isplitl [H0d H1d]
  · isplitl [H0d]; · iexact H0d
    iexact H1d
  isplitl [H00 H10 H20]
  · isplitl [H00]; · iexact H00
    isplitl [H10]; · iexact H10
    iexact H20
  isplitl [H01]; · iexact H01
  isplitl [H11]; · iexact H11
  iexact H21

omit [FloatOps F] in
/-- and back. -/
theorem call_join (d : Dev nD) (A : Buf (Elt F) (v0Loc d)) (B : Buf (Elt F) (v1Loc d)) (f : Buf (Elt F) (v2Loc d)) :
    (iprop(((v0Loc d ↦{Transfers.shareDrop fullShare 2} A) ∗ (v1Loc d ↦{Transfers.shareDrop fullShare 2} B))
        ∗ ((v0Loc d ↦{qC 0} A) ∗ (v1Loc d ↦{qC 0} B) ∗ (v2Loc d ↦[coreSet 0]{fullShare} f))
        ∗ ((v0Loc d ↦{qC 1} A) ∗ (v1Loc d ↦{qC 1} B) ∗ (v2Loc d ↦[coreSet 1]{fullShare} f))) : sProp 𝕄)
      ⊢ iprop((v0Loc d ↦{fullShare} A) ∗ (v1Loc d ↦{fullShare} B) ∗ (v2Loc d ↦{fullShare} f)) := by
  iintro ⟨⟨H0d, H1d⟩, ⟨H00, H10, H20⟩, H01, H11, H21⟩
  isplitl [H0d H00 H01]
  · iapply (pts_shares A).2
    isplitl [H0d]; · iexact H0d
    isplitl [H00]; · iexact H00
    iexact H01
  isplitl [H1d H10 H11]
  · iapply (pts_shares B).2
    isplitl [H1d]; · iexact H1d
    isplitl [H10]; · iexact H10
    iexact H11
  iapply (pts_cores d f).2
  isplitl [H20]; · iexact H20
  iexact H21

end Cert.Proof.KB

end
-- ==== Proof.KBValue.lean ====
/-
  The value of the program's last array.

  After the call the output array `[26, 4, 128, 8, 128]` holds the lookup through the transposed operands (`O2`).
  @main transposes it by `[2, 4, 0, 1, 3]` and reads the result in row-major order as `[16384, 26, 32]`.  Entry
  `(b, i, e)` of that is the output array at `(i, e / 8, b / 128, e % 8, b % 128)`; there the entry number is
  `(e / 8) * 8 + e % 8 = e`, the example number is `(b / 128) * 128 + b % 128 = b`, so the value is the transposed
  tables at `(i, e, row)` with `row` the clamped row number the transposed row numbers hold at `(i, b)`: the tables at
  `(i, row, e)` with `row` read from the row numbers at `(b, i)`.  That is the lookup `G`.  Both sides clamp the row
  number the same way, so no range hypothesis is needed.
-/
import proofs.«204046_g18683107737843_cont_8to1_103_43_alg».proof.Proof.KBSetup
import proofs.«204046_g18683107737843_cont_8to1_103_43_alg».proof.Proof.HostIdx
import proofs.«204046_g18683107737843_cont_8to1_103_43_alg».proof.Proof.Spec

noncomputable section

namespace Cert.Proof.KB

open Cert.Kernel Cert.Kernel.Gen

open Idealize.ShloMosaic Idealize.ShloMosaic.ValueIdx
open Idealize.SL.Sem
open Cert.Lookup

variable {F : FTy → Type} [FloatOps F]
variable (m : (ℓ : Loc nD τ sig) → Buf (Elt F) ℓ)

/-- What @main's last two operations make of the kernel's output array. -/
def R4 (d : Dev nD) : Buf (Elt F) (v4Loc d) :=
  shapeCast S16384x26x32 (transpose S128x128x26x4x8 [2, 4, 0, 1, 3] (O2 m d) transposes_S26x4x128x8x128_S128x128x26x4x8_2_4_0_1_3)
    shapeCasts_S128x128x26x4x8_S16384x26x32

omit [FloatOps F] in
/-- The entry number at the index the re-layout reads: `(e / 8) * 8 + e % 8 = e`. -/
theorem entryOf_tail (i : Fin 26) (b : Fin 16384) (e : Fin 32) (h1 : e.val / 8 < 4) (h2 : b.val / 128 < 128) (h3 : e.val % 8 < 8)
    (h4 : b.val % 128 < 128) : entryOf (ix5 i ⟨e.val / 8, h1⟩ ⟨b.val / 128, h2⟩ ⟨e.val % 8, h3⟩ ⟨b.val % 128, h4⟩) = e :=
  Fin.ext (by show e.val / 8 * 8 + e.val % 8 = e.val; omega)

omit [FloatOps F] in
/-- The example number there: `(b / 128) * 128 + b % 128 = b`. -/
theorem exampleOf_tail (i : Fin 26) (b : Fin 16384) (e : Fin 32) (h1 : e.val / 8 < 4) (h2 : b.val / 128 < 128) (h3 : e.val % 8 < 8)
    (h4 : b.val % 128 < 128) : exampleOf (ix5 i ⟨e.val / 8, h1⟩ ⟨b.val / 128, h2⟩ ⟨e.val % 8, h3⟩ ⟨b.val % 128, h4⟩) = b :=
  Fin.ext (by show b.val / 128 * 128 + b.val % 128 = b.val; omega)

/-- It is the lookup of the launch operands. -/
theorem R4_eq (d : Dev nD) : R4 m d = Cert.Lookup.G (m (a0Loc d)) (m (a1Loc d)) := by
  funext j
  obtain ⟨b, i, e, rfl⟩ : ∃ (b : Fin 16384) (i : Fin 26) (e : Fin 32), j = ix3 b i e := ⟨j 0, j 1, j 2, eq_ix3 j⟩
  unfold R4
  rw [Cert.Lookup.tail_apply, Cert.Lookup.G_apply]
  unfold O2 OUT5
  rw [entryOf_tail, exampleOf_tail]
  show T0 m d (ix3 i e (row (X1 m d (ix2 i b)))) = _
  unfold T0 X1
  rw [Cert.Lookup.transpose10_apply, Cert.Lookup.transpose021_apply]

end Cert.Proof.KB

end
-- ==== Proof.KBLaunch.lean ====
/-
  The program's run, given the tile's run.

  @main, on the TensorCore, transposes the tables and the row numbers, calls the two SparseCores, transposes the
  array the call wrote and reads it in row-major order as the result.  Each of the four host operations is followed
  on the two arrays it touches, held whole: it leaves its operand and makes its result the operation's function of
  the operand.  For the call the TensorCore hands each SparseCore a read share of the two transposed operands and
  that SparseCore's elements of the output array (keeping a remainder of the operands' shares), and gets the same back
  with the output elements at the lookup's values; joined, the three arrays are whole again, the output array at the
  lookup through the transposed operands.  At the end the TensorCore still holds the two launch operands unchanged and
  the result, whose value is the lookup `G` of the launch operands; the final memory agrees with what is held.
  The ghost state is the handshakes' rounds beside the transfers' counters, and the kernel holds nothing of its own
  from the launch.  The tile's own run is a hypothesis here.
-/
import proofs.«204046_g18683107737843_cont_8to1_103_43_alg».proof.Proof.KBSetup
import proofs.«204046_g18683107737843_cont_8to1_103_43_alg».proof.Proof.KBSplit
import proofs.«204046_g18683107737843_cont_8to1_103_43_alg».proof.Proof.KBValue
import proofs.«204046_g18683107737843_cont_8to1_103_43_alg».proof.Proof.HostIdx
import proofs.«204046_g18683107737843_cont_8to1_103_43_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Lookup

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ (v3Loc d ↦{fullShare} W main_v3) ∗ (v4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- @main's four operations. -/
abbrev op1 : HloOp τ sig (Elt F) := StableHlo.unary main_arg1 main_v0 ((transpose S26x32x100000 [0, 2, 1] · transposes_S26x100000x32_S26x32x100000_0_2_1) : (⟨S26x100000x32, .f32⟩ : BufTy).Contents (Elt F) → (⟨S26x32x100000, .f32⟩ : BufTy).Contents (Elt F))
abbrev op2 : HloOp τ sig (Elt F) := StableHlo.unary main_arg0 main_v1 ((transpose S26x16384 [1, 0] · transposes_S16384x26_S26x16384_1_0) : (⟨S16384x26, .i32⟩ : BufTy).Contents (Elt F) → (⟨S26x16384, .i32⟩ : BufTy).Contents (Elt F))
abbrev op3 : HloOp τ sig (Elt F) := StableHlo.unary main_v2 main_v3 ((transpose S128x128x26x4x8 [2, 4, 0, 1, 3] · transposes_S26x4x128x8x128_S128x128x26x4x8_2_4_0_1_3) : (⟨S26x4x128x8x128, .f32⟩ : BufTy).Contents (Elt F) → (⟨S128x128x26x4x8, .f32⟩ : BufTy).Contents (Elt F))
abbrev op4 : HloOp τ sig (Elt F) := StableHlo.reshape main_v3 main_v4 rfl shapeCasts_S128x128x26x4x8_S16384x26x32

/-- The launch valuation. -/
def V0 (d : Dev nD) : Valuation τ sig (Elt F) := fun b => m (d, b)

omit [FloatOps F] in
/-- Two arrays of the TensorCore held whole. -/
theorem held_pair (d : Dev nD) (a b : DevRef τ sig) (hab : a ≠ b) (W : Valuation τ sig (Elt F)) :
    (held (T d) {a, b} W : sProp 𝕄) = iprop(((d, a) ↦{fullShare} W a) ∗ ((d, b) ↦{fullShare} W b)) := by
  unfold held
  rw [SparseCore.bigSep_insert' (by simpa using hab), bigSep_singleton]

/-- The transposed output array. -/
def R3 (d : Dev nD) : Buf (Elt F) (v3Loc d) :=
  transpose S128x128x26x4x8 [2, 4, 0, 1, 3] (O2 m d) transposes_S26x4x128x8x128_S128x128x26x4x8_2_4_0_1_3

/-- After the call: the output array at what the kernel left; then the transposed array at its value. -/
def V3 (d : Dev nD) : Valuation τ sig (Elt F) := Function.update (V0 m d) v2' (O2 m d)
def V4 (d : Dev nD) : Valuation τ sig (Elt F) := Function.update (V0 m d) v3' (R3 m d)

theorem V3_v2 (d : Dev nD) : V3 m d v2' = O2 m d := Function.update_self _ _ _
theorem V3_v3 (d : Dev nD) : V3 m d v3' = m (v3Loc d) := Function.update_of_ne (show v3' ≠ v2' by decide) _ _
theorem V4_v3 (d : Dev nD) : V4 m d v3' = R3 m d := Function.update_self _ _ _
theorem V4_v4 (d : Dev nD) : V4 m d v4' = m (v4Loc d) := Function.update_of_ne (show v4' ≠ v3' by decide) _ _

theorem hop1 : (op1 (F := F)).bufs ⊆ {a1', v0'} := show ({a1', v0'} : Finset (DevRef τ sig)) ⊆ {a1', v0'} from Finset.Subset.refl _
theorem hop2 : (op2 (F := F)).bufs ⊆ {a0', v1'} := show ({a0', v1'} : Finset (DevRef τ sig)) ⊆ {a0', v1'} from Finset.Subset.refl _
theorem hop3 : (op3 (F := F)).bufs ⊆ {v2', v3'} := show ({v2', v3'} : Finset (DevRef τ sig)) ⊆ {v2', v3'} from Finset.Subset.refl _
theorem hop4 : (op4 (F := F)).bufs ⊆ {v3', v4'} := show ({v3', v4'} : Finset (DevRef τ sig)) ⊆ {v3', v4'} from Finset.Subset.refl _

/-- The first transpose leaves the tables and makes the transposed tables; -/
theorem held1 (d : Dev nD) : (held (T d) {a1', v0'} ((op1 (F := F)).result (V0 m d)) : sProp 𝕄)
    = iprop((a1Loc d ↦{fullShare} m (a1Loc d)) ∗ (v0Loc d ↦{fullShare} T0 m d)) := by
  rw [held_pair d a1' v0' (by decide), (op1 (F := F)).result_of_not_mem (V0 m d) (b := a1') (show a1' ∉ ({v0'} : Finset (DevRef τ sig)) by decide)]
  rw [StableHlo.unary_result]
  rfl

/-- the second the same of the row numbers; -/
theorem held2 (d : Dev nD) : (held (T d) {a0', v1'} ((op2 (F := F)).result (V0 m d)) : sProp 𝕄)
    = iprop((a0Loc d ↦{fullShare} m (a0Loc d)) ∗ (v1Loc d ↦{fullShare} X1 m d)) := by
  rw [held_pair d a0' v1' (by decide), (op2 (F := F)).result_of_not_mem (V0 m d) (b := a0') (show a0' ∉ ({v1'} : Finset (DevRef τ sig)) by decide)]
  rw [StableHlo.unary_result]
  rfl

/-- the third transposes the output array; -/
theorem held3 (d : Dev nD) : (held (T d) {v2', v3'} ((op3 (F := F)).result (V3 m d)) : sProp 𝕄)
    = iprop((v2Loc d ↦{fullShare} O2 m d) ∗ (v3Loc d ↦{fullShare} R3 m d)) := by
  rw [held_pair d v2' v3' (by decide), (op3 (F := F)).result_of_not_mem (V3 m d) (b := v2') (show v2' ∉ ({v3'} : Finset (DevRef τ sig)) by decide)]
  rw [StableHlo.unary_result]
  unfold V3
  rw [Function.update_self]
  rfl

/-- and the reshape reads it as the result. -/
theorem held4 (d : Dev nD) : (held (T d) {v3', v4'} ((op4 (F := F)).result (V4 m d)) : sProp 𝕄)
    = iprop((v3Loc d ↦{fullShare} R3 m d) ∗ (v4Loc d ↦{fullShare} R4 m d)) := by
  rw [held_pair d v3' v4' (by decide), (op4 (F := F)).result_of_not_mem (V4 m d) (b := v3') (show v3' ∉ ({v4'} : Finset (DevRef τ sig)) by decide)]
  rw [StableHlo.reshape_result]
  unfold V4
  rw [Function.update_self]
  rfl

abbrev FIN (d : Dev nD) : sProp 𝕄 :=
  iprop((a0Loc d ↦{fullShare} m (a0Loc d)) ∗ (a1Loc d ↦{fullShare} m (a1Loc d)) ∗ (v4Loc d ↦{fullShare} R4 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, -⟩
  -- the tables transposed
  iapply (wp_hlo_within 𝒱 (SparseCore.T d) none Set.univ (op := op1) (S := {a1', v0'}) hop1 (V := V0 m d)) $$ [Hb Ha1 Hv0]
  · isplitl [Hb]; · iexact Hb
    rw [held_pair d a1' v0' (by decide)]
    isplitl [Ha1]; · iexact Ha1
    iexact Hv0
  iintro ⟨Hb, Hh⟩
  ihave Hh' := (Entails.of_eq (held1 (F := F) m d)) $$ Hh
  icases Hh' with ⟨Ha1, Hv0⟩
  rw [wp_ret]; imodintro
  -- the row numbers transposed
  iapply (wp_hlo_within 𝒱 (SparseCore.T d) none Set.univ (op := op2) (S := {a0', v1'}) hop2 (V := V0 m d)) $$ [Hb Ha0 Hv1]
  · isplitl [Hb]; · iexact Hb
    rw [held_pair d a0' v1' (by decide)]
    isplitl [Ha0]; · iexact Ha0
    iexact Hv1
  iintro ⟨Hb, Hh⟩
  ihave Hh' := (Entails.of_eq (held2 (F := F) m d)) $$ Hh
  icases Hh' with ⟨Ha0, Hv1⟩
  rw [wp_ret]; imodintro
  -- the call: a read share of each operand and its elements of the output array to each SparseCore, and back
  ihave Hs := (call_split d (T0 m d) (X1 m d) (m (v2Loc d))) $$ [Hv0 Hv1 Hv2]
  · isplitl [Hv0]; · iexact Hv0
    isplitl [Hv1]; · iexact Hv1
    iexact Hv2
  icases Hs with ⟨Hrem, Hs0, Hs1⟩
  iapply ((K (F := F)).wp_run (D (F := F)) 𝒱 (EH := EH) (P := P m) κ d 0) $$ [Hst Hrem Hs0 Hs1 Hb Ha0 Ha1 Hv3 Hv4]
  isplitr; · iexact Hctx
  isplitl [Hst]; · iexact Hst
  isplitl [Hs0 Hs1]
  · rw [st0_eq]
    isplitl [Hs0]; · iexact Hs0
    iexact Hs1
  iintro ⟨Hst, Hdn⟩
  ihave Hdn' := (Entails.of_eq (dn0_eq m d)) $$ Hdn
  icases Hdn' with ⟨Hd0, Hd1⟩
  ihave Hj := (call_join d (T0 m d) (X1 m d) (O2 m d)) $$ [Hrem Hd0 Hd1]
  · isplitl [Hrem]; · iexact Hrem
    isplitl [Hd0]; · iexact Hd0
    iexact Hd1
  icases Hj with ⟨Hv0, Hv1, Hv2⟩
  -- the output array transposed
  iapply (wp_hlo_within 𝒱 (SparseCore.T d) none Set.univ (op := op3) (S := {v2', v3'}) hop3 (V := V3 m d)) $$ [Hb Hv2 Hv3]
  · isplitl [Hb]; · iexact Hb
    rw [held_pair d v2' v3' (by decide), V3_v2, V3_v3]
    isplitl [Hv2]; · iexact Hv2
    iexact Hv3
  iintro ⟨Hb, Hh⟩
  ihave Hh' := (Entails.of_eq (held3 (F := F) m d)) $$ Hh
  icases Hh' with ⟨Hv2, Hv3⟩
  rw [wp_ret]; imodintro
  -- and read in row-major order as the result
  iapply (wp_hlo_within 𝒱 (SparseCore.T d) none Set.univ (op := op4) (S := {v3', v4'}) hop4 (V := V4 m d)) $$ [Hb Hv3 Hv4]
  · isplitl [Hb]; · iexact Hb
    rw [held_pair d v3' v4' (by decide), V4_v3, V4_v4]
    isplitl [Hv3]; · iexact Hv3
    iexact Hv4
  iintro ⟨Hb, Hh⟩
  ihave Hh' := (Entails.of_eq (held4 (F := F) m d)) $$ Hh
  icases Hh' with ⟨Hv3, Hv4⟩
  rw [wp_ret]; imodintro; imodintro
  isplitl [Hst]; · iexact Hst
  isplitl [Ha0]; · iexact Ha0
  isplitl [Ha1]; · iexact Ha1
  iexact Hv4

def fq (d : Dev nD) (s' : Phys nD τ sig (Elt F)) : Prop :=
  s'.mem.mem (v4Loc d) = Cert.Lookup.G (m (a0Loc d)) (m (a1Loc d)) ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v4Loc d) (I := Finset.univ) (q := fullShare) (f := R4 m d)) $$ [HSI Hv4]
  · isplitl [HSI] <;> iassumption
  icases H with %h4
  ipureintro
  refine ⟨?_, funext fun i => h0 i (Finset.mem_univ i), funext fun i => h1 i (Finset.mem_univ i)⟩
  rw [← R4_eq]
  exact funext fun i => h4 i (Finset.mem_univ i)

/-! ## The program's run and the claim -/

def QC : PUnit × MemSt nD τ sig (Elt F) → Prop := fun r => ∀ c : Dev nD,
  r.2.mem (v4Loc c) = Cert.Lookup.G (m (a0Loc c)) (m (a1Loc c)) ∧ r.2.mem (a0Loc c) = m (a0Loc c) ∧ r.2.mem (a1Loc c) = m (a1Loc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KBBodySpec.lean ====
/-
  What a tile's task owes the launch, as a statement: from a read share of the transposed tables and of the transposed
  row numbers and the output elements of the tile's 26 planes, the kernel's body on the tile terminates, faults nowhere,
  and hands back the shares and those output elements at the lookup's values.
-/
import proofs.«204046_g18683107737843_cont_8to1_103_43_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ) [FloatOps F]

/-- The tile at grid coordinates `L`: SparseCore `L 0`, vector subcore `L 1`. -/
abbrev thr (d : Dev nD) (L : grid0.Coords) : Thread nD τ := V d ((L 0).castLE hcore0) ((L 1).castLE hsub0)

/-- The body's obligation at a symbolic tile, any read share `q`. -/
def TileBody : Prop :=
  ∀ (d : Dev nD) (L : grid0.Coords) (q : PosShare TreeShare) (O : CellTallies nD τ sig (HIx 1)) (W : Waits sig (HIx 1)), (∀ g, O g none = 0) →
    (iprop(levAts (K (F := F)).L (K (F := F)).lev ∗ emp
        ∗ ((v0Loc d ↦{q} T0 m d) ∗ (v1Loc d ↦{q} X1 m d) ∗ (v2Loc d ↦[tileSet (L 0).val (L 1).val]{fullShare} m (v2Loc d)))
        ∗ scopedBufs (thr d L) ∗ scopedSems0 (thr d L) ∗ owes (thr d L) O W) : sProp 𝕄)
      ⊢ wp frame (wpE (defs₀ (F := F)) 𝒱₀ (thr d L) none) Set.univ
          (cc0__body L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          fun _ => iprop(((v0Loc d ↦{q} T0 m d) ∗ (v1Loc d ↦{q} X1 m d) ∗ (v2Loc d ↦[tileSet (L 0).val (L 1).val]{fullShare} O2 m d))
            ∗ scopedBufs (thr d L) ∗ scopedSems0 (thr d L)
            ∗ ∃ W', ⌜∀ p ∈ W', p ∈ W ∨ p.2 = none⌝ ∗ owes (thr d L) O W')

end Cert.Proof.KB

end
-- ==== Proof.KBTileObl.lean ====
/-
  The tile's run as the launch theorem asks for it.

  The launch theorem states a vector-subcore kernel's obligation per SparseCore `c` and vector subcore `i` of the
  call's grid, over the body table's row for that processor; the row is the kernel's function at the grid
  coordinates `(c, i)`, on the whole arrays and the tile's scratch.  The tile's run, stated at symbolic grid
  coordinates and any read share, is that obligation at tile `i`'s share of SparseCore `c`'s share and at the output
  elements of worker `2 i + c`; this kernel owes nothing for a protocol of its own.
-/
import proofs.«204046_g18683107737843_cont_8to1_103_43_alg».proof.Proof.KBBodySpec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lookup

variable {F : FTy → Type}

local notation "𝕄" => MT nD τ sig (HIx 1) (Elt F) ℕ UU ℕ

variable (m : (ℓ : Loc nD τ sig) → Buf (Elt F) ℓ) [FloatOps F]

/-- The grid coordinates of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore: the kernel's function at the subcore's coordinates. -/
theorem defs₀_vector (c : Fin τ.nSC) (s : Fin τ.nSub) :
    defs₀ (F := F) (.scVector c s) 0 ()
      = SparseCore.onTile hcore0 hsub0 (fun c s => cc0__body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scratch5 cc0_scoped0) ⟨⟩ c s := rfl

omit [FloatOps F] in
/-- The waits a task may leave: the launch theorem allows those of the call besides. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) (qT (Fin.cast nCore_zero c) (Fin.cast nSub_zero i)) O W hO).trans
    (wp_mono frame _ _ fun _ => obl_post)

end Cert.Proof.KB

end
-- ==== Proof.KBTileDefs.lean ====
/-
  The quantities a tile's trips are stated over.

  Tile `L` is worker `w = 2 (L 1) + (L 0)`; its 26 planes are `26 w … 26 w + 25`, and trip `k` handles plane `26 w + k`:
  table `(26 w + k) / 32`, entry `(26 w + k) % 32`.  The plane scratch holds that plane, the row-number scratch the
  row numbers of the plane's feature, the block buffer half a plane of looked-up numbers at a time.
-/
import proofs.«204046_g18683107737843_cont_8to1_103_43_alg».proof.Proof.KBBodySpec

noncomputable section

namespace Cert.Proof.KB

open Cert.Kernel Cert.Kernel.Gen

open Idealize.ShloMosaic
open Idealize.ShloMosaic.SparseCore (S V T)
open Cert.Lookup

variable {F : FTy → Type}

variable (m : (ℓ : Loc nD τ sig) → Buf (Elt F) ℓ) [FloatOps F] (d : Dev nD) (L : grid0.Coords)

/-- The tile's first plane. -/
def bs (L : grid0.Coords) : ℕ := 52 * (L 1).val + 26 * (L 0).val

/-- The output elements the tile owns. -/
abbrev TS (L : grid0.Coords) : Finset S26x4x128x8x128.Idx := tileSet (L 0).val (L 1).val

/-- Plane `n` of the transposed tables, as the plane scratch holds it. -/
def planeFn (n : ℕ) : S100000.Idx → Elt F .f32 :=
  fun v => T0 m d (ValueIdx.ix3 ⟨n / 32 % 26, Nat.mod_lt _ (by decide)⟩ ⟨n % 32, Nat.mod_lt _ (by decide)⟩ ⟨(v 0).val, (v 0).isLt⟩)

/-- Feature `i`'s row numbers, as the row-number scratch holds them. -/
def xrowFn (i : ℕ) : S16384.Idx → Elt F .i32 :=
  fun b => X1 m d (ValueIdx.ix2 ⟨i % 26, Nat.mod_lt _ (by decide)⟩ ⟨(b 0).val, (b 0).isLt⟩)

/-- The block buffer's target contents: row `f`, lane `l` is the plane scratch `fp` at the row number found at
    `base + 128 f + l` of the row-number scratch `fx`. -/
def blkFn (base : ℕ) (fp : S100000.Idx → Elt F .f32) (fx : S16384.Idx → BitVec 32) (hfx : ∀ j, (fx j).toNat < 100000)
    (hb : base + 8192 ≤ 16384) (y : S64x1x128.Idx) : Elt F .f32 :=
  fp (ValueIdx.ix1 ⟨(fx (ValueIdx.ix1 ⟨base + 128 * (y 0).val + (y 2).val, by
    have h0 : (y 0).val < 64 := (y 0).isLt
    have h2 : (y 2).val < 128 := (y 2).isLt
    omega⟩)).toNat, hfx _⟩)

/-- The tile's output elements are at the lookup's values on every plane below `n` and on the first `hh` halves of
    plane `n`. -/
def Done (fo : S26x4x128x8x128.Idx → Elt F .f32) (n hh : ℕ) : Prop :=
  ∀ j ∈ TS L, (planeOf j < n ∨ (planeOf j = n ∧ (j 2).val < 64 * hh)) → fo j = O2 m d j

end Cert.Proof.KB

end
-- ==== Proof.KBDma.lean ====
/-
  What the tile's three kinds of copies move.

  A tile copies a PLANE of the transposed tables, `T[i, e, ·]`, into its own memory: the source is the slice of
  `[26, 32, 100000]` at offsets `(i, e, 0)` of sizes `(1, 1, 100000)` with its two unit axes dropped, so element `v` of the
  copy is `T[i, e, v]`.  It copies a ROW of the transposed row numbers, `X[i, ·]`, the same way: element `b` is `X[i, b]`.
  And it copies its block of `64 × 1 × 128` gathered values to the slice of the output array `[26, 4, 128, 8, 128]` at
  offsets `(i, t, 64 h, r, 0)` of sizes `(1, 1, 64, 1, 128)` with the unit axes at 0, 1 dropped: the elements written are
  those with coordinates `i`, `t`, `r` on axes 0, 1, 3 and a coordinate in `[64 h, 64 h + 64)` on axis 2; element `j` of
  them receives the block's `(j 2 - 64 h, 0, j 4)`; every other element keeps what it held.  Dropping unit axes keeps the
  row-major order, which is how the reshaped indices are matched.
-/
import proofs.«204046_g18683107737843_cont_8to1_103_43_alg».proof.Proof.KBSetup
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.SL.Sem

variable {F : FTy → Type}

local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

/-- A vector of 100000 matched with `[1, 1, 100000]` by row-major position: `v` with `(0, 0, v)`. -/
theorem squeeze_plane_idx (h : S100000.numel = S1x1x100000.numel) (v : S100000.Idx) :
    Shape.reshapeEquiv h v = ix3 (0 : Fin 1) (0 : Fin 1) (⟨(v 0).val, (v 0).isLt⟩ : Fin 100000) :=
  Shape.reshapeEquiv_eq_of_rowMajor h (by
    rw [Shape.rowMajor_val_three, Shape.rowMajor_val_one]
    show (0 * 1 + 0) * 100000 + (v 0).val = (v 0).val
    omega)

/-- A vector of 16384 matched with `[1, 16384]`: `b` with `(0, b)`. -/
theorem squeeze_xrow_idx (h : S16384.numel = S1x16384.numel) (b : S16384.Idx) :
    Shape.reshapeEquiv h b = ix2 (0 : Fin 1) (⟨(b 0).val, (b 0).isLt⟩ : Fin 16384) :=
  Shape.reshapeEquiv_eq_of_rowMajor h (by
    rw [Shape.rowMajor_val_two, Shape.rowMajor_val_one]
    show 0 * 16384 + (b 0).val = (b 0).val
    omega)

/-- The copy of plane `(i, e)` into the tile's memory holds `T[i, e, v]` at `v`. -/
theorem plane_payload (T : S26x32x100000.Idx → Elt F .f32) (fp : S100000.Idx → Elt F .f32) (off : Fin 3 → ℕ)
    (inb : ∀ a, off a + S1x1x100000.size a ≤ S26x32x100000.size a) (i e : ℕ) (hi : i < 26) (he : e < 32)
    (h0 : off 0 = i) (h1 : off 1 = e) (h2 : off 2 = 0) (v : S100000.Idx) :
    View.write (Elt F) (sP).view fp (ReadAs.same.apply (View.read (Elt F) (((tW).slice (Rect.unit (s := S26x32x100000) off S1x1x100000.size inb) (fun _ => rfl)).squeeze S100000 squeezes_S1x1x100000_S100000).view T)) Finset.univ v
      = T (ValueIdx.ix3 ⟨i, hi⟩ ⟨e, he⟩ ⟨(v 0).val, (v 0).isLt⟩) := by
  refine (View.write_emb_of_mem (v := (sP).view) fp _ (x := v) (Finset.mem_univ v)).trans ?_
  show T ((Rect.unit (s := S26x32x100000) off S1x1x100000.size inb).emb (Shape.reshapeEquiv squeezes_S1x1x100000_S100000.numel_eq v)) = _
  rw [squeeze_plane_idx]
  refine congrArg T (funext fun a => Fin.ext ?_)
  match a with
  | ⟨0, _⟩ => show off 0 + 1 * 0 = i; omega
  | ⟨1, _⟩ => show off 1 + 1 * 0 = e; omega
  | ⟨2, _⟩ => show off 2 + 1 * (v 0).val = (v 0).val; omega

/-- The copy of row `i` of the transposed row numbers holds `X[i, b]` at `b`. -/
theorem xrow_payload (X : S26x16384.Idx → Elt F .i32) (fx : S16384.Idx → Elt F .i32) (off : Fin 2 → ℕ)
    (inb : ∀ a, off a + S1x16384.size a ≤ S26x16384.size a) (i : ℕ) (hi : i < 26) (h0 : off 0 = i) (h1 : off 1 = 0) (b : S16384.Idx) :
    View.write (Elt F) (sX).view fx (ReadAs.same.apply (View.read (Elt F) (((xW).slice (Rect.unit (s := S26x16384) off S1x16384.size inb) (fun _ => rfl)).squeeze S16384 squeezes_S1x16384_S16384).view X)) Finset.univ b
      = X (ValueIdx.ix2 ⟨i, hi⟩ ⟨(b 0).val, (b 0).isLt⟩) := by
  refine (View.write_emb_of_mem (v := (sX).view) fx _ (x := b) (Finset.mem_univ b)).trans ?_
  show X ((Rect.unit (s := S26x16384) off S1x16384.size inb).emb (Shape.reshapeEquiv squeezes_S1x16384_S16384.numel_eq b)) = _
  rw [squeeze_xrow_idx]
  refine congrArg X (funext fun a => Fin.ext ?_)
  match a with
  | ⟨0, _⟩ => show off 0 + 1 * 0 = i; omega
  | ⟨1, _⟩ => show off 1 + 1 * (b 0).val = (b 0).val; omega

/-! ## The write-back -/

/-- The slice of the output array a half plane is written to, its unit axes 0 and 1 dropped. -/
abbrev outV (off : Fin 5 → ℕ) (inb : ∀ a, off a + S1x1x64x1x128.size a ≤ S26x4x128x8x128.size a) :
    View sig .scVector .hbm S64x1x128 .f32 :=
  (((oW).slice (Rect.unit (s := S26x4x128x8x128) off S1x1x64x1x128.size inb) (fun _ => rfl)).squeeze S64x1x128 squeezes_S1x1x64x1x128_S64x1x128).view

/-- Its elements are the rectangle's. -/
theorem out_set (off : Fin 5 → ℕ) (inb : ∀ a, off a + S1x1x64x1x128.size a ≤ S26x4x128x8x128.size a) :
    (outV off inb).set = (Rect.unit (s := S26x4x128x8x128) off S1x1x64x1x128.size inb).set := by
  show (((View.whole main_v2_scv).slice (Rect.unit (s := S26x4x128x8x128) off S1x1x64x1x128.size inb)).reshape S64x1x128 _).set = _
  rw [View.set_reshape, View.set_slice_whole]

/-- An element of the rectangle at `(i, t, 64 h, r, 0)`: coordinates `i`, `t`, `r` on axes 0, 1, 3, and on axis 2 a
    coordinate of the `h`-th run of 64. -/
theorem out_mem (off : Fin 5 → ℕ) (inb : ∀ a, off a + S1x1x64x1x128.size a ≤ S26x4x128x8x128.size a) (i t h r : ℕ)
    (h0 : off 0 = i) (h1 : off 1 = t) (h2 : off 2 = 64 * h) (h3 : off 3 = r) (h4 : off 4 = 0) (j : S26x4x128x8x128.Idx) :
    j ∈ (outV off inb).set ↔ (j 0).val = i ∧ (j 1).val = t ∧ (j 2).val / 64 = h ∧ (j 3).val = r := by
  rw [out_set, Rect.mem_set_unit]
  have hj4 : (j 4).val < 128 := (j 4).isLt
  constructor
  · intro H
    have H0 : off 0 ≤ (j 0).val ∧ (j 0).val < off 0 + 1 := H 0
    have H1 : off 1 ≤ (j 1).val ∧ (j 1).val < off 1 + 1 := H 1
    have H2 : off 2 ≤ (j 2).val ∧ (j 2).val < off 2 + 64 := H 2
    have H3 : off 3 ≤ (j 3).val ∧ (j 3).val < off 3 + 1 := H 3
    omega
  · rintro ⟨e0, e1, e2, e3⟩ a
    match a with
    | ⟨0, _⟩ => show off 0 ≤ (j 0).val ∧ (j 0).val < off 0 + 1; omega
    | ⟨1, _⟩ => show off 1 ≤ (j 1).val ∧ (j 1).val < off 1 + 1; omega
    | ⟨2, _⟩ => show off 2 ≤ (j 2).val ∧ (j 2).val < off 2 + 64; omega
    | ⟨3, _⟩ => show off 3 ≤ (j 3).val ∧ (j 3).val < off 3 + 1; omega
    | ⟨4, _⟩ => show off 4 ≤ (j 4).val ∧ (j 4).val < off 4 + 128; omega

/-- An element of the rectangle, coordinate by coordinate. -/
theorem out_coords (off : Fin 5 → ℕ) (inb : ∀ a, off a + S1x1x64x1x128.size a ≤ S26x4x128x8x128.size a)
    (j : S26x4x128x8x128.Idx) (hj : j ∈ (outV off inb).set) :
    (j 0).val = off 0 ∧ (j 1).val = off 1 ∧ (off 2 ≤ (j 2).val ∧ (j 2).val < off 2 + 64) ∧ (j 3).val = off 3 ∧ off 4 ≤ (j 4).val := by
  rw [out_set, Rect.mem_set_unit] at hj
  have H0 : off 0 ≤ (j 0).val ∧ (j 0).val < off 0 + 1 := hj 0
  have H1 : off 1 ≤ (j 1).val ∧ (j 1).val < off 1 + 1 := hj 1
  have H2 : off 2 ≤ (j 2).val ∧ (j 2).val < off 2 + 64 := hj 2
  have H3 : off 3 ≤ (j 3).val ∧ (j 3).val < off 3 + 1 := hj 3
  have H4 : off 4 ≤ (j 4).val ∧ (j 4).val < off 4 + 128 := hj 4
  omega

/-- Its row within the block. -/
theorem out_row_lt (off : Fin 5 → ℕ) (inb : ∀ a, off a + S1x1x64x1x128.size a ≤ S26x4x128x8x128.size a) (h : ℕ) (h2 : off 2 = 64 * h)
    (j : S26x4x128x8x128.Idx) (hj : j ∈ (outV off inb).set) : (j 2).val - 64 * h < 64 := by
  have H := out_coords off inb j hj
  omega

/-- A block `[64, 1, 128]` matched with `[1, 1, 64, 1, 128]` by row-major position: `(a, 0, c)` with `(0, 0, a, 0, c)`. -/
theorem squeeze_block_idx (h : S64x1x128.numel = S1x1x64x1x128.numel) (a : Fin 64) (c : Fin 128) :
    Shape.reshapeEquiv h (ix3 a (0 : Fin 1) c) = ix5 (0 : Fin 1) (0 : Fin 1) a (0 : Fin 1) c :=
  Shape.reshapeEquiv_eq_of_rowMajor h (by
    rw [Shape.rowMajor_val_five, Shape.rowMajor_val_three]
    show ((((0 * 1 + 0) * 64 + a.val) * 1 + 0) * 128 + c.val) = (a.val * 1 + 0) * 128 + c.val
    omega)

/-- An element of the rectangle receives the block's entry at its row within the run and its lane. -/
theorem out_write_mem (fo : S26x4x128x8x128.Idx → Elt F .f32) (fb : S64x1x128.Idx → Elt F .f32) (off : Fin 5 → ℕ)
    (inb : ∀ a, off a + S1x1x64x1x128.size a ≤ S26x4x128x8x128.size a) (h : ℕ) (h2 : off 2 = 64 * h) (h4 : off 4 = 0)
    (j : S26x4x128x8x128.Idx) (hj : j ∈ (outV off inb).set) :
    View.write (Elt F) (outV off inb) fo (ReadAs.same.apply (View.read (Elt F) (sB).view fb)) Finset.univ j
      = fb (ValueIdx.ix3 ⟨(j 2).val - 64 * h, out_row_lt off inb h h2 j hj⟩ ⟨0, Nat.one_pos⟩ ⟨(j 4).val, (j 4).isLt⟩) := by
  have H := out_coords off inb j hj
  have hx : (outV off inb).emb (ValueIdx.ix3 (⟨(j 2).val - 64 * h, out_row_lt off inb h h2 j hj⟩ : Fin 64) (⟨0, Nat.one_pos⟩ : Fin 1) (⟨(j 4).val, (j 4).isLt⟩ : Fin 128)) = j := by
    show (Rect.unit (s := S26x4x128x8x128) off S1x1x64x1x128.size inb).emb (Shape.reshapeEquiv squeezes_S1x1x64x1x128_S64x1x128.numel_eq _) = j
    rw [show (⟨0, Nat.one_pos⟩ : Fin 1) = (0 : Fin 1) from rfl, squeeze_block_idx]
    refine funext fun a => Fin.ext ?_
    match a with
    | ⟨0, _⟩ => show off 0 + 1 * 0 = (j 0).val; omega
    | ⟨1, _⟩ => show off 1 + 1 * 0 = (j 1).val; omega
    | ⟨2, _⟩ => show off 2 + 1 * ((j 2).val - 64 * h) = (j 2).val; omega
    | ⟨3, _⟩ => show off 3 + 1 * 0 = (j 3).val; omega
    | ⟨4, _⟩ => show off 4 + 1 * (j 4).val = (j 4).val; omega
  conv_lhs => rw [← hx]
  exact View.write_emb_of_mem (v := outV off inb) fo _ (Finset.mem_univ _)

/-- Every other element keeps what it held. -/
theorem out_write_not_mem (fo : S26x4x128x8x128.Idx → Elt F .f32) (w : S64x1x128.Idx → Elt F .f32) (off : Fin 5 → ℕ)
    (inb : ∀ a, off a + S1x1x64x1x128.size a ≤ S26x4x128x8x128.size a) (j : S26x4x128x8x128.Idx) (hj : j ∉ (outV off inb).set) :
    View.write (Elt F) (outV off inb) fo w Finset.univ j = fo j :=
  View.write_of_not_mem (v := outV off inb) fo w Finset.univ hj

end Cert.Proof.KB

end
-- ==== Proof.KBTripDefs.lean ====
/-
  A tile's state between the trips of its plane loop, and the wrappers that open a tile's scoped buffers and
  semaphores.  Between trips the next plane's copy is in flight on the plane semaphore, the previous trip's second
  write-back is in flight on the write-back semaphore (none before the first trip), the row-number scratch holds the row
  numbers of the carried table, and every plane handled so far is at the lookup's values in the output.
-/
import proofs.«204046_g18683107737843_cont_8to1_103_43_alg».proof.Proof.KBTileDefs
import proofs.«204046_g18683107737843_cont_8to1_103_43_alg».proof.Proof.KBDma
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The tile's three DMA semaphores in use: the plane copies', the write-backs', the row-number copy's. -/
abbrev pCell : GSem nD τ sig := (thr d L, .dma cc0_scratch3.sem)
abbrev oCell : GSem nD τ sig := (thr d L, .dma cc0_scratch5.sem)
abbrev xCell : GSem nD τ sig := (thr d L, .dma cc0_scoped0.sem)

omit m in
theorem ownSems0_V :
    (ownSems0 (thr d L) : sProp 𝕄)
      = iprop(semVal (pCell d L) 0 ∗ semVal (oCell d L) 0 ∗ semVal (xCell d L) 0
          ∗ bigSep ((((ownCells (thr d L)).erase (pCell d L)).erase (oCell d L)).erase (xCell d L)) fun g => semVal g 0) := by
  unfold SparseCore.Cfg.ownSems0
  rw [SparseCore.bigSep_erase' ((mem_ownCells (g := pCell d L)).mpr ⟨rfl, by
      show (SemLoc.dma cc0_scratch3.sem : SemLoc sig).isScoped .scVector = true; decide⟩),
    SparseCore.bigSep_erase' (Finset.mem_erase.mpr ⟨by simp [pCell, oCell]; decide, (mem_ownCells (g := oCell d L)).mpr ⟨rfl, by
      show (SemLoc.dma cc0_scratch5.sem : SemLoc sig).isScoped .scVector = true; decide⟩⟩),
    SparseCore.bigSep_erase' (Finset.mem_erase.mpr ⟨by simp [oCell, xCell]; decide, Finset.mem_erase.mpr ⟨by simp [pCell, xCell]; decide,
      (mem_ownCells (g := xCell d L)).mpr ⟨rfl, by show (SemLoc.dma cc0_scoped0.sem : SemLoc sig).isScoped .scVector = true; decide⟩⟩⟩)]

omit m in
/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_t (S : Finset S26x32x100000.Idx) (q : PosShare TreeShare) (f : Buf (Elt F) (v0Loc d)) :
    ((tW).view.loc (thr d L) ↦[S]{q} f : sProp 𝕄) = (v0Loc d ↦[S]{q} f) := rfl
omit [FloatOps F] in
theorem pts_x (S : Finset S26x16384.Idx) (q : PosShare TreeShare) (f : Buf (Elt F) (v1Loc d)) :
    ((xW).view.loc (thr d L) ↦[S]{q} f : sProp 𝕄) = (v1Loc d ↦[S]{q} f) := rfl
omit [FloatOps F] in
theorem pts_o (S : Finset S26x4x128x8x128.Idx) (q : PosShare TreeShare) (f : Buf (Elt F) (v2Loc d)) :
    ((oW).view.loc (thr d L) ↦[S]{q} f : sProp 𝕄) = (v2Loc d ↦[S]{q} f) := rfl
omit [FloatOps F] in
theorem pts_sP (f : Buf (Elt F) ((thr d L).loc cc0_scratch0)) :
    ((sP).view.loc (thr d L) ↦{fullShare} f : sProp 𝕄) = ((thr d L).loc cc0_scratch0 ↦{fullShare} f) := rfl
omit [FloatOps F] in
theorem pts_sX (f : Buf (Elt F) ((thr d L).loc cc0_scratch1)) :
    ((sX).view.loc (thr d L) ↦{fullShare} f : sProp 𝕄) = ((thr d L).loc cc0_scratch1 ↦{fullShare} f) := rfl
omit [FloatOps F] in
theorem pts_sB (f : Buf (Elt F) ((thr d L).loc cc0_scratch2)) :
    ((sB).view.loc (thr d L) ↦{fullShare} f : sProp 𝕄) = ((thr d L).loc cc0_scratch2 ↦{fullShare} f) := rfl

/-- The destination of the first and of the second half plane's write-back at trip `k`. -/
abbrev outM0 (L : grid0.Coords) (k : Fin k0_t1_loop.trips) : Memref sig .scVector .hbm S64x1x128 .f32 :=
  ((oW).slice (Rect.unit (s := S26x4x128x8x128) (k0_off20 L k) S1x1x64x1x128.size (k0_off20_inb L k)) (fun _ => rfl)).squeeze S64x1x128 squeezes_S1x1x64x1x128_S64x1x128
abbrev outM1 (L : grid0.Coords) (k : Fin k0_t1_loop.trips) : Memref sig .scVector .hbm S64x1x128 .f32 :=
  ((oW).slice (Rect.unit (s := S26x4x128x8x128) (k0_off38 L k) S1x1x64x1x128.size (k0_off38_inb L k)) (fun _ => rfl)).squeeze S64x1x128 squeezes_S1x1x64x1x128_S64x1x128

/-! ## A trip of the plane loop -/

section Trip

variable (q : PosShare TreeShare) (O : CellTallies nD τ sig (HIx 1)) (W : Waits sig (HIx 1))

/-- The worker's first plane number as the body computes it. -/
def V2 (L : grid0.Coords) : BitVec 32 :=
  Scalar.muli (Scalar.addi (Scalar.muli (BitVec.ofNat 32 (L 1).val) 2#32) (BitVec.ofNat 32 (L 0).val)) 26#32

omit [FloatOps F] in
/-- The table of trip `k`'s plane, as the body computes it. -/
theorem v16_toNat (k : Fin k0_t1_loop.trips) :
    (Scalar.divsi (Scalar.addi (V2 L) (Scf.iv 0#32 1#32 k)) 32#32).toNat = (bs L + k.val) / 32 := by
  have h : (k0_off3 L k) 0 = (52 * (L 1).val + 26 * (L 0).val + k.val) / 32 := by rw [k0_off3_eq]; rfl
  exact h

/-- What the tile holds of the plane copies between trips: the next plane's copy in flight, none after the last trip. -/
def planeSt (k : ℕ) : sProp 𝕄 :=
  if k < 26 then
    iprop(∃ (Sp : Finset S26x32x100000.Idx) (fpl : Buf (Elt F) ((thr d L).loc cc0_scratch0)),
      Transfers.Flight countersEmb (thr d L) (SemLoc.dma cc0_scratch3.sem) (default : HIx 1) 3200000
          iprop(((thr d L).loc cc0_scratch0 ↦{fullShare} fpl) ∗ (v0Loc d ↦[Sp]{q} T0 m d))
        ∗ (v0Loc d ↦[Finset.univ \ Sp]{q} T0 m d) ∗ ⌜fpl = planeFn m d (bs L + k)⌝)
  else
    iprop(semVal (pCell d L) 0 ∗ (∃ fpl : Buf (Elt F) ((thr d L).loc cc0_scratch0), (thr d L).loc cc0_scratch0 ↦{fullShare} fpl)
      ∗ (v0Loc d ↦{q} T0 m d))

/-- What the tile holds of the write-backs between trips: nothing outstanding before the first trip, the second half
    plane of the previous trip in flight afterwards. -/
def outSt (k : ℕ) : sProp 𝕄 :=
  if k = 0 then
    iprop((∃ fb : Buf (Elt F) ((thr d L).loc cc0_scratch2), (thr d L).loc cc0_scratch2 ↦{fullShare} fb) ∗ semVal (oCell d L) 0
      ∗ ∃ fo : Buf (Elt F) (v2Loc d), (v2Loc d ↦[TS L]{fullShare} fo) ∗ ⌜Done m d L fo (bs L) 0⌝)
  else
    iprop(∃ (So : Finset S26x4x128x8x128.Idx) (fo : Buf (Elt F) (v2Loc d)) (fb : Buf (Elt F) ((thr d L).loc cc0_scratch2)),
      Transfers.Flight countersEmb (thr d L) (SemLoc.dma cc0_scratch5.sem) (default : HIx 1) 262144
          iprop((v2Loc d ↦[So]{fullShare} fo) ∗ ((thr d L).loc cc0_scratch2 ↦{fullShare} fb))
        ∗ (v2Loc d ↦[TS L \ So]{fullShare} fo) ∗ ⌜So ⊆ TS L⌝ ∗ ⌜Done m d L fo (bs L + k) 0⌝)

/-- The plane loop's invariant at trip `k` with carried table `a`: plane `k`'s copy in flight, the row-number scratch
    at the carried table's row numbers, the previous write-back in flight, every earlier plane written. -/
def invO (k : ℕ) (a : BitVec 32) : sProp 𝕄 :=
  iprop(Transfers.MayWaits (thr d L) (none : HIx 1) O
    ∗ planeSt m d L q k
    ∗ (v1Loc d ↦{q} X1 m d)
    ∗ (∃ fx : Buf (Elt F) ((thr d L).loc cc0_scratch1), ((thr d L).loc cc0_scratch1 ↦{fullShare} fx)
        ∗ ⌜(k = 0 → a.toNat = 4294967295) ∧ (k ≠ 0 → a.toNat = (bs L + k - 1) / 32 ∧ fx = xrowFn m d ((bs L + k - 1) / 32))⌝)
    ∗ semVal (xCell d L) 0
    ∗ outSt m d L k
    ∗ ∃ W', ⌜∀ p ∈ W', p ∈ W ∨ p.2 = none⌝ ∗ owes (thr d L) O W')

/-- The state in the middle of trip `k`, after the first half plane's write-back is issued. -/
def midSt (k : Fin k0_t1_loop.trips) (x : Σ' (_ : BitVec 32) (_ : BitVec 32), BitVec 32) : sProp 𝕄 :=
  iprop(Transfers.MayWaits (thr d L) (none : HIx 1) O
    ∗ ⌜x.2.2.toNat = (bs L + k.val) / 32⌝
    ∗ ((thr d L).loc cc0_scratch0 ↦{fullShare} planeFn m d (bs L + k.val))
    ∗ (v0Loc d ↦{q} T0 m d) ∗ (v1Loc d ↦{q} X1 m d)
    ∗ ((thr d L).loc cc0_scratch1 ↦{fullShare} xrowFn m d ((bs L + k.val) / 32))
    ∗ semVal (pCell d L) 0 ∗ semVal (xCell d L) 0
    ∗ (∃ (fo : Buf (Elt F) (v2Loc d)) (fb : Buf (Elt F) ((thr d L).loc cc0_scratch2)),
        Transfers.Flight countersEmb (thr d L) (SemLoc.dma cc0_scratch5.sem) (default : HIx 1) 262144
            iprop((v2Loc d ↦[(outM0 L k).view.set]{fullShare} fo) ∗ ((thr d L).loc cc0_scratch2 ↦{fullShare} fb))
          ∗ (v2Loc d ↦[TS L \ (outM0 L k).view.set]{fullShare} fo) ∗ ⌜Done m d L fo (bs L + k.val) 1⌝)
    ∗ ∃ W', ⌜∀ p ∈ W', p ∈ W ∨ p.2 = none⌝ ∗ owes (thr d L) O W')

end Trip
end Tile
end Cert.Proof.KB
end
-- ==== Proof.KBDone.lean ====
/-
  The planes a tile has finished, as its trips go.

  The tile at grid coordinates `L` is worker `w = 2 (L 1) + (L 0)`; its planes are `26 w … 26 w + 25`, its output
  elements those of these planes.  Trip `k` writes plane `n = 26 w + k` in two halves: half `h` is the rectangle of the
  output array at `(n / 32, n % 32 / 8, 64 h, n % 32 % 8, 0)` of sizes `(1, 1, 64, 1, 128)`, all of whose elements are on
  plane `n` (so the tile's own), and it receives the block buffer, which holds at `(f, 0, l)` the plane's entry at the row
  number of example `8192 h + 128 f + l`: at an element `j` of the rectangle that is the plane at the row number of
  example `128 (j 2) + (j 4)`, the lookup's value there.  Elements outside the rectangle keep what they held.  So "done
  up to plane `n`, half `h`" goes to "half `h + 1`" by one write-back; two halves are a plane; before the first trip
  nothing is asked; after 26 planes every element of the tile is at the lookup's value.
-/
import proofs.«204046_g18683107737843_cont_8to1_103_43_alg».proof.Proof.KBTileDefs
import proofs.«204046_g18683107737843_cont_8to1_103_43_alg».proof.Proof.KBDma
import Idealize.ShloMosaic.Lib.Writes

noncomputable section

namespace Cert.Proof.KB

open Cert.Kernel Cert.Kernel.Gen

open Idealize.ShloMosaic Idealize.ShloMosaic.ValueIdx
open Idealize.SL.Sem
open Cert.Lookup

variable {F : FTy → Type}

local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

/-- One piece at the whole rectangle is one write through the view. -/
theorem out_writes_eq (fo : S26x4x128x8x128.Idx → Elt F .f32) (w : S64x1x128.Idx → Elt F .f32) (off : Fin 5 → ℕ)
    (inb : ∀ a, off a + S1x1x64x1x128.size a ≤ S26x4x128x8x128.size a) :
    (outV off inb).writes (Elt F) fo [⟨Rect.whole S64x1x128, w⟩] = View.write (Elt F) (outV off inb) fo w Finset.univ := by
  rw [View.writes_singleton]
  have he : ((outV off inb).slice (Rect.whole S64x1x128)).emb = (outV off inb).emb :=
    Function.Embedding.ext fun x => by
      show (outV off inb).emb ((Rect.whole S64x1x128).emb x) = _
      rw [Rect.emb_whole_apply]
  unfold View.write
  rw [he]
  rfl

theorem trips_t1 : Scf.trips k0_t1_loop.lb k0_t1_loop.ub k0_t1_loop.st = 26 := by decide

variable (m : (ℓ : Loc nD τ sig) → Buf (Elt F) ℓ) [FloatOps F] (d : Dev nD) (L : grid0.Coords)

omit [FloatOps F] in
/-- The grid has two SparseCores of sixteen vector subcores. -/
theorem L_lt (L : grid0.Coords) : (L 0).val < 2 ∧ (L 1).val < 16 := ⟨(L 0).isLt, (L 1).isLt⟩

omit [FloatOps F] in
/-- An output element's plane, from its coordinates (for `omega`). -/
theorem planeOf_eq (j : S26x4x128x8x128.Idx) : planeOf j = (j 0).val * 32 + (j 1).val * 8 + (j 3).val ∧ (j 0).val < 26 ∧ (j 1).val < 4
    ∧ (j 2).val < 128 ∧ (j 3).val < 8 ∧ (j 4).val < 128 :=
  ⟨rfl, (j 0).isLt, (j 1).isLt, (j 2).isLt, (j 3).isLt, (j 4).isLt⟩

omit [FloatOps F] in
/-- The tile's elements are those of its 26 planes. -/
theorem mem_TS (L : grid0.Coords) (j : S26x4x128x8x128.Idx) : j ∈ TS L ↔ planeOf j / 26 = 2 * (L 1).val + (L 0).val := by
  simp only [tileSet, Finset.mem_filter, Finset.mem_univ, true_and]

omit [FloatOps F] in
/-- Half `h` of trip `k`'s plane lies among the tile's elements. -/
theorem out_sub (k : Fin k0_t1_loop.trips) (off : Fin 5 → ℕ) (inb : ∀ a, off a + S1x1x64x1x128.size a ≤ S26x4x128x8x128.size a) (h : ℕ)
    (hoff : off = ![(bs L + k.val) / 32, (bs L + k.val) % 32 / 8, 64 * h, (bs L + k.val) % 32 % 8, 0]) : (outV off inb).set ⊆ TS L := by
  intro j hj
  have hk : k.val < 26 := lt_of_lt_of_eq k.isLt trips_t1
  have hL := L_lt L
  have hp := planeOf_eq j
  have H := (out_mem off inb ((bs L + k.val) / 32) ((bs L + k.val) % 32 / 8) h ((bs L + k.val) % 32 % 8)
    (congrFun hoff 0) (congrFun hoff 1) (congrFun hoff 2) (congrFun hoff 3) (congrFun hoff 4) j).mp hj
  have hbs : bs L = 52 * (L 1).val + 26 * (L 0).val := rfl
  rw [mem_TS]
  omega

/-- The value at an output element, from the plane and the row numbers read at matching places. -/
theorem O2_eq_of (j : S26x4x128x8x128.Idx) (a a' : Fin 26) (b : Fin 32) (e' : Fin 16384) (p : (X1 m d (ix2 a' e') : BitVec 32).toNat < 100000)
    (ha : a = j 0) (ha' : a' = j 0) (hb : b = entryOf j) (he : e' = exampleOf j) :
    T0 m d (ix3 a b ⟨(X1 m d (ix2 a' e') : BitVec 32).toNat, p⟩) = O2 m d j := by
  subst ha ha' hb he
  unfold O2 OUT5
  exact congrArg (T0 m d) (congrArg (ix3 (j 0) (entryOf j)) (Fin.ext (row_val p).symm))

/-- One write-back finishes one more half of the trip's plane. -/
theorem done_step (k : Fin k0_t1_loop.trips) (h : ℕ) (hh : h < 2) (hInR : ∀ j, ((X1 m d j : BitVec 32)).toNat < 100000)
    (fo : S26x4x128x8x128.Idx → Elt F .f32) (fb : S64x1x128.Idx → Elt F .f32) (fpl : S100000.Idx → Elt F .f32) (fx : S16384.Idx → BitVec 32) (hfx : ∀ j, (fx j).toNat < 100000)
    (hfpl : fpl = planeFn m d (bs L + k.val)) (hfxv : fx = xrowFn m d ((bs L + k.val) / 32))
    (hfb : ∀ y, fb y = blkFn (8192 * h) fpl fx hfx (by omega) y) (hdone : Done m d L fo (bs L + k.val) h)
    (off : Fin 5 → ℕ) (inb : ∀ a, off a + S1x1x64x1x128.size a ≤ S26x4x128x8x128.size a)
    (hoff : off = ![(bs L + k.val) / 32, (bs L + k.val) % 32 / 8, 64 * h, (bs L + k.val) % 32 % 8, 0]) :
    Done m d L ((outV off inb).writes (Elt F) fo [⟨Rect.whole S64x1x128, ReadAs.same.apply (View.read (Elt F) (sB).view fb)⟩]) (bs L + k.val) (h + 1) := by
  intro j hjT hcov
  rw [out_writes_eq]
  have hk : k.val < 26 := lt_of_lt_of_eq k.isLt trips_t1
  have hL := L_lt L
  have hp := planeOf_eq j
  have hm := out_mem off inb ((bs L + k.val) / 32) ((bs L + k.val) % 32 / 8) h ((bs L + k.val) % 32 % 8)
    (congrFun hoff 0) (congrFun hoff 1) (congrFun hoff 2) (congrFun hoff 3) (congrFun hoff 4) j
  have h2 : off 2 = 64 * h := congrFun hoff 2
  have h4 : off 4 = 0 := congrFun hoff 4
  have hbs : bs L = 52 * (L 1).val + 26 * (L 0).val := rfl
  by_cases hmem : j ∈ (outV off inb).set
  · rw [out_write_mem fo fb off inb h h2 h4 j hmem, hfb]
    have H := hm.mp hmem
    subst hfpl hfxv
    refine O2_eq_of m d j _ _ _ _ (hInR _) (Fin.ext ?_) (Fin.ext ?_) (Fin.ext ?_) (Fin.ext ?_)
    · show (bs L + k.val) / 32 % 26 = (j 0).val; omega
    · show (bs L + k.val) / 32 % 26 = (j 0).val; omega
    · show (bs L + k.val) % 32 = (j 1).val * 8 + (j 3).val; omega
    · show 8192 * h + 128 * ((j 2).val - 64 * h) + (j 4).val = (j 2).val * 128 + (j 4).val; omega
  · rw [out_write_not_mem fo _ off inb j hmem]
    refine hdone j hjT ?_
    have hnm := mt hm.mpr hmem
    rcases hcov with hlt | ⟨heq, hlt⟩
    · exact Or.inl hlt
    · refine Or.inr ⟨heq, ?_⟩
      by_contra hge
      exact hnm ⟨by omega, by omega, by omega, by omega⟩

/-- Two halves are a plane. -/
theorem done_next (fo : S26x4x128x8x128.Idx → Elt F .f32) (n : ℕ) (h : Done m d L fo n 2) : Done m d L fo (n + 1) 0 := by
  intro j hjT hcov
  have hp := planeOf_eq j
  exact h j hjT (by omega)

/-- Before the first trip nothing is asked. -/
theorem done_init (fo : S26x4x128x8x128.Idx → Elt F .f32) : Done m d L fo (bs L) 0 := by
  intro j hjT hcov
  have hT := (mem_TS L j).mp hjT
  have hbs : bs L = 52 * (L 1).val + 26 * (L 0).val := rfl
  omega

/-- After the 26 planes every element of the tile is at the lookup's value. -/
theorem done_all (fo : S26x4x128x8x128.Idx → Elt F .f32) (h : Done m d L fo (bs L + 26) 0) : ∀ j ∈ TS L, fo j = O2 m d j := by
  intro j hjT
  have hT := (mem_TS L j).mp hjT
  have hbs : bs L = 52 * (L 1).val + 26 * (L 0).val := rfl
  exact h j hjT (by omega)

end Cert.Proof.KB

end
-- ==== Proof.KBTrip5.lean ====
/-
  The first half of a trip of a tile's plane loop, and the lookups of half a plane.

  A trip handles one plane (one entry of one table over all 100000 rows): the plane's copy lands in the plane scratch;
  if the plane's table differs from the carried one, that feature's 16384 row numbers are copied into the row-number
  scratch; the previous trip's outstanding write-back is drained; then, twice, 64 rows of 128 lookups (the plane scratch
  read at the row numbers, sixteen at a time) fill the block buffer, which is written back as half a plane of the output.
-/
import proofs.«204046_g18683107737843_cont_8to1_103_43_alg».proof.Proof.KBTripDefs
import proofs.«204046_g18683107737843_cont_8to1_103_43_alg».proof.Proof.KBDone
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

section Tile

variable (d : Dev nD) (L : grid0.Coords)

variable [FloatOps F]

variable [FloatOps F]

/-! ## One half plane's lookups: the block buffer row by row

Row `f` of the block buffer `[64, 1, 128]` receives, at lane `l`, the plane scratch read at the row number found at
`base + 128 f + l` of the row-number scratch (`base` is 0 for the first half of the examples, 8192 for the second). -/

omit [FloatOps F] in
/-- One store of a trip: sixteen lanes of row `k` from lane `16 j`, each the plane scratch at the row number read from
    the row-number scratch at `base + 128 k + 16 j + lane`. -/
theorem piece_val (base : ℕ) (fp : S100000.Idx → Elt F .f32) (fx : S16384.Idx → BitVec 32) (hfx : ∀ j, (fx j).toNat < 100000)
    (hb : base + 8192 ≤ 16384) (k j : ℕ) (o : Fin 3 → ℕ) (io : Fin 1 → ℕ)
    (ho0 : o 0 = k) (ho2 : o 2 = 16 * j) (hio : io 0 = base + 128 * k + 16 * j)
    (inbo : ∀ a, o a + S1x1x16.size a ≤ S64x1x128.size a) (inbi : ∀ a, io a + S16.size a ≤ S16384.size a)
    (hchk : ∀ a x, ((![View.readAt (Elt F) (Memref.whole cc0_scratch1 : Memref sig .scVector .vmem S16384 .i32).view (Rect.unit (s := S16384) io S16.size inbi).toLoadRect fx] : Fin 1 → IVec S16 32) a x).toNat < S100000.size a)
    (x : (Rect.unit (s := S64x1x128) o S1x1x16.size inbo).shape.Idx) :
    shapeCast S1x1x16 (loadIdx (F := F) (View.readAt (Elt F) (Memref.whole cc0_scratch0 : Memref sig .scVector .vmem S100000 .f32).view (LoadRect.whole S100000) fp)
        ![View.readAt (Elt F) (Memref.whole cc0_scratch1 : Memref sig .scVector .vmem S16384 .i32).view (Rect.unit (s := S16384) io S16.size inbi).toLoadRect fx] hchk)
      shapeCasts_S16_S1x1x16 x
      = blkFn base fp fx hfx hb ((Rect.unit (s := S64x1x128) o S1x1x16.size inbo).emb x) := by
  have hA : View.readAt (Elt F) (Memref.whole cc0_scratch0 : Memref sig .scVector .vmem S100000 .f32).view (LoadRect.whole S100000) fp = fp :=
    Memref.readAt_whole (Elt F) cc0_scratch0 fp
  have hx0' : (x 0).val < 1 := (x 0).isLt
  have hx1' : (x 1).val < 1 := (x 1).isLt
  have hx2 : (x 2).val < 16 := (x 2).isLt
  refine (shapeCast_apply (s := S16) (t := S1x1x16) _ shapeCasts_S16_S1x1x16 x (ValueIdx.ix1 ⟨(x 2).val, hx2⟩) ?_).trans ?_
  · rw [Shape.rowMajor_val_one, Shape.rowMajor_val_three]
    show (x 2).val = ((x 0).val * 1 + (x 1).val) * 16 + (x 2).val
    omega
  unfold loadIdx blkFn
  rw [hA]
  refine congrArg fp (funext fun a => Fin.ext ?_)
  have ha' : a.val < 1 := a.isLt
  have ha : a = ⟨0, Nat.one_pos⟩ := Fin.ext (by show a.val = 0; omega)
  subst ha
  show ((View.readAt (Elt F) (Memref.whole cc0_scratch1 : Memref sig .scVector .vmem S16384 .i32).view
      (Rect.unit (s := S16384) io S16.size inbi).toLoadRect fx) (ValueIdx.ix1 ⟨(x 2).val, hx2⟩)).toNat = (fx _).toNat
  rw [View.readAt_apply]
  simp only [Memref.view_whole, View.read_whole]
  refine congrArg (fun w => (fx w).toNat) (funext fun b => Fin.ext ?_)
  have hb' : b.val < 1 := b.isLt
  have hb0 : b = ⟨0, Nat.one_pos⟩ := Fin.ext (by show b.val = 0; omega)
  subst hb0
  show io 0 + 1 * (x 2).val = base + 128 * (o 0 + 1 * (x 0).val) + (o 2 + 1 * (x 2).val)
  omega

omit [FloatOps F] in
/-- A trip fills row `k`: writes that all lie in row `k`, cover it, and hold the target's values there extend a block
    buffer right below row `k` to one right below row `k + 1`. -/
theorem blk_step (base : ℕ) (fp : S100000.Idx → Elt F .f32) (fx : S16384.Idx → BitVec 32) (hfx : ∀ j, (fx j).toNat < 100000)
    (hb : base + 8192 ≤ 16384) (k : ℕ) (Lp : List (View.Piece (Elt F) S64x1x128 .f32))
    (hrow : ∀ p ∈ Lp, ∀ y ∈ p.1.set, (y 0).val = k)
    (hval : ∀ p ∈ Lp, ∀ x : p.1.shape.Idx, p.2 x = blkFn base fp fx hfx hb (p.1.emb x))
    (hcov : ∀ y : S64x1x128.Idx, (y 0).val = k → ∃ p ∈ Lp, y ∈ p.1.set)
    (fb : S64x1x128.Idx → Elt F .f32) (hfb : ∀ y : S64x1x128.Idx, (y 0).val < k → fb y = blkFn base fp fx hfx hb y)
    (y : S64x1x128.Idx) (hy : (y 0).val < k + 1) :
    (Memref.whole cc0_scratch2 : Memref sig .scVector .vmem S64x1x128 .f32).view.writes (Elt F) fb Lp y = blkFn base fp fx hfx hb y := by
  by_cases hk : (y 0).val = k
  · exact View.read_writes_apply_of_pieces (Memref.whole cc0_scratch2 : Memref sig .scVector .vmem S64x1x128 .f32).view fb
      (blkFn base fp fx hfx hb) Lp hval y (hcov y hk)
  · have h1 := View.read_writes_apply_of_forall_not_mem (Memref.whole cc0_scratch2 : Memref sig .scVector .vmem S64x1x128 .f32).view fb y Lp
      (fun p hp hmem => hk (hrow p hp y hmem))
    exact h1.trans (hfb y (by omega))

omit [FloatOps F] in
/-- A store's rectangle: row `k`, lanes `16 j … 16 j + 15`. -/
theorem piece_mem (o : Fin 3 → ℕ) (inbo : ∀ a, o a + S1x1x16.size a ≤ S64x1x128.size a) (k j : ℕ)
    (ho0 : o 0 = k) (ho2 : o 2 = 16 * j) (y : S64x1x128.Idx) :
    y ∈ (Rect.unit (s := S64x1x128) o S1x1x16.size inbo).set ↔ (y 0).val = k ∧ (y 2).val / 16 = j := by
  rw [Rect.mem_set_unit]
  have h1 : (y 1).val < 1 := (y 1).isLt
  have i1 := inbo 1
  have e0 : S1x1x16.size 0 = 1 := rfl
  have e1 : S1x1x16.size 1 = 1 := rfl
  have e2 : S1x1x16.size 2 = 16 := rfl
  have f1 : S64x1x128.size 1 = 1 := rfl
  constructor
  · intro h
    have a0 := h 0; have a2 := h 2
    rw [e0] at a0; rw [e2] at a2
    constructor <;> omega
  · rintro ⟨hk, hj⟩ a
    match a with
    | 0 => rw [e0]; omega
    | 1 => rw [e1]; rw [e1, f1] at i1; omega
    | 2 => rw [e2]; omega

omit [FloatOps F] in
/-- Sixteen row numbers all below 100000 pass the index check of the plane scratch. -/
theorem chk_ok (w : IVec S16 32) (hw : ∀ x, (w x).toNat < 100000) :
    ∀ (a : Fin 1) (x : S16.Idx), ((![w] : Fin 1 → IVec S16 32) a x).toNat < S100000.size a := by
  intro a x
  have ha' : a.val < 1 := a.isLt
  have ha : a = ⟨0, Nat.one_pos⟩ := Fin.ext (by show a.val = 0; omega)
  subst ha
  exact hw x

/-- The rows of the block buffer filled so far, with the plane and the row numbers they are read from. -/
def invG_t2 (fp : Buf (Elt F) ((thr d L).loc cc0_scratch0)) (fx : Buf (Elt F) ((thr d L).loc cc0_scratch1))
    (hfx : ∀ j : S16384.Idx, ((fx j : BitVec 32)).toNat < 100000) (k : ℕ) (_ : Unit) : sProp 𝕄 :=
  iprop(((sP).view.loc (thr d L) ↦{fullShare} fp) ∗ ((sX).view.loc (thr d L) ↦{fullShare} fx)
    ∗ ∃ fb : Buf (Elt F) ((thr d L).loc cc0_scratch2), ((sB).view.loc (thr d L) ↦{fullShare} fb)
        ∗ ⌜∀ y : S64x1x128.Idx, (y 0).val < k → fb y = blkFn 0 fp fx hfx (by omega) y⌝)

theorem trips_t2 : Scf.trips k0_t2_loop.lb k0_t2_loop.ub k0_t2_loop.st = 64 := by decide

/-- The lookups of one half plane: the loop over the 64 rows of the block buffer leaves it at the target contents. -/
theorem gather_t2 {α : Type} (v2 c0 c1 a12 : BitVec 32) (t1 : Fin k0_t1_loop.trips)
    (fp : Buf (Elt F) ((thr d L).loc cc0_scratch0)) (fx : Buf (Elt F) ((thr d L).loc cc0_scratch1)) (fb : Buf (Elt F) ((thr d L).loc cc0_scratch2))
    (hfx : ∀ j : S16384.Idx, ((fx j : BitVec 32)).toNat < 100000)
    (kont : Unit → Prog (TpuEff nD τ sig (Elt F) Λ₀ (thr d L).2) α) (Q : α → sProp 𝕄) :
    (iprop(((thr d L).loc cc0_scratch0 ↦{fullShare} fp) ∗ ((thr d L).loc cc0_scratch1 ↦{fullShare} fx) ∗ ((thr d L).loc cc0_scratch2 ↦{fullShare} fb)) : sProp 𝕄)
      ⊢ iprop((∀ fb' : Buf (Elt F) ((thr d L).loc cc0_scratch2), ⌜∀ y : S64x1x128.Idx, fb' y = blkFn 0 fp fx hfx (by omega) y⌝
            -∗ ((thr d L).loc cc0_scratch0 ↦{fullShare} fp) -∗ ((thr d L).loc cc0_scratch1 ↦{fullShare} fx) -∗ ((thr d L).loc cc0_scratch2 ↦{fullShare} fb')
            -∗ wp frame (wpE (defs₀ (F := F)) 𝒱₀ (thr d L) none) Set.univ (kont ()) Q)
        -∗ wp frame (wpE (defs₀ (F := F)) 𝒱₀ (thr d L) none) Set.univ
          (k0_t2_loop.for k0_t2_ok () (k0_t2_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 v2 c0 c1 t1 a12) >>= kont) Q) := by
  iintro ⟨Hp, Hx, Hb⟩ Hk
  ihave Hp' := (Entails.of_eq (show ((sP).view.loc (thr d L) ↦{fullShare} fp : sProp 𝕄) = ((thr d L).loc cc0_scratch0 ↦{fullShare} fp) from rfl).symm) $$ Hp
  ihave Hx' := (Entails.of_eq (show ((sX).view.loc (thr d L) ↦{fullShare} fx : sProp 𝕄) = ((thr d L).loc cc0_scratch1 ↦{fullShare} fx) from rfl).symm) $$ Hx
  ihave Hb' := (Entails.of_eq (show ((sB).view.loc (thr d L) ↦{fullShare} fb : sProp 𝕄) = ((thr d L).loc cc0_scratch2 ↦{fullShare} fb) from rfl).symm) $$ Hb
  sl_for (invG_t2 d L fp fx hfx) $$ [Hp' Hx' Hb']
  case region =>
    intro k _
    unfold gather_t2.sl.prog.body_1 k0_t2_body
    simp only [k0_part1_eq_skeleton, k0_part2_eq_skeleton]; unfold k0_part1_skel k0_part2_skel
    simp only [SparseCore.vectorLoadIdx_bind (thr d L)]
    unfold invG_t2
    iintro ⟨Hp, Hx, %fb', Hb, %hfb'⟩
    sl_exec (disch := exact chk_ok _ (fun x => hfx _))
    sl_step
    isplitl [Hp]; · iexact Hp
    isplitl [Hx]; · iexact Hx
    iexists _; isplitl [Hb]; · iexact Hb
    ipureintro
    intro y hy
    refine blk_step 0 fp fx hfx (by omega) k.val _ ?hrow ?hval ?hcov fb' hfb' y hy
    case hval =>
      intro p hp x
      simp only [List.mem_cons, List.not_mem_nil, _root_.or_false] at hp
      rcases hp with rfl | rfl | rfl | rfl | rfl | rfl | rfl | rfl
      · exact piece_val 0 fp fx hfx (by omega) k.val 7 (k0_off19 k) (k0_off18 k) (by rw [k0_off19_eq]; rfl) (by rw [k0_off19_eq]; rfl) (by rw [k0_off18_eq]; simp only [Matrix.cons_val_zero]; omega) (k0_off19_inb k) (k0_off18_inb k) _ x
      · exact piece_val 0 fp fx hfx (by omega) k.val 6 (k0_off17 k) (k0_off16 k) (by rw [k0_off17_eq]; rfl) (by rw [k0_off17_eq]; rfl) (by rw [k0_off16_eq]; simp only [Matrix.cons_val_zero]; omega) (k0_off17_inb k) (k0_off16_inb k) _ x
      · exact piece_val 0 fp fx hfx (by omega) k.val 5 (k0_off15 k) (k0_off14 k) (by rw [k0_off15_eq]; rfl) (by rw [k0_off15_eq]; rfl) (by rw [k0_off14_eq]; simp only [Matrix.cons_val_zero]; omega) (k0_off15_inb k) (k0_off14_inb k) _ x
      · exact piece_val 0 fp fx hfx (by omega) k.val 4 (k0_off13 k) (k0_off12 k) (by rw [k0_off13_eq]; rfl) (by rw [k0_off13_eq]; rfl) (by rw [k0_off12_eq]; simp only [Matrix.cons_val_zero]; omega) (k0_off13_inb k) (k0_off12_inb k) _ x
      · exact piece_val 0 fp fx hfx (by omega) k.val 3 (k0_off11 k) (k0_off10 k) (by rw [k0_off11_eq]; rfl) (by rw [k0_off11_eq]; rfl) (by rw [k0_off10_eq]; simp only [Matrix.cons_val_zero]; omega) (k0_off11_inb k) (k0_off10_inb k) _ x
      · exact piece_val 0 fp fx hfx (by omega) k.val 2 (k0_off9 k) (k0_off8 k) (by rw [k0_off9_eq]; rfl) (by rw [k0_off9_eq]; rfl) (by rw [k0_off8_eq]; simp only [Matrix.cons_val_zero]; omega) (k0_off9_inb k) (k0_off8_inb k) _ x
      · exact piece_val 0 fp fx hfx (by omega) k.val 1 (k0_off7 k) (k0_off6 k) (by rw [k0_off7_eq]; rfl) (by rw [k0_off7_eq]; rfl) (by rw [k0_off6_eq]; simp only [Matrix.cons_val_zero]; omega) (k0_off7_inb k) (k0_off6_inb k) _ x
      · exact piece_val 0 fp fx hfx (by omega) k.val 0 (k0_off5 k) (k0_off4 k) (by rw [k0_off5_eq]; rfl) (by rw [k0_off5_eq]; rfl) (by rw [k0_off4_eq]; simp only [Matrix.cons_val_zero]; omega) (k0_off5_inb k) (k0_off4_inb k) _ x
    case hrow =>
      intro p hp y hy
      simp only [List.mem_cons, List.not_mem_nil, _root_.or_false] at hp
      rcases hp with rfl | rfl | rfl | rfl | rfl | rfl | rfl | rfl
      · exact ((piece_mem (k0_off19 k) (k0_off19_inb k) k.val 7 (by rw [k0_off19_eq]; rfl) (by rw [k0_off19_eq]; rfl) y).mp hy).1
      · exact ((piece_mem (k0_off17 k) (k0_off17_inb k) k.val 6 (by rw [k0_off17_eq]; rfl) (by rw [k0_off17_eq]; rfl) y).mp hy).1
      · exact ((piece_mem (k0_off15 k) (k0_off15_inb k) k.val 5 (by rw [k0_off15_eq]; rfl) (by rw [k0_off15_eq]; rfl) y).mp hy).1
      · exact ((piece_mem (k0_off13 k) (k0_off13_inb k) k.val 4 (by rw [k0_off13_eq]; rfl) (by rw [k0_off13_eq]; rfl) y).mp hy).1
      · exact ((piece_mem (k0_off11 k) (k0_off11_inb k) k.val 3 (by rw [k0_off11_eq]; rfl) (by rw [k0_off11_eq]; rfl) y).mp hy).1
      · exact ((piece_mem (k0_off9 k) (k0_off9_inb k) k.val 2 (by rw [k0_off9_eq]; rfl) (by rw [k0_off9_eq]; rfl) y).mp hy).1
      · exact ((piece_mem (k0_off7 k) (k0_off7_inb k) k.val 1 (by rw [k0_off7_eq]; rfl) (by rw [k0_off7_eq]; rfl) y).mp hy).1
      · exact ((piece_mem (k0_off5 k) (k0_off5_inb k) k.val 0 (by rw [k0_off5_eq]; rfl) (by rw [k0_off5_eq]; rfl) y).mp hy).1
    case hcov =>
      intro y hyk
      have h2 : (y 2).val < 128 := (y 2).isLt
      rcases (show (y 2).val / 16 = 0 ∨ (y 2).val / 16 = 1 ∨ (y 2).val / 16 = 2 ∨ (y 2).val / 16 = 3 ∨ (y 2).val / 16 = 4
          ∨ (y 2).val / 16 = 5 ∨ (y 2).val / 16 = 6 ∨ (y 2).val / 16 = 7 by omega) with hj | hj | hj | hj | hj | hj | hj | hj
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem (k0_off5 k) (k0_off5_inb k) k.val 0 (by rw [k0_off5_eq]; rfl) (by rw [k0_off5_eq]; rfl) y).mpr ⟨hyk, hj⟩⟩
      · exact ⟨_, (List.mem_cons_of_mem _ (List.mem_cons_of_mem _ (List.mem_cons_of_mem _ (List.mem_cons_of_mem _ (List.mem_cons_of_mem _ (List.mem_cons_of_mem _ List.mem_cons_self)))))), (piece_mem (k0_off7 k) (k0_off7_inb k) k.val 1 (by rw [k0_off7_eq]; rfl) (by rw [k0_off7_eq]; rfl) y).mpr ⟨hyk, hj⟩⟩
      · exact ⟨_, (List.mem_cons_of_mem _ (List.mem_cons_of_mem _ (List.mem_cons_of_mem _ (List.mem_cons_of_mem _ (List.mem_cons_of_mem _ List.mem_cons_self))))), (piece_mem (k0_off9 k) (k0_off9_inb k) k.val 2 (by rw [k0_off9_eq]; rfl) (by rw [k0_off9_eq]; rfl) y).mpr ⟨hyk, hj⟩⟩
      · exact ⟨_, (List.mem_cons_of_mem _ (List.mem_cons_of_mem _ (List.mem_cons_of_mem _ (List.mem_cons_of_mem _ List.mem_cons_self)))), (piece_mem (k0_off11 k) (k0_off11_inb k) k.val 3 (by rw [k0_off11_eq]; rfl) (by rw [k0_off11_eq]; rfl) y).mpr ⟨hyk, hj⟩⟩
      · exact ⟨_, (List.mem_cons_of_mem _ (List.mem_cons_of_mem _ (List.mem_cons_of_mem _ List.mem_cons_self))), (piece_mem (k0_off13 k) (k0_off13_inb k) k.val 4 (by rw [k0_off13_eq]; rfl) (by rw [k0_off13_eq]; rfl) y).mpr ⟨hyk, hj⟩⟩
      · exact ⟨_, (List.mem_cons_of_mem _ (List.mem_cons_of_mem _ List.mem_cons_self)), (piece_mem (k0_off15 k) (k0_off15_inb k) k.val 5 (by rw [k0_off15_eq]; rfl) (by rw [k0_off15_eq]; rfl) y).mpr ⟨hyk, hj⟩⟩
      · exact ⟨_, (List.mem_cons_of_mem _ List.mem_cons_self), (piece_mem (k0_off17 k) (k0_off17_inb k) k.val 6 (by rw [k0_off17_eq]; rfl) (by rw [k0_off17_eq]; rfl) y).mpr ⟨hyk, hj⟩⟩
      · exact ⟨_, List.mem_cons_self, (piece_mem (k0_off19 k) (k0_off19_inb k) k.val 7 (by rw [k0_off19_eq]; rfl) (by rw [k0_off19_eq]; rfl) y).mpr ⟨hyk, hj⟩⟩
  · unfold invG_t2
    isplitl [Hp']; · iexact Hp'
    isplitl [Hx']; · iexact Hx'
    iexists fb; isplitl [Hb']; · iexact Hb'
    ipureintro; intro y hy; omega
  iintro %_ HI
  unfold gather_t2.sl.prog.cont_1 invG_t2
  icases HI with ⟨Hp, Hx, %fb', Hb, %hfb'⟩
  iapply Hk $$ [] [Hp] [Hx] [Hb]
  · ipureintro; intro y; refine hfb' y ?_; rw [trips_t2]; exact (y 0).isLt
  · iexact Hp
  · iexact Hx
  · iexact Hb

/-- The rows of the block buffer filled so far, with the plane and the row numbers they are read from. -/
def invG_t3 (fp : Buf (Elt F) ((thr d L).loc cc0_scratch0)) (fx : Buf (Elt F) ((thr d L).loc cc0_scratch1))
    (hfx : ∀ j : S16384.Idx, ((fx j : BitVec 32)).toNat < 100000) (k : ℕ) (_ : Unit) : sProp 𝕄 :=
  iprop(((sP).view.loc (thr d L) ↦{fullShare} fp) ∗ ((sX).view.loc (thr d L) ↦{fullShare} fx)
    ∗ ∃ fb : Buf (Elt F) ((thr d L).loc cc0_scratch2), ((sB).view.loc (thr d L) ↦{fullShare} fb)
        ∗ ⌜∀ y : S64x1x128.Idx, (y 0).val < k → fb y = blkFn 8192 fp fx hfx (by omega) y⌝)

theorem trips_t3 : Scf.trips k0_t3_loop.lb k0_t3_loop.ub k0_t3_loop.st = 64 := by decide

/-- The lookups of one half plane: the loop over the 64 rows of the block buffer leaves it at the target contents. -/
theorem gather_t3 {α : Type}
    (fp : Buf (Elt F) ((thr d L).loc cc0_scratch0)) (fx : Buf (Elt F) ((thr d L).loc cc0_scratch1)) (fb : Buf (Elt F) ((thr d L).loc cc0_scratch2))
    (hfx : ∀ j : S16384.Idx, ((fx j : BitVec 32)).toNat < 100000)
    (kont : Unit → Prog (TpuEff nD τ sig (Elt F) Λ₀ (thr d L).2) α) (Q : α → sProp 𝕄) :
    (iprop(((thr d L).loc cc0_scratch0 ↦{fullShare} fp) ∗ ((thr d L).loc cc0_scratch1 ↦{fullShare} fx) ∗ ((thr d L).loc cc0_scratch2 ↦{fullShare} fb)) : sProp 𝕄)
      ⊢ iprop((∀ fb' : Buf (Elt F) ((thr d L).loc cc0_scratch2), ⌜∀ y : S64x1x128.Idx, fb' y = blkFn 8192 fp fx hfx (by omega) y⌝
            -∗ ((thr d L).loc cc0_scratch0 ↦{fullShare} fp) -∗ ((thr d L).loc cc0_scratch1 ↦{fullShare} fx) -∗ ((thr d L).loc cc0_scratch2 ↦{fullShare} fb')
            -∗ wp frame (wpE (defs₀ (F := F)) 𝒱₀ (thr d L) none) Set.univ (kont ()) Q)
        -∗ wp frame (wpE (defs₀ (F := F)) 𝒱₀ (thr d L) none) Set.univ
          (k0_t3_loop.for k0_t3_ok () (k0_t3_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0) >>= kont) Q) := by
  iintro ⟨Hp, Hx, Hb⟩ Hk
  ihave Hp' := (Entails.of_eq (show ((sP).view.loc (thr d L) ↦{fullShare} fp : sProp 𝕄) = ((thr d L).loc cc0_scratch0 ↦{fullShare} fp) from rfl).symm) $$ Hp
  ihave Hx' := (Entails.of_eq (show ((sX).view.loc (thr d L) ↦{fullShare} fx : sProp 𝕄) = ((thr d L).loc cc0_scratch1 ↦{fullShare} fx) from rfl).symm) $$ Hx
  ihave Hb' := (Entails.of_eq (show ((sB).view.loc (thr d L) ↦{fullShare} fb : sProp 𝕄) = ((thr d L).loc cc0_scratch2 ↦{fullShare} fb) from rfl).symm) $$ Hb
  sl_for (invG_t3 d L fp fx hfx) $$ [Hp' Hx' Hb']
  case region =>
    intro k _
    unfold gather_t3.sl.prog.body_1 k0_t3_body
    simp only [k0_part3_eq_skeleton, k0_part4_eq_skeleton]; unfold k0_part3_skel k0_part4_skel
    simp only [SparseCore.vectorLoadIdx_bind (thr d L)]
    unfold invG_t3
    iintro ⟨Hp, Hx, %fb', Hb, %hfb'⟩
    sl_exec (disch := exact chk_ok _ (fun x => hfx _))
    sl_step
    isplitl [Hp]; · iexact Hp
    isplitl [Hx]; · iexact Hx
    iexists _; isplitl [Hb]; · iexact Hb
    ipureintro
    intro y hy
    refine blk_step 8192 fp fx hfx (by omega) k.val _ ?hrow ?hval ?hcov fb' hfb' y hy
    case hval =>
      intro p hp x
      simp only [List.mem_cons, List.not_mem_nil, _root_.or_false] at hp
      rcases hp with rfl | rfl | rfl | rfl | rfl | rfl | rfl | rfl
      · exact piece_val 8192 fp fx hfx (by omega) k.val 7 (k0_off36 k) (k0_off35 k) (by rw [k0_off36_eq]; rfl) (by rw [k0_off36_eq]; rfl) (by rw [k0_off35_eq]; simp only [Matrix.cons_val_zero]; omega) (k0_off36_inb k) (k0_off35_inb k) _ x
      · exact piece_val 8192 fp fx hfx (by omega) k.val 6 (k0_off34 k) (k0_off33 k) (by rw [k0_off34_eq]; rfl) (by rw [k0_off34_eq]; rfl) (by rw [k0_off33_eq]; simp only [Matrix.cons_val_zero]; omega) (k0_off34_inb k) (k0_off33_inb k) _ x
      · exact piece_val 8192 fp fx hfx (by omega) k.val 5 (k0_off32 k) (k0_off31 k) (by rw [k0_off32_eq]; rfl) (by rw [k0_off32_eq]; rfl) (by rw [k0_off31_eq]; simp only [Matrix.cons_val_zero]; omega) (k0_off32_inb k) (k0_off31_inb k) _ x
      · exact piece_val 8192 fp fx hfx (by omega) k.val 4 (k0_off30 k) (k0_off29 k) (by rw [k0_off30_eq]; rfl) (by rw [k0_off30_eq]; rfl) (by rw [k0_off29_eq]; simp only [Matrix.cons_val_zero]; omega) (k0_off30_inb k) (k0_off29_inb k) _ x
      · exact piece_val 8192 fp fx hfx (by omega) k.val 3 (k0_off28 k) (k0_off27 k) (by rw [k0_off28_eq]; rfl) (by rw [k0_off28_eq]; rfl) (by rw [k0_off27_eq]; simp only [Matrix.cons_val_zero]; omega) (k0_off28_inb k) (k0_off27_inb k) _ x
      · exact piece_val 8192 fp fx hfx (by omega) k.val 2 (k0_off26 k) (k0_off25 k) (by rw [k0_off26_eq]; rfl) (by rw [k0_off26_eq]; rfl) (by rw [k0_off25_eq]; simp only [Matrix.cons_val_zero]; omega) (k0_off26_inb k) (k0_off25_inb k) _ x
      · exact piece_val 8192 fp fx hfx (by omega) k.val 1 (k0_off24 k) (k0_off23 k) (by rw [k0_off24_eq]; rfl) (by rw [k0_off24_eq]; rfl) (by rw [k0_off23_eq]; simp only [Matrix.cons_val_zero]; omega) (k0_off24_inb k) (k0_off23_inb k) _ x
      · exact piece_val 8192 fp fx hfx (by omega) k.val 0 (k0_off22 k) (k0_off21 k) (by rw [k0_off22_eq]; rfl) (by rw [k0_off22_eq]; rfl) (by rw [k0_off21_eq]; simp only [Matrix.cons_val_zero]; omega) (k0_off22_inb k) (k0_off21_inb k) _ x
    case hrow =>
      intro p hp y hy
      simp only [List.mem_cons, List.not_mem_nil, _root_.or_false] at hp
      rcases hp with rfl | rfl | rfl | rfl | rfl | rfl | rfl | rfl
      · exact ((piece_mem (k0_off36 k) (k0_off36_inb k) k.val 7 (by rw [k0_off36_eq]; rfl) (by rw [k0_off36_eq]; rfl) y).mp hy).1
      · exact ((piece_mem (k0_off34 k) (k0_off34_inb k) k.val 6 (by rw [k0_off34_eq]; rfl) (by rw [k0_off34_eq]; rfl) y).mp hy).1
      · exact ((piece_mem (k0_off32 k) (k0_off32_inb k) k.val 5 (by rw [k0_off32_eq]; rfl) (by rw [k0_off32_eq]; rfl) y).mp hy).1
      · exact ((piece_mem (k0_off30 k) (k0_off30_inb k) k.val 4 (by rw [k0_off30_eq]; rfl) (by rw [k0_off30_eq]; rfl) y).mp hy).1
      · exact ((piece_mem (k0_off28 k) (k0_off28_inb k) k.val 3 (by rw [k0_off28_eq]; rfl) (by rw [k0_off28_eq]; rfl) y).mp hy).1
      · exact ((piece_mem (k0_off26 k) (k0_off26_inb k) k.val 2 (by rw [k0_off26_eq]; rfl) (by rw [k0_off26_eq]; rfl) y).mp hy).1
      · exact ((piece_mem (k0_off24 k) (k0_off24_inb k) k.val 1 (by rw [k0_off24_eq]; rfl) (by rw [k0_off24_eq]; rfl) y).mp hy).1
      · exact ((piece_mem (k0_off22 k) (k0_off22_inb k) k.val 0 (by rw [k0_off22_eq]; rfl) (by rw [k0_off22_eq]; rfl) y).mp hy).1
    case hcov =>
      intro y hyk
      have h2 : (y 2).val < 128 := (y 2).isLt
      rcases (show (y 2).val / 16 = 0 ∨ (y 2).val / 16 = 1 ∨ (y 2).val / 16 = 2 ∨ (y 2).val / 16 = 3 ∨ (y 2).val / 16 = 4
          ∨ (y 2).val / 16 = 5 ∨ (y 2).val / 16 = 6 ∨ (y 2).val / 16 = 7 by omega) with hj | hj | hj | hj | hj | hj | hj | hj
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem (k0_off22 k) (k0_off22_inb k) k.val 0 (by rw [k0_off22_eq]; rfl) (by rw [k0_off22_eq]; rfl) y).mpr ⟨hyk, hj⟩⟩
      · exact ⟨_, (List.mem_cons_of_mem _ (List.mem_cons_of_mem _ (List.mem_cons_of_mem _ (List.mem_cons_of_mem _ (List.mem_cons_of_mem _ (List.mem_cons_of_mem _ List.mem_cons_self)))))), (piece_mem (k0_off24 k) (k0_off24_inb k) k.val 1 (by rw [k0_off24_eq]; rfl) (by rw [k0_off24_eq]; rfl) y).mpr ⟨hyk, hj⟩⟩
      · exact ⟨_, (List.mem_cons_of_mem _ (List.mem_cons_of_mem _ (List.mem_cons_of_mem _ (List.mem_cons_of_mem _ (List.mem_cons_of_mem _ List.mem_cons_self))))), (piece_mem (k0_off26 k) (k0_off26_inb k) k.val 2 (by rw [k0_off26_eq]; rfl) (by rw [k0_off26_eq]; rfl) y).mpr ⟨hyk, hj⟩⟩
      · exact ⟨_, (List.mem_cons_of_mem _ (List.mem_cons_of_mem _ (List.mem_cons_of_mem _ (List.mem_cons_of_mem _ List.mem_cons_self)))), (piece_mem (k0_off28 k) (k0_off28_inb k) k.val 3 (by rw [k0_off28_eq]; rfl) (by rw [k0_off28_eq]; rfl) y).mpr ⟨hyk, hj⟩⟩
      · exact ⟨_, (List.mem_cons_of_mem _ (List.mem_cons_of_mem _ (List.mem_cons_of_mem _ List.mem_cons_self))), (piece_mem (k0_off30 k) (k0_off30_inb k) k.val 4 (by rw [k0_off30_eq]; rfl) (by rw [k0_off30_eq]; rfl) y).mpr ⟨hyk, hj⟩⟩
      · exact ⟨_, (List.mem_cons_of_mem _ (List.mem_cons_of_mem _ List.mem_cons_self)), (piece_mem (k0_off32 k) (k0_off32_inb k) k.val 5 (by rw [k0_off32_eq]; rfl) (by rw [k0_off32_eq]; rfl) y).mpr ⟨hyk, hj⟩⟩
      · exact ⟨_, (List.mem_cons_of_mem _ List.mem_cons_self), (piece_mem (k0_off34 k) (k0_off34_inb k) k.val 6 (by rw [k0_off34_eq]; rfl) (by rw [k0_off34_eq]; rfl) y).mpr ⟨hyk, hj⟩⟩
      · exact ⟨_, List.mem_cons_self, (piece_mem (k0_off36 k) (k0_off36_inb k) k.val 7 (by rw [k0_off36_eq]; rfl) (by rw [k0_off36_eq]; rfl) y).mpr ⟨hyk, hj⟩⟩
  · unfold invG_t3
    isplitl [Hp']; · iexact Hp'
    isplitl [Hx']; · iexact Hx'
    iexists fb; isplitl [Hb']; · iexact Hb'
    ipureintro; intro y hy; omega
  iintro %_ HI
  unfold gather_t3.sl.prog.cont_1 invG_t3
  icases HI with ⟨Hp, Hx, %fb', Hb, %hfb'⟩
  iapply Hk $$ [] [Hp] [Hx] [Hb]
  · ipureintro; intro y; refine hfb' y ?_; rw [trips_t3]; exact (y 0).isLt
  · iexact Hp
  · iexact Hx
  · iexact Hb

/-! ## The trip's scalar facts: which conditions hold at which trip, and where the write-backs land -/

theorem cond25 (x a : BitVec 32) :
    (Scalar.cmpi .ne (Scalar.extui (Scalar.cmpi .ne x a)) 0#32 = 1#1) ↔ x ≠ a := by
  by_cases h : x = a
  · subst h
    have e : Scalar.cmpi .ne x x = 0#1 := by simp [Scalar.cmpi, IntOp.cmpi]
    rw [e]
    exact ⟨fun h' => absurd h' (by decide), fun h' => absurd rfl h'⟩
  · have e : Scalar.cmpi .ne x a = 1#1 := by
      show BitVec.ofBool (x != a) = 1#1
      rw [bne_iff_ne.mpr h]; rfl
    rw [e]
    exact ⟨fun _ => h, fun _ => by decide⟩

theorem cond28 : ∀ k : Fin k0_t1_loop.trips,
    (Scalar.cmpi .ne (Scalar.extui (Scalar.cmpi .sge (Scf.iv 0#32 1#32 k) 1#32)) 0#32 = 1#1) ↔ 1 ≤ k.val := by decide +kernel

theorem cond3 : ∀ k : Fin k0_t1_loop.trips, (k0_cond3 k = 1#1) ↔ k.val < 25 := by decide +kernel

theorem k0_off20_eq : ∀ (i : grid0.Coords) (k : Fin k0_t1_loop.trips),
    k0_off20 i k = ![(52 * (i 1).val + 26 * (i 0).val + k.val) / 32, (52 * (i 1).val + 26 * (i 0).val + k.val) % 32 / 8, 0,
      (52 * (i 1).val + 26 * (i 0).val + k.val) % 32 % 8, 0] := by decide +kernel

theorem k0_off38_eq : ∀ (i : grid0.Coords) (k : Fin k0_t1_loop.trips),
    k0_off38 i k = ![(52 * (i 1).val + 26 * (i 0).val + k.val) / 32, (52 * (i 1).val + 26 * (i 0).val + k.val) % 32 / 8, 64,
      (52 * (i 1).val + 26 * (i 0).val + k.val) % 32 % 8, 0] := by decide +kernel

theorem trips_t1' : k0_t1_loop.trips = 26 := by decide

/-! ## Small bridges used at every trip -/

omit [FloatOps F] in
theorem sB_set (f : Buf (Elt F) ((thr d L).loc cc0_scratch2)) :
    ((sB).view.loc (thr d L) ↦[(sB).view.set]{fullShare} f : sProp 𝕄) = ((thr d L).loc cc0_scratch2 ↦{fullShare} f) := by
  simp only [Memref.view_whole, View.set_whole]

omit [FloatOps F] in
/-- Off the written rectangle a write-back leaves the output as it was. -/
theorem rest_write (fo : Buf (Elt F) (v2Loc d)) (w : S64x1x128.Idx → Elt F .f32) (off : Fin 5 → ℕ)
    (inb : ∀ a, off a + S1x1x64x1x128.size a ≤ S26x4x128x8x128.size a) (S : Finset S26x4x128x8x128.Idx) :
    (v2Loc d ↦[S \ (outV off inb).set]{fullShare} fo : sProp 𝕄)
      = (v2Loc d ↦[S \ (outV off inb).set]{fullShare} (outV off inb).writes (Elt F) fo [⟨Rect.whole S64x1x128, w⟩]) :=
  pointsTo_congr fun i hi => by
    rw [out_writes_eq]; exact (out_write_not_mem fo w off inb i (Finset.mem_sdiff.mp hi).2).symm

omit [FloatOps F] in
/-- Waits recorded at the body's own index keep the recorded set within what the launch allows. -/
theorem wins (W W1 : Waits sig (HIx 1)) (h : ∀ p ∈ W1, p ∈ W ∨ p.2 = none) (s : SemLoc sig) :
    ∀ p ∈ insert (s, (default : HIx 1)) W1, p ∈ W ∨ p.2 = none := by
  intro p hp
  rcases Finset.mem_insert.mp hp with hp | hp
  · exact .inr (hp ▸ rfl)
  · exact h p hp

section Trip
variable (q : PosShare TreeShare) (O : CellTallies nD τ sig (HIx 1)) (W : Waits sig (HIx 1))

set_option maxHeartbeats 4000000 in
theorem part5_first (hX : ∀ j, ((X1 m d j : BitVec 32)).toNat < 100000) (k : Fin k0_t1_loop.trips) (a : BitVec 32) (h0 : k.val = 0) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_pos h0]
  iintro ⟨#Hmw, ⟨%Sp, %fpl, Hfl, Ht, %hfpl⟩, Hx, ⟨%fx, Hxc, %hfx⟩, Hsx, ⟨⟨%fb, Hb⟩, Hso, %fo, Ho, %hdone⟩, %W', %hW', HO⟩
  ihave Hx' := (Entails.of_eq (pts_x (F := F) d L Finset.univ q (X1 m d)).symm) $$ Hx
  ihave Hxc' := (Entails.of_eq (pts_sX (F := F) d L fx).symm) $$ Hxc
  have h28 : ¬ (Scalar.cmpi .ne (Scalar.extui (Scalar.cmpi .sge (Scf.iv 0#32 1#32 k) 1#32)) 0#32 = 1#1) := fun h => by
    have := (cond28 k).mp h; omega
  have h25 : Scalar.cmpi .ne (Scalar.extui (Scalar.cmpi .ne (Scalar.divsi (Scalar.addi (V2 L) (Scf.iv 0#32 1#32 k)) 32#32) a)) 0#32 = 1#1 :=
    (cond25 _ _).mpr (fun e => by
      have e' := congrArg BitVec.toNat e
      rw [hv16, hfx.1 h0] at e'
      unfold bs at e'; omega)
  have hdone' : Done m d L fo (bs L + k.val) 0 := by rw [h0]; exact hdone
  subst hfpl
  sl_exec

  have hfx1 : View.write (Elt F) (sX).view fx (_root_.Cert.Proof.KB.part5_first.sl.dma0 m d L k) Finset.univ = xrowFn m d ((bs L + k.val) / 32) := funext fun b => by
    unfold _root_.Cert.Proof.KB.part5_first.sl.dma0
    rw [xrow_payload (F := F) (X1 m d) fx (k0_off3 L k) (k0_off3_inb L k) ((bs L + k.val) / 32) hi26 (by rw [k0_off3_eq]; rfl) (by rw [k0_off3_eq]; rfl) b]
    unfold xrowFn
    exact congrArg (X1 m d) (congrArg (fun i => ValueIdx.ix2 i _) (Fin.ext (Nat.mod_eq_of_lt hi26).symm))
  ihave Hxc2 := (Entails.of_eq (congrArg (fun f => ((sX).view.loc (thr d L) ↦{fullShare} f : sProp 𝕄)) hfx1)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hb]
  · isplitl [Hfl_dst]; · iexact Hfl_dst
    isplitl [Hxc2]; · iexact Hxc2
    iexact Hb
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hso Horest2]
  · iexists _, fb'
    isplitl [Hso]
    · iapply (Transfers.Flight_mono countersEmb (thr d L) ?_) $$ Hso
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

set_option maxHeartbeats 4000000 in
theorem part5_copy (hX : ∀ j, ((X1 m d j : BitVec 32)).toNat < 100000) (k : Fin k0_t1_loop.trips) (a : BitVec 32) (h0 : ¬ k.val = 0) (hc : ¬ (bs L + k.val) / 32 = (bs L + k.val - 1) / 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_neg h0]
  iintro ⟨#Hmw, ⟨%Sp, %fpl, Hfl, Ht, %hfpl⟩, Hx, ⟨%fx, Hxc, %hfx⟩, Hsx, ⟨%So, %fo, %fb, Hfo, Horest, %hSo, %hdone'⟩, %W', %hW', HO⟩
  ihave Hx' := (Entails.of_eq (pts_x (F := F) d L Finset.univ q (X1 m d)).symm) $$ Hx
  ihave Hxc' := (Entails.of_eq (pts_sX (F := F) d L fx).symm) $$ Hxc
  have h28 : Scalar.cmpi .ne (Scalar.extui (Scalar.cmpi .sge (Scf.iv 0#32 1#32 k) 1#32)) 0#32 = 1#1 := (cond28 k).mpr (by omega)
  have h25 : Scalar.cmpi .ne (Scalar.extui (Scalar.cmpi .ne (Scalar.divsi (Scalar.addi (V2 L) (Scf.iv 0#32 1#32 k)) 32#32) a)) 0#32 = 1#1 :=
    (cond25 _ _).mpr (fun e => by
      have e' := congrArg BitVec.toNat e
      rw [hv16, (hfx.2 h0).1] at e'
      exact hc e')
  subst hfpl
  sl_exec
  ihave Ho := (pointsTo_split_subset (ℓ := v2Loc d) (q := fullShare) (f := fo) hSo).2 $$ [Hfo_dst Horest]
  · isplitl [Hfo_dst] <;> iassumption
  have hfx1 : View.write (Elt F) (sX).view fx (_root_.Cert.Proof.KB.part5_copy.sl.dma0 m d L k) Finset.univ = xrowFn m d ((bs L + k.val) / 32) := funext fun b => by
    unfold _root_.Cert.Proof.KB.part5_copy.sl.dma0
    rw [xrow_payload (F := F) (X1 m d) fx (k0_off3 L k) (k0_off3_inb L k) ((bs L + k.val) / 32) hi26 (by rw [k0_off3_eq]; rfl) (by rw [k0_off3_eq]; rfl) b]
    unfold xrowFn
    exact congrArg (X1 m d) (congrArg (fun i => ValueIdx.ix2 i _) (Fin.ext (Nat.mod_eq_of_lt hi26).symm))
  ihave Hxc2 := (Entails.of_eq (congrArg (fun f => ((sX).view.loc (thr d L) ↦{fullShare} f : sProp 𝕄)) hfx1)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hfo_src]
  · isplitl [Hfl_dst]; · iexact Hfl_dst
    isplitl [Hxc2]; · iexact Hxc2
    iexact Hfo_src
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hfo Horest2]
  · iexists _, fb'
    isplitl [Hfo]
    · iapply (Transfers.Flight_mono countersEmb (thr d L) ?_) $$ Hfo
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

set_option maxHeartbeats 4000000 in
theorem part5_nocopy (hX : ∀ j, ((X1 m d j : BitVec 32)).toNat < 100000) (k : Fin k0_t1_loop.trips) (a : BitVec 32) (h0 : ¬ k.val = 0) (hc : (bs L + k.val) / 32 = (bs L + k.val - 1) / 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  simp only [k0_part5_eq_skeleton]; unfold k0_part5_skel
  have hv16 := v16_toNat L k
  have hk26 : k.val < 26 := Nat.lt_of_lt_of_eq k.isLt trips_t1'
  have hL0 : (L 0).val < 2 := (L 0).isLt
  have hL1 : (L 1).val < 16 := (L 1).isLt
  have hi26 : (bs L + k.val) / 32 < 26 := by unfold bs; omega
  unfold invO planeSt outSt midSt; rw [if_pos hk26, if_neg h0]
  iintro ⟨#Hmw, ⟨%Sp, %fpl, Hfl, Ht, %hfpl⟩, Hx, ⟨%fx, Hxc, %hfx⟩, Hsx, ⟨%So, %fo, %fb, Hfo, Horest, %hSo, %hdone'⟩, %W', %hW', HO⟩
  ihave Hx' := (Entails.of_eq (pts_x (F := F) d L Finset.univ q (X1 m d)).symm) $$ Hx
  ihave Hxc' := (Entails.of_eq (pts_sX (F := F) d L fx).symm) $$ Hxc
  have h28 : Scalar.cmpi .ne (Scalar.extui (Scalar.cmpi .sge (Scf.iv 0#32 1#32 k) 1#32)) 0#32 = 1#1 := (cond28 k).mpr (by omega)
  have h25 : ¬ (Scalar.cmpi .ne (Scalar.extui (Scalar.cmpi .ne (Scalar.divsi (Scalar.addi (V2 L) (Scf.iv 0#32 1#32 k)) 32#32) a)) 0#32 = 1#1) := fun h =>
    (cond25 _ _).mp h (BitVec.eq_of_toNat_eq (by rw [hv16, (hfx.2 h0).1, hc]))
  subst hfpl
  sl_exec
  ihave Ho := (pointsTo_split_subset (ℓ := v2Loc d) (q := fullShare) (f := fo) hSo).2 $$ [Hfo_dst Horest]
  · isplitl [Hfo_dst] <;> iassumption
  have hfx1 : fx = xrowFn m d ((bs L + k.val) / 32) := by rw [(hfx.2 h0).2, hc]
  subst hfx1
  ihave Hxc2 := (Entails.of_eq (rfl : (((sX).view.loc (thr d L) ↦{fullShare} xrowFn m d ((bs L + k.val) / 32) : sProp 𝕄)) = _)) $$ Hxc'
  have hxr : ∀ j : S16384.Idx, ((xrowFn m d ((bs L + k.val) / 32) j : BitVec 32)).toNat < 100000 := fun j => hX _
  iapply (gather_t2 (F := F) d L (V2 L) 0#32 1#32 a k (planeFn m d (bs L + k.val)) (xrowFn m d ((bs L + k.val) / 32)) _ hxr _ _) $$ [Hfl_dst Hxc2 Hfo_src]
  · isplitl [Hfl_dst]; · iexact Hfl_dst
    isplitl [Hxc2]; · iexact Hxc2
    iexact Hfo_src
  iintro %fb' %hfb' Hp Hxc Hbb
  have hsub0 : (outM0 L k).view.set ⊆ TS L := out_sub L k _ _ 0 (by rw [k0_off20_eq]; rfl)
  ihave Ho2 := (pointsTo_split_subset hsub0).1 $$ Ho
  icases Ho2 with ⟨Hop, Horest2⟩
  ihave Hb' := (Entails.of_eq (pts_sB (F := F) d L fb').symm) $$ Hbb
  ihave Hop' := (Entails.of_eq (show ((outM0 L k).view.loc (thr d L) ↦[(outM0 L k).view.set]{fullShare} fo : sProp 𝕄) = (v2Loc d ↦[(outM0 L k).view.set]{fullShare} fo) from rfl).symm) $$ Hop
  sl_exec
  sl_step
  isplitr; · iexact Hmw
  isplitr; · ipureintro; exact hv16
  isplitl [Hp]; · iexact Hp
  isplitl [Ht]; · iexact Ht
  isplitl [Hx']; · iapply (Entails.of_eq (pts_x (F := F) d L Finset.univ q (X1 m d))); iexact Hx'
  isplitl [Hxc]; · iexact Hxc
  isplitl [Hfl]; · iexact Hfl
  isplitl [Hsx]; · iexact Hsx
  isplitl [Hfo Horest2]
  · iexists _, fb'
    isplitl [Hfo]
    · iapply (Transfers.Flight_mono countersEmb (thr d L) ?_) $$ Hfo
      iintro ⟨H1, H2⟩
      isplitl [H1]; · iexact H1
      iapply (Entails.of_eq (sB_set (F := F) d L fb')); iexact H2
    isplitl [Horest2]
    · iapply (Entails.of_eq (rest_write (F := F) d fo _ (k0_off20 L k) (k0_off20_inb L k) (TS L))); iexact Horest2
    · ipureintro
      exact done_step m d L k 0 (by omega) hX fo fb' (planeFn m d (bs L + k.val)) (xrowFn m d ((bs L + k.val) / 32)) hxr rfl rfl hfb' hdone'
        (k0_off20 L k) (k0_off20_inb L k) (by rw [k0_off20_eq]; rfl)
  · iexists _; isplitr
    rotate_left
    · iexact HO
    · ipureintro
      intro p hp
      repeat (rcases Finset.mem_insert.mp hp with h | hp; · exact .inr (h ▸ rfl))
      exact hW' p hp

/-- The first half of trip `k`: the plane has landed, the row-number scratch holds the plane's feature, the previous
    write-back is drained, the first half plane is looked up and its write-back issued. -/
theorem part5_run (hX : ∀ j, ((X1 m d j : BitVec 32)).toNat < 100000) (k : Fin k0_t1_loop.trips) (a : BitVec 32) :
    invO m d L q O W k.val a
      ⊢ wp frame (wpE (defs₀ (F := F)) 𝒱₀ (thr d L) none) Set.univ
          (k0_part5 L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) 0#32 1#32 k a)
          (midSt m d L q O W k) := by
  by_cases h0 : k.val = 0
  · exact part5_first m d L q O W hX k a h0
  · by_cases hc : (bs L + k.val) / 32 = (bs L + k.val - 1) / 32
    · exact part5_nocopy m d L q O W hX k a h0 hc
    · exact part5_copy m d L q O W hX k a h0 hc

end Trip
end Tile
end Cert.Proof.KB
end
-- ==== Proof.KBTrip.lean ====
/-
  The second half of a trip of a tile's plane loop, and the trip as a whole.

  After the first half plane's write-back is issued it is waited for, the second half plane is looked up into the block
  buffer, the next plane's copy is issued (there is none after the worker's last plane), and the second write-back is
  issued; the loop carries the plane's table to the next trip.  Each trip re-establishes the loop's invariant one plane on.
-/
import proofs.«204046_g18683107737843_cont_8to1_103_43_alg».proof.Proof.KBTrip5

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

-- the kernel's memrefs, spelt as the body table passes them
local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

section Tile

variable (d : Dev nD) (L : grid0.Coords)

variable [FloatOps F]

section Trip
variable (q : PosShare TreeShare) (O : CellTallies nD τ sig (HIx 1)) (W : Waits sig (HIx 1))

set_option maxHeartbeats 4000000 in
theorem trip_mid (hX : ∀ j, ((X1 m d j : BitVec 32)).toNat < 100000) (k : Fin k0_t1_loop.trips) (a : BitVec 32)
    (hc3 : k.val < 25) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  unfold k0_t1_body
  rw [wp_bind]
  refine (part5_run m d L q O W hX k a).trans (wp_mono frame _ _ fun x => ?_)
  obtain ⟨x1, x2, x3⟩ := x
  have hk26 : k.val < 26 := Nat.lt_of_lt_of_eq k.isLt trips_t1'
  have hL0 : (L 0).val < 2 := (L 0).isLt
  have hL1 : (L 1).val < 16 := (L 1).isLt
  have hk3 : k0_cond3 k = 1#1 := (cond3 k).mpr hc3
  have hxr : ∀ j : S16384.Idx, ((xrowFn m d ((bs L + k.val) / 32) j : BitVec 32)).toNat < 100000 := fun j => hX _
  have hsub0 : (outM0 L k).view.set ⊆ TS L := out_sub L k _ _ 0 (by rw [k0_off20_eq]; rfl)
  have hsub1 : (outM1 L k).view.set ⊆ TS L := out_sub L k _ _ 1 (by rw [k0_off38_eq]; rfl)
  have e1 : bs L + (k.val + 1) - 1 = bs L + k.val := by omega
  unfold midSt invO planeSt outSt
  rw [if_pos (show k.val + 1 < 26 by omega), if_neg (Nat.succ_ne_zero k.val)]
  iintro ⟨#Hmw, %hx3, Hp, Ht, Hx, Hxc, Hsp, Hsx, ⟨%fo, %fb, Hfo, Horest, %hdone1⟩, %W', %hW', HO⟩
  sl_exec
  ihave Ho := (pointsTo_split_subset (ℓ := v2Loc d) (q := fullShare) (f := fo) hsub0).2 $$ [Hfo_dst Horest]
  · isplitl [Hfo_dst] <;> iassumption
  iapply (gather_t3 (F := F) d L (planeFn m d (bs L + k.val)) (xrowFn m d ((bs L + k.val) / 32)) _ hxr _ _) $$ [Hp Hxc Hfo_src]
  · isplitl [Hp]; · iexact Hp
    isplitl [Hxc]; · iexact Hxc
    iexact Hfo_src
  iintro %fb2 %hfb2 Hp Hxc Hbb
  ihave Ht' := (Entails.of_eq (pts_t (F := F) d L Finset.univ q (T0 m d)).symm) $$ Ht
  ihave Hp' := (Entails.of_eq (pts_sP (F := F) d L (planeFn m d (bs L + k.val))).symm) $$ Hp
  ihave Ho2 := (pointsTo_split_subset hsub1).1 $$ Ho
  icases Ho2 with ⟨Hop, Horest3⟩
  ihave Hb' := (Entails.of_eq (pts_sB (F := F) d L fb2).symm) $$ Hbb
  ihave Hop' := (Entails.of_eq (show ((outM1 L k).view.loc (thr d L) ↦[(outM1 L k).view.set]{fullShare} fo : sProp 𝕄) = (v2Loc d ↦[(outM1 L k).view.set]{fullShare} fo) from rfl).symm) $$ Hop
  sl_exec
  sl_step
  isplitr; · iexact Hmw
  isplitl [Hsp Ht']
  · iexists _, _
    isplitl [Hsp]
    · iapply (Transfers.Flight_mono countersEmb (thr d L) ?_) $$ Hsp
      iintro ⟨H1, H2⟩
      isplitl [H1]; · iapply (Entails.of_eq (pts_sP (F := F) d L _)); iexact H1
      iapply (Entails.of_eq (pts_t (F := F) d L _ q (T0 m d))); iexact H2
    isplitl [Ht']; · iapply (Entails.of_eq (pts_t (F := F) d L _ q (T0 m d))); iexact Ht'
    ipureintro
    funext v
    show View.write (Elt F) (sP).view _ (ReadAs.same.apply (View.read (Elt F)
      (((tW).slice (Rect.unit (s := S26x32x100000) (k0_off37 L k) S1x1x100000.size (k0_off37_inb L k hk3)) (fun _ => rfl)).squeeze S100000 squeezes_S1x1x100000_S100000).view (T0 m d))) Finset.univ v = _
    have hn : bs L + (k.val + 1) = 52 * (L 1).val + 26 * (L 0).val + k.val + 1 := by unfold bs; omega
    have hlt1 : (bs L + (k.val + 1)) / 32 < 26 := by unfold bs; omega
    have hlt2 : (bs L + (k.val + 1)) % 32 < 32 := Nat.mod_lt _ (by decide)
    rw [plane_payload (F := F) (T0 m d) _ (k0_off37 L k) (k0_off37_inb L k hk3) ((bs L + (k.val + 1)) / 32) ((bs L + (k.val + 1)) % 32) hlt1 hlt2
      (by rw [k0_off37_eq, hn]; rfl) (by rw [k0_off37_eq, hn]; rfl) (by rw [k0_off37_eq]; rfl) v]
    unfold planeFn
    exact congrArg (T0 m d) (congrArg (fun i => ValueIdx.ix3 i _ _) (Fin.ext (Nat.mod_eq_of_lt hlt1).symm))
  isplitl [Hx]; · iexact Hx
  isplitl [Hxc]
  · iexists _; isplitl [Hxc]; · iexact Hxc
    ipureintro
    exact ⟨fun h => absurd h (Nat.succ_ne_zero _), fun _ => by rw [e1]; exact ⟨hx3, rfl⟩⟩
  isplitl [Hsx]; · iexact Hsx
  isplitl [Hfo Horest3]
  · iexists (outM1 L k).view.set, _, fb2
    isplitl [Hfo]
    · iapply (Transfers.Flight_mono countersEmb (thr d L) ?_) $$ Hfo
      iintro ⟨H1, H2⟩
      isplitl [H1]; · iexact H1
      iapply (Entails.of_eq (sB_set (F := F) d L fb2)); iexact H2
    isplitl [Horest3]
    · iapply (Entails.of_eq (rest_write (F := F) d fo _ (k0_off38 L k) (k0_off38_inb L k) (TS L))); iexact Horest3
    isplitr; · ipureintro; exact hsub1
    ipureintro
    rw [← Nat.add_assoc]
    exact done_next m d L _ _ (done_step m d L k 1 (by omega) hX fo fb2 (planeFn m d (bs L + k.val)) (xrowFn m d ((bs L + k.val) / 32)) hxr rfl rfl hfb2 hdone1
      (k0_off38 L k) (k0_off38_inb L k) (by rw [k0_off38_eq]; rfl))
  · iexists _; isplitr
    rotate_left
    · iexact HO
    · ipureintro
      intro p hp
      repeat (rcases Finset.mem_insert.mp hp with h | hp; · exact .inr (h ▸ rfl))
      exact hW' p hp

set_option maxHeartbeats 4000000 in
theorem trip_last (hX : ∀ j, ((X1 m d j : BitVec 32)).toNat < 100000) (k : Fin k0_t1_loop.trips) (a : BitVec 32)
    (hc3 : ¬ k.val < 25) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  unfold k0_t1_body
  rw [wp_bind]
  refine (part5_run m d L q O W hX k a).trans (wp_mono frame _ _ fun x => ?_)
  obtain ⟨x1, x2, x3⟩ := x
  have hk26 : k.val < 26 := Nat.lt_of_lt_of_eq k.isLt trips_t1'
  have hL0 : (L 0).val < 2 := (L 0).isLt
  have hL1 : (L 1).val < 16 := (L 1).isLt
  have hk3 : ¬ k0_cond3 k = 1#1 := fun h => hc3 ((cond3 k).mp h)
  have hxr : ∀ j : S16384.Idx, ((xrowFn m d ((bs L + k.val) / 32) j : BitVec 32)).toNat < 100000 := fun j => hX _
  have hsub0 : (outM0 L k).view.set ⊆ TS L := out_sub L k _ _ 0 (by rw [k0_off20_eq]; rfl)
  have hsub1 : (outM1 L k).view.set ⊆ TS L := out_sub L k _ _ 1 (by rw [k0_off38_eq]; rfl)
  have e1 : bs L + (k.val + 1) - 1 = bs L + k.val := by omega
  unfold midSt invO planeSt outSt
  rw [if_neg (show ¬ k.val + 1 < 26 by omega), if_neg (Nat.succ_ne_zero k.val)]
  iintro ⟨#Hmw, %hx3, Hp, Ht, Hx, Hxc, Hsp, Hsx, ⟨%fo, %fb, Hfo, Horest, %hdone1⟩, %W', %hW', HO⟩
  sl_exec
  ihave Ho := (pointsTo_split_subset (ℓ := v2Loc d) (q := fullShare) (f := fo) hsub0).2 $$ [Hfo_dst Horest]
  · isplitl [Hfo_dst] <;> iassumption
  iapply (gather_t3 (F := F) d L (planeFn m d (bs L + k.val)) (xrowFn m d ((bs L + k.val) / 32)) _ hxr _ _) $$ [Hp Hxc Hfo_src]
  · isplitl [Hp]; · iexact Hp
    isplitl [Hxc]; · iexact Hxc
    iexact Hfo_src
  iintro %fb2 %hfb2 Hp Hxc Hbb

  ihave Ho2 := (pointsTo_split_subset hsub1).1 $$ Ho
  icases Ho2 with ⟨Hop, Horest3⟩
  ihave Hb' := (Entails.of_eq (pts_sB (F := F) d L fb2).symm) $$ Hbb
  ihave Hop' := (Entails.of_eq (show ((outM1 L k).view.loc (thr d L) ↦[(outM1 L k).view.set]{fullShare} fo : sProp 𝕄) = (v2Loc d ↦[(outM1 L k).view.set]{fullShare} fo) from rfl).symm) $$ Hop
  sl_exec
  sl_step
  isplitr; · iexact Hmw
  isplitl [Hsp Hp Ht]
  · isplitl [Hsp]; · iexact Hsp
    isplitl [Hp]; · iexists _; iexact Hp
    iexact Ht
  isplitl [Hx]; · iexact Hx
  isplitl [Hxc]
  · iexists _; isplitl [Hxc]; · iexact Hxc
    ipureintro
    exact ⟨fun h => absurd h (Nat.succ_ne_zero _), fun _ => by rw [e1]; exact ⟨hx3, rfl⟩⟩
  isplitl [Hsx]; · iexact Hsx
  isplitl [Hfo Horest3]
  · iexists (outM1 L k).view.set, _, fb2
    isplitl [Hfo]
    · iapply (Transfers.Flight_mono countersEmb (thr d L) ?_) $$ Hfo
      iintro ⟨H1, H2⟩
      isplitl [H1]; · iexact H1
      iapply (Entails.of_eq (sB_set (F := F) d L fb2)); iexact H2
    isplitl [Horest3]
    · iapply (Entails.of_eq (rest_write (F := F) d fo _ (k0_off38 L k) (k0_off38_inb L k) (TS L))); iexact Horest3
    isplitr; · ipureintro; exact hsub1
    ipureintro
    rw [← Nat.add_assoc]
    exact done_next m d L _ _ (done_step m d L k 1 (by omega) hX fo fb2 (planeFn m d (bs L + k.val)) (xrowFn m d ((bs L + k.val) / 32)) hxr rfl rfl hfb2 hdone1
      (k0_off38 L k) (k0_off38_inb L k) (by rw [k0_off38_eq]; rfl))
  · iexists _; isplitr
    rotate_left
    · iexact HO
    · ipureintro
      intro p hp
      repeat (rcases Finset.mem_insert.mp hp with h | hp; · exact .inr (h ▸ rfl))
      exact hW' p hp

/-- A trip of the plane loop keeps the invariant: plane `k` arrives, its two half planes are looked up and written back,
    the next plane's copy is issued (except after the last). -/
theorem trip (hX : ∀ j, ((X1 m d j : BitVec 32)).toNat < 100000) (k : Fin k0_t1_loop.trips) (a : BitVec 32) :
    invO m d L q O W k.val a
      ⊢ wp frame (wpE (defs₀ (F := F)) 𝒱₀ (thr d L) none) Set.univ
          (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
          (invO m d L q O W (k.val + 1)) := by
  by_cases hc3 : k.val < 25
  · exact trip_mid m d L q O W hX k a hc3
  · exact trip_last m d L q O W hX k a hc3

end Trip
end Tile
end Cert.Proof.KB
end
-- ==== Proof.KBTile.lean ====
/-
  The tile's run around its plane loop.

  The tile's body issues the copy of its first plane into its plane scratch, runs the loop of 26 trips, waits for the
  last write-back and returns.  Given the loop's trip rule (each trip takes the state between trips at `k` to the state
  at `k + 1`), the body's run is: the state before trip 0 holds after the first copy is issued — the copy's flight
  delivers the plane scratch at plane `26 w` of the transposed tables, nothing is asked of the output yet —; after trip
  25 no plane copy is outstanding, the last write-back is in flight, and every plane of the tile is finished, so once
  the write-back is waited for the tile's output elements are whole again and hold the lookup's values.  The row
  numbers are in range under the precondition: the transposed row numbers are the launch row numbers read at the
  swapped index.
-/
import proofs.«204046_g18683107737843_cont_8to1_103_43_alg».proof.Proof.KBTripDefs
import proofs.«204046_g18683107737843_cont_8to1_103_43_alg».proof.Proof.KBDone
import proofs.«204046_g18683107737843_cont_8to1_103_43_alg».proof.Proof.KBTrip
import proofs.«204046_g18683107737843_cont_8to1_103_43_alg».proof.Proof.HostIdx
import Idealize.ShloMosaic.Lib.SparseCore.Launch
import Idealize.ShloMosaic.Lib.SparseCore.Ops
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lookup

variable {F : FTy → Type}

local notation "𝕄" => MT nD τ sig (HIx 1) (Elt F) ℕ UU ℕ

variable (m : (ℓ : Loc nD τ sig) → Buf (Elt F) ℓ)

local notation "tW" => (Memref.whole Cert.Kernel.main_v0_scv : Memref Cert.Kernel.sig Kind.scVector Space.hbm Cert.Kernel.S26x32x100000 EltTy.f32)
local notation "xW" => (Memref.whole Cert.Kernel.main_v1_scv : Memref Cert.Kernel.sig Kind.scVector Space.hbm Cert.Kernel.S26x16384 EltTy.i32)
local notation "oW" => (Memref.whole Cert.Kernel.main_v2_scv : Memref Cert.Kernel.sig Kind.scVector Space.hbm Cert.Kernel.S26x4x128x8x128 EltTy.f32)
local notation "sP" => (Memref.whole Cert.Kernel.cc0_scratch0 : Memref Cert.Kernel.sig Kind.scVector Space.vmem Cert.Kernel.S100000 EltTy.f32)
local notation "sX" => (Memref.whole Cert.Kernel.cc0_scratch1 : Memref Cert.Kernel.sig Kind.scVector Space.vmem Cert.Kernel.S16384 EltTy.i32)
local notation "sB" => (Memref.whole Cert.Kernel.cc0_scratch2 : Memref Cert.Kernel.sig Kind.scVector Space.vmem Cert.Kernel.S64x1x128 EltTy.f32)

variable [FloatOps F]

/-- The trip rule of the plane loop, as a statement. -/
def TripRule : Prop :=
  ∀ (d : Dev nD) (L : grid0.Coords) (q : PosShare TreeShare) (O : CellTallies nD τ sig (HIx 1)) (W : Waits sig (HIx 1)) (k : Fin k0_t1_loop.trips) (a : BitVec 32),
    invO m d L q O W k.val a ⊢ wp frame (wpE (defs₀ (F := F)) 𝒱₀ (thr d L) none) Set.univ
      (k0_t1_body L tW (Memref.isWhole_whole _) xW (Memref.isWhole_whole _) oW (Memref.isWhole_whole _) sP (Memref.isWhole_whole _) sX (Memref.isWhole_whole _) sB (Memref.isWhole_whole _) cc0_scratch3 cc0_scratch4 cc0_scratch5 cc0_scoped0 (V2 L) k a)
      (invO m d L q O W (k.val + 1))

theorem tile_body_of (htrip : TripRule m) (hF : (K (F := F)).Facts) : TileBody m := by
  intro d L q O W hO
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%fp, Hp⟩, ⟨%fx, Hxc⟩, ⟨%fb, Hb⟩, Hbufs⟩, ⟨Hsp, Hso, Hsx, Hsems⟩, HO⟩
  ihave Hmw := ((K (F := F)).mayWaits_none (thr := thr d L) hO) $$ Hlv
  ihave Ht' := (Entails.of_eq (pts_t (F := F) d L Finset.univ q (T0 m d)).symm) $$ Ht
  ihave Hp' := (Entails.of_eq (pts_sP (F := F) d L fp).symm) $$ Hp
  sl_exec
  sl_for (invO m d L q O W) $$ [Hmw Hsp Ht' Hx Hxc Hsx Hb Hso Ho HO]
  case region =>
    intro k acc
    unfold tile_body_of.sl.prog.body_1
    exact htrip d L q O W k acc
  · unfold invO planeSt outSt
    rw [if_pos (show (0 : ℕ) < 26 by decide), if_pos rfl]
    isplitl [Hmw]; · iexact Hmw
    isplitl [Hsp Ht']
    · iexists _, _
      isplitl [Hsp]; · iexact Hsp
      isplitl [Ht']; · iexact Ht'
      ipureintro
      funext v
      have hL := L_lt L
      exact plane_payload (T0 m d) fp (k0_off1 L) (k0_off1_inb L) ((bs L + 0) / 32 % 26) ((bs L + 0) % 32)
        (Nat.mod_lt _ (by decide)) (Nat.mod_lt _ (by decide))
        ((congrFun (k0_off1_eq L) 0).trans (by show (52 * (L 1).val + 26 * (L 0).val) / 32 = (52 * (L 1).val + 26 * (L 0).val) / 32 % 26; omega))
        ((congrFun (k0_off1_eq L) 1).trans (by show (52 * (L 1).val + 26 * (L 0).val) % 32 = (52 * (L 1).val + 26 * (L 0).val) % 32; rfl))
        (congrFun (k0_off1_eq L) 2) v
    isplitl [Hx]; · iexact Hx
    isplitl [Hxc]
    · iexists fx
      isplitl [Hxc]; · iexact Hxc
      ipureintro; exact ⟨fun _ => rfl, fun h => absurd rfl h⟩
    isplitl [Hsx]; · iexact Hsx
    isplitl [Hb Hso Ho]
    · isplitl [Hb]; · iexists fb; iexact Hb
      isplitl [Hso]; · iexact Hso
      iexists (m (v2Loc d))
      isplitl [Ho]; · iexact Ho
      ipureintro; exact done_init m d L _
    iexists W; isplitr
    · ipureintro; exact fun p hp => .inl hp
    · iexact HO
  rw [trips_t1]
  iintro %acc HI
  unfold invO planeSt outSt
  rw [if_neg (show ¬ (26 : ℕ) < 26 by decide), if_neg (show ¬ (26 : ℕ) = 0 by decide)]
  icases HI with ⟨-, ⟨Hsp, ⟨%fpl, Hp⟩, Ht⟩, Hx, ⟨%fx', Hxc, -⟩, Hsx, ⟨%So, %fo, %fb', Hfl, Hrest, %hSo, %hdone⟩, %W', %hW', HO⟩
  sl_exec
  sl_step
  isplitl [Ht Hx Hrest Hfl_dst]
  · isplitl [Ht]; · iexact Ht
    isplitl [Hx]; · iexact Hx
    rw [← pointsTo_congr (f := fo) (done_all m d L fo hdone)]
    iapply (pointsTo_split_subset hSo).2
    isplitl [Hfl_dst]; · iexact Hfl_dst
    iexact Hrest
  isplitl [Hp Hxc Hfl_src Hbufs]
  · isplitl [Hp]; · iexists fpl; iexact Hp
    isplitl [Hxc]; · iexists fx'; iexact Hxc
    isplitl [Hfl_src]; · iexists fb'; iexact Hfl_src
    iexact Hbufs
  isplitl [Hsp Hfl Hsx Hsems]
  · isplitl [Hsp]; · iexact Hsp
    isplitl [Hfl]; · iexact Hfl
    isplitl [Hsx]; · iexact Hsx
    iexact Hsems
  iexists (insert (SemLoc.dma cc0_scratch5.sem, (default : HIx 1)) W'); isplitr
  · ipureintro; intro p hp
    rcases Finset.mem_insert.mp hp with hp | hp
    · exact .inr (hp ▸ rfl)
    · exact hW' p hp
  · iexact HO

/-- Under the precondition the transposed row numbers are in range. -/
theorem hX_of_pre (hpre : ∀ d, Cert.Lookup.InRange (m (a0Loc d))) (d : Dev nD) : ∀ j, ((X1 m d j : BitVec 32)).toNat < 100000 := by
  intro j
  obtain ⟨i, b, rfl⟩ : ∃ (i : Fin 26) (b : Fin 16384), j = ValueIdx.ix2 i b := ⟨j 0, j 1, ValueIdx.eq_ix2 j⟩
  unfold X1
  rw [Cert.Lookup.transpose10_apply]
  exact hpre d _

/-- The tile's run: the body around the loop, over the loop's trip rule. -/
theorem tile_body (hF : (K (F := F)).Facts) (hpre : ∀ d, Cert.Lookup.InRange (m (a0Loc d))) : TileBody m :=
  tile_body_of m (fun d L q O W k a => trip m d L q O W (hX_of_pre m hpre d) k a) hF

end Cert.Proof.KB

end
-- ==== Proof.RefOps.lean ====
/-
  The reference program as a list of operations.

  The reference looks up, for each of the 26 features `i`, the rows `x[:, i]` of table `tables[i]`:
  it slices the table and the column out of the two arguments, reshapes them to `[100000, 32]` and
  `[16384]`, and calls the module's `take` function (23 operations, one of them the `where` function's
  select).  All 26 features run the SAME 27 operations over their own buffers, so the 27 operations are
  stated once (`featOps`) over a record of one feature's buffers (`FeatArgs`), and the program is the 26
  instances in order followed by the 29 operations that stack the 26 results.
-/
import proofs.«204046_g18683107737843_cont_8to1_103_43_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 23 operations of one call of `take` (the `where` call's select inline, seventh), over the
    call's two operands and its record of buffers. -/
def takeOps (arg0 : TRef sig ⟨S100000x32, .f32⟩) (arg1 : TRef sig ⟨S16384, .i32⟩) (φ : fn_take.Bufs) :
    List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 100000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S100000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- One call of `take` is the straight line of its 23 operations. -/
theorem take_eq (arg0 : TRef sig ⟨S100000x32, .f32⟩) (arg1 : TRef sig ⟨S16384, .i32⟩) (φ : fn_take.Bufs) :
    fn_take.body (F := F) arg0 arg1 φ = seq (takeOps arg0 arg1 φ) := rfl

/-- One feature's buffers: the feature's number `i` (which table and which column of the row numbers),
    the two slices' shape facts, the two argument buffers, the buffers of the sliced and reshaped table
    and column, and the record of the `take` call's buffers (its last one holds the feature's result). -/
structure FeatArgs where
  i : ℕ
  hT : S26x100000x32.Slices ![i, 0, 0] S1x100000x32
  hX : S16384x26.Slices ![0, i] S16384x1
  x0 : TRef sig ⟨S16384x26, .i32⟩
  t0 : TRef sig ⟨S26x100000x32, .f32⟩
  vT : TRef sig ⟨S1x100000x32, .f32⟩
  vTab : TRef sig ⟨S100000x32, .f32⟩
  vX : TRef sig ⟨S16384x1, .i32⟩
  vIdx : TRef sig ⟨S16384, .i32⟩
  call : fn_take.Bufs

/-- One feature's 27 operations: slice table `i` out of the stacked tables and drop its unit axis, slice
    column `i` out of the row numbers and drop its unit axis, then `take`. -/
def featOps (a : FeatArgs) : List (HloOp τ sig (Elt F)) :=
  TRef.unary a.t0 a.vT (fun t => extractStridedSlice S1x100000x32 ![a.i, 0, 0] t a.hT) ::
  TRef.reshape a.vT a.vTab rfl shapeCasts_S1x100000x32_S100000x32 ::
  TRef.unary a.x0 a.vX (fun t => extractStridedSlice S16384x1 ![0, a.i] t a.hX) ::
  TRef.reshape a.vX a.vIdx rfl shapeCasts_S16384x1_S16384 ::
  takeOps a.vTab a.vIdx a.call

/-- One feature as a program: its four operations of @main, then the call of `take`. -/
def featProg (a : FeatArgs) : Prog (TpuEff nD τ sig (Elt F) (Pipeline.Sig Λ₀ (Fin 0) fun p => (pcfgs (F := F) p).Adm) .tc) PUnit := do
  hlo rfl (TRef.unary a.t0 a.vT (fun t => extractStridedSlice S1x100000x32 ![a.i, 0, 0] t a.hT)) (fun _ => .ret ⟨⟩)
  hlo rfl (TRef.reshape a.vT a.vTab rfl shapeCasts_S1x100000x32_S100000x32) (fun _ => .ret ⟨⟩)
  hlo rfl (TRef.unary a.x0 a.vX (fun t => extractStridedSlice S16384x1 ![0, a.i] t a.hX)) (fun _ => .ret ⟨⟩)
  hlo rfl (TRef.reshape a.vX a.vIdx rfl shapeCasts_S16384x1_S16384) (fun _ => .ret ⟨⟩)
  fn_take.body a.vTab a.vIdx a.call

/-- A feature's program is the straight line of its 27 operations. -/
theorem featProg_eq (a : FeatArgs) : featProg (F := F) a = seq (featOps a) := rfl

/-! The 26 features' buffers. -/
abbrev a0 : FeatArgs := ⟨0, slices_S26x100000x32_S1x100000x32_0_0_0, slices_S16384x26_S16384x1_0_0, .of main_arg0, .of main_arg1, .of main_v0, .of main_v1, .of main_v2, .of main_v3, main_call0⟩
abbrev a1 : FeatArgs := ⟨1, slices_S26x100000x32_S1x100000x32_1_0_0, slices_S16384x26_S16384x1_0_1, .of main_arg0, .of main_arg1, .of main_v5, .of main_v6, .of main_v7, .of main_v8, main_call1⟩
abbrev a2 : FeatArgs := ⟨2, slices_S26x100000x32_S1x100000x32_2_0_0, slices_S16384x26_S16384x1_0_2, .of main_arg0, .of main_arg1, .of main_v10, .of main_v11, .of main_v12, .of main_v13, main_call2⟩
abbrev a3 : FeatArgs := ⟨3, slices_S26x100000x32_S1x100000x32_3_0_0, slices_S16384x26_S16384x1_0_3, .of main_arg0, .of main_arg1, .of main_v15, .of main_v16, .of main_v17, .of main_v18, main_call3⟩
abbrev a4 : FeatArgs := ⟨4, slices_S26x100000x32_S1x100000x32_4_0_0, slices_S16384x26_S16384x1_0_4, .of main_arg0, .of main_arg1, .of main_v20, .of main_v21, .of main_v22, .of main_v23, main_call4⟩
abbrev a5 : FeatArgs := ⟨5, slices_S26x100000x32_S1x100000x32_5_0_0, slices_S16384x26_S16384x1_0_5, .of main_arg0, .of main_arg1, .of main_v25, .of main_v26, .of main_v27, .of main_v28, main_call5⟩
abbrev a6 : FeatArgs := ⟨6, slices_S26x100000x32_S1x100000x32_6_0_0, slices_S16384x26_S16384x1_0_6, .of main_arg0, .of main_arg1, .of main_v30, .of main_v31, .of main_v32, .of main_v33, main_call6⟩
abbrev a7 : FeatArgs := ⟨7, slices_S26x100000x32_S1x100000x32_7_0_0, slices_S16384x26_S16384x1_0_7, .of main_arg0, .of main_arg1, .of main_v35, .of main_v36, .of main_v37, .of main_v38, main_call7⟩
abbrev a8 : FeatArgs := ⟨8, slices_S26x100000x32_S1x100000x32_8_0_0, slices_S16384x26_S16384x1_0_8, .of main_arg0, .of main_arg1, .of main_v40, .of main_v41, .of main_v42, .of main_v43, main_call8⟩
abbrev a9 : FeatArgs := ⟨9, slices_S26x100000x32_S1x100000x32_9_0_0, slices_S16384x26_S16384x1_0_9, .of main_arg0, .of main_arg1, .of main_v45, .of main_v46, .of main_v47, .of main_v48, main_call9⟩
abbrev a10 : FeatArgs := ⟨10, slices_S26x100000x32_S1x100000x32_10_0_0, slices_S16384x26_S16384x1_0_10, .of main_arg0, .of main_arg1, .of main_v50, .of main_v51, .of main_v52, .of main_v53, main_call10⟩
abbrev a11 : FeatArgs := ⟨11, slices_S26x100000x32_S1x100000x32_11_0_0, slices_S16384x26_S16384x1_0_11, .of main_arg0, .of main_arg1, .of main_v55, .of main_v56, .of main_v57, .of main_v58, main_call11⟩
abbrev a12 : FeatArgs := ⟨12, slices_S26x100000x32_S1x100000x32_12_0_0, slices_S16384x26_S16384x1_0_12, .of main_arg0, .of main_arg1, .of main_v60, .of main_v61, .of main_v62, .of main_v63, main_call12⟩
abbrev a13 : FeatArgs := ⟨13, slices_S26x100000x32_S1x100000x32_13_0_0, slices_S16384x26_S16384x1_0_13, .of main_arg0, .of main_arg1, .of main_v65, .of main_v66, .of main_v67, .of main_v68, main_call13⟩
abbrev a14 : FeatArgs := ⟨14, slices_S26x100000x32_S1x100000x32_14_0_0, slices_S16384x26_S16384x1_0_14, .of main_arg0, .of main_arg1, .of main_v70, .of main_v71, .of main_v72, .of main_v73, main_call14⟩
abbrev a15 : FeatArgs := ⟨15, slices_S26x100000x32_S1x100000x32_15_0_0, slices_S16384x26_S16384x1_0_15, .of main_arg0, .of main_arg1, .of main_v75, .of main_v76, .of main_v77, .of main_v78, main_call15⟩
abbrev a16 : FeatArgs := ⟨16, slices_S26x100000x32_S1x100000x32_16_0_0, slices_S16384x26_S16384x1_0_16, .of main_arg0, .of main_arg1, .of main_v80, .of main_v81, .of main_v82, .of main_v83, main_call16⟩
abbrev a17 : FeatArgs := ⟨17, slices_S26x100000x32_S1x100000x32_17_0_0, slices_S16384x26_S16384x1_0_17, .of main_arg0, .of main_arg1, .of main_v85, .of main_v86, .of main_v87, .of main_v88, main_call17⟩
abbrev a18 : FeatArgs := ⟨18, slices_S26x100000x32_S1x100000x32_18_0_0, slices_S16384x26_S16384x1_0_18, .of main_arg0, .of main_arg1, .of main_v90, .of main_v91, .of main_v92, .of main_v93, main_call18⟩
abbrev a19 : FeatArgs := ⟨19, slices_S26x100000x32_S1x100000x32_19_0_0, slices_S16384x26_S16384x1_0_19, .of main_arg0, .of main_arg1, .of main_v95, .of main_v96, .of main_v97, .of main_v98, main_call19⟩
abbrev a20 : FeatArgs := ⟨20, slices_S26x100000x32_S1x100000x32_20_0_0, slices_S16384x26_S16384x1_0_20, .of main_arg0, .of main_arg1, .of main_v100, .of main_v101, .of main_v102, .of main_v103, main_call20⟩
abbrev a21 : FeatArgs := ⟨21, slices_S26x100000x32_S1x100000x32_21_0_0, slices_S16384x26_S16384x1_0_21, .of main_arg0, .of main_arg1, .of main_v105, .of main_v106, .of main_v107, .of main_v108, main_call21⟩
abbrev a22 : FeatArgs := ⟨22, slices_S26x100000x32_S1x100000x32_22_0_0, slices_S16384x26_S16384x1_0_22, .of main_arg0, .of main_arg1, .of main_v110, .of main_v111, .of main_v112, .of main_v113, main_call22⟩
abbrev a23 : FeatArgs := ⟨23, slices_S26x100000x32_S1x100000x32_23_0_0, slices_S16384x26_S16384x1_0_23, .of main_arg0, .of main_arg1, .of main_v115, .of main_v116, .of main_v117, .of main_v118, main_call23⟩
abbrev a24 : FeatArgs := ⟨24, slices_S26x100000x32_S1x100000x32_24_0_0, slices_S16384x26_S16384x1_0_24, .of main_arg0, .of main_arg1, .of main_v120, .of main_v121, .of main_v122, .of main_v123, main_call24⟩
abbrev a25 : FeatArgs := ⟨25, slices_S26x100000x32_S1x100000x32_25_0_0, slices_S16384x26_S16384x1_0_25, .of main_arg0, .of main_arg1, .of main_v125, .of main_v126, .of main_v127, .of main_v128, main_call25⟩

/-- The 29 operations after the 26 features: each result `[16384, 32]` gets a unit middle axis, the first
    16 and the last 10 are concatenated along it, and the two halves are concatenated. -/
def tailOps : List (HloOp τ sig (Elt F)) :=
  [
    unary main_v4 main_v130 (broadcastInDim S16384x1x32 ![0, 2] bcast_S16384x32_S16384x1x32_0_2 : (⟨S16384x32, .f32⟩ : BufTy).Contents (Elt F) → (⟨S16384x1x32, .f32⟩ : BufTy).Contents (Elt F)),
    unary main_v9 main_v131 (broadcastInDim S16384x1x32 ![0, 2] bcast_S16384x32_S16384x1x32_0_2 : (⟨S16384x32, .f32⟩ : BufTy).Contents (Elt F) → (⟨S16384x1x32, .f32⟩ : BufTy).Contents (Elt F)),
    unary main_v14 main_v132 (broadcastInDim S16384x1x32 ![0, 2] bcast_S16384x32_S16384x1x32_0_2 : (⟨S16384x32, .f32⟩ : BufTy).Contents (Elt F) → (⟨S16384x1x32, .f32⟩ : BufTy).Contents (Elt F)),
    unary main_v19 main_v133 (broadcastInDim S16384x1x32 ![0, 2] bcast_S16384x32_S16384x1x32_0_2 : (⟨S16384x32, .f32⟩ : BufTy).Contents (Elt F) → (⟨S16384x1x32, .f32⟩ : BufTy).Contents (Elt F)),
    unary main_v24 main_v134 (broadcastInDim S16384x1x32 ![0, 2] bcast_S16384x32_S16384x1x32_0_2 : (⟨S16384x32, .f32⟩ : BufTy).Contents (Elt F) → (⟨S16384x1x32, .f32⟩ : BufTy).Contents (Elt F)),
    unary main_v29 main_v135 (broadcastInDim S16384x1x32 ![0, 2] bcast_S16384x32_S16384x1x32_0_2 : (⟨S16384x32, .f32⟩ : BufTy).Contents (Elt F) → (⟨S16384x1x32, .f32⟩ : BufTy).Contents (Elt F)),
    unary main_v34 main_v136 (broadcastInDim S16384x1x32 ![0, 2] bcast_S16384x32_S16384x1x32_0_2 : (⟨S16384x32, .f32⟩ : BufTy).Contents (Elt F) → (⟨S16384x1x32, .f32⟩ : BufTy).Contents (Elt F)),
    unary main_v39 main_v137 (broadcastInDim S16384x1x32 ![0, 2] bcast_S16384x32_S16384x1x32_0_2 : (⟨S16384x32, .f32⟩ : BufTy).Contents (Elt F) → (⟨S16384x1x32, .f32⟩ : BufTy).Contents (Elt F)),
    unary main_v44 main_v138 (broadcastInDim S16384x1x32 ![0, 2] bcast_S16384x32_S16384x1x32_0_2 : (⟨S16384x32, .f32⟩ : BufTy).Contents (Elt F) → (⟨S16384x1x32, .f32⟩ : BufTy).Contents (Elt F)),
    unary main_v49 main_v139 (broadcastInDim S16384x1x32 ![0, 2] bcast_S16384x32_S16384x1x32_0_2 : (⟨S16384x32, .f32⟩ : BufTy).Contents (Elt F) → (⟨S16384x1x32, .f32⟩ : BufTy).Contents (Elt F)),
    unary main_v54 main_v140 (broadcastInDim S16384x1x32 ![0, 2] bcast_S16384x32_S16384x1x32_0_2 : (⟨S16384x32, .f32⟩ : BufTy).Contents (Elt F) → (⟨S16384x1x32, .f32⟩ : BufTy).Contents (Elt F)),
    unary main_v59 main_v141 (broadcastInDim S16384x1x32 ![0, 2] bcast_S16384x32_S16384x1x32_0_2 : (⟨S16384x32, .f32⟩ : BufTy).Contents (Elt F) → (⟨S16384x1x32, .f32⟩ : BufTy).Contents (Elt F)),
    unary main_v64 main_v142 (broadcastInDim S16384x1x32 ![0, 2] bcast_S16384x32_S16384x1x32_0_2 : (⟨S16384x32, .f32⟩ : BufTy).Contents (Elt F) → (⟨S16384x1x32, .f32⟩ : BufTy).Contents (Elt F)),
    unary main_v69 main_v143 (broadcastInDim S16384x1x32 ![0, 2] bcast_S16384x32_S16384x1x32_0_2 : (⟨S16384x32, .f32⟩ : BufTy).Contents (Elt F) → (⟨S16384x1x32, .f32⟩ : BufTy).Contents (Elt F)),
    unary main_v74 main_v144 (broadcastInDim S16384x1x32 ![0, 2] bcast_S16384x32_S16384x1x32_0_2 : (⟨S16384x32, .f32⟩ : BufTy).Contents (Elt F) → (⟨S16384x1x32, .f32⟩ : BufTy).Contents (Elt F)),
    unary main_v79 main_v145 (broadcastInDim S16384x1x32 ![0, 2] bcast_S16384x32_S16384x1x32_0_2 : (⟨S16384x32, .f32⟩ : BufTy).Contents (Elt F) → (⟨S16384x1x32, .f32⟩ : BufTy).Contents (Elt F)),
    unary main_v84 main_v146 (broadcastInDim S16384x1x32 ![0, 2] bcast_S16384x32_S16384x1x32_0_2 : (⟨S16384x32, .f32⟩ : BufTy).Contents (Elt F) → (⟨S16384x1x32, .f32⟩ : BufTy).Contents (Elt F)),
    unary main_v89 main_v147 (broadcastInDim S16384x1x32 ![0, 2] bcast_S16384x32_S16384x1x32_0_2 : (⟨S16384x32, .f32⟩ : BufTy).Contents (Elt F) → (⟨S16384x1x32, .f32⟩ : BufTy).Contents (Elt F)),
    unary main_v94 main_v148 (broadcastInDim S16384x1x32 ![0, 2] bcast_S16384x32_S16384x1x32_0_2 : (⟨S16384x32, .f32⟩ : BufTy).Contents (Elt F) → (⟨S16384x1x32, .f32⟩ : BufTy).Contents (Elt F)),
    unary main_v99 main_v149 (broadcastInDim S16384x1x32 ![0, 2] bcast_S16384x32_S16384x1x32_0_2 : (⟨S16384x32, .f32⟩ : BufTy).Contents (Elt F) → (⟨S16384x1x32, .f32⟩ : BufTy).Contents (Elt F)),
    unary main_v104 main_v150 (broadcastInDim S16384x1x32 ![0, 2] bcast_S16384x32_S16384x1x32_0_2 : (⟨S16384x32, .f32⟩ : BufTy).Contents (Elt F) → (⟨S16384x1x32, .f32⟩ : BufTy).Contents (Elt F)),
    unary main_v109 main_v151 (broadcastInDim S16384x1x32 ![0, 2] bcast_S16384x32_S16384x1x32_0_2 : (⟨S16384x32, .f32⟩ : BufTy).Contents (Elt F) → (⟨S16384x1x32, .f32⟩ : BufTy).Contents (Elt F)),
    unary main_v114 main_v152 (broadcastInDim S16384x1x32 ![0, 2] bcast_S16384x32_S16384x1x32_0_2 : (⟨S16384x32, .f32⟩ : BufTy).Contents (Elt F) → (⟨S16384x1x32, .f32⟩ : BufTy).Contents (Elt F)),
    unary main_v119 main_v153 (broadcastInDim S16384x1x32 ![0, 2] bcast_S16384x32_S16384x1x32_0_2 : (⟨S16384x32, .f32⟩ : BufTy).Contents (Elt F) → (⟨S16384x1x32, .f32⟩ : BufTy).Contents (Elt F)),
    unary main_v124 main_v154 (broadcastInDim S16384x1x32 ![0, 2] bcast_S16384x32_S16384x1x32_0_2 : (⟨S16384x32, .f32⟩ : BufTy).Contents (Elt F) → (⟨S16384x1x32, .f32⟩ : BufTy).Contents (Elt F)),
    unary main_v129 main_v155 (broadcastInDim S16384x1x32 ![0, 2] bcast_S16384x32_S16384x1x32_0_2 : (⟨S16384x32, .f32⟩ : BufTy).Contents (Elt F) → (⟨S16384x1x32, .f32⟩ : BufTy).Contents (Elt F)),
    nary ![main_v130, main_v131, main_v132, main_v133, main_v134, main_v135, main_v136, main_v137, main_v138, main_v139, main_v140, main_v141, main_v142, main_v143, main_v144, main_v145] main_v156 (fun u => concatenate S16384x16x32 1 [⟨S16384x1x32, u 0⟩, ⟨S16384x1x32, u 1⟩, ⟨S16384x1x32, u 2⟩, ⟨S16384x1x32, u 3⟩, ⟨S16384x1x32, u 4⟩, ⟨S16384x1x32, u 5⟩, ⟨S16384x1x32, u 6⟩, ⟨S16384x1x32, u 7⟩, ⟨S16384x1x32, u 8⟩, ⟨S16384x1x32, u 9⟩, ⟨S16384x1x32, u 10⟩, ⟨S16384x1x32, u 11⟩, ⟨S16384x1x32, u 12⟩, ⟨S16384x1x32, u 13⟩, ⟨S16384x1x32, u 14⟩, ⟨S16384x1x32, u 15⟩] concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1),
    nary ![main_v146, main_v147, main_v148, main_v149, main_v150, main_v151, main_v152, main_v153, main_v154, main_v155] main_v157 (fun u => concatenate S16384x10x32 1 [⟨S16384x1x32, u 0⟩, ⟨S16384x1x32, u 1⟩, ⟨S16384x1x32, u 2⟩, ⟨S16384x1x32, u 3⟩, ⟨S16384x1x32, u 4⟩, ⟨S16384x1x32, u 5⟩, ⟨S16384x1x32, u 6⟩, ⟨S16384x1x32, u 7⟩, ⟨S16384x1x32, u 8⟩, ⟨S16384x1x32, u 9⟩] concatenates_S16384x1x32_S16384x1x32_S16384x1x32_S16384x1x32_S16384x1x32_S16384x1x32_S16384x1x32_S16384x1x32_S16384x1x32_S16384x1x32_S16384x10x32_d1),
    binary main_v156 main_v157 main_v158 ((fun a b => concatenate S16384x26x32 1 [⟨S16384x16x32, a⟩, ⟨S16384x10x32, b⟩] concatenates_S16384x16x32_S16384x10x32_S16384x26x32_d1) : (⟨S16384x16x32, .f32⟩ : BufTy).Contents (Elt F) → (⟨S16384x10x32, .f32⟩ : BufTy).Contents (Elt F) → (⟨S16384x26x32, .f32⟩ : BufTy).Contents (Elt F)) ]

/-- The 26 features, in order. -/
def feats : List FeatArgs := [a0, a1, a2, a3, a4, a5, a6, a7, a8, a9, a10, a11, a12, a13, a14, a15, a16, a17, a18, a19, a20, a21, a22, a23, a24, a25]

/-- @main's operations, in order: the 26 features' and the stacking. -/
def ops : List (HloOp τ sig (Elt F)) := feats.flatMap featOps ++ tailOps

end Cert.ReferenceIdeal.RefValue

end
-- ==== Proof.RefMain.lean ====
/-
  The reference's @main is the straight line of its operations.

  @main is printed in three windows; each window is a sequence of features (the last window followed by the
  stacking operations).  A window is its features' programs in order by re-associating the sequencing (the
  call of `take` left folded), each feature's program is the list of its 27 operations, and a sequence of
  lists run one after the other is their concatenation run as one.
-/
import proofs.«204046_g18683107737843_cont_8to1_103_43_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem part0_eq (c : Dev nD) : main_part0 (F := F) c =
      (featProg a0 >>= fun _ =>
      featProg a1 >>= fun _ =>
      featProg a2 >>= fun _ =>
      featProg a3 >>= fun _ =>
      featProg a4 >>= fun _ =>
      featProg a5 >>= fun _ =>
      featProg a6 >>= fun _ =>
      featProg a7 >>= fun _ =>
      featProg a8 >>= fun _ =>
      featProg a9 >>= fun _ =>
      featProg a10 >>= fun _ =>
      featProg a11) := rfl
theorem part1_eq (c : Dev nD) : main_part1 (F := F) c =
      (featProg a12 >>= fun _ =>
      featProg a13 >>= fun _ =>
      featProg a14 >>= fun _ =>
      featProg a15 >>= fun _ =>
      featProg a16 >>= fun _ =>
      featProg a17 >>= fun _ =>
      featProg a18 >>= fun _ =>
      featProg a19 >>= fun _ =>
      featProg a20 >>= fun _ =>
      featProg a21 >>= fun _ =>
      featProg a22 >>= fun _ =>
      featProg a23) := rfl
theorem part2_eq (c : Dev nD) : main_part2 (F := F) c =
      (featProg a24 >>= fun _ =>
      featProg a25 >>= fun _ =>
      seq tailOps) := rfl

theorem main_eq (c : Dev nD) : main (F := F) c = seq ops := by
  show main_part0 c >>= (fun _ => main_part1 c >>= fun _ => main_part2 c) = _
  rw [part0_eq, part1_eq, part2_eq]
  simp only [featProg_eq, ops, feats, List.flatMap_cons, List.flatMap_nil, List.append_nil, seq_append, bind_assoc]

end Cert.ReferenceIdeal.RefValue

end
-- ==== Proof.RefFeat.lean ====
/-
  One feature's operations, read back: generic in the feature's buffers.

  A typed reference's contents are read at the value's type (`get`); each builder's result at its own result
  buffer is its function of the operands' contents, and at any other buffer what was there.  Buffers are told
  apart by their NUMBER (the index in the signature's table): a feature whose 27 buffers are numbered
  consecutively from `base ≥ 2`, the two arguments being buffers 0 and 1, is `Numbered`, and every inequality
  of two of its buffers is then linear arithmetic.  For a numbered feature the 27 operations leave the result
  buffer at `featVal` of the arguments' contents, and leave every buffer numbered outside
  `[base, base + 27)` as it was.
-/
import proofs.«204046_g18683107737843_cont_8to1_103_43_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A reference's number: its index in the signature's table. -/
def num (r : Ref sig .tc) : ℕ := r.idx.val

theorem ne_of_num {r y : Ref sig .tc} (h : num r ≠ num y) : r ≠ y := fun e => h (congrArg num e)

section Get

variable {T Tx Ta Tb Tc Ty : BufTy}

/-- The contents of a typed reference's buffer, at the value's type. -/
def get (x : TRef sig T) (V : Valuation τ sig (Elt F)) : T.Contents (Elt F) := x.ofBuf (V (x.ref : DevRef τ sig))

theorem get_nullary (y : TRef sig Ty) (v : Ty.Contents (Elt F)) (V : Valuation τ sig (Elt F)) :
    get y ((TRef.nullary (τ := τ) y v).result V) = v := by
  obtain ⟨yr, hy, hd, hu⟩ := y
  subst hy
  exact nullary_result yr _ _ V

theorem get_unary (x : TRef sig Tx) (y : TRef sig Ty) (f : Tx.Contents (Elt F) → Ty.Contents (Elt F)) (V : Valuation τ sig (Elt F)) :
    get y ((TRef.unary (τ := τ) x y f).result V) = f (get x V) := by
  obtain ⟨xr, hx, _, _⟩ := x
  obtain ⟨yr, hy, _, _⟩ := y
  subst hx hy
  exact unary_result xr yr _ _ _ V

theorem get_binary (a : TRef sig Ta) (b : TRef sig Tb) (y : TRef sig Ty)
    (f : Ta.Contents (Elt F) → Tb.Contents (Elt F) → Ty.Contents (Elt F)) (V : Valuation τ sig (Elt F)) :
    get y ((TRef.binary (τ := τ) a b y f).result V) = f (get a V) (get b V) := by
  obtain ⟨ar, ha, _, _⟩ := a
  obtain ⟨br, hb, _, _⟩ := b
  obtain ⟨yr, hy, _, _⟩ := y
  subst ha hb hy
  exact binary_result ar br yr _ _ _ _ V

theorem get_ternary (c : TRef sig Tc) (a : TRef sig Ta) (b : TRef sig Tb) (y : TRef sig Ty)
    (f : Tc.Contents (Elt F) → Ta.Contents (Elt F) → Tb.Contents (Elt F) → Ty.Contents (Elt F)) (V : Valuation τ sig (Elt F)) :
    get y ((TRef.ternary (τ := τ) c a b y f).result V) = f (get c V) (get a V) (get b V) := by
  obtain ⟨cr, hc, _, _⟩ := c
  obtain ⟨ar, ha, _, _⟩ := a
  obtain ⟨br, hb, _, _⟩ := b
  obtain ⟨yr, hy, _, _⟩ := y
  subst hc ha hb hy
  exact ternary_result cr ar br yr _ _ _ _ _ V

theorem get_reshape (x : TRef sig Tx) (y : TRef sig Ty) (he : Tx.elt = Ty.elt) (hn : Tx.shape.ShapeCasts Ty.shape)
    (V : Valuation τ sig (Elt F)) :
    get y ((TRef.reshape (τ := τ) (Val := Elt F) x y he hn).result V) = fun i => he ▸ shapeCast Ty.shape (get x V) hn i := by
  obtain ⟨xr, hx, _, _⟩ := x
  obtain ⟨yr, hy, _, _⟩ := y
  subst hx hy
  exact reshape_result xr yr _ _ _ _ V

theorem get_nullary_ne (r : TRef sig T) (y : TRef sig Ty) (v : Ty.Contents (Elt F)) (V : Valuation τ sig (Elt F))
    (h : r.ref ≠ y.ref) : get r ((TRef.nullary (τ := τ) y v).result V) = get r V :=
  congrArg r.ofBuf (nullary_result_ne y.ref _ _ V h)

theorem get_unary_ne (r : TRef sig T) (x : TRef sig Tx) (y : TRef sig Ty) (f : Tx.Contents (Elt F) → Ty.Contents (Elt F))
    (V : Valuation τ sig (Elt F)) (h : r.ref ≠ y.ref) : get r ((TRef.unary (τ := τ) x y f).result V) = get r V :=
  congrArg r.ofBuf (unary_result_ne x.ref y.ref _ _ _ V h)

theorem get_binary_ne (r : TRef sig T) (a : TRef sig Ta) (b : TRef sig Tb) (y : TRef sig Ty)
    (f : Ta.Contents (Elt F) → Tb.Contents (Elt F) → Ty.Contents (Elt F)) (V : Valuation τ sig (Elt F)) (h : r.ref ≠ y.ref) :
    get r ((TRef.binary (τ := τ) a b y f).result V) = get r V :=
  congrArg r.ofBuf (binary_result_ne a.ref b.ref y.ref _ _ _ _ V h)

theorem get_ternary_ne (r : TRef sig T) (c : TRef sig Tc) (a : TRef sig Ta) (b : TRef sig Tb) (y : TRef sig Ty)
    (f : Tc.Contents (Elt F) → Ta.Contents (Elt F) → Tb.Contents (Elt F) → Ty.Contents (Elt F)) (V : Valuation τ sig (Elt F))
    (h : r.ref ≠ y.ref) : get r ((TRef.ternary (τ := τ) c a b y f).result V) = get r V :=
  congrArg r.ofBuf (ternary_result_ne a.ref b.ref c.ref y.ref _ _ _ _ _ V h)

theorem get_reshape_ne (r : TRef sig T) (x : TRef sig Tx) (y : TRef sig Ty) (he : Tx.elt = Ty.elt) (hn : Tx.shape.ShapeCasts Ty.shape)
    (V : Valuation τ sig (Elt F)) (h : r.ref ≠ y.ref) :
    get r ((TRef.reshape (τ := τ) (Val := Elt F) x y he hn).result V) = get r V :=
  congrArg r.ofBuf (reshape_result_ne x.ref y.ref _ _ _ _ V h)

end Get

/-! ## What one feature computes -/

/-- The row number after `take`'s wrap: a negative one moved up by the table's size. -/
def takeIdx (x : (⟨S16384, .i32⟩ : BufTy).Contents (Elt F)) : (⟨S16384x1, .i32⟩ : BufTy).Contents (Elt F) :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 100000#32))) x)

/-- Per example: whether the wrapped row number names a row, `0 ≤ · ≤ 99999` (the reduction is over one entry). -/
def takeMask (x : (⟨S16384, .i32⟩ : BufTy).Contents (Elt F)) : (⟨S16384, .i1⟩ : BufTy).Contents (Elt F) :=
  Host.reduce IntOp.andi
    (andi (cmpi .sge (takeIdx (F := F) x) (broadcastInDim S16384x1 ![] bcast_S_S16384x1 (constantI S_ 32 0#32)))
      (cmpi .sle (takeIdx (F := F) x) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- `take`: the gathered rows where the row number names a row, NaN elsewhere. -/
def takeVal (tab : (⟨S100000x32, .f32⟩ : BufTy).Contents (Elt F)) (x : (⟨S16384, .i32⟩ : BufTy).Contents (Elt F)) :
    (⟨S16384x32, .f32⟩ : BufTy).Contents (Elt F) :=
  select (broadcastInDim S16384x32 ![0] bcast_S16384_S16384x32_0 (takeMask (F := F) x))
    (Host.gather gather_S100000x32_S16384x1_S16384x32_1_0_n_n_0_1_132 tab (takeIdx (F := F) x))
    (broadcastInDim S16384x32 ![] bcast_S_S16384x32 (constant S_ .f32 0x7FC00000#32))

/-- Feature `a.i`'s value from the row numbers `X` and the stacked tables `T`. -/
def featVal (a : FeatArgs) (X : (⟨S16384x26, .i32⟩ : BufTy).Contents (Elt F)) (T : (⟨S26x100000x32, .f32⟩ : BufTy).Contents (Elt F)) :
    (⟨S16384x32, .f32⟩ : BufTy).Contents (Elt F) :=
  takeVal (shapeCast S100000x32 (extractStridedSlice S1x100000x32 ![a.i, 0, 0] T a.hT) shapeCasts_S1x100000x32_S100000x32)
    (shapeCast S16384 (extractStridedSlice S16384x1 ![0, a.i] X a.hX) shapeCasts_S16384x1_S16384)

/-! ## A numbered feature -/

/-- A feature's buffers: the two arguments', then the 27 its operations write, in the operations' order. -/
def featRefs (a : FeatArgs) : List (Ref sig .tc) :=
  [a.x0.ref, a.t0.ref, a.vT.ref, a.vTab.ref, a.vX.ref, a.vIdx.ref, a.call.c.ref, a.call.v0.ref, a.call.v1.ref, a.call.c_0.ref, a.call.v2.ref, a.call.v3.ref, a.call.call0.v0.ref, a.call.v5.ref, a.call.c_1.ref, a.call.c_2.ref, a.call.v6.ref, a.call.v7.ref, a.call.v8.ref, a.call.v9.ref, a.call.v10.ref, a.call.v11.ref, a.call.c_3.ref, a.call.v12.ref, a.call.v13.ref, a.call.v14.ref, a.call.cst.ref, a.call.v15.ref, a.call.v16.ref]

/-- The number of the first buffer the feature writes. -/
def FeatArgs.base (a : FeatArgs) : ℕ := num a.vT.ref

/-- The arguments are buffers 0 and 1 and the feature's 27 buffers are numbered consecutively from `base ≥ 2`. -/
def Numbered (a : FeatArgs) : Prop :=
  (featRefs a).map num = [0, 1, a.base + 0, a.base + 1, a.base + 2, a.base + 3, a.base + 4, a.base + 5, a.base + 6, a.base + 7, a.base + 8, a.base + 9, a.base + 10, a.base + 11, a.base + 12, a.base + 13, a.base + 14, a.base + 15, a.base + 16, a.base + 17, a.base + 18, a.base + 19, a.base + 20, a.base + 21, a.base + 22, a.base + 23, a.base + 24, a.base + 25, a.base + 26] ∧ 2 ≤ a.base

theorem add_ne (b i j : ℕ) (h : i ≠ j) : b + i ≠ b + j := by omega
theorem zero_ne_add (b j : ℕ) (hb : 2 ≤ b) : 0 ≠ b + j := by omega
theorem one_ne_add (b j : ℕ) (hb : 2 ≤ b) : 1 ≠ b + j := by omega
theorem out_ne (b k x : ℕ) (hk : k < 27) (hx : x < b ∨ b + 27 ≤ x) : x ≠ b + k := by omega

attribute [local irreducible] Host.reduce Host.gather in
set_option maxRecDepth 8192 in
set_option maxHeartbeats 4000000 in
/-- After a numbered feature's operations, from any contents `V`, its result buffer holds its value of the
    two arguments' contents in `V`. -/
theorem feat_stmt (a : FeatArgs) (h : Numbered a) (V : Valuation τ sig (Elt F)) :
    get a.call.v16 (after (featOps a) V) = featVal a (get a.x0 V) (get a.t0 V) := by
  obtain ⟨hn, hb⟩ := h
  simp only [featRefs, List.map_cons, List.map_nil, List.cons.injEq, and_true] at hn
  obtain ⟨n0, n1, n2, n3, n4, n5, n6, n7, n8, n9, n10, n11, n12, n13, n14, n15, n16, n17, n18, n19, n20, n21, n22, n23, n24, n25, n26, n27, n28⟩ := hn
  simp only [featOps, takeOps, after_cons, after_nil]
  simp (disch := exact ne_of_num (by
      simp only [n0, n1, n2, n3, n4, n5, n6, n7, n8, n9, n10, n11, n12, n13, n14, n15, n16, n17, n18, n19, n20, n21, n22, n23, n24, n25, n26, n27, n28]
      first
        | exact add_ne _ _ _ (by decide)
        | exact zero_ne_add _ _ hb
        | exact one_ne_add _ _ hb)) only [get_nullary, get_unary, get_binary, get_ternary, get_reshape,
    get_nullary_ne, get_unary_ne, get_binary_ne, get_ternary_ne, get_reshape_ne]
  rfl

/-! ## What a feature's operations leave alone -/

theorem not_mem_writes {op : HloOp τ sig (Elt F)} {y r : Ref sig .tc} (hw : op.writes = {(y : DevRef τ sig)})
    (h : num r ≠ num y) : (r : DevRef τ sig) ∉ op.writes := by
  rw [hw, Finset.mem_singleton]
  exact fun e => h (congrArg num (Proc.devRef_injective _ e))

set_option maxHeartbeats 4000000 in
/-- A numbered feature's operations leave every buffer numbered outside `[base, base + 27)` as it was. -/
theorem feat_frame (a : FeatArgs) (h : Numbered a) (V : Valuation τ sig (Elt F)) (r : Ref sig .tc)
    (hr : num r < a.base ∨ a.base + 27 ≤ num r) :
    after (featOps a) V (r : DevRef τ sig) = V (r : DevRef τ sig) := by
  obtain ⟨hn, hb⟩ := h
  simp only [featRefs, List.map_cons, List.map_nil, List.cons.injEq, and_true] at hn
  obtain ⟨n0, n1, n2, n3, n4, n5, n6, n7, n8, n9, n10, n11, n12, n13, n14, n15, n16, n17, n18, n19, n20, n21, n22, n23, n24, n25, n26, n27, n28⟩ := hn
  refine after_of_forall_not_mem (featOps a) V fun op hop => ?_
  simp only [featOps, takeOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals exact not_mem_writes rfl (by
    simp only [n0, n1, n2, n3, n4, n5, n6, n7, n8, n9, n10, n11, n12, n13, n14, n15, n16, n17, n18, n19, n20, n21, n22, n23, n24, n25, n26, n27, n28]
    exact out_ne _ _ _ (by decide) hr)

set_option maxHeartbeats 4000000 in
/-- Every operation of a feature touches TensorCore references only. -/
theorem featOps_sub (a : FeatArgs) : (featOps (F := F) a).Forall fun op => op.bufs ⊆ tcRefs τ sig := by
  unfold featOps takeOps
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxHeartbeats 4000000 in
/-- Every operation of a feature determines its result. -/
theorem featOps_fresh (a : FeatArgs) : (featOps (F := F) a).Forall fun op => op.fresh = ∅ := by
  unfold featOps takeOps
  exact ⟨rfl, rfl, rfl, rfl, rfl, rfl, rfl, rfl, rfl, rfl, rfl, rfl, rfl, rfl, rfl, rfl, rfl, rfl, rfl, rfl, rfl, rfl, rfl, rfl, rfl, rfl, rfl⟩

/-! ## A list of features run in order -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Numbered features leave a buffer numbered outside all their ranges as it was. -/
theorem feats_frame (L : List FeatArgs) (hL : ∀ a ∈ L, Numbered a) (r : Ref sig .tc)
    (hr : ∀ a ∈ L, num r < a.base ∨ a.base + 27 ≤ num r) (V : Valuation τ sig (Elt F)) :
    after (L.flatMap featOps) V (r : DevRef τ sig) = V (r : DevRef τ sig) := by
  induction L generalizing V with
  | nil => rfl
  | cons a L ih =>
    rw [List.flatMap_cons, after_append,
      ih (fun b hb => hL b (List.mem_cons_of_mem _ hb)) (fun b hb => hr b (List.mem_cons_of_mem _ hb)),
      feat_frame a (hL a List.mem_cons_self) V r (hr a List.mem_cons_self)]

set_option maxHeartbeats 4000000 in
/-- Numbered features with increasing, disjoint ranges, run in order: each one's result buffer ends at its value
    of the two arguments' initial contents (no feature writes an argument, or an earlier feature's result). -/
theorem feats_val (L : List FeatArgs) (hL : ∀ a ∈ L, Numbered a) (hP : L.Pairwise fun a b => a.base + 27 ≤ b.base)
    (a : FeatArgs) (ha : a ∈ L) (V : Valuation τ sig (Elt F)) :
    get a.call.v16 (after (L.flatMap featOps) V) = featVal a (get a.x0 V) (get a.t0 V) := by
  have hN := hL a ha
  obtain ⟨L1, L2, rfl⟩ := List.append_of_mem ha
  have h1 : ∀ b ∈ L1, Numbered b := fun b hb => hL b (List.mem_append_left _ hb)
  have h2 : ∀ b ∈ L2, Numbered b := fun b hb => hL b (List.mem_append_right _ (List.mem_cons_of_mem _ hb))
  have hp2 : ∀ b ∈ L2, a.base + 27 ≤ b.base := (List.pairwise_cons.mp (List.pairwise_append.mp hP).2.1).1
  have hn' := hN.1
  simp only [featRefs, List.map_cons, List.map_nil, List.cons.injEq, and_true] at hn'
  have n0 : num a.x0.ref = 0 := hn'.1
  have n1 : num a.t0.ref = 1 := hn'.2.1
  have n28 : num a.call.v16.ref = a.base + 26 := hn'.2.2.2.2.2.2.2.2.2.2.2.2.2.2.2.2.2.2.2.2.2.2.2.2.2.2.2.2
  clear hn'
  rw [List.flatMap_append, List.flatMap_cons, after_append, after_append]
  have eX : get a.x0 (after (L1.flatMap featOps) V) = get a.x0 V :=
    congrArg a.x0.ofBuf (feats_frame L1 h1 a.x0.ref
      (fun b hb => Or.inl (by rw [n0]; exact Nat.lt_of_lt_of_le (by decide) (h1 b hb).2)) V)
  have eT : get a.t0 (after (L1.flatMap featOps) V) = get a.t0 V :=
    congrArg a.t0.ofBuf (feats_frame L1 h1 a.t0.ref
      (fun b hb => Or.inl (by rw [n1]; exact Nat.lt_of_lt_of_le (by decide) (h1 b hb).2)) V)
  have eO : get a.call.v16 (after (L2.flatMap featOps) (after (featOps a) (after (L1.flatMap featOps) V)))
      = get a.call.v16 (after (featOps a) (after (L1.flatMap featOps) V)) :=
    congrArg a.call.v16.ofBuf (feats_frame L2 h2 a.call.v16.ref
      (fun b hb => Or.inl (by rw [n28]; exact Nat.lt_of_lt_of_le (Nat.add_lt_add_left (by decide) _) (hp2 b hb))) _)
  rw [eO, feat_stmt a hN, eX, eT]

end Cert.ReferenceIdeal.RefValue

end
-- ==== Proof.RefTail.lean ====
/-
  The stacking of the 26 features' results, read back.

  After the features, each result `[16384, 32]` is given a unit middle axis, the first 16 and the last 10 are
  concatenated along it, and the two halves are concatenated: `tailVal r` is that stacking of a family `r` of 26
  arrays.  The 29 operations leave the result buffer at `tailVal` of the 26 result buffers' contents (by computation:
  which buffer each operation writes is decided on the literal references), and leave every buffer numbered
  below their first one as it was.
-/
import proofs.«204046_g18683107737843_cont_8to1_103_43_alg».proof.Proof.RefFeat

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Feature `k`'s buffers. -/
def feat (k : Fin 26) : FeatArgs := feats[k.val]'(k.isLt)

theorem feat_mem (k : Fin 26) : feat k ∈ feats := List.getElem_mem _

/-- The 26 arrays `[16384, 32]` stacked along a new middle axis. -/
def tailVal (r : Fin 26 → (⟨S16384x32, .f32⟩ : BufTy).Contents (Elt F)) : (⟨S16384x26x32, .f32⟩ : BufTy).Contents (Elt F) :=
  concatenate S16384x26x32 1
    [⟨S16384x16x32, concatenate S16384x16x32 1
        [⟨S16384x1x32, broadcastInDim S16384x1x32 ![0, 2] bcast_S16384x32_S16384x1x32_0_2 (r 0)⟩,
         ⟨S16384x1x32, broadcastInDim S16384x1x32 ![0, 2] bcast_S16384x32_S16384x1x32_0_2 (r 1)⟩,
         ⟨S16384x1x32, broadcastInDim S16384x1x32 ![0, 2] bcast_S16384x32_S16384x1x32_0_2 (r 2)⟩,
         ⟨S16384x1x32, broadcastInDim S16384x1x32 ![0, 2] bcast_S16384x32_S16384x1x32_0_2 (r 3)⟩,
         ⟨S16384x1x32, broadcastInDim S16384x1x32 ![0, 2] bcast_S16384x32_S16384x1x32_0_2 (r 4)⟩,
         ⟨S16384x1x32, broadcastInDim S16384x1x32 ![0, 2] bcast_S16384x32_S16384x1x32_0_2 (r 5)⟩,
         ⟨S16384x1x32, broadcastInDim S16384x1x32 ![0, 2] bcast_S16384x32_S16384x1x32_0_2 (r 6)⟩,
         ⟨S16384x1x32, broadcastInDim S16384x1x32 ![0, 2] bcast_S16384x32_S16384x1x32_0_2 (r 7)⟩,
         ⟨S16384x1x32, broadcastInDim S16384x1x32 ![0, 2] bcast_S16384x32_S16384x1x32_0_2 (r 8)⟩,
         ⟨S16384x1x32, broadcastInDim S16384x1x32 ![0, 2] bcast_S16384x32_S16384x1x32_0_2 (r 9)⟩,
         ⟨S16384x1x32, broadcastInDim S16384x1x32 ![0, 2] bcast_S16384x32_S16384x1x32_0_2 (r 10)⟩,
         ⟨S16384x1x32, broadcastInDim S16384x1x32 ![0, 2] bcast_S16384x32_S16384x1x32_0_2 (r 11)⟩,
         ⟨S16384x1x32, broadcastInDim S16384x1x32 ![0, 2] bcast_S16384x32_S16384x1x32_0_2 (r 12)⟩,
         ⟨S16384x1x32, broadcastInDim S16384x1x32 ![0, 2] bcast_S16384x32_S16384x1x32_0_2 (r 13)⟩,
         ⟨S16384x1x32, broadcastInDim S16384x1x32 ![0, 2] bcast_S16384x32_S16384x1x32_0_2 (r 14)⟩,
         ⟨S16384x1x32, broadcastInDim S16384x1x32 ![0, 2] bcast_S16384x32_S16384x1x32_0_2 (r 15)⟩]
        concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1⟩,
     ⟨S16384x10x32, concatenate S16384x10x32 1
        [⟨S16384x1x32, broadcastInDim S16384x1x32 ![0, 2] bcast_S16384x32_S16384x1x32_0_2 (r 16)⟩,
         ⟨S16384x1x32, broadcastInDim S16384x1x32 ![0, 2] bcast_S16384x32_S16384x1x32_0_2 (r 17)⟩,
         ⟨S16384x1x32, broadcastInDim S16384x1x32 ![0, 2] bcast_S16384x32_S16384x1x32_0_2 (r 18)⟩,
         ⟨S16384x1x32, broadcastInDim S16384x1x32 ![0, 2] bcast_S16384x32_S16384x1x32_0_2 (r 19)⟩,
         ⟨S16384x1x32, broadcastInDim S16384x1x32 ![0, 2] bcast_S16384x32_S16384x1x32_0_2 (r 20)⟩,
         ⟨S16384x1x32, broadcastInDim S16384x1x32 ![0, 2] bcast_S16384x32_S16384x1x32_0_2 (r 21)⟩,
         ⟨S16384x1x32, broadcastInDim S16384x1x32 ![0, 2] bcast_S16384x32_S16384x1x32_0_2 (r 22)⟩,
         ⟨S16384x1x32, broadcastInDim S16384x1x32 ![0, 2] bcast_S16384x32_S16384x1x32_0_2 (r 23)⟩,
         ⟨S16384x1x32, broadcastInDim S16384x1x32 ![0, 2] bcast_S16384x32_S16384x1x32_0_2 (r 24)⟩,
         ⟨S16384x1x32, broadcastInDim S16384x1x32 ![0, 2] bcast_S16384x32_S16384x1x32_0_2 (r 25)⟩]
        concatenates_S16384x1x32_S16384x1x32_S16384x1x32_S16384x1x32_S16384x1x32_S16384x1x32_S16384x1x32_S16384x1x32_S16384x1x32_S16384x1x32_S16384x10x32_d1⟩]
    concatenates_S16384x16x32_S16384x10x32_S16384x26x32_d1

set_option maxRecDepth 8192 in
set_option maxHeartbeats 8000000 in
/-- After the stacking operations the result buffer holds the stacking of the 26 features' result buffers. -/
theorem tail_val (V : Valuation τ sig (Elt F)) :
    after tailOps V (main_v158 : DevRef τ sig) = tailVal (fun k => get (feat k).call.v16 V) := by
  simp only [tailOps, after_cons, after_nil]
  rfl

/-- The stacking operations leave every buffer numbered below their first one as it was. -/
theorem tail_frame (V : Valuation τ sig (Elt F)) (r : Ref sig .tc) (hr : num r < 704) :
    after tailOps V (r : DevRef τ sig) = V (r : DevRef τ sig) := by
  refine after_of_forall_not_mem tailOps V fun op hop => ?_
  simp only [tailOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals exact not_mem_writes rfl (fun e => by rw [e] at hr; revert hr; decide)

theorem tailOps_sub : ∀ op ∈ tailOps (F := F), op.bufs ⊆ tcRefs τ sig := by
  intro op hop
  simp only [tailOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals first
    | exact unary_bufs_sub ..
    | exact nary_bufs_sub ..
    | exact binary_bufs_sub ..

theorem tailOps_fresh : ∀ op ∈ tailOps (F := F), op.fresh = ∅ := by
  intro op hop
  simp only [tailOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals rfl

end Cert.ReferenceIdeal.RefValue

end
-- ==== Proof.RefValue.lean ====
/-
  The reference's value, read at an index.

  Under the precondition every row number `w` is below 100000, so read signed it is the natural number itself:
  `take`'s wrap (`w < 0 ? w + 100000 : w`) is `w`, the in-range mask (`0 ≤ w ≤ 99999`, and-reduced over its one
  entry) is true, the gather's clamp is the identity, and the select takes the gathered row and never the NaN.
  So feature `i`'s value at `(b, d)` is entry `d` of row `x[b, i]` of table `i`, and the stacked value at
  `(b, i, d)` is the lookup `Cert.Lookup.G`.
-/
import proofs.«204046_g18683107737843_cont_8to1_103_43_alg».proof.Proof.RefFeat
import proofs.«204046_g18683107737843_cont_8to1_103_43_alg».proof.Proof.Spec
import Idealize.ShloMosaic.Lib.Pipeline.Value
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Gen Idealize.ShloMosaic.ValueIdx Cert.Lookup Idealize.ShloMosaic Idealize.ShloMosaic.TcCoe Idealize.SL.Sem Idealize.ShloMosaic.StableHlo

variable {F : FTy → Type} [FloatOps F]

/-! ## Words below 100000 -/

/-- A word below 100000 read signed is the natural number it is read unsigned. -/
theorem toInt_of_lt {w : BitVec 32} (h : w.toNat < 100000) : w.toInt = (w.toNat : ℤ) := by
  rw [BitVec.toInt_eq_toNat_cond, if_pos (by omega)]

/-- `take`'s wrap of a negative row number leaves a word below 100000 alone. -/
theorem wrap_in_range {w : BitVec 32} (h : w.toNat < 100000) :
    Scalar.select (IntOp.cmpi .slt w 0#32) (IntOp.addi w 100000#32) w = w := by
  have hc : ¬ IntOp.cmpi .slt w 0#32 = 1#1 := by
    rw [IntOp.cmpi_slt, toInt_of_lt h]
    have : (0#32 : BitVec 32).toInt = 0 := by decide
    omega
  rw [eq_zero_of_ne_one hc, select_zero]

/-- A left fold by `and` from true over words that are all true is true. -/
theorem foldl_andi_ones {ι : Type} (p : ι → BitVec 1) (l : List ι) (hl : ∀ i ∈ l, p i = 1#1) :
    l.foldl (fun r i => IntOp.andi r (p i)) 1#1 = 1#1 := by
  induction l with
  | nil => rfl
  | cons i l ih =>
    have e : IntOp.andi 1#1 1#1 = 1#1 := by decide
    rw [List.foldl_cons, hl i List.mem_cons_self, e]
    exact ih fun k hk => hl k (List.mem_cons_of_mem _ hk)

/-! ## `take` at an index -/

/-- The wrapped row number of example `b`. -/
theorem takeIdx_apply (x : (⟨S16384, .i32⟩ : BufTy).Contents (Elt F)) (b : Fin 16384) (z : Fin 1) :
    takeIdx (F := F) x (ix2 b z)
      = Scalar.select (IntOp.cmpi .slt (x (ix1 b)) 0#32) (IntOp.addi (x (ix1 b)) 100000#32) (x (ix1 b)) := by
  unfold takeIdx
  rw [broadcastInDim_apply ![0] bcast_S16384_S16384x1_0 _ (ix2 b z) (ix1 b) (fun a => match a with | ⟨0, _⟩ => rfl)]
  rfl

/-- The in-range mask of an example whose row number is below 100000 is true. -/
theorem takeMask_apply (x : (⟨S16384, .i32⟩ : BufTy).Contents (Elt F)) (b : Fin 16384) (h : (x (ix1 b)).toNat < 100000) :
    takeMask (F := F) x (ix1 b) = 1#1 := by
  unfold takeMask
  rw [Host.reduce_eq_foldl]
  refine foldl_andi_ones _ _ fun i hi => ?_
  have hd : reducesTo_S16384x1_S16384_d1.drop i = ix1 b := of_decide_eq_true (List.mem_filter.mp hi).2
  have h0 : (i 0).val = b.val := by
    have e := Shape.ReducesTo.drop_apply_val_of_eq reducesTo_S16384x1_S16384_d1 i 0 0
    rw [hd] at e
    exact e.symm
  have hi' : ∃ z : Fin 1, i = ix2 b z := ⟨(i 1 : Fin 1), by
    rw [eq_ix2 i]
    exact congrArg (fun t => ix2 t (i 1)) (Fin.ext h0)⟩
  obtain ⟨z, hz⟩ := hi'
  rw [hz]
  show IntOp.andi (IntOp.cmpi .sge (takeIdx (F := F) x (ix2 b z)) 0#32)
      (IntOp.cmpi .sle (takeIdx (F := F) x (ix2 b z)) 99999#32) = 1#1
  rw [takeIdx_apply, wrap_in_range h, IntOp.andi_eq_one, IntOp.cmpi_sge, IntOp.cmpi_sle, toInt_of_lt h]
  have e0 : (0#32 : BitVec 32).toInt = 0 := by decide
  have e1 : (99999#32 : BitVec 32).toInt = 99999 := by decide
  omega

/-- THE GATHER READ AT `(b, d)`: entry `d` of the table's row at the start index of example `b`, read signed
    and clamped into `[0, 99999]`. -/
theorem gather_apply {α : Type} (tab : S100000x32.Idx → α) (idx : IVec S16384x1 32) (b : Fin 16384) (d : Fin 32) :
    Host.gather gather_S100000x32_S16384x1_S16384x32_1_0_n_n_0_1_132 tab idx (ix2 b d)
      = tab (ix2 ⟨min (idx (ix2 b 0)).toInt.toNat 99999, by omega⟩ d) := by
  unfold Host.gather
  congr 1
  funext a
  refine Fin.ext ?_
  show gather_S100000x32_S16384x1_S16384x32_1_0_n_n_0_1_132.start (ix2 b d) idx a
      + gather_S100000x32_S16384x1_S16384x32_1_0_n_n_0_1_132.batchCoord (ix2 b d) a
      + gather_S100000x32_S16384x1_S16384x32_1_0_n_n_0_1_132.offCoord (ix2 b d) a = _
  rw [GatherDims.batchCoord_eq_zero _ _ _ List.not_mem_nil]
  rcases (show ∀ a : Fin 2, a = 0 ∨ a = 1 by decide) a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x32_S16384x1_S16384x32_1_0_n_n_0_1_132.startIndexMap from
      List.mem_singleton.mpr rfl)]
    have hsi : gather_S100000x32_S16384x1_S16384x32_1_0_n_n_0_1_132.siIdx (ix2 b d)
        ⟨List.idxOf (0 : Fin 2) gather_S100000x32_S16384x1_S16384x32_1_0_n_n_0_1_132.startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start GatherDims.offCoord
    rw [dif_neg (by decide), dif_pos (by decide)]
    simp only [Nat.zero_add]
    rfl

/-- `take` at `(b, d)` for a row number below 100000: entry `d` of that row of the table. -/
theorem takeVal_apply (tab : (⟨S100000x32, .f32⟩ : BufTy).Contents (Elt F)) (x : (⟨S16384, .i32⟩ : BufTy).Contents (Elt F))
    (b : Fin 16384) (d : Fin 32) (h : (x (ix1 b)).toNat < 100000) :
    takeVal (F := F) tab x (ix2 b d) = tab (ix2 (row (x (ix1 b))) d) := by
  unfold takeVal
  rw [select_apply,
    broadcastInDim_apply ![0] bcast_S16384_S16384x32_0 _ (ix2 b d) (ix1 b) (fun a => match a with | ⟨0, _⟩ => rfl),
    takeMask_apply x b h, select_one, gather_apply]
  have hidx : takeIdx (F := F) x (ix2 b 0) = x (ix1 b) := by rw [takeIdx_apply, wrap_in_range h]
  refine congrArg tab (congrArg (fun t => ix2 t d) (Fin.ext ?_))
  show min (takeIdx (F := F) x (ix2 b 0)).toInt.toNat 99999 = min (x (ix1 b)).toNat 99999
  rw [hidx, toInt_of_lt h, Int.toNat_natCast]

/-- Feature `a.i` at `(b, d)` for a row number below 100000: entry `d` of row `X[b, a.i]` of table `a.i`. -/
theorem featVal_apply (a : FeatArgs) (hi : a.i < 26) (X : (⟨S16384x26, .i32⟩ : BufTy).Contents (Elt F))
    (T : (⟨S26x100000x32, .f32⟩ : BufTy).Contents (Elt F)) (b : Fin 16384) (d : Fin 32)
    (h : (X (ix2 b ⟨a.i, hi⟩)).toNat < 100000) :
    featVal (F := F) a X T (ix2 b d) = T (ix3 ⟨a.i, hi⟩ (row (X (ix2 b ⟨a.i, hi⟩))) d) := by
  have hx : shapeCast S16384 (extractStridedSlice S16384x1 ![0, a.i] X a.hX) shapeCasts_S16384x1_S16384 (ix1 b)
      = X (ix2 b ⟨a.i, hi⟩) := by
    rw [shapeCast_apply _ shapeCasts_S16384x1_S16384 (ix1 b) (ix2 b 0)
        (by rw [Shape.rowMajor_val_two, Shape.rowMajor_val_one]; show b.val * 1 + 0 = b.val; omega),
      extractStridedSlice_apply ![0, a.i] X a.hX (ix2 b 0) (ix2 b ⟨a.i, hi⟩)
        (fun c => match c with
          | ⟨0, _⟩ => by show b.val = 0 + b.val; omega
          | ⟨1, _⟩ => by show a.i = a.i + 0; omega)]
  unfold featVal
  rw [takeVal_apply _ _ b d (by rw [hx]; exact h), hx,
    shapeCast_apply _ shapeCasts_S1x100000x32_S100000x32 (ix2 (row (X (ix2 b ⟨a.i, hi⟩))) d)
      (ix3 (0 : Fin 1) (row (X (ix2 b ⟨a.i, hi⟩))) d)
      (by rw [Shape.rowMajor_val_three, Shape.rowMajor_val_two]
          show ((0 * 100000 + (row (X (ix2 b ⟨a.i, hi⟩))).val) * 32 + d.val) = (row (X (ix2 b ⟨a.i, hi⟩))).val * 32 + d.val
          omega),
    extractStridedSlice_apply ![a.i, 0, 0] T a.hT (ix3 (0 : Fin 1) (row (X (ix2 b ⟨a.i, hi⟩))) d)
      (ix3 ⟨a.i, hi⟩ (row (X (ix2 b ⟨a.i, hi⟩))) d)
      (fun c => match c with
        | ⟨0, _⟩ => by show a.i = a.i + 0; omega
        | ⟨1, _⟩ => by show (row (X (ix2 b ⟨a.i, hi⟩))).val = 0 + (row (X (ix2 b ⟨a.i, hi⟩))).val; omega
        | ⟨2, _⟩ => by show d.val = 0 + d.val; omega)]

end Cert.ReferenceIdeal.RefValue

end
-- ==== Proof.RefRun.lean ====
/-
  The reference's run and value.

  @main is the straight line `ops`: the 26 features' operations in order, then the stacking.  The 26 features are
  numbered (feature `i`'s 27 buffers are buffers `2 + 27 i …` of the signature, after the two arguments), with
  increasing disjoint ranges, so each one's result buffer ends at its value of the arguments (RefFeat), and the
  stacking reads them (RefTail): the result buffer ends at `refVal` of the two arguments, which end unchanged.
  Every weakly fair execution of @main terminates in such a state (`run_seq`): `run_term`, unconditional.
  Read at an index, the stacking picks feature `i`'s value, which for row numbers below 100000 is the looked-up
  table entry (RefValue): under that condition the result is the lookup `Cert.Lookup.G` of the arguments (`run`).
-/
import proofs.«204046_g18683107737843_cont_8to1_103_43_alg».proof.Proof.RefMain
import proofs.«204046_g18683107737843_cont_8to1_103_43_alg».proof.Proof.RefTail
import proofs.«204046_g18683107737843_cont_8to1_103_43_alg».proof.Proof.RefValue

noncomputable section

namespace Cert.ReferenceIdeal.RefValue

open Cert.ReferenceIdeal Cert.ReferenceIdeal.Gen Idealize.ShloMosaic.ValueIdx Cert.Lookup Idealize.ShloMosaic Idealize.ShloMosaic.TcCoe Idealize.SL.Sem Idealize.ShloMosaic.StableHlo

variable {F : FTy → Type} [FloatOps F]
instance (a : FeatArgs) : Decidable (Numbered a) := by unfold Numbered; infer_instance

/-- Each of the 26 features is numbered: a table of 26 computations. -/
theorem numbered_all : ∀ a ∈ feats, Numbered a :=
  List.forall_iff_forall_mem.mp (show List.Forall Numbered [a0, a1, a2, a3, a4, a5, a6, a7, a8, a9, a10, a11, a12, a13, a14, a15, a16, a17, a18, a19, a20, a21, a22, a23, a24, a25] from
    ⟨by decide, by decide, by decide, by decide, by decide, by decide, by decide, by decide, by decide, by decide, by decide, by decide, by decide, by decide, by decide, by decide, by decide, by decide, by decide, by decide, by decide, by decide, by decide, by decide, by decide, by decide⟩)

/-- The features' ranges of buffer numbers increase and are disjoint. -/
theorem pairwise_all : feats.Pairwise fun a b => a.base + 27 ≤ b.base := by
  unfold feats; decide

theorem feat_x0 (k : Fin 26) (V : Valuation τ sig (Elt F)) : get (feat k).x0 V = V (main_arg0 : DevRef τ sig) := by
  fin_cases k <;> rfl

theorem feat_t0 (k : Fin 26) (V : Valuation τ sig (Elt F)) : get (feat k).t0 V = V (main_arg1 : DevRef τ sig) := by
  fin_cases k <;> rfl

/-- The reference's value: the 26 features' values of the row numbers `X` and the stacked tables `T`, stacked. -/
def refVal (X : (⟨S16384x26, .i32⟩ : BufTy).Contents (Elt F)) (T : (⟨S26x100000x32, .f32⟩ : BufTy).Contents (Elt F)) :
    (⟨S16384x26x32, .f32⟩ : BufTy).Contents (Elt F) :=
  tailVal fun k => featVal (feat k) X T

/-- After @main's operations the result buffer holds the reference's value of the arguments. -/
theorem after_out (V : Valuation τ sig (Elt F)) :
    after ops V (main_v158 : DevRef τ sig) = refVal (V (main_arg0 : DevRef τ sig)) (V (main_arg1 : DevRef τ sig)) := by
  unfold ops
  rw [after_append, tail_val]
  refine congrArg tailVal (funext fun k => ?_)
  rw [feats_val feats numbered_all pairwise_all (feat k) (feat_mem k) V, feat_x0, feat_t0]

theorem after_arg0 (V : Valuation τ sig (Elt F)) : after ops V (main_arg0 : DevRef τ sig) = V (main_arg0 : DevRef τ sig) := by
  unfold ops
  rw [after_append, tail_frame _ main_arg0 (by decide),
    feats_frame feats numbered_all main_arg0 (fun a ha => Or.inl (Nat.lt_of_lt_of_le (by decide) (numbered_all a ha).2)) V]

theorem after_arg1 (V : Valuation τ sig (Elt F)) : after ops V (main_arg1 : DevRef τ sig) = V (main_arg1 : DevRef τ sig) := by
  unfold ops
  rw [after_append, tail_frame _ main_arg1 (by decide),
    feats_frame feats numbered_all main_arg1 (fun a ha => Or.inl (Nat.lt_of_lt_of_le (by decide) (numbered_all a ha).2)) V]

theorem ops_sub : (ops (F := F)).Forall fun op => op.bufs ⊆ tcRefs τ sig :=
  List.forall_iff_forall_mem.mpr fun op hop => by
    unfold ops at hop
    rcases List.mem_append.mp hop with h | h
    · obtain ⟨a, _, ha⟩ := List.mem_flatMap.mp h
      exact List.forall_iff_forall_mem.mp (featOps_sub a) op ha
    · exact tailOps_sub op h

theorem ops_fresh : ∀ op ∈ ops (F := F), op.fresh = ∅ := fun op hop => by
  unfold ops at hop
  rcases List.mem_append.mp hop with h | h
  · obtain ⟨a, _, ha⟩ := List.mem_flatMap.mp h
    exact List.forall_iff_forall_mem.mp (featOps_fresh a) op ha
  · exact tailOps_fresh op h

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result at the reference's value of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v158)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v158).trans (after_out _),
      (h c main_arg0).trans (after_arg0 _),
      (h c main_arg1).trans (after_arg1 _)⟩)
    (run_seq scopedRefs_eq scopedSems_eq defs main (fun _ => ops) main_eq (fun _ => ops_sub) m ρ (fun _ => ops_fresh))

/-! ## The stacking at an index -/

/-- A result given a unit middle axis, read at `(b, 0, d)`. -/
theorem bcast_mid_apply (v : (⟨S16384x32, .f32⟩ : BufTy).Contents (Elt F)) (b : Fin 16384) (z : Fin 1) (d : Fin 32) :
    broadcastInDim S16384x1x32 ![0, 2] bcast_S16384x32_S16384x1x32_0_2 v (ix3 b z d) = v (ix2 b d) :=
  broadcastInDim_apply ![0, 2] bcast_S16384x32_S16384x1x32_0_2 v (ix3 b z d) (ix2 b d)
    (fun a => match a with | ⟨0, _⟩ => rfl | ⟨1, _⟩ => rfl)

/-- The stacking at `(b, i, d)` is array `i` at `(b, d)`. -/
theorem tailVal_apply (r : Fin 26 → (⟨S16384x32, .f32⟩ : BufTy).Contents (Elt F)) (b : Fin 16384) (i : Fin 26) (d : Fin 32) :
    tailVal (F := F) r (ix3 b i d) = r i (ix2 b d) := by
  unfold tailVal
  by_cases hlt : i.val < 16
  · rw [concatenate_pair_apply_left (t := S16384x26x32) (s₁ := S16384x16x32) (s₂ := S16384x10x32) (1 : Fin 3) _ _ concatenates_S16384x16x32_S16384x10x32_S16384x26x32_d1 (ix3 b i d) rfl
      (ix3 b (⟨i.val, hlt⟩ : Fin 16) d) (fun c => match c with | ⟨0, _⟩ => rfl | ⟨1, _⟩ => rfl | ⟨2, _⟩ => rfl)]
    refine (concatenate_ofFn_unit_apply (t := S16384x16x32) (s₁ := S16384x1x32) (1 : Fin 3)
      (fun n : Fin 16 => broadcastInDim S16384x1x32 ![0, 2] bcast_S16384x32_S16384x1x32_0_2 (r (Fin.castLE (by decide) n)))
      concatenates_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x1x32_S16384x16x32_d1 rfl rfl (ix3 b (⟨i.val, hlt⟩ : Fin 16) d) ⟨i.val, hlt⟩ rfl (ix3 b (0 : Fin 1) d)
      (fun c hc => match c, hc with
        | ⟨0, _⟩, _ => rfl
        | ⟨1, _⟩, hc => absurd rfl hc
        | ⟨2, _⟩, _ => rfl)).trans ?_
    exact bcast_mid_apply _ b 0 d
  · have hge : 16 ≤ i.val := Nat.le_of_not_lt hlt
    have hi10 : i.val - 16 < 10 := by have := i.isLt; omega
    rw [concatenate_pair_apply_right (t := S16384x26x32) (s₁ := S16384x16x32) (s₂ := S16384x10x32) (1 : Fin 3) _ _ concatenates_S16384x16x32_S16384x10x32_S16384x26x32_d1 (ix3 b i d) rfl rfl
      (ix3 b (⟨i.val - 16, hi10⟩ : Fin 10) d)
      (fun c hc => match c, hc with
        | ⟨0, _⟩, _ => rfl
        | ⟨1, _⟩, hc => absurd rfl hc
        | ⟨2, _⟩, _ => rfl)
      (by show i.val - 16 + 16 = i.val; omega)]
    refine (concatenate_ofFn_unit_apply (t := S16384x10x32) (s₁ := S16384x1x32) (1 : Fin 3)
      (fun n : Fin 10 => broadcastInDim S16384x1x32 ![0, 2] bcast_S16384x32_S16384x1x32_0_2 (r ⟨16 + n.val, by have := n.isLt; omega⟩))
      concatenates_S16384x1x32_S16384x1x32_S16384x1x32_S16384x1x32_S16384x1x32_S16384x1x32_S16384x1x32_S16384x1x32_S16384x1x32_S16384x1x32_S16384x10x32_d1 rfl rfl (ix3 b (⟨i.val - 16, hi10⟩ : Fin 10) d) ⟨i.val - 16, hi10⟩ rfl (ix3 b (0 : Fin 1) d)
      (fun c hc => match c, hc with
        | ⟨0, _⟩, _ => rfl
        | ⟨1, _⟩, hc => absurd rfl hc
        | ⟨2, _⟩, _ => rfl)).trans ?_
    rw [bcast_mid_apply _ b 0 d]
    exact congrArg (fun t => r t (ix2 b d)) (Fin.ext (by show 16 + (i.val - 16) = i.val; omega))

/-! ## The reference's value is the lookup -/

theorem feat_i (k : Fin 26) : (feat k).i = k.val := by fin_cases k <;> rfl

/-- With every row number below 100000 the reference's value is the lookup. -/
theorem refVal_eq (X : IVec SX 32) (T : ST.Idx → Elt F .f32) (hX : InRange X) : refVal (F := F) X T = G X T := by
  funext j
  obtain ⟨b, i, d, rfl⟩ : ∃ (b : Fin 16384) (i : Fin 26) (d : Fin 32), j = ix3 b i d := ⟨j 0, j 1, j 2, eq_ix3 j⟩
  rw [G_apply]
  unfold refVal
  rw [tailVal_apply]
  have hi : (feat i).i < 26 := by rw [feat_i]; exact i.isLt
  have e : (⟨(feat i).i, hi⟩ : Fin 26) = i := Fin.ext (feat_i i)
  rw [featVal_apply (feat i) hi X T b d (hX _), e]

end Cert.ReferenceIdeal.RefValue

open Idealize.ShloMosaic Idealize.SL.Sem Cert.ReferenceIdeal in
/-- From any memory whose row numbers are all below 100000: every weakly fair execution of the reference's @main
    terminates with the result at the lookup of the two arguments, and the arguments unchanged. -/
theorem Cert.ReferenceIdeal.RefValue.run
    (m : (ℓ : Loc Cert.ReferenceIdeal.nD Cert.ReferenceIdeal.τ Cert.ReferenceIdeal.sig) → Buf (Elt Ideal) ℓ) (g : Dev Cert.ReferenceIdeal.nD → PrngReg)
    (hx : ∀ c : Dev Cert.ReferenceIdeal.nD, Cert.Lookup.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v158)
          = Cert.Lookup.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (Cert.ReferenceIdeal.RefValue.refVal_eq _ _ (hx c)), (h c).2.1, (h c).2.2⟩)
    (Cert.ReferenceIdeal.RefValue.run_term m g)

end
-- ==== Proof.KFrames.lean ====
/-
  The certificate's five claims from three facts: the tile's run in the word-level program, the tile's run in the
  program read over extended reals, and the reference's run.

  The kernel program, at either reading, runs given its tile's run: it ends with its two operands unchanged and its result
  the lookup `G` of the operands (entry `(b, i, e)` is entry `e` of row `x[b, i]` of table `i`).  The tile's run asks
  that every row number name a row of its table, which the precondition says.  The reference's run ends with the same
  lookup of ITS operands.  So each program runs and leaves its operands unchanged (the three frame claims); the program
  read over extended reals is the word-level program's own text, nothing rewritten (the preservation claim is trivial);
  and from memories that agree on the operands the two results are the same function `G` of the same operands
  (the value claim).
-/
import proofs.«204046_g18683107737843_cont_8to1_103_43_alg».proof.Defs
import proofs.«204046_g18683107737843_cont_8to1_103_43_alg».proof.Proof.Gen.Kernel
import proofs.«204046_g18683107737843_cont_8to1_103_43_alg».proof.Proof.Gen.KernelIdeal
import proofs.«204046_g18683107737843_cont_8to1_103_43_alg».proof.Proof.Gen.ReferenceIdeal
import proofs.«204046_g18683107737843_cont_8to1_103_43_alg».proof.Proof.Gen.Pre_input_domain
import proofs.«204046_g18683107737843_cont_8to1_103_43_alg».proof.Proof.KILaunch
import proofs.«204046_g18683107737843_cont_8to1_103_43_alg».proof.Proof.KITileObl
import proofs.«204046_g18683107737843_cont_8to1_103_43_alg».proof.Proof.KBLaunch
import proofs.«204046_g18683107737843_cont_8to1_103_43_alg».proof.Proof.KBTileObl
import proofs.«204046_g18683107737843_cont_8to1_103_43_alg».proof.Proof.PreRange
import proofs.«204046_g18683107737843_cont_8to1_103_43_alg».proof.Proof.Spec

noncomputable section

namespace Cert.Proof

open Idealize.ShloMosaic Idealize.SL.Sem

/-- The tile's run in the word-level program, for any launch memory whose row numbers are in range. -/
abbrev TileKB : Prop :=
  ∀ (m : (ℓ : Loc Cert.Kernel.nD Cert.Kernel.τ Cert.Kernel.sig) → Buf (Elt Bits) ℓ),
    (∀ d, Cert.Lookup.InRange (m (Cert.Proof.KB.a0Loc d))) → Cert.Proof.KB.TileBody m

/-- The same in the program read over extended reals. -/
abbrev TileKI : Prop :=
  ∀ (m : (ℓ : Loc Cert.KernelIdeal.nD Cert.KernelIdeal.τ Cert.KernelIdeal.sig) → Buf (Elt Ideal) ℓ),
    (∀ d, Cert.Lookup.InRange (m (Cert.Proof.KI.a0Loc d))) → Cert.Proof.KI.TileBody m

/-- The reference's run: its result is the lookup of its operands, which it leaves unchanged. -/
abbrev RefSpec : Prop :=
  ∀ (m : (ℓ : Loc Cert.ReferenceIdeal.nD Cert.ReferenceIdeal.τ Cert.ReferenceIdeal.sig) → Buf (Elt Ideal) ℓ) (g : Dev Cert.ReferenceIdeal.nD → PrngReg),
    (∀ c : Dev Cert.ReferenceIdeal.nD, Cert.Lookup.InRange (m ((c.tc : Thread Cert.ReferenceIdeal.nD Cert.ReferenceIdeal.τ).loc Cert.ReferenceIdeal.main_arg0))) →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v158)
          = Cert.Lookup.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

/-- The word-level program runs and leaves its operands unchanged. -/
theorem kframe_Kernel (hKB : TileKB) : Cert.frame_Kernel := fun m ρ hpre =>
  (θ_run Cert.Kernel.defs _ _).mono (fun _ h c => ⟨(h c).2.1, (h c).2.2⟩)
    (Cert.Proof.KB.run_main (F := Bits) m ρ (Cert.Proof.KB.tileObl m (hKB m fun d => Cert.Lookup.inRange_of_pre (F := Bits) _ _ (hpre d))))

/-- The program read over extended reals runs, its result the lookup of its operands, which it leaves unchanged. -/
theorem krun_Ideal (hKI : TileKI) (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v4)
          = Cert.Lookup.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c => h c)
    (Cert.Proof.KI.run_main (F := Ideal) m ρ (Cert.Proof.KI.tileObl m (hKI m fun d => Cert.Lookup.inRange_of_pre (F := Ideal) _ _ (hpre d))))

/-- So it runs and leaves its operands unchanged. -/
theorem kframe_KernelIdeal (hKI : TileKI) : Cert.frame_KernelIdeal := fun m ρ hpre =>
  (θ_run Cert.KernelIdeal.defs _ _).mono (fun _ h c => ⟨(h c).2.1, (h c).2.2⟩) (krun_Ideal hKI m ρ hpre)

/-- The reference runs and leaves its operands unchanged. -/
theorem rframe (hRef : RefSpec) : Cert.frame_ReferenceIdeal := fun m g hpre =>
  (θ_run Cert.ReferenceIdeal.defs _ _).mono (fun _ h c => ⟨(h c).2.1, (h c).2.2⟩)
    (hRef m g fun c => Cert.Lookup.inRange_of_pre (F := Ideal) _ _ (hpre c))

/-- From memories that agree on the operands, the program read over extended reals and the reference end with the same
    result: the lookup of the operands. -/
theorem algebraic_of (hKI : TileKI) (hRef : RefSpec) : Cert.algebraic_KernelIdeal_ReferenceIdeal := fun m ρ m' ρ' hpre hagree =>
  ⟨fun c => Cert.Lookup.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    krun_Ideal hKI m ρ hpre,
    (θ_run Cert.ReferenceIdeal.defs _ _).mono (fun _ h c => ⟨by rw [(h c).1, (hagree c).1, (hagree c).2], (h c).2.1, (h c).2.2⟩)
      (hRef m' ρ' fun c => (congrArg Cert.Lookup.InRange (hagree c).1).mpr (Cert.Lookup.inRange_of_pre (F := Ideal) _ _ (hpre c)))⟩

/-- The five claims. -/
theorem claim_of (hKB : TileKB) (hKI : TileKI) (hRef : RefSpec) : Cert.Claim :=
  ⟨Cert.Kernel.Gen.facts, Cert.KernelIdeal.Gen.facts, Cert.ReferenceIdeal.Gen.facts, Cert.Pre_input_domain.Gen.facts,
    kframe_Kernel hKB, kframe_KernelIdeal hKI, rframe hRef, trivial, algebraic_of hKI hRef⟩

end Cert.Proof

end
-- ==== Proof.lean ====
/-
  The proof of `Cert.Claim`: an embedding lookup on the SparseCores against `take` and `stack`.

  WHAT IS COMPUTED.  There are 26 categorical features, each with its own table of 100000 rows of 32 numbers; the tables
  are one array `tables : [26, 100000, 32]`, and `x : [16384, 26]` holds, for each of 16384 examples and each feature, a
  row number.  The result `[16384, 26, 32]` at `(b, i, e)` is `tables[i, x[b, i], e]`: the lookup `G x tables` (Proof/Spec.lean).
  The precondition says every float is finite and `0 <= x <= 99999`, so every row number names a row (Proof/PreRange.lean).

  THE REFERENCE takes, for each feature `i`, the rows `x[:, i]` of table `i` (`take` along axis 0) and stacks the 26 results
  along a new axis 1.  On row numbers that are in range a `take` returns the rows they name, and entry `(b, i, e)` of the
  stack is entry `(b, e)` of the `i`-th `take`: `tables[i, x[b, i], e]`.

  THE KERNEL transposes the tables to `T : [26, 32, 100000]` and the row numbers to `X : [26, 16384]`, so that the 832 pairs
  (table `i`, entry `e`) are contiguous PLANES `T[i, e, ·]` of 100000 numbers.  The planes are dealt to the 32 vector subcores
  of the two SparseCores, 26 consecutive planes each.  A subcore copies a plane into its own memory, and the 16384 row
  numbers of the plane's feature when the feature changes, gathers `plane[X[i, b]]` for the 16384 examples `b`, sixteen at a
  time, and writes them to the output array `[26, 4, 128, 8, 128]` at `(i, e / 8, b / 128, e % 8, b % 128)`, in two halves
  of 64 rows of 128.  Every element of the output array is written by exactly one subcore, with
  `T[i, e, X[i, b]] = tables[i, x[b, i], e]`.  @main then transposes the output array by `[2, 4, 0, 1, 3]` and reads it in
  row-major order as `[16384, 26, 32]`; entry `(b, i, e)` of that is the output array at `(i, e / 8, b / 128, e % 8, b % 128)`
  (Proof/HostIdx.lean), which is `tables[i, x[b, i], e]` again.

  WHY THEY AGREE.  Both results are the same function `G` of the same two operands; nothing is rounded and no arithmetic
  is done on the table entries, so the equality holds entry by entry for any element type.  The program read over
  extended reals is the word-level program's own text (the ideal pass rewrote nothing), so the preservation claim is
  trivial.  Each program terminates, faults nowhere and leaves its operands unchanged: for the kernel program this is the
  SparseCore launch (Proof/KILaunch.lean, Proof/KBLaunch.lean: the operands are shared for reading among the subcores, the
  output array is shared out by planes) over the tile's run (Proof/KITile.lean, Proof/KBTile.lean); for the reference it
  is its run (Proof/RefRun.lean).  Proof/KFrames.lean derives the five claims from those three facts.
-/
import proofs.«204046_g18683107737843_cont_8to1_103_43_alg».proof.Defs
import proofs.«204046_g18683107737843_cont_8to1_103_43_alg».proof.Proof.Gen.Kernel
import proofs.«204046_g18683107737843_cont_8to1_103_43_alg».proof.Proof.Gen.Kernel.Skeleton
import proofs.«204046_g18683107737843_cont_8to1_103_43_alg».proof.Proof.Gen.KernelIdeal
import proofs.«204046_g18683107737843_cont_8to1_103_43_alg».proof.Proof.Gen.KernelIdeal.Skeleton
import proofs.«204046_g18683107737843_cont_8to1_103_43_alg».proof.Proof.Gen.ReferenceIdeal
import proofs.«204046_g18683107737843_cont_8to1_103_43_alg».proof.Proof.Gen.Pre_input_domain
import proofs.«204046_g18683107737843_cont_8to1_103_43_alg».proof.Proof.Spec
import proofs.«204046_g18683107737843_cont_8to1_103_43_alg».proof.Proof.PreRange
import proofs.«204046_g18683107737843_cont_8to1_103_43_alg».proof.Proof.KILaunch
import proofs.«204046_g18683107737843_cont_8to1_103_43_alg».proof.Proof.KITileObl
import proofs.«204046_g18683107737843_cont_8to1_103_43_alg».proof.Proof.KITile
import proofs.«204046_g18683107737843_cont_8to1_103_43_alg».proof.Proof.KBLaunch
import proofs.«204046_g18683107737843_cont_8to1_103_43_alg».proof.Proof.KBTileObl
import proofs.«204046_g18683107737843_cont_8to1_103_43_alg».proof.Proof.KBTile
import proofs.«204046_g18683107737843_cont_8to1_103_43_alg».proof.Proof.RefRun
import proofs.«204046_g18683107737843_cont_8to1_103_43_alg».proof.Proof.KFrames
import Idealize.ShloMosaic.Adequacy
import Idealize.ShloMosaic.Init

noncomputable section

namespace Cert.Proof

open Idealize.ShloMosaic Idealize.SL.Sem Cert.Kernel

/-- The tile's run in the word-level program. -/
theorem tileKB : TileKB := fun m h => Cert.Proof.KB.tile_body m Cert.Proof.KB.facts h

/-- The tile's run in the program read over extended reals. -/
theorem tileKI : TileKI := fun m h => Cert.Proof.KI.tile_body m Cert.Proof.KI.facts h

/-- The reference's run. -/
theorem refSpec : RefSpec := fun m g hx => Cert.ReferenceIdeal.RefValue.run m g hx

theorem claim : Cert.Claim := ⟨Cert.Kernel.Gen.facts, Cert.KernelIdeal.Gen.facts, Cert.ReferenceIdeal.Gen.facts, Cert.Pre_input_domain.Gen.facts,
  kframe_Kernel tileKB, kframe_KernelIdeal tileKI, rframe refSpec, trivial, algebraic_of tileKI refSpec⟩

end Cert.Proof

end
